-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S100000x3 : Shape := ⟨2, ![100000, 3]⟩
abbrev S1200000 : Shape := ⟨1, ![1200000]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S24x3 : Shape := ⟨2, ![24, 3]⟩
abbrev S3 : Shape := ⟨1, ![3]⟩
abbrev S4x64 : Shape := ⟨2, ![4, 64]⟩
abbrev S4x64x32 : Shape := ⟨3, ![4, 64, 32]⟩
abbrev S4x32 : Shape := ⟨2, ![4, 32]⟩
abbrev S4x32x64 : Shape := ⟨3, ![4, 32, 64]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S1200000 : S_.BroadcastsInDim S1200000 (![] : Fin 0 → Fin S1200000.rank)
  reducesTo_S1200000_S_d0 : S1200000.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S24x3 : S_.BroadcastsInDim S24x3 (![] : Fin 0 → Fin S24x3.rank)
  reducesTo_S24x3_S_d0_1 : S24x3.ReducesTo [0, 1] S_
  bcast_S_S3 : S_.BroadcastsInDim S3 (![] : Fin 0 → Fin S3.rank)
  reducesTo_S3_S_d0 : S3.ReducesTo [0] S_
  bcast_S_S4x64 : S_.BroadcastsInDim S4x64 (![] : Fin 0 → Fin S4x64.rank)
  reducesTo_S4x64_S_d0_1 : S4x64.ReducesTo [0, 1] S_
  bcast_S_S4x64x32 : S_.BroadcastsInDim S4x64x32 (![] : Fin 0 → Fin S4x64x32.rank)
  reducesTo_S4x64x32_S_d0_1_2 : S4x64x32.ReducesTo [0, 1, 2] S_
  bcast_S_S4x32 : S_.BroadcastsInDim S4x32 (![] : Fin 0 → Fin S4x32.rank)
  reducesTo_S4x32_S_d0_1 : S4x32.ReducesTo [0, 1] S_
  bcast_S_S4x32x64 : S_.BroadcastsInDim S4x32x64 (![] : Fin 0 → Fin S4x32x64.rank)
  reducesTo_S4x32x64_S_d0_1_2 : S4x32x64.ReducesTo [0, 1, 2] S_

variable [Facts]

def fn_part5 {F : FTy → Type} [FloatOps F] (main_arg20 : FVec F S4x64 .f32) (main_v83 : IVec S_ 1) (main_v84 : FVec F S4x32x64 .f32) (main_cst_32 : FVec F S_ .f32) : IVec S_ 1 :=
  let main_v85 : FVec F S4x32x64 .f32 := broadcastInDim S4x32x64 ![] bcast_S_S4x32x64 main_cst_32
  let main_v86 : IVec S4x32x64 1 := cmpf .olt main_v84 main_v85
  let main_c_33 : IVec S_ 1 := constantI S_ 1 1#1
  let main_v87 : IVec S_ 1 := (fun x v => Host.reduce IntOp.andi x v reducesTo_S4x32x64_S_d0_1_2 h_S_) main_v86 main_c_33
  let main_v88 : IVec S_ 1 := andi main_v83 main_v87
  let main_v89 : FVec F S4x64 .f32 := Host.absf main_arg20
  let main_cst_34 : FVec F S_ .f32 := constant S_ .f32 0x7F800000#32
  let main_v90 : FVec F S4x64 .f32 := broadcastInDim S4x64 ![] bcast_S_S4x64 main_cst_34
  let main_v91 : IVec S4x64 1 := cmpf .olt main_v89 main_v90
  let main_c_35 : IVec S_ 1 := constantI S_ 1 1#1
  let main_v92 : IVec S_ 1 := (fun x v => Host.reduce IntOp.andi x v reducesTo_S4x64_S_d0_1 h_S_) main_v91 main_c_35
  let main_v93 : IVec S_ 1 := andi main_v88 main_v92
  main_v93

def fn_part4 {F : FTy → Type} [FloatOps F] (main_arg16 : FVec F S4x32 .f32) (main_arg17 : FVec F S4x64x32 .f32) (main_arg18 : FVec F S4x32 .f32) (main_arg19 : FVec F S4x32x64 .f32) (main_arg20 : FVec F S4x64 .f32) (main_v63 : IVec S_ 1) (main_v67 : IVec S_ 1) : IVec S_ 1 :=
  let main_v68 : IVec S_ 1 := andi main_v63 main_v67
  let main_v69 : FVec F S4x32 .f32 := Host.absf main_arg16
  let main_cst_26 : FVec F S_ .f32 := constant S_ .f32 0x7F800000#32
  let main_v70 : FVec F S4x32 .f32 := broadcastInDim S4x32 ![] bcast_S_S4x32 main_cst_26
  let main_v71 : IVec S4x32 1 := cmpf .olt main_v69 main_v70
  let main_c_27 : IVec S_ 1 := constantI S_ 1 1#1
  let main_v72 : IVec S_ 1 := (fun x v => Host.reduce IntOp.andi x v reducesTo_S4x32_S_d0_1 h_S_) main_v71 main_c_27
  let main_v73 : IVec S_ 1 := andi main_v68 main_v72
  let main_v74 : FVec F S4x64x32 .f32 := Host.absf main_arg17
  let main_cst_28 : FVec F S_ .f32 := constant S_ .f32 0x7F800000#32
  let main_v75 : FVec F S4x64x32 .f32 := broadcastInDim S4x64x32 ![] bcast_S_S4x64x32 main_cst_28
  let main_v76 : IVec S4x64x32 1 := cmpf .olt main_v74 main_v75
  let main_c_29 : IVec S_ 1 := constantI S_ 1 1#1
  let main_v77 : IVec S_ 1 := (fun x v => Host.reduce IntOp.andi x v reducesTo_S4x64x32_S_d0_1_2 h_S_) main_v76 main_c_29
  let main_v78 : IVec S_ 1 := andi main_v73 main_v77
  let main_v79 : FVec F S4x32 .f32 := Host.absf main_arg18
  let main_cst_30 : FVec F S_ .f32 := constant S_ .f32 0x7F800000#32
  let main_v80 : FVec F S4x32 .f32 := broadcastInDim S4x32 ![] bcast_S_S4x32 main_cst_30
  let main_v81 : IVec S4x32 1 := cmpf .olt main_v79 main_v80
  let main_c_31 : IVec S_ 1 := constantI S_ 1 1#1
  let main_v82 : IVec S_ 1 := (fun x v => Host.reduce IntOp.andi x v reducesTo_S4x32_S_d0_1 h_S_) main_v81 main_c_31
  let main_v83 : IVec S_ 1 := andi main_v78 main_v82
  let main_v84 : FVec F S4x32x64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S4x64 .f32) (main_arg14 : FVec F S4x64 .f32) (main_arg15 : FVec F S4x64x32 .f32) (main_arg16 : FVec F S4x32 .f32) (main_arg17 : FVec F S4x64x32 .f32) (main_arg18 : FVec F S4x32 .f32) (main_arg19 : FVec F S4x32x64 .f32) (main_arg20 : FVec F S4x64 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S4x64 .f32 := Host.absf main_arg13
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64 .f32 := Host.absf main_arg14
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S4x64x32 .f32 := Host.absf main_arg15
  let main_cst_24 : FVec F S_ .f32 := constant S_ .f32 0x7F800000#32
  let main_v65 : FVec F S4x64x32 .f32 := broadcastInDim S4x64x32 ![] bcast_S_S4x64x32 main_cst_24
  let main_v66 : IVec S4x64x32 1 := cmpf .olt main_v64 main_v65
  let main_c_25 : IVec S_ 1 := constantI S_ 1 1#1
  let main_v67 : IVec S_ 1 := (fun x v => Host.reduce IntOp.andi x v reducesTo_S4x64x32_S_d0_1_2 h_S_) main_v66 main_c_25
  fn_part4 (F := F) main_arg16 main_arg17 main_arg18 main_arg19 main_arg20 main_v63 main_v67

def fn_part2 {F : FTy → Type} [FloatOps F] (main_arg9 : FVec F S64x24 .f32) (main_arg10 : FVec F S24 .f32) (main_arg11 : FVec F S24x3 .f32) (main_arg12 : FVec F S3 .f32) (main_arg13 : FVec F S4x64 .f32) (main_arg14 : FVec F S4x64 .f32) (main_arg15 : FVec F S4x64x32 .f32) (main_arg16 : FVec F S4x32 .f32) (main_arg17 : FVec F S4x64x32 .f32) (main_arg18 : FVec F S4x32 .f32) (main_arg19 : FVec F S4x32x64 .f32) (main_arg20 : FVec F S4x64 .f32) (main_v33 : IVec S_ 1) : IVec S_ 1 :=
  let main_v34 : FVec F S64x24 .f32 := Host.absf main_arg9
  let main_cst_12 : FVec F S_ .f32 := constant S_ .f32 0x7F800000#32
  let main_v35 : FVec F S64x24 .f32 := broadcastInDim S64x24 ![] bcast_S_S64x24 main_cst_12
  let main_v36 : IVec S64x24 1 := cmpf .olt main_v34 main_v35
  let main_c_13 : IVec S_ 1 := constantI S_ 1 1#1
  let main_v37 : IVec S_ 1 := (fun x v => Host.reduce IntOp.andi x v reducesTo_S64x24_S_d0_1 h_S_) main_v36 main_c_13
  let main_v38 : IVec S_ 1 := andi main_v33 main_v37
  let main_v39 : FVec F S24 .f32 := Host.absf main_arg10
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S24x3 .f32 := Host.absf main_arg11
  let main_cst_16 : FVec F S_ .f32 := constant S_ .f32 0x7F800000#32
  let main_v45 : FVec F S24x3 .f32 := broadcastInDim S24x3 ![] bcast_S_S24x3 main_cst_16
  let main_v46 : IVec S24x3 1 := cmpf .olt main_v44 main_v45
  let main_c_17 : IVec S_ 1 := constantI S_ 1 1#1
  let main_v47 : IVec S_ 1 := (fun x v => Host.reduce IntOp.andi x v reducesTo_S24x3_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128x64 .f32) (main_arg8 : FVec F S64 .f32) (main_arg9 : FVec F S64x24 .f32) (main_arg10 : FVec F S24 .f32) (main_arg11 : FVec F S24x3 .f32) (main_arg12 : FVec F S3 .f32) (main_arg13 : FVec F S4x64 .f32) (main_arg14 : FVec F S4x64 .f32) (main_arg15 : FVec F S4x64x32 .f32) (main_arg16 : FVec F S4x32 .f32) (main_arg17 : FVec F S4x64x32 .f32) (main_arg18 : FVec F S4x32 .f32) (main_arg19 : FVec F S4x32x64 .f32) (main_arg20 : FVec F S4x64 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x16 .f32) (main_arg1 : FVec F S100000x3 .f32) (main_arg2 : IVec S1200000 32) (main_arg3 : IVec S1200000 32) (main_arg4 : FVec F S1200000 .f32) (main_arg5 : FVec F S16x128 .f32) (main_arg6 : FVec F S128 .f32) (main_arg7 : FVec F S128x64 .f32) (main_arg8 : FVec F S64 .f32) (main_arg9 : FVec F S64x24 .f32) (main_arg10 : FVec F S24 .f32) (main_arg11 : FVec F S24x3 .f32) (main_arg12 : FVec F S3 .f32) (main_arg13 : FVec F S4x64 .f32) (main_arg14 : FVec F S4x64 .f32) (main_arg15 : FVec F S4x64x32 .f32) (main_arg16 : FVec F S4x32 .f32) (main_arg17 : FVec F S4x64x32 .f32) (main_arg18 : FVec F S4x32 .f32) (main_arg19 : FVec F S4x32x64 .f32) (main_arg20 : FVec F S4x64 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  let main_v14 : FVec F S16x128 .f32 := Host.absf main_arg5
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x16 : Shape := ⟨2, ![100000, 16]⟩
abbrev S100000x3 : Shape := ⟨2, ![100000, 3]⟩
abbrev S1200000 : Shape := ⟨1, ![1200000]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S24x3 : Shape := ⟨2, ![24, 3]⟩
abbrev S3 : Shape := ⟨1, ![3]⟩
abbrev S4x64 : Shape := ⟨2, ![4, 64]⟩
abbrev S4x64x32 : Shape := ⟨3, ![4, 64, 32]⟩
abbrev S4x32 : Shape := ⟨2, ![4, 32]⟩
abbrev S4x32x64 : Shape := ⟨3, ![4, 32, 64]⟩
abbrev S100000x64 : Shape := ⟨2, ![100000, 64]⟩
abbrev S5000x16 : Shape := ⟨2, ![5000, 16]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩
abbrev S5000 : Shape := ⟨1, ![5000]⟩
abbrev S5000x1 : Shape := ⟨2, ![5000, 1]⟩
abbrev S_ : Shape := ⟨0, ![]⟩
abbrev S1200000x1 : Shape := ⟨2, ![1200000, 1]⟩
abbrev S1200000x64 : Shape := ⟨2, ![1200000, 64]⟩
abbrev S1x64x32 : Shape := ⟨3, ![1, 64, 32]⟩
abbrev S64x32 : Shape := ⟨2, ![64, 32]⟩
abbrev S1x32 : Shape := ⟨2, ![1, 32]⟩
abbrev S32 : Shape := ⟨1, ![32]⟩
abbrev S1x32x64 : Shape := ⟨3, ![1, 32, 64]⟩
abbrev S32x64 : Shape := ⟨2, ![32, 64]⟩
abbrev S5000x32 : Shape := ⟨2, ![5000, 32]⟩
abbrev S5000x3 : Shape := ⟨2, ![5000, 3]⟩
abbrev S5000x24 : Shape := ⟨2, ![5000, 24]⟩
abbrev S1x24 : Shape := ⟨2, ![1, 24]⟩
abbrev S1x3 : Shape := ⟨2, ![1, 3]⟩

abbrev nBuf : Space → Nat
  | .hbm => 159
  | .vmem => 88
  | .smem => 0
  | _ => 0

abbrev hbmTy0_0 (i : Nat) : BufTy := match i % 128 with
  | 0 => ⟨S100000x16, .f32⟩
  | 1 => ⟨S100000x3, .f32⟩
  | 2 => ⟨S1200000, .i32⟩
  | 3 => ⟨S1200000, .i32⟩
  | 4 => ⟨S1200000, .f32⟩
  | 5 => ⟨S16x128, .f32⟩
  | 6 => ⟨S128, .f32⟩
  | 7 => ⟨S128x64, .f32⟩
  | 8 => ⟨S64, .f32⟩
  | 9 => ⟨S64x24, .f32⟩
  | 10 => ⟨S24, .f32⟩
  | 11 => ⟨S24x3, .f32⟩
  | 12 => ⟨S3, .f32⟩
  | 13 => ⟨S4x64, .f32⟩
  | 14 => ⟨S4x64, .f32⟩
  | 15 => ⟨S4x64x32, .f32⟩
  | 16 => ⟨S4x32, .f32⟩
  | 17 => ⟨S4x64x32, .f32⟩
  | 18 => ⟨S4x32, .f32⟩
  | 19 => ⟨S4x32x64, .f32⟩
  | 20 => ⟨S4x64, .f32⟩
  | 21 => ⟨S100000x64, .f32⟩
  | 22 => ⟨S1x64, .f32⟩
  | 23 => ⟨S64, .f32⟩
  | 24 => ⟨S1x64, .f32⟩
  | 25 => ⟨S64, .f32⟩
  | 26 => ⟨S100000x64, .f32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x64, .f32⟩
  | 36 => ⟨S1200000x1, .f32⟩
  | 37 => ⟨S1200000x64, .f32⟩
  | 38 => ⟨S1200000x64, .f32⟩
  | 39 => ⟨S_, .f32⟩
  | 40 => ⟨S100000x64, .f32⟩
  | 41 => ⟨S1200000x1, .i32⟩
  | 42 => ⟨S100000x64, .f32⟩
  | 43 => ⟨S1x64x32, .f32⟩
  | 44 => ⟨S64x32, .f32⟩
  | 45 => ⟨S1x32, .f32⟩
  | 46 => ⟨S32, .f32⟩
  | 47 => ⟨S1x64x32, .f32⟩
  | 48 => ⟨S64x32, .f32⟩
  | 49 => ⟨S1x32, .f32⟩
  | 50 => ⟨S32, .f32⟩
  | 51 => ⟨S1x32x64, .f32⟩
  | 52 => ⟨S32x64, .f32⟩
  | 53 => ⟨S1x64, .f32⟩
  | 54 => ⟨S64, .f32⟩
  | 55 => ⟨S100000x64, .f32⟩
  | 56 => ⟨S1x64, .f32⟩
  | 57 => ⟨S64, .f32⟩
  | 58 => ⟨S1x64, .f32⟩
  | 59 => ⟨S64, .f32⟩
  | 60 => ⟨S100000x64, .f32⟩
  | 61 => ⟨S_, .i32⟩
  | 62 => ⟨S1200000, .i32⟩
  | 63 => ⟨S1200000, .i1⟩
  | 64 => ⟨S_, .i32⟩
  | 65 => ⟨S1200000, .i32⟩
  | 66 => ⟨S1200000, .i32⟩
  | 67 => ⟨S1200000, .i32⟩
  | 68 => ⟨S1200000x1, .i32⟩
  | 69 => ⟨S1200000x64, .f32⟩
  | 70 => ⟨S1200000x1, .f32⟩
  | 71 => ⟨S1200000x64, .f32⟩
  | 72 => ⟨S1200000x64, .f32⟩
  | 73 => ⟨S_, .f32⟩
  | 74 => ⟨S100000x64, .f32⟩
  | 75 => ⟨S1200000x1, .i32⟩
  | 76 => ⟨S100000x64, .f32⟩
  | 77 => ⟨S1x64x32, .f32⟩
  | 78 => ⟨S64x32, .f32⟩
  | 79 => ⟨S1x32, .f32⟩
  | 80 => ⟨S32, .f32⟩
  | 81 => ⟨S1x64x32, .f32⟩
  | 82 => ⟨S64x32, .f32⟩
  | 83 => ⟨S1x32, .f32⟩
  | 84 => ⟨S32, .f32⟩
  | 85 => ⟨S1x32x64, .f32⟩
  | 86 => ⟨S32x64, .f32⟩
  | 87 => ⟨S1x64, .f32⟩
  | 88 => ⟨S64, .f32⟩
  | 89 => ⟨S100000x64, .f32⟩
  | 90 => ⟨S1x64, .f32⟩
  | 91 => ⟨S64, .f32⟩
  | 92 => ⟨S1x64, .f32⟩
  | 93 => ⟨S64, .f32⟩
  | 94 => ⟨S100000x64, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000x64, .f32⟩
  | 104 => ⟨S1200000x1, .f32⟩
  | 105 => ⟨S1200000x64, .f32⟩
  | 106 => ⟨S1200000x64, .f32⟩
  | 107 => ⟨S_, .f32⟩
  | 108 => ⟨S100000x64, .f32⟩
  | 109 => ⟨S1200000x1, .i32⟩
  | 110 => ⟨S100000x64, .f32⟩
  | 111 => ⟨S1x64x32, .f32⟩
  | 112 => ⟨S64x32, .f32⟩
  | 113 => ⟨S1x32, .f32⟩
  | 114 => ⟨S32, .f32⟩
  | 115 => ⟨S1x64x32, .f32⟩
  | 116 => ⟨S64x32, .f32⟩
  | 117 => ⟨S1x32, .f32⟩
  | 118 => ⟨S32, .f32⟩
  | 119 => ⟨S1x32x64, .f32⟩
  | 120 => ⟨S32x64, .f32⟩
  | 121 => ⟨S1x64, .f32⟩
  | 122 => ⟨S64, .f32⟩
  | 123 => ⟨S100000x64, .f32⟩
  | 124 => ⟨S1x64, .f32⟩
  | 125 => ⟨S64, .f32⟩
  | 126 => ⟨S1x64, .f32⟩
  | 127 => ⟨S64, .f32⟩
  | _ => ⟨S100000x16, .f32⟩

abbrev hbmTy0_1 (i : Nat) : BufTy := match i % 128 with
  | 0 => ⟨S100000x64, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S1200000x1, .f32⟩
  | 11 => ⟨S1200000x64, .f32⟩
  | 12 => ⟨S1200000x64, .f32⟩
  | 13 => ⟨S_, .f32⟩
  | 14 => ⟨S100000x64, .f32⟩
  | 15 => ⟨S1200000x1, .i32⟩
  | 16 => ⟨S100000x64, .f32⟩
  | 17 => ⟨S1x64x32, .f32⟩
  | 18 => ⟨S64x32, .f32⟩
  | 19 => ⟨S1x32, .f32⟩
  | 20 => ⟨S32, .f32⟩
  | 21 => ⟨S1x64x32, .f32⟩
  | 22 => ⟨S64x32, .f32⟩
  | 23 => ⟨S1x32, .f32⟩
  | 24 => ⟨S32, .f32⟩
  | 25 => ⟨S1x32x64, .f32⟩
  | 26 => ⟨S32x64, .f32⟩
  | 27 => ⟨S1x64, .f32⟩
  | 28 => ⟨S64, .f32⟩
  | 29 => ⟨S100000x64, .f32⟩
  | 30 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x32, .f32⟩
  | .local _ .vmem, ⟨19, _⟩ => ⟨S32, .f32⟩
  | .local _ .vmem, ⟨20, _⟩ => ⟨S64x32, .f32⟩
  | .local _ .vmem, ⟨21, _⟩ => ⟨S32, .f32⟩
  | .local _ .vmem, ⟨22, _⟩ => ⟨S32x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x32, .f32⟩
  | .local _ .vmem, ⟨37, _⟩ => ⟨S32, .f32⟩
  | .local _ .vmem, ⟨38, _⟩ => ⟨S64x32, .f32⟩
  | .local _ .vmem, ⟨39, _⟩ => ⟨S32, .f32⟩
  | .local _ .vmem, ⟨40, _⟩ => ⟨S32x64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64, .f32⟩
  | .local _ .vmem, ⟨47, _⟩ => ⟨S64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x32, .f32⟩
  | .local _ .vmem, ⟨55, _⟩ => ⟨S32, .f32⟩
  | .local _ .vmem, ⟨56, _⟩ => ⟨S64x32, .f32⟩
  | .local _ .vmem, ⟨57, _⟩ => ⟨S32, .f32⟩
  | .local _ .vmem, ⟨58, _⟩ => ⟨S32x64, .f32⟩
  | .local _ .vmem, ⟨59, _⟩ => ⟨S64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64, .f32⟩
  | .local _ .vmem, ⟨65, _⟩ => ⟨S64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S64x32, .f32⟩
  | .local _ .vmem, ⟨73, _⟩ => ⟨S32, .f32⟩
  | .local _ .vmem, ⟨74, _⟩ => ⟨S64x32, .f32⟩
  | .local _ .vmem, ⟨75, _⟩ => ⟨S32, .f32⟩
  | .local _ .vmem, ⟨76, _⟩ => ⟨S32x64, .f32⟩
  | .local _ .vmem, ⟨77, _⟩ => ⟨S64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S64x24, .f32⟩
  | .local _ .vmem, ⟨83, _⟩ => ⟨S24, .f32⟩
  | .local _ .vmem, ⟨84, _⟩ => ⟨S24x3, .f32⟩
  | .local _ .vmem, ⟨85, _⟩ => ⟨S3, .f32⟩
  | .local _ .vmem, ⟨86, _⟩ => ⟨S5000x3, .f32⟩
  | .local _ .vmem, ⟨87, _⟩ => ⟨S5000x3, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_1 : Ref sig .tc := ⟨.hbm, 61, rfl⟩
abbrev main_v37 : Ref sig .tc := ⟨.hbm, 62, rfl⟩
abbrev main_v38 : Ref sig .tc := ⟨.hbm, 63, rfl⟩
abbrev main_c_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_4 : Ref sig .tc := ⟨.hbm, 95, rfl⟩
abbrev main_v68 : Ref sig .tc := ⟨.hbm, 96, rfl⟩
abbrev main_v69 : Ref sig .tc := ⟨.hbm, 97, rfl⟩
abbrev main_c_5 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_6 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_7 : Ref sig .tc := ⟨.hbm, 129, rfl⟩
abbrev main_v99 : Ref sig .tc := ⟨.hbm, 130, rfl⟩
abbrev main_v100 : Ref sig .tc := ⟨.hbm, 131, rfl⟩
abbrev main_c_8 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_9 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg8_0 : Ref sig .tc := ⟨.vmem, 42, rfl⟩
abbrev cc4_stg8_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg4_0 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg7_0 : Ref sig .tc := ⟨.vmem, 59, rfl⟩
abbrev cc6_stg8_0 : Ref sig .tc := ⟨.vmem, 60, rfl⟩
abbrev cc6_stg8_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg7_0 : Ref sig .tc := ⟨.vmem, 77, rfl⟩
abbrev cc8_stg8_0 : Ref sig .tc := ⟨.vmem, 78, rfl⟩
abbrev cc8_stg8_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg2_0 : Ref sig .tc := ⟨.vmem, 83, rfl⟩
abbrev cc9_stg3_0 : Ref sig .tc := ⟨.vmem, 84, rfl⟩
abbrev cc9_stg4_0 : Ref sig .tc := ⟨.vmem, 85, rfl⟩
abbrev cc9_stg5_0 : Ref sig .tc := ⟨.vmem, 86, rfl⟩
abbrev cc9_stg5_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem8_0 : DmaSem sig := 42
abbrev cc4_sem8_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem4_0 : DmaSem sig := 56
abbrev cc6_sem5_0 : DmaSem sig := 57
abbrev cc6_sem6_0 : DmaSem sig := 58
abbrev cc6_sem7_0 : DmaSem sig := 59
abbrev cc6_sem8_0 : DmaSem sig := 60
abbrev cc6_sem8_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem7_0 : DmaSem sig := 77
abbrev cc8_sem8_0 : DmaSem sig := 78
abbrev cc8_sem8_1 : DmaSem sig := 79
abbrev cc9_sem0_0 : DmaSem sig := 80
abbrev cc9_sem0_1 : DmaSem sig := 81
abbrev cc9_sem1_0 : DmaSem sig := 82
abbrev cc9_sem2_0 : DmaSem sig := 83
abbrev cc9_sem3_0 : DmaSem sig := 84
abbrev cc9_sem4_0 : DmaSem sig := 85
abbrev cc9_sem5_0 : DmaSem sig := 86
abbrev cc9_sem5_1 : DmaSem sig := 87

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S32x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S5000x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S32 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S32x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S5000x64 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x24 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S24 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S24x3 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S3 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x3 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S4x64_S1x64_0_0 : S4x64.Slices ![0, 0] S1x64
  shapeCasts_S1x64_S64 : S1x64.ShapeCasts S64
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  shapeCasts_S64_S64 : S64.ShapeCasts S64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S4x64x32_S1x64x32_0_0_0 : S4x64x32.Slices ![0, 0, 0] S1x64x32
  shapeCasts_S1x64x32_S64x32 : S1x64x32.ShapeCasts S64x32
  slices_S4x32_S1x32_0_0 : S4x32.Slices ![0, 0] S1x32
  shapeCasts_S1x32_S32 : S1x32.ShapeCasts S32
  slices_S4x32x64_S1x32x64_0_0_0 : S4x32x64.Slices ![0, 0, 0] S1x32x64
  shapeCasts_S1x32x64_S32x64 : S1x32x64.ShapeCasts S32x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  slices_S4x64_S1x64_1_0 : S4x64.Slices ![1, 0] S1x64
  slices_S4x64x32_S1x64x32_1_0_0 : S4x64x32.Slices ![1, 0, 0] S1x64x32
  slices_S4x32_S1x32_1_0 : S4x32.Slices ![1, 0] S1x32
  slices_S4x32x64_S1x32x64_1_0_0 : S4x32x64.Slices ![1, 0, 0] S1x32x64
  slices_S4x64_S1x64_2_0 : S4x64.Slices ![2, 0] S1x64
  slices_S4x64x32_S1x64x32_2_0_0 : S4x64x32.Slices ![2, 0, 0] S1x64x32
  slices_S4x32_S1x32_2_0 : S4x32.Slices ![2, 0] S1x32
  slices_S4x32x64_S1x32x64_2_0_0 : S4x32x64.Slices ![2, 0, 0] S1x32x64
  slices_S4x64_S1x64_3_0 : S4x64.Slices ![3, 0] S1x64
  slices_S4x64x32_S1x64x32_3_0_0 : S4x64x32.Slices ![3, 0, 0] S1x64x32
  slices_S4x32_S1x32_3_0 : S4x32.Slices ![3, 0] S1x32
  slices_S4x32x64_S1x32x64_3_0_0 : S4x32x64.Slices ![3, 0, 0] S1x32x64
  inb_S64x24_S64x24_0_0 : ∀ a, (![0, 0] : Fin 2 → Nat) a + S64x24.size a ≤ S64x24.size a
  h_S64x24 : 0 < S64x24.numel
  inb_S24_S24_0 : ∀ a, (![0] : Fin 1 → Nat) a + S24.size a ≤ S24.size a
  h_S24 : 0 < S24.numel
  shapeCasts_S24_S1x24 : S24.ShapeCasts S1x24
  broadcasts_S1x24_S5000x24 : S1x24.Broadcasts S5000x24
  inb_S24x3_S24x3_0_0 : ∀ a, (![0, 0] : Fin 2 → Nat) a + S24x3.size a ≤ S24x3.size a
  h_S24x3 : 0 < S24x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  dot_S5000x16_S16x128_S5000x128_1_0_0_1_n_n_wf : DotDims.WF S5000x16 S16x128 S5000x128 [1] [0] [0] [1] [] []
  dot_S5000x128_S128x64_S5000x64_1_0_0_1_n_n_wf : DotDims.WF S5000x128 S128x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x32_S5000x32_1_0_0_1_n_n_wf : DotDims.WF S5000x64 S64x32 S5000x32 [1] [0] [0] [1] [] []
  dot_S5000x32_S32x64_S5000x64_1_0_0_1_n_n_wf : DotDims.WF S5000x32 S32x64 S5000x64 [1] [0] [0] [1] [] []
  dot_S5000x64_S64x24_S5000x24_1_0_0_1_n_n_wf : DotDims.WF S5000x64 S64x24 S5000x24 [1] [0] [0] [1] [] []
  dot_S5000x24_S24x3_S5000x3_1_0_0_1_n_n_wf : DotDims.WF S5000x24 S24x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x64.size a ≤ S32x64.size a
  hwx2_6 : ∀ i : grid2.Coords, EltTy.bits .f32 = 32 ∨ (Rect.block (s := S32x64) S32x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x32.size a ≤ S64x32.size a
  hwx4_4 : ∀ i : grid4.Coords, EltTy.bits .f32 = 32 ∨ (Rect.block (s := S64x32) S64x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32.size a ≤ S32.size a
  hwx4_5 : ∀ i : grid4.Coords, EltTy.bits .f32 = 32 ∨ (Rect.block (s := S32) S32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32x64.size a ≤ S32x64.size a
  hwx4_6 : ∀ i : grid4.Coords, EltTy.bits .f32 = 32 ∨ (Rect.block (s := S32x64) S32x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x64.size a ≤ S100000x64.size a
  hwx4_8 : ∀ i : grid4.Coords, EltTy.bits .f32 = 32 ∨ (Rect.block (s := S100000x64) S5000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32.size a ≤ S32.size a
  hwx6_3 : ∀ i : grid6.Coords, EltTy.bits .f32 = 32 ∨ (Rect.block (s := S32) S32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x32.size a ≤ S64x32.size a
  hwx6_4 : ∀ i : grid6.Coords, EltTy.bits .f32 = 32 ∨ (Rect.block (s := S64x32) S64x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32.size a ≤ S32.size a
  hwx6_5 : ∀ i : grid6.Coords, EltTy.bits .f32 = 32 ∨ (Rect.block (s := S32) S32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S32x64.size a ≤ S32x64.size a
  hwx6_6 : ∀ i : grid6.Coords, EltTy.bits .f32 = 32 ∨ (Rect.block (s := S32x64) S32x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64.size a ≤ S64.size a
  hwx6_7 : ∀ i : grid6.Coords, EltTy.bits .f32 = 32 ∨ (Rect.block (s := S64) S64.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x64.size a ≤ S100000x64.size a
  hwx6_8 : ∀ i : grid6.Coords, EltTy.bits .f32 = 32 ∨ (Rect.block (s := S100000x64) S5000x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64.size a ≤ S64.size a
  hwx7_1 : ∀ i : grid7.Coords, EltTy.bits .f32 = 32 ∨ (Rect.block (s := S64) S64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x32.size a ≤ S64x32.size a
  hwx8_2 : ∀ i : grid8.Coords, EltTy.bits .f32 = 32 ∨ (Rect.block (s := S64x32) S64x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32.size a ≤ S32.size a
  hwx8_3 : ∀ i : grid8.Coords, EltTy.bits .f32 = 32 ∨ (Rect.block (s := S32) S32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x32.size a ≤ S64x32.size a
  hwx8_4 : ∀ i : grid8.Coords, EltTy.bits .f32 = 32 ∨ (Rect.block (s := S64x32) S64x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S32.size a ≤ S32.size a
  hwx8_5 : ∀ i : grid8.Coords, EltTy.bits .f32 = 32 ∨ (Rect.block (s := S32) S32.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S32x64.size a ≤ S32x64.size a
  hwx8_6 : ∀ i : grid8.Coords, EltTy.bits .f32 = 32 ∨ (Rect.block (s := S32x64) S32x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S64.size a ≤ S64.size a
  hwx8_7 : ∀ i : grid8.Coords, EltTy.bits .f32 = 32 ∨ (Rect.block (s := S64) S64.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x64.size a ≤ S100000x64.size a
  hwx8_8 : ∀ i : grid8.Coords, EltTy.bits .f32 = 32 ∨ (Rect.block (s := S100000x64) S5000x64.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x24.size a ≤ S64x24.size a
  hwx9_1 : ∀ i : grid9.Coords, EltTy.bits .f32 = 32 ∨ (Rect.block (s := S64x24) S64x24.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S24.size a ≤ S24.size a
  hwx9_2 : ∀ i : grid9.Coords, EltTy.bits .f32 = 32 ∨ (Rect.block (s := S24) S24.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S24x3.size a ≤ S24x3.size a
  hwx9_3 : ∀ i : grid9.Coords, EltTy.bits .f32 = 32 ∨ (Rect.block (s := S24x3) S24x3.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S3.size a ≤ S3.size a
  hwx9_4 : ∀ i : grid9.Coords, EltTy.bits .f32 = 32 ∨ (Rect.block (s := S3) S3.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x3.size a ≤ S100000x3.size a
  hwx9_5 : ∀ i : grid9.Coords, EltTy.bits .f32 = 32 ∨ (Rect.block (s := S100000x3) S5000x3.size (cc9_transform_5 i) (hinb9_5 i)).WholeWords (EltTy.packing .f32)

variable [Facts₀]

def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x24_S5000x24_1_0_0_1_n_n : DotDims S5000x64 S64x24 S5000x24 where
  lhsContracting := [1]
  rhsContracting := [0]
  lhsNonContracting := [0]
  rhsNonContracting := [1]
  lhsBatch := []
  rhsBatch := []
  wf := dot_S5000x64_S64x24_S5000x24_1_0_0_1_n_n_wf
def dot_S5000x24_S24x3_S5000x3_1_0_0_1_n_n : DotDims S5000x24 S24x3 S5000x3 where
  lhsContracting := [1]
  rhsContracting := [0]
  lhsNonContracting := [0]
  rhsNonContracting := [1]
  lhsBatch := []
  rhsBatch := []
  wf := dot_S5000x24_S24x3_S5000x3_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S32x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v31) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v31) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v36) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S64x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v59) S32x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v61) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v62) S5000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v62) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v67) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v82) S64x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S64x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88) S32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v90) S32x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v92) S64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v93) S5000x64.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v93) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v98) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v98) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v113) S64x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v115) S32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v117) S64x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v119) S32.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v121) S32x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v123) S64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v124) S5000x64.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v124) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S64x24.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg10) S24.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg11) S24x3.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg12) S3.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v125) S5000x3.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x16 : Shape := ⟨2, ![100000, 16]⟩
abbrev S100000x3 : Shape := ⟨2, ![100000, 3]⟩
abbrev S1200000 : Shape := ⟨1, ![1200000]⟩
abbrev S16x128 : Shape := ⟨2, ![16, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S24x3 : Shape := ⟨2, ![24, 3]⟩
abbrev S3 : Shape := ⟨1, ![3]⟩
abbrev S4x64 : Shape := ⟨2, ![4, 64]⟩
abbrev S4x64x32 : Shape := ⟨3, ![4, 64, 32]⟩
abbrev S4x32 : Shape := ⟨2, ![4, 32]⟩
abbrev S4x32x64 : Shape := ⟨3, ![4, 32, 64]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩
abbrev S1200000x1 : Shape := ⟨2, ![1200000, 1]⟩
abbrev S1200000x64 : Shape := ⟨2, ![1200000, 64]⟩
abbrev S1x64x32 : Shape := ⟨3, ![1, 64, 32]⟩
abbrev S64x32 : Shape := ⟨2, ![64, 32]⟩
abbrev S100000x32 : Shape := ⟨2, ![100000, 32]⟩
abbrev S1x32 : Shape := ⟨2, ![1, 32]⟩
abbrev S32 : Shape := ⟨1, ![32]⟩
abbrev S1x32x64 : Shape := ⟨3, ![1, 32, 64]⟩
abbrev S32x64 : Shape := ⟨2, ![32, 64]⟩
abbrev S100000x24 : Shape := ⟨2, ![100000, 24]⟩
abbrev S1x24 : Shape := ⟨2, ![1, 24]⟩
abbrev S1x3 : Shape := ⟨2, ![1, 3]⟩

abbrev nBuf : Space → Nat
  | .hbm => 439
  | .vmem => 0
  | .smem => 0
  | _ => 0

abbrev hbmTy0_0 (i : Nat) : BufTy := match i % 128 with
  | 0 => ⟨S100000x16, .f32⟩
  | 1 => ⟨S100000x3, .f32⟩
  | 2 => ⟨S1200000, .i32⟩
  | 3 => ⟨S1200000, .i32⟩
  | 4 => ⟨S1200000, .f32⟩
  | 5 => ⟨S16x128, .f32⟩
  | 6 => ⟨S128, .f32⟩
  | 7 => ⟨S128x64, .f32⟩
  | 8 => ⟨S64, .f32⟩
  | 9 => ⟨S64x24, .f32⟩
  | 10 => ⟨S24, .f32⟩
  | 11 => ⟨S24x3, .f32⟩
  | 12 => ⟨S3, .f32⟩
  | 13 => ⟨S4x64, .f32⟩
  | 14 => ⟨S4x64, .f32⟩
  | 15 => ⟨S4x64x32, .f32⟩
  | 16 => ⟨S4x32, .f32⟩
  | 17 => ⟨S4x64x32, .f32⟩
  | 18 => ⟨S4x32, .f32⟩
  | 19 => ⟨S4x32x64, .f32⟩
  | 20 => ⟨S4x64, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .i1⟩
  | 28 => ⟨S_, .f32⟩
  | 29 => ⟨S100000x128, .f32⟩
  | 30 => ⟨S100000x128, .f32⟩
  | 31 => ⟨S100000x128, .f32⟩
  | 32 => ⟨S100000x64, .f32⟩
  | 33 => ⟨S1x64, .f32⟩
  | 34 => ⟨S100000x64, .f32⟩
  | 35 => ⟨S100000x64, .f32⟩
  | 36 => ⟨S1x64, .f32⟩
  | 37 => ⟨S64, .f32⟩
  | 38 => ⟨S1x64, .f32⟩
  | 39 => ⟨S64, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S_, .i32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x64, .f32⟩
  | 54 => ⟨S100000x64, .f32⟩
  | 55 => ⟨S100000x64, .f32⟩
  | 56 => ⟨S_, .f32⟩
  | 57 => ⟨S_, .f32⟩
  | 58 => ⟨S_, .f32⟩
  | 59 => ⟨S_, .f32⟩
  | 60 => ⟨S100000, .f32⟩
  | 61 => ⟨S100000x1, .f32⟩
  | 62 => ⟨S100000x1, .f32⟩
  | 63 => ⟨S100000x1, .f32⟩
  | 64 => ⟨S_, .f32⟩
  | 65 => ⟨S_, .i1⟩
  | 66 => ⟨S_, .f32⟩
  | 67 => ⟨S_, .f32⟩
  | 68 => ⟨S100000x1, .f32⟩
  | 69 => ⟨S100000x1, .f32⟩
  | 70 => ⟨S100000x64, .f32⟩
  | 71 => ⟨S100000x64, .f32⟩
  | 72 => ⟨S_, .f32⟩
  | 73 => ⟨S100000x1, .f32⟩
  | 74 => ⟨S100000x1, .f32⟩
  | 75 => ⟨S100000x1, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S1200000x1, .f32⟩
  | 85 => ⟨S_, .i32⟩
  | 86 => ⟨S1200000, .i32⟩
  | 87 => ⟨S1200000, .i1⟩
  | 88 => ⟨S_, .i32⟩
  | 89 => ⟨S1200000, .i32⟩
  | 90 => ⟨S1200000, .i32⟩
  | 91 => ⟨S1200000, .i32⟩
  | 92 => ⟨S1200000x1, .i32⟩
  | 93 => ⟨S1200000x64, .f32⟩
  | 94 => ⟨S1200000x64, .f32⟩
  | 95 => ⟨S1200000x64, .f32⟩
  | 96 => ⟨S_, .f32⟩
  | 97 => ⟨S100000x64, .f32⟩
  | 98 => ⟨S1200000x1, .i32⟩
  | 99 => ⟨S100000x64, .f32⟩
  | 100 => ⟨S1x64x32, .f32⟩
  | 101 => ⟨S64x32, .f32⟩
  | 102 => ⟨S100000x32, .f32⟩
  | 103 => ⟨S1x32, .f32⟩
  | 104 => ⟨S32, .f32⟩
  | 105 => ⟨S1x32, .f32⟩
  | 106 => ⟨S100000x32, .f32⟩
  | 107 => ⟨S100000x32, .f32⟩
  | 108 => ⟨S1x64x32, .f32⟩
  | 109 => ⟨S64x32, .f32⟩
  | 110 => ⟨S100000x32, .f32⟩
  | 111 => ⟨S1x32, .f32⟩
  | 112 => ⟨S32, .f32⟩
  | 113 => ⟨S1x32, .f32⟩
  | 114 => ⟨S100000x32, .f32⟩
  | 115 => ⟨S100000x32, .f32⟩
  | 116 => ⟨S100000x32, .f32⟩
  | 117 => ⟨S_, .f32⟩
  | 118 => ⟨S100000x32, .f32⟩
  | 119 => ⟨S100000x32, .i1⟩
  | 120 => ⟨S_, .f32⟩
  | 121 => ⟨S100000x32, .f32⟩
  | 122 => ⟨S100000x32, .f32⟩
  | 123 => ⟨S100000x32, .f32⟩
  | 124 => ⟨S1x32x64, .f32⟩
  | 125 => ⟨S32x64, .f32⟩
  | 126 => ⟨S100000x64, .f32⟩
  | 127 => ⟨S1x64, .f32⟩
  | _ => ⟨S100000x16, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S100000x64, .f32⟩
  | 5 => ⟨S1x64, .f32⟩
  | 6 => ⟨S64, .f32⟩
  | 7 => ⟨S1x64, .f32⟩
  | 8 => ⟨S64, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S_, .i32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S100000, .f32⟩
  | 30 => ⟨S100000x1, .f32⟩
  | 31 => ⟨S100000x1, .f32⟩
  | 32 => ⟨S100000x1, .f32⟩
  | 33 => ⟨S_, .f32⟩
  | 34 => ⟨S_, .i1⟩
  | 35 => ⟨S_, .f32⟩
  | 36 => ⟨S_, .f32⟩
  | 37 => ⟨S100000x1, .f32⟩
  | 38 => ⟨S100000x1, .f32⟩
  | 39 => ⟨S100000x64, .f32⟩
  | 40 => ⟨S100000x64, .f32⟩
  | 41 => ⟨S_, .f32⟩
  | 42 => ⟨S100000x1, .f32⟩
  | 43 => ⟨S100000x1, .f32⟩
  | 44 => ⟨S100000x1, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1200000x1, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000x64, .f32⟩
  | 63 => ⟨S1200000x64, .f32⟩
  | 64 => ⟨S1200000x64, .f32⟩
  | 65 => ⟨S_, .f32⟩
  | 66 => ⟨S100000x64, .f32⟩
  | 67 => ⟨S1200000x1, .i32⟩
  | 68 => ⟨S100000x64, .f32⟩
  | 69 => ⟨S1x64x32, .f32⟩
  | 70 => ⟨S64x32, .f32⟩
  | 71 => ⟨S100000x32, .f32⟩
  | 72 => ⟨S1x32, .f32⟩
  | 73 => ⟨S32, .f32⟩
  | 74 => ⟨S1x32, .f32⟩
  | 75 => ⟨S100000x32, .f32⟩
  | 76 => ⟨S100000x32, .f32⟩
  | 77 => ⟨S1x64x32, .f32⟩
  | 78 => ⟨S64x32, .f32⟩
  | 79 => ⟨S100000x32, .f32⟩
  | 80 => ⟨S1x32, .f32⟩
  | 81 => ⟨S32, .f32⟩
  | 82 => ⟨S1x32, .f32⟩
  | 83 => ⟨S100000x32, .f32⟩
  | 84 => ⟨S100000x32, .f32⟩
  | 85 => ⟨S100000x32, .f32⟩
  | 86 => ⟨S_, .f32⟩
  | 87 => ⟨S100000x32, .f32⟩
  | 88 => ⟨S100000x32, .i1⟩
  | 89 => ⟨S_, .f32⟩
  | 90 => ⟨S100000x32, .f32⟩
  | 91 => ⟨S100000x32, .f32⟩
  | 92 => ⟨S100000x32, .f32⟩
  | 93 => ⟨S1x32x64, .f32⟩
  | 94 => ⟨S32x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S100000x64, .f32⟩
  | 102 => ⟨S1x64, .f32⟩
  | 103 => ⟨S64, .f32⟩
  | 104 => ⟨S1x64, .f32⟩
  | 105 => ⟨S64, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S_, .i32⟩
  | 113 => ⟨S_, .f32⟩
  | 114 => ⟨S100000, .f32⟩
  | 115 => ⟨S100000x1, .f32⟩
  | 116 => ⟨S_, .f32⟩
  | 117 => ⟨S100000x1, .f32⟩
  | 118 => ⟨S100000x1, .f32⟩
  | 119 => ⟨S100000x64, .f32⟩
  | 120 => ⟨S100000x64, .f32⟩
  | 121 => ⟨S100000x64, .f32⟩
  | 122 => ⟨S_, .f32⟩
  | 123 => ⟨S_, .f32⟩
  | 124 => ⟨S_, .f32⟩
  | 125 => ⟨S_, .f32⟩
  | 126 => ⟨S100000, .f32⟩
  | 127 => ⟨S100000x1, .f32⟩
  | _ => ⟨S100000x16, .f32⟩

abbrev hbmTy0_2 (i : Nat) : BufTy := match i % 128 with
  | 0 => ⟨S100000x1, .f32⟩
  | 1 => ⟨S100000x1, .f32⟩
  | 2 => ⟨S_, .f32⟩
  | 3 => ⟨S_, .i1⟩
  | 4 => ⟨S_, .f32⟩
  | 5 => ⟨S_, .f32⟩
  | 6 => ⟨S100000x1, .f32⟩
  | 7 => ⟨S100000x1, .f32⟩
  | 8 => ⟨S100000x64, .f32⟩
  | 9 => ⟨S100000x64, .f32⟩
  | 10 => ⟨S_, .f32⟩
  | 11 => ⟨S100000x1, .f32⟩
  | 12 => ⟨S100000x1, .f32⟩
  | 13 => ⟨S100000x1, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S1200000x1, .f32⟩
  | 23 => ⟨S_, .i32⟩
  | 24 => ⟨S1200000, .i32⟩
  | 25 => ⟨S1200000, .i1⟩
  | 26 => ⟨S_, .i32⟩
  | 27 => ⟨S1200000, .i32⟩
  | 28 => ⟨S1200000, .i32⟩
  | 29 => ⟨S1200000, .i32⟩
  | 30 => ⟨S1200000x1, .i32⟩
  | 31 => ⟨S1200000x64, .f32⟩
  | 32 => ⟨S1200000x64, .f32⟩
  | 33 => ⟨S1200000x64, .f32⟩
  | 34 => ⟨S_, .f32⟩
  | 35 => ⟨S100000x64, .f32⟩
  | 36 => ⟨S1200000x1, .i32⟩
  | 37 => ⟨S100000x64, .f32⟩
  | 38 => ⟨S1x64x32, .f32⟩
  | 39 => ⟨S64x32, .f32⟩
  | 40 => ⟨S100000x32, .f32⟩
  | 41 => ⟨S1x32, .f32⟩
  | 42 => ⟨S32, .f32⟩
  | 43 => ⟨S1x32, .f32⟩
  | 44 => ⟨S100000x32, .f32⟩
  | 45 => ⟨S100000x32, .f32⟩
  | 46 => ⟨S1x64x32, .f32⟩
  | 47 => ⟨S64x32, .f32⟩
  | 48 => ⟨S100000x32, .f32⟩
  | 49 => ⟨S1x32, .f32⟩
  | 50 => ⟨S32, .f32⟩
  | 51 => ⟨S1x32, .f32⟩
  | 52 => ⟨S100000x32, .f32⟩
  | 53 => ⟨S100000x32, .f32⟩
  | 54 => ⟨S100000x32, .f32⟩
  | 55 => ⟨S_, .f32⟩
  | 56 => ⟨S100000x32, .f32⟩
  | 57 => ⟨S100000x32, .i1⟩
  | 58 => ⟨S_, .f32⟩
  | 59 => ⟨S100000x32, .f32⟩
  | 60 => ⟨S100000x32, .f32⟩
  | 61 => ⟨S100000x32, .f32⟩
  | 62 => ⟨S1x32x64, .f32⟩
  | 63 => ⟨S32x64, .f32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S100000x64, .f32⟩
  | 71 => ⟨S1x64, .f32⟩
  | 72 => ⟨S64, .f32⟩
  | 73 => ⟨S1x64, .f32⟩
  | 74 => ⟨S64, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S_, .i32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x64, .f32⟩
  | 89 => ⟨S100000x64, .f32⟩
  | 90 => ⟨S100000x64, .f32⟩
  | 91 => ⟨S_, .f32⟩
  | 92 => ⟨S_, .f32⟩
  | 93 => ⟨S_, .f32⟩
  | 94 => ⟨S_, .f32⟩
  | 95 => ⟨S100000, .f32⟩
  | 96 => ⟨S100000x1, .f32⟩
  | 97 => ⟨S100000x1, .f32⟩
  | 98 => ⟨S100000x1, .f32⟩
  | 99 => ⟨S_, .f32⟩
  | 100 => ⟨S_, .i1⟩
  | 101 => ⟨S_, .f32⟩
  | 102 => ⟨S_, .f32⟩
  | 103 => ⟨S100000x1, .f32⟩
  | 104 => ⟨S100000x1, .f32⟩
  | 105 => ⟨S100000x64, .f32⟩
  | 106 => ⟨S100000x64, .f32⟩
  | 107 => ⟨S_, .f32⟩
  | 108 => ⟨S100000x1, .f32⟩
  | 109 => ⟨S100000x1, .f32⟩
  | 110 => ⟨S100000x1, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S1200000x1, .f32⟩
  | 120 => ⟨S_, .i32⟩
  | 121 => ⟨S1200000, .i32⟩
  | 122 => ⟨S1200000, .i1⟩
  | 123 => ⟨S_, .i32⟩
  | 124 => ⟨S1200000, .i32⟩
  | 125 => ⟨S1200000, .i32⟩
  | 126 => ⟨S1200000, .i32⟩
  | 127 => ⟨S1200000x1, .i32⟩
  | _ => ⟨S100000x16, .f32⟩

abbrev hbmTy0_3 (i : Nat) : BufTy := match i % 128 with
  | 0 => ⟨S1200000x64, .f32⟩
  | 1 => ⟨S1200000x64, .f32⟩
  | 2 => ⟨S1200000x64, .f32⟩
  | 3 => ⟨S_, .f32⟩
  | 4 => ⟨S100000x64, .f32⟩
  | 5 => ⟨S1200000x1, .i32⟩
  | 6 => ⟨S100000x64, .f32⟩
  | 7 => ⟨S1x64x32, .f32⟩
  | 8 => ⟨S64x32, .f32⟩
  | 9 => ⟨S100000x32, .f32⟩
  | 10 => ⟨S1x32, .f32⟩
  | 11 => ⟨S32, .f32⟩
  | 12 => ⟨S1x32, .f32⟩
  | 13 => ⟨S100000x32, .f32⟩
  | 14 => ⟨S100000x32, .f32⟩
  | 15 => ⟨S1x64x32, .f32⟩
  | 16 => ⟨S64x32, .f32⟩
  | 17 => ⟨S100000x32, .f32⟩
  | 18 => ⟨S1x32, .f32⟩
  | 19 => ⟨S32, .f32⟩
  | 20 => ⟨S1x32, .f32⟩
  | 21 => ⟨S100000x32, .f32⟩
  | 22 => ⟨S100000x32, .f32⟩
  | 23 => ⟨S100000x32, .f32⟩
  | 24 => ⟨S_, .f32⟩
  | 25 => ⟨S100000x32, .f32⟩
  | 26 => ⟨S100000x32, .i1⟩
  | 27 => ⟨S_, .f32⟩
  | 28 => ⟨S100000x32, .f32⟩
  | 29 => ⟨S100000x32, .f32⟩
  | 30 => ⟨S100000x32, .f32⟩
  | 31 => ⟨S1x32x64, .f32⟩
  | 32 => ⟨S32x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S100000x64, .f32⟩
  | 40 => ⟨S100000x24, .f32⟩
  | 41 => ⟨S1x24, .f32⟩
  | 42 => ⟨S100000x24, .f32⟩
  | 43 => ⟨S100000x24, .f32⟩
  | 44 => ⟨S_, .f32⟩
  | 45 => ⟨S100000x24, .f32⟩
  | 46 => ⟨S100000x24, .i1⟩
  | 47 => ⟨S_, .f32⟩
  | 48 => ⟨S100000x24, .f32⟩
  | 49 => ⟨S100000x24, .f32⟩
  | 50 => ⟨S100000x24, .f32⟩
  | 51 => ⟨S100000x3, .f32⟩
  | 52 => ⟨S1x3, .f32⟩
  | 53 => ⟨S100000x3, .f32⟩
  | 54 => ⟨S100000x3, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_cst_2 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_cst_3 : Ref sig .tc := ⟨.hbm, 64, rfl⟩
abbrev main_call1_v13 : Ref sig .tc := ⟨.hbm, 65, rfl⟩
abbrev main_call1_cst_4 : Ref sig .tc := ⟨.hbm, 66, rfl⟩
abbrev main_call1_call0_v0 : Ref sig .tc := ⟨.hbm, 67, rfl⟩
abbrev main_call1_call0_v1 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_3 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c_4 : Ref sig .tc := ⟨.hbm, 85, rfl⟩
abbrev main_v36 : Ref sig .tc := ⟨.hbm, 86, rfl⟩
abbrev main_v37 : Ref sig .tc := ⟨.hbm, 87, rfl⟩
abbrev main_c_5 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_6 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_7 : Ref sig .tc := ⟨.hbm, 117, rfl⟩
abbrev main_v65 : Ref sig .tc := ⟨.hbm, 118, rfl⟩
abbrev main_v66 : Ref sig .tc := ⟨.hbm, 119, rfl⟩
abbrev main_cst_8 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_9 : Ref sig .tc := ⟨.hbm, 137, rfl⟩
abbrev main_v83 : Ref sig .tc := ⟨.hbm, 138, rfl⟩
abbrev main_v84 : Ref sig .tc := ⟨.hbm, 139, rfl⟩
abbrev main_cst_10 : Ref sig .tc := ⟨.hbm, 140, rfl⟩
abbrev main_v85 : Ref sig .tc := ⟨.hbm, 141, rfl⟩
abbrev main_v86 : Ref sig .tc := ⟨.hbm, 142, rfl⟩
abbrev main_c_11 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_v12 : Ref sig .tc := ⟨.hbm, 160, rfl⟩
abbrev main_call3_cst_3 : Ref sig .tc := ⟨.hbm, 161, rfl⟩
abbrev main_call3_v13 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_12 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_c_13 : Ref sig .tc := ⟨.hbm, 182, rfl⟩
abbrev main_v102 : Ref sig .tc := ⟨.hbm, 183, rfl⟩
abbrev main_v103 : Ref sig .tc := ⟨.hbm, 184, rfl⟩
abbrev main_c_14 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_cst_15 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_16 : Ref sig .tc := ⟨.hbm, 214, rfl⟩
abbrev main_v131 : Ref sig .tc := ⟨.hbm, 215, rfl⟩
abbrev main_v132 : Ref sig .tc := ⟨.hbm, 216, rfl⟩
abbrev main_cst_17 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_18 : Ref sig .tc := ⟨.hbm, 234, rfl⟩
abbrev main_v149 : Ref sig .tc := ⟨.hbm, 235, rfl⟩
abbrev main_v150 : Ref sig .tc := ⟨.hbm, 236, rfl⟩
abbrev main_cst_19 : Ref sig .tc := ⟨.hbm, 237, rfl⟩
abbrev main_v151 : Ref sig .tc := ⟨.hbm, 238, rfl⟩
abbrev main_v152 : Ref sig .tc := ⟨.hbm, 239, rfl⟩
abbrev main_c_20 : Ref sig .tc := ⟨.hbm, 240, rfl⟩
abbrev main_call5_cst : Ref sig .tc := ⟨.hbm, 241, rfl⟩
abbrev main_call5_v0 : Ref sig .tc := ⟨.hbm, 242, rfl⟩
abbrev main_call5_v1 : Ref sig .tc := ⟨.hbm, 243, rfl⟩
abbrev main_call5_cst_0 : Ref sig .tc := ⟨.hbm, 244, rfl⟩
abbrev main_call5_v2 : Ref sig .tc := ⟨.hbm, 245, rfl⟩
abbrev main_call5_v3 : Ref sig .tc := ⟨.hbm, 246, rfl⟩
abbrev main_call5_v4 : Ref sig .tc := ⟨.hbm, 247, rfl⟩
abbrev main_call5_v5 : Ref sig .tc := ⟨.hbm, 248, rfl⟩
abbrev main_call5_v6 : Ref sig .tc := ⟨.hbm, 249, rfl⟩
abbrev main_call5_v7 : Ref sig .tc := ⟨.hbm, 250, rfl⟩
abbrev main_call5_cst_1 : Ref sig .tc := ⟨.hbm, 251, rfl⟩
abbrev main_call5_v8 : Ref sig .tc := ⟨.hbm, 252, rfl⟩
abbrev main_call5_cst_2 : Ref sig .tc := ⟨.hbm, 253, rfl⟩
abbrev main_call5_v9 : Ref sig .tc := ⟨.hbm, 254, rfl⟩
abbrev main_call5_v10 : Ref sig .tc := ⟨.hbm, 255, rfl⟩
abbrev main_call5_v11 : Ref sig .tc := ⟨.hbm, 256, rfl⟩
abbrev main_call5_v12 : Ref sig .tc := ⟨.hbm, 257, rfl⟩
abbrev main_call5_cst_3 : Ref sig .tc := ⟨.hbm, 258, rfl⟩
abbrev main_call5_v13 : Ref sig .tc := ⟨.hbm, 259, rfl⟩
abbrev main_call5_cst_4 : Ref sig .tc := ⟨.hbm, 260, rfl⟩
abbrev main_call5_call0_v0 : Ref sig .tc := ⟨.hbm, 261, rfl⟩
abbrev main_call5_call0_v1 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_cst_21 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_c_22 : Ref sig .tc := ⟨.hbm, 279, rfl⟩
abbrev main_v168 : Ref sig .tc := ⟨.hbm, 280, rfl⟩
abbrev main_v169 : Ref sig .tc := ⟨.hbm, 281, rfl⟩
abbrev main_c_23 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_cst_24 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_25 : Ref sig .tc := ⟨.hbm, 311, rfl⟩
abbrev main_v197 : Ref sig .tc := ⟨.hbm, 312, rfl⟩
abbrev main_v198 : Ref sig .tc := ⟨.hbm, 313, rfl⟩
abbrev main_cst_26 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_cst_27 : Ref sig .tc := ⟨.hbm, 331, rfl⟩
abbrev main_v215 : Ref sig .tc := ⟨.hbm, 332, rfl⟩
abbrev main_v216 : Ref sig .tc := ⟨.hbm, 333, rfl⟩
abbrev main_cst_28 : Ref sig .tc := ⟨.hbm, 334, rfl⟩
abbrev main_v217 : Ref sig .tc := ⟨.hbm, 335, rfl⟩
abbrev main_v218 : Ref sig .tc := ⟨.hbm, 336, rfl⟩
abbrev main_c_29 : Ref sig .tc := ⟨.hbm, 337, rfl⟩
abbrev main_call7_cst : Ref sig .tc := ⟨.hbm, 338, rfl⟩
abbrev main_call7_v0 : Ref sig .tc := ⟨.hbm, 339, rfl⟩
abbrev main_call7_v1 : Ref sig .tc := ⟨.hbm, 340, rfl⟩
abbrev main_call7_cst_0 : Ref sig .tc := ⟨.hbm, 341, rfl⟩
abbrev main_call7_v2 : Ref sig .tc := ⟨.hbm, 342, rfl⟩
abbrev main_call7_v3 : Ref sig .tc := ⟨.hbm, 343, rfl⟩
abbrev main_call7_v4 : Ref sig .tc := ⟨.hbm, 344, rfl⟩
abbrev main_call7_v5 : Ref sig .tc := ⟨.hbm, 345, rfl⟩
abbrev main_call7_v6 : Ref sig .tc := ⟨.hbm, 346, rfl⟩
abbrev main_call7_v7 : Ref sig .tc := ⟨.hbm, 347, rfl⟩
abbrev main_call7_cst_1 : Ref sig .tc := ⟨.hbm, 348, rfl⟩
abbrev main_call7_v8 : Ref sig .tc := ⟨.hbm, 349, rfl⟩
abbrev main_call7_cst_2 : Ref sig .tc := ⟨.hbm, 350, rfl⟩
abbrev main_call7_v9 : Ref sig .tc := ⟨.hbm, 351, rfl⟩
abbrev main_call7_v10 : Ref sig .tc := ⟨.hbm, 352, rfl⟩
abbrev main_call7_v11 : Ref sig .tc := ⟨.hbm, 353, rfl⟩
abbrev main_call7_v12 : Ref sig .tc := ⟨.hbm, 354, rfl⟩
abbrev main_call7_cst_3 : Ref sig .tc := ⟨.hbm, 355, rfl⟩
abbrev main_call7_v13 : Ref sig .tc := ⟨.hbm, 356, rfl⟩
abbrev main_call7_cst_4 : Ref sig .tc := ⟨.hbm, 357, rfl⟩
abbrev main_call7_call0_v0 : Ref sig .tc := ⟨.hbm, 358, rfl⟩
abbrev main_call7_call0_v1 : Ref sig .tc := ⟨.hbm, 359, rfl⟩
abbrev main_v219 : Ref sig .tc := ⟨.hbm, 360, rfl⟩
abbrev main_v220 : Ref sig .tc := ⟨.hbm, 361, rfl⟩
abbrev main_v221 : Ref sig .tc := ⟨.hbm, 362, rfl⟩
abbrev main_cst_30 : Ref sig .tc := ⟨.hbm, 363, rfl⟩
abbrev main_v222 : Ref sig .tc := ⟨.hbm, 364, rfl⟩
abbrev main_v223 : Ref sig .tc := ⟨.hbm, 365, rfl⟩
abbrev main_v224 : Ref sig .tc := ⟨.hbm, 366, rfl⟩
abbrev main_v225 : Ref sig .tc := ⟨.hbm, 367, rfl⟩
abbrev main_v226 : Ref sig .tc := ⟨.hbm, 368, rfl⟩
abbrev main_v227 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_c_31 : Ref sig .tc := ⟨.hbm, 376, rfl⟩
abbrev main_v234 : Ref sig .tc := ⟨.hbm, 377, rfl⟩
abbrev main_v235 : Ref sig .tc := ⟨.hbm, 378, rfl⟩
abbrev main_c_32 : Ref sig .tc := ⟨.hbm, 379, rfl⟩
abbrev main_v236 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_v241 : Ref sig .tc := ⟨.hbm, 385, rfl⟩
abbrev main_v242 : Ref sig .tc := ⟨.hbm, 386, rfl⟩
abbrev main_cst_33 : Ref sig .tc := ⟨.hbm, 387, rfl⟩
abbrev main_v243 : Ref sig .tc := ⟨.hbm, 388, rfl⟩
abbrev main_v244 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_v248 : Ref sig .tc := ⟨.hbm, 393, rfl⟩
abbrev main_v249 : Ref sig .tc := ⟨.hbm, 394, rfl⟩
abbrev main_v250 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_v254 : Ref sig .tc := ⟨.hbm, 399, rfl⟩
abbrev main_v255 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_v259 : Ref sig .tc := ⟨.hbm, 404, rfl⟩
abbrev main_v260 : Ref sig .tc := ⟨.hbm, 405, rfl⟩
abbrev main_v261 : Ref sig .tc := ⟨.hbm, 406, rfl⟩
abbrev main_v262 : Ref sig .tc := ⟨.hbm, 407, rfl⟩
abbrev main_cst_34 : Ref sig .tc := ⟨.hbm, 408, rfl⟩
abbrev main_v263 : Ref sig .tc := ⟨.hbm, 409, rfl⟩
abbrev main_v264 : Ref sig .tc := ⟨.hbm, 410, rfl⟩
abbrev main_cst_35 : Ref sig .tc := ⟨.hbm, 411, rfl⟩
abbrev main_v265 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_v270 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_v276 : Ref sig .tc := ⟨.hbm, 423, rfl⟩
abbrev main_v277 : Ref sig .tc := ⟨.hbm, 424, rfl⟩
abbrev main_v278 : Ref sig .tc := ⟨.hbm, 425, rfl⟩
abbrev main_v279 : Ref sig .tc := ⟨.hbm, 426, rfl⟩
abbrev main_v280 : Ref sig .tc := ⟨.hbm, 427, rfl⟩
abbrev main_cst_36 : Ref sig .tc := ⟨.hbm, 428, rfl⟩
abbrev main_v281 : Ref sig .tc := ⟨.hbm, 429, rfl⟩
abbrev main_v282 : Ref sig .tc := ⟨.hbm, 430, rfl⟩
abbrev main_cst_37 : Ref sig .tc := ⟨.hbm, 431, rfl⟩
abbrev main_v283 : Ref sig .tc := ⟨.hbm, 432, rfl⟩
abbrev main_v284 : Ref sig .tc := ⟨.hbm, 433, rfl⟩
abbrev main_v285 : Ref sig .tc := ⟨.hbm, 434, rfl⟩
abbrev main_v286 : Ref sig .tc := ⟨.hbm, 435, rfl⟩
abbrev main_v287 : Ref sig .tc := ⟨.hbm, 436, rfl⟩
abbrev main_v288 : Ref sig .tc := ⟨.hbm, 437, rfl⟩
abbrev main_v289 : Ref sig .tc := ⟨.hbm, 438, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64_S1x64_0_0 : S4x64.Slices ![0, 0] S1x64
  shapeCasts_S1x64_S64 : S1x64.ShapeCasts S64
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S4x64x32_S1x64x32_0_0_0 : S4x64x32.Slices ![0, 0, 0] S1x64x32
  shapeCasts_S1x64x32_S64x32 : S1x64x32.ShapeCasts S64x32
  slices_S4x32_S1x32_0_0 : S4x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S4x32x64_S1x32x64_0_0_0 : S4x32x64.Slices ![0, 0, 0] S1x32x64
  shapeCasts_S1x32x64_S32x64 : S1x32x64.ShapeCasts S32x64
  slices_S4x64_S1x64_1_0 : S4x64.Slices ![1, 0] S1x64
  slices_S4x64x32_S1x64x32_1_0_0 : S4x64x32.Slices ![1, 0, 0] S1x64x32
  slices_S4x32_S1x32_1_0 : S4x32.Slices ![1, 0] S1x32
  slices_S4x32x64_S1x32x64_1_0_0 : S4x32x64.Slices ![1, 0, 0] S1x32x64
  slices_S4x64_S1x64_2_0 : S4x64.Slices ![2, 0] S1x64
  slices_S4x64x32_S1x64x32_2_0_0 : S4x64x32.Slices ![2, 0, 0] S1x64x32
  slices_S4x32_S1x32_2_0 : S4x32.Slices ![2, 0] S1x32
  slices_S4x32x64_S1x32x64_2_0_0 : S4x32x64.Slices ![2, 0, 0] S1x32x64
  slices_S4x64_S1x64_3_0 : S4x64.Slices ![3, 0] S1x64
  slices_S4x64x32_S1x64x32_3_0_0 : S4x64x32.Slices ![3, 0, 0] S1x64x32
  slices_S4x32_S1x32_3_0 : S4x32.Slices ![3, 0] S1x32
  slices_S4x32x64_S1x32x64_3_0_0 : S4x32x64.Slices ![3, 0, 0] S1x32x64
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S100000x24 : S_.BroadcastsInDim S100000x24 (![] : Fin 0 → Fin S100000x24.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x16_S16x128_S100000x128_1_0_0_1_n_n_wf : DotDims.WF S100000x16 S16x128 S100000x128 [1] [0] [0] [1] [] []
  dot_S100000x128_S128x64_S100000x64_1_0_0_1_n_n_wf : DotDims.WF S100000x128 S128x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x32_S100000x32_1_0_0_1_n_n_wf : DotDims.WF S100000x64 S64x32 S100000x32 [1] [0] [0] [1] [] []
  dot_S100000x32_S32x64_S100000x64_1_0_0_1_n_n_wf : DotDims.WF S100000x32 S32x64 S100000x64 [1] [0] [0] [1] [] []
  dot_S100000x64_S64x24_S100000x24_1_0_0_1_n_n_wf : DotDims.WF S100000x64 S64x24 S100000x24 [1] [0] [0] [1] [] []
  dot_S100000x24_S24x3_S100000x3_1_0_0_1_n_n_wf : DotDims.WF S100000x24 S24x3 S100000x3 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x24_S100000x24_1_0_0_1_n_n : DotDims S100000x64 S64x24 S100000x24 where
  lhsContracting := [1]
  rhsContracting := [0]
  lhsNonContracting := [0]
  rhsNonContracting := [1]
  lhsBatch := []
  rhsBatch := []
  wf := dot_S100000x64_S64x24_S100000x24_1_0_0_1_n_n_wf
def dot_S100000x24_S24x3_S100000x3_1_0_0_1_n_n : DotDims S100000x24 S24x3 S100000x3 where
  lhsContracting := [1]
  rhsContracting := [0]
  lhsNonContracting := [0]
  rhsNonContracting := [1]
  lhsBatch := []
  rhsBatch := []
  wf := dot_S100000x24_S24x3_S100000x3_1_0_0_1_n_n_wf

class Facts : Prop extends Facts₀ where

variable [Facts]
-- ==== Proof.KRun.lean ====
/-
  The kernel program's run with EVERY unscoped buffer's final contents named.

  The program is ten tiled regions among stretches of host operations. Its buffers' contents at each boundary are a fold
  from the launch memory: a host stretch applies its operations, a region leaves each of its arrays at what its
  write-backs fold to and every other buffer as entered. The last boundary's contents are `Gen.W18 m ρ c`; this module
  states that every weakly fair execution terminates with every unscoped buffer at exactly those contents — in
  particular the result array, which is region 9's output. (The launch of the segments is the one the frame statement
  uses; only the reading of the final state differs: all buffers instead of the arguments.)
-/
import proofs.«179626_j43602507989842_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W18 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c b hb => h c _ (mem_uc b hb))

end Cert.KernelIdeal.RunAll

end
-- ==== Proof.KKeep.lean ====
/-
  Which buffers the host stretches and the regions leave alone.

  A host stretch writes only its operations' result buffers, and a region writes only its windows' arrays. So an
  argument array — never a result buffer, and read by a region only through an input window — holds its launch
  contents at every boundary of the program; `argJ_atN` says so for boundary `N` (the contents `Gen.WN`).
-/
import proofs.«179626_j43602507989842_1_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers host stretch 1 writes. -/
abbrev wl1 : List (Ref sig .tc) := [main_v1, main_v2, main_v3, main_v4]
theorem writes1 : (hostOps1 : List (HloOp τ sig (Elt F))).Forall fun op => op.writes ⊆ ((wl1).map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 1 does not write keeps its contents. -/
theorem keep1 (W : Valuation τ sig (Elt F)) (r : Ref sig .tc) (hr : r ∉ wl1) :
    StableHlo.after hostOps1 W (Proc.devRef .tc r) = W (Proc.devRef .tc r) :=
  StableHlo.after_of_writes_sub _ _ writes1 hr

/-- The buffers host stretch 2 writes. -/
abbrev wl2 : List (Ref sig .tc) := [main_c, main_v6, main_v7, main_c_0, main_v8, main_v9, main_v10, main_v11, main_v12, main_v13, main_v14, main_v15, main_cst, main_v16, main_v17, main_v18, main_v19, main_v20, main_v21, main_v22, main_v23, main_v24, main_v25, main_v26, main_v27, main_v28, main_v29, main_v30]
theorem writes2 : (hostOps2 : List (HloOp τ sig (Elt F))).Forall fun op => op.writes ⊆ ((wl2).map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 2 does not write keeps its contents. -/
theorem keep2 (W : Valuation τ sig (Elt F)) (r : Ref sig .tc) (hr : r ∉ wl2) :
    StableHlo.after hostOps2 W (Proc.devRef .tc r) = W (Proc.devRef .tc r) :=
  StableHlo.after_of_writes_sub _ _ writes2 hr

/-- The buffers host stretch 3 writes. -/
abbrev wl3 : List (Ref sig .tc) := [main_v32, main_v33, main_v34, main_v35]
theorem writes3 : (hostOps3 : List (HloOp τ sig (Elt F))).Forall fun op => op.writes ⊆ ((wl3).map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 3 does not write keeps its contents. -/
theorem keep3 (W : Valuation τ sig (Elt F)) (r : Ref sig .tc) (hr : r ∉ wl3) :
    StableHlo.after hostOps3 W (Proc.devRef .tc r) = W (Proc.devRef .tc r) :=
  StableHlo.after_of_writes_sub _ _ writes3 hr

/-- The buffers host stretch 4 writes. -/
abbrev wl4 : List (Ref sig .tc) := [main_c_1, main_v37, main_v38, main_c_2, main_v39, main_v40, main_v41, main_v42, main_v43, main_v44, main_v45, main_v46, main_cst_3, main_v47, main_v48, main_v49, main_v50, main_v51, main_v52, main_v53, main_v54, main_v55, main_v56, main_v57, main_v58, main_v59, main_v60, main_v61]
theorem writes4 : (hostOps4 : List (HloOp τ sig (Elt F))).Forall fun op => op.writes ⊆ ((wl4).map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 4 does not write keeps its contents. -/
theorem keep4 (W : Valuation τ sig (Elt F)) (r : Ref sig .tc) (hr : r ∉ wl4) :
    StableHlo.after hostOps4 W (Proc.devRef .tc r) = W (Proc.devRef .tc r) :=
  StableHlo.after_of_writes_sub _ _ writes4 hr

/-- The buffers host stretch 5 writes. -/
abbrev wl5 : List (Ref sig .tc) := [main_v63, main_v64, main_v65, main_v66]
theorem writes5 : (hostOps5 : List (HloOp τ sig (Elt F))).Forall fun op => op.writes ⊆ ((wl5).map (Proc.devRef (τ := τ) .tc)).toFinset := by
  simp only [hostOps5, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 5 does not write keeps its contents. -/
theorem keep5 (W : Valuation τ sig (Elt F)) (r : Ref sig .tc) (hr : r ∉ wl5) :
    StableHlo.after hostOps5 W (Proc.devRef .tc r) = W (Proc.devRef .tc r) :=
  StableHlo.after_of_writes_sub _ _ writes5 hr

/-- The buffers host stretch 6 writes. -/
abbrev wl6 : List (Ref sig .tc) := [main_c_4, main_v68, main_v69, main_c_5, main_v70, main_v71, main_v72, main_v73, main_v74, main_v75, main_v76, main_v77, main_cst_6, main_v78, main_v79, main_v80, main_v81, main_v82, main_v83, main_v84, main_v85, main_v86, main_v87, main_v88, main_v89, main_v90, main_v91, main_v92]
theorem writes6 : (hostOps6 : List (HloOp τ sig (Elt F))).Forall fun op => op.writes ⊆ ((wl6).map (Proc.devRef (τ := τ) .tc)).toFinset := by
  simp only [hostOps6, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 6 does not write keeps its contents. -/
theorem keep6 (W : Valuation τ sig (Elt F)) (r : Ref sig .tc) (hr : r ∉ wl6) :
    StableHlo.after hostOps6 W (Proc.devRef .tc r) = W (Proc.devRef .tc r) :=
  StableHlo.after_of_writes_sub _ _ writes6 hr

/-- The buffers host stretch 7 writes. -/
abbrev wl7 : List (Ref sig .tc) := [main_v94, main_v95, main_v96, main_v97]
theorem writes7 : (hostOps7 : List (HloOp τ sig (Elt F))).Forall fun op => op.writes ⊆ ((wl7).map (Proc.devRef (τ := τ) .tc)).toFinset := by
  simp only [hostOps7, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 7 does not write keeps its contents. -/
theorem keep7 (W : Valuation τ sig (Elt F)) (r : Ref sig .tc) (hr : r ∉ wl7) :
    StableHlo.after hostOps7 W (Proc.devRef .tc r) = W (Proc.devRef .tc r) :=
  StableHlo.after_of_writes_sub _ _ writes7 hr

/-- The buffers host stretch 8 writes. -/
abbrev wl8 : List (Ref sig .tc) := [main_c_7, main_v99, main_v100, main_c_8, main_v101, main_v102, main_v103, main_v104, main_v105, main_v106, main_v107, main_v108, main_cst_9, main_v109, main_v110, main_v111, main_v112, main_v113, main_v114, main_v115, main_v116, main_v117, main_v118, main_v119, main_v120, main_v121, main_v122, main_v123]
theorem writes8 : (hostOps8 : List (HloOp τ sig (Elt F))).Forall fun op => op.writes ⊆ ((wl8).map (Proc.devRef (τ := τ) .tc)).toFinset := by
  simp only [hostOps8, List.Forall, StableHlo.nullary_writes, StableHlo.unary_writes, StableHlo.binary_writes, StableHlo.ternary_writes, StableHlo.quaternary_writes, StableHlo.reshape_writes, Finset.singleton_subset_iff]
  repeat' apply And.intro
  all_goals exact List.mem_toFinset.mpr (List.mem_map.mpr ⟨_, by decide, rfl⟩)
/-- A buffer host stretch 8 does not write keeps its contents. -/
theorem keep8 (W : Valuation τ sig (Elt F)) (r : Ref sig .tc) (hr : r ∉ wl8) :
    StableHlo.after hostOps8 W (Proc.devRef .tc r) = W (Proc.devRef .tc r) :=
  StableHlo.after_of_writes_sub _ _ writes8 hr

/-! ### main_arg2 at every boundary -/
theorem arg2_at1 (c : Dev nD) : W1 m ρ c (Proc.devRef .tc main_arg2) = m ((c : Thread nD τ).loc main_arg2) :=
  (W1_of_ne m ρ c main_arg2 (by decide)).trans rfl
theorem arg2_at2 (c : Dev nD) : W2 m ρ c (Proc.devRef .tc main_arg2) = m ((c : Thread nD τ).loc main_arg2) :=
  (keep1 (W1 m ρ c) main_arg2 (by decide)).trans (arg2_at1 m ρ c)
theorem arg2_at3 (c : Dev nD) : W3 m ρ c (Proc.devRef .tc main_arg2) = m ((c : Thread nD τ).loc main_arg2) :=
  (W3_of_ne m ρ c main_arg2 (by decide)).trans (arg2_at2 m ρ c)
theorem arg2_at4 (c : Dev nD) : W4 m ρ c (Proc.devRef .tc main_arg2) = m ((c : Thread nD τ).loc main_arg2) :=
  (keep2 (W3 m ρ c) main_arg2 (by decide)).trans (arg2_at3 m ρ c)
theorem arg2_at5 (c : Dev nD) : W5 m ρ c (Proc.devRef .tc main_arg2) = m ((c : Thread nD τ).loc main_arg2) :=
  (W5_of_ne m ρ c main_arg2 (by decide)).trans (arg2_at4 m ρ c)
theorem arg2_at6 (c : Dev nD) : W6 m ρ c (Proc.devRef .tc main_arg2) = m ((c : Thread nD τ).loc main_arg2) :=
  (keep3 (W5 m ρ c) main_arg2 (by decide)).trans (arg2_at5 m ρ c)
theorem arg2_at7 (c : Dev nD) : W7 m ρ c (Proc.devRef .tc main_arg2) = m ((c : Thread nD τ).loc main_arg2) :=
  (W7_of_ne m ρ c main_arg2 (by decide)).trans (arg2_at6 m ρ c)
theorem arg2_at8 (c : Dev nD) : W8 m ρ c (Proc.devRef .tc main_arg2) = m ((c : Thread nD τ).loc main_arg2) :=
  (keep4 (W7 m ρ c) main_arg2 (by decide)).trans (arg2_at7 m ρ c)
theorem arg2_at9 (c : Dev nD) : W9 m ρ c (Proc.devRef .tc main_arg2) = m ((c : Thread nD τ).loc main_arg2) :=
  (W9_of_ne m ρ c main_arg2 (by decide)).trans (arg2_at8 m ρ c)
theorem arg2_at10 (c : Dev nD) : W10 m ρ c (Proc.devRef .tc main_arg2) = m ((c : Thread nD τ).loc main_arg2) :=
  (keep5 (W9 m ρ c) main_arg2 (by decide)).trans (arg2_at9 m ρ c)
theorem arg2_at11 (c : Dev nD) : W11 m ρ c (Proc.devRef .tc main_arg2) = m ((c : Thread nD τ).loc main_arg2) :=
  (W11_of_ne m ρ c main_arg2 (by decide)).trans (arg2_at10 m ρ c)
theorem arg2_at12 (c : Dev nD) : W12 m ρ c (Proc.devRef .tc main_arg2) = m ((c : Thread nD τ).loc main_arg2) :=
  (keep6 (W11 m ρ c) main_arg2 (by decide)).trans (arg2_at11 m ρ c)
theorem arg2_at13 (c : Dev nD) : W13 m ρ c (Proc.devRef .tc main_arg2) = m ((c : Thread nD τ).loc main_arg2) :=
  (W13_of_ne m ρ c main_arg2 (by decide)).trans (arg2_at12 m ρ c)
theorem arg2_at14 (c : Dev nD) : W14 m ρ c (Proc.devRef .tc main_arg2) = m ((c : Thread nD τ).loc main_arg2) :=
  (keep7 (W13 m ρ c) main_arg2 (by decide)).trans (arg2_at13 m ρ c)
theorem arg2_at15 (c : Dev nD) : W15 m ρ c (Proc.devRef .tc main_arg2) = m ((c : Thread nD τ).loc main_arg2) :=
  (W15_of_ne m ρ c main_arg2 (by decide)).trans (arg2_at14 m ρ c)
theorem arg2_at16 (c : Dev nD) : W16 m ρ c (Proc.devRef .tc main_arg2) = m ((c : Thread nD τ).loc main_arg2) :=
  (keep8 (W15 m ρ c) main_arg2 (by decide)).trans (arg2_at15 m ρ c)
theorem arg2_at17 (c : Dev nD) : W17 m ρ c (Proc.devRef .tc main_arg2) = m ((c : Thread nD τ).loc main_arg2) :=
  (W17_of_ne m ρ c main_arg2 (by decide)).trans (arg2_at16 m ρ c)

/-! ### main_arg3 at every boundary -/
theorem arg3_at1 (c : Dev nD) : W1 m ρ c (Proc.devRef .tc main_arg3) = m ((c : Thread nD τ).loc main_arg3) :=
  (W1_of_ne m ρ c main_arg3 (by decide)).trans rfl
theorem arg3_at2 (c : Dev nD) : W2 m ρ c (Proc.devRef .tc main_arg3) = m ((c : Thread nD τ).loc main_arg3) :=
  (keep1 (W1 m ρ c) main_arg3 (by decide)).trans (arg3_at1 m ρ c)
theorem arg3_at3 (c : Dev nD) : W3 m ρ c (Proc.devRef .tc main_arg3) = m ((c : Thread nD τ).loc main_arg3) :=
  (W3_of_ne m ρ c main_arg3 (by decide)).trans (arg3_at2 m ρ c)
theorem arg3_at4 (c : Dev nD) : W4 m ρ c (Proc.devRef .tc main_arg3) = m ((c : Thread nD τ).loc main_arg3) :=
  (keep2 (W3 m ρ c) main_arg3 (by decide)).trans (arg3_at3 m ρ c)
theorem arg3_at5 (c : Dev nD) : W5 m ρ c (Proc.devRef .tc main_arg3) = m ((c : Thread nD τ).loc main_arg3) :=
  (W5_of_ne m ρ c main_arg3 (by decide)).trans (arg3_at4 m ρ c)
theorem arg3_at6 (c : Dev nD) : W6 m ρ c (Proc.devRef .tc main_arg3) = m ((c : Thread nD τ).loc main_arg3) :=
  (keep3 (W5 m ρ c) main_arg3 (by decide)).trans (arg3_at5 m ρ c)
theorem arg3_at7 (c : Dev nD) : W7 m ρ c (Proc.devRef .tc main_arg3) = m ((c : Thread nD τ).loc main_arg3) :=
  (W7_of_ne m ρ c main_arg3 (by decide)).trans (arg3_at6 m ρ c)
theorem arg3_at8 (c : Dev nD) : W8 m ρ c (Proc.devRef .tc main_arg3) = m ((c : Thread nD τ).loc main_arg3) :=
  (keep4 (W7 m ρ c) main_arg3 (by decide)).trans (arg3_at7 m ρ c)
theorem arg3_at9 (c : Dev nD) : W9 m ρ c (Proc.devRef .tc main_arg3) = m ((c : Thread nD τ).loc main_arg3) :=
  (W9_of_ne m ρ c main_arg3 (by decide)).trans (arg3_at8 m ρ c)
theorem arg3_at10 (c : Dev nD) : W10 m ρ c (Proc.devRef .tc main_arg3) = m ((c : Thread nD τ).loc main_arg3) :=
  (keep5 (W9 m ρ c) main_arg3 (by decide)).trans (arg3_at9 m ρ c)
theorem arg3_at11 (c : Dev nD) : W11 m ρ c (Proc.devRef .tc main_arg3) = m ((c : Thread nD τ).loc main_arg3) :=
  (W11_of_ne m ρ c main_arg3 (by decide)).trans (arg3_at10 m ρ c)
theorem arg3_at12 (c : Dev nD) : W12 m ρ c (Proc.devRef .tc main_arg3) = m ((c : Thread nD τ).loc main_arg3) :=
  (keep6 (W11 m ρ c) main_arg3 (by decide)).trans (arg3_at11 m ρ c)
theorem arg3_at13 (c : Dev nD) : W13 m ρ c (Proc.devRef .tc main_arg3) = m ((c : Thread nD τ).loc main_arg3) :=
  (W13_of_ne m ρ c main_arg3 (by decide)).trans (arg3_at12 m ρ c)
theorem arg3_at14 (c : Dev nD) : W14 m ρ c (Proc.devRef .tc main_arg3) = m ((c : Thread nD τ).loc main_arg3) :=
  (keep7 (W13 m ρ c) main_arg3 (by decide)).trans (arg3_at13 m ρ c)
theorem arg3_at15 (c : Dev nD) : W15 m ρ c (Proc.devRef .tc main_arg3) = m ((c : Thread nD τ).loc main_arg3) :=
  (W15_of_ne m ρ c main_arg3 (by decide)).trans (arg3_at14 m ρ c)
theorem arg3_at16 (c : Dev nD) : W16 m ρ c (Proc.devRef .tc main_arg3) = m ((c : Thread nD τ).loc main_arg3) :=
  (keep8 (W15 m ρ c) main_arg3 (by decide)).trans (arg3_at15 m ρ c)
theorem arg3_at17 (c : Dev nD) : W17 m ρ c (Proc.devRef .tc main_arg3) = m ((c : Thread nD τ).loc main_arg3) :=
  (W17_of_ne m ρ c main_arg3 (by decide)).trans (arg3_at16 m ρ c)

/-! ### main_arg4 at every boundary -/
theorem arg4_at1 (c : Dev nD) : W1 m ρ c (Proc.devRef .tc main_arg4) = m ((c : Thread nD τ).loc main_arg4) :=
  (W1_of_ne m ρ c main_arg4 (by decide)).trans rfl
theorem arg4_at2 (c : Dev nD) : W2 m ρ c (Proc.devRef .tc main_arg4) = m ((c : Thread nD τ).loc main_arg4) :=
  (keep1 (W1 m ρ c) main_arg4 (by decide)).trans (arg4_at1 m ρ c)
theorem arg4_at3 (c : Dev nD) : W3 m ρ c (Proc.devRef .tc main_arg4) = m ((c : Thread nD τ).loc main_arg4) :=
  (W3_of_ne m ρ c main_arg4 (by decide)).trans (arg4_at2 m ρ c)
theorem arg4_at4 (c : Dev nD) : W4 m ρ c (Proc.devRef .tc main_arg4) = m ((c : Thread nD τ).loc main_arg4) :=
  (keep2 (W3 m ρ c) main_arg4 (by decide)).trans (arg4_at3 m ρ c)
theorem arg4_at5 (c : Dev nD) : W5 m ρ c (Proc.devRef .tc main_arg4) = m ((c : Thread nD τ).loc main_arg4) :=
  (W5_of_ne m ρ c main_arg4 (by decide)).trans (arg4_at4 m ρ c)
theorem arg4_at6 (c : Dev nD) : W6 m ρ c (Proc.devRef .tc main_arg4) = m ((c : Thread nD τ).loc main_arg4) :=
  (keep3 (W5 m ρ c) main_arg4 (by decide)).trans (arg4_at5 m ρ c)
theorem arg4_at7 (c : Dev nD) : W7 m ρ c (Proc.devRef .tc main_arg4) = m ((c : Thread nD τ).loc main_arg4) :=
  (W7_of_ne m ρ c main_arg4 (by decide)).trans (arg4_at6 m ρ c)
theorem arg4_at8 (c : Dev nD) : W8 m ρ c (Proc.devRef .tc main_arg4) = m ((c : Thread nD τ).loc main_arg4) :=
  (keep4 (W7 m ρ c) main_arg4 (by decide)).trans (arg4_at7 m ρ c)
theorem arg4_at9 (c : Dev nD) : W9 m ρ c (Proc.devRef .tc main_arg4) = m ((c : Thread nD τ).loc main_arg4) :=
  (W9_of_ne m ρ c main_arg4 (by decide)).trans (arg4_at8 m ρ c)
theorem arg4_at10 (c : Dev nD) : W10 m ρ c (Proc.devRef .tc main_arg4) = m ((c : Thread nD τ).loc main_arg4) :=
  (keep5 (W9 m ρ c) main_arg4 (by decide)).trans (arg4_at9 m ρ c)
theorem arg4_at11 (c : Dev nD) : W11 m ρ c (Proc.devRef .tc main_arg4) = m ((c : Thread nD τ).loc main_arg4) :=
  (W11_of_ne m ρ c main_arg4 (by decide)).trans (arg4_at10 m ρ c)
theorem arg4_at12 (c : Dev nD) : W12 m ρ c (Proc.devRef .tc main_arg4) = m ((c : Thread nD τ).loc main_arg4) :=
  (keep6 (W11 m ρ c) main_arg4 (by decide)).trans (arg4_at11 m ρ c)
theorem arg4_at13 (c : Dev nD) : W13 m ρ c (Proc.devRef .tc main_arg4) = m ((c : Thread nD τ).loc main_arg4) :=
  (W13_of_ne m ρ c main_arg4 (by decide)).trans (arg4_at12 m ρ c)
theorem arg4_at14 (c : Dev nD) : W14 m ρ c (Proc.devRef .tc main_arg4) = m ((c : Thread nD τ).loc main_arg4) :=
  (keep7 (W13 m ρ c) main_arg4 (by decide)).trans (arg4_at13 m ρ c)
theorem arg4_at15 (c : Dev nD) : W15 m ρ c (Proc.devRef .tc main_arg4) = m ((c : Thread nD τ).loc main_arg4) :=
  (W15_of_ne m ρ c main_arg4 (by decide)).trans (arg4_at14 m ρ c)
theorem arg4_at16 (c : Dev nD) : W16 m ρ c (Proc.devRef .tc main_arg4) = m ((c : Thread nD τ).loc main_arg4) :=
  (keep8 (W15 m ρ c) main_arg4 (by decide)).trans (arg4_at15 m ρ c)
theorem arg4_at17 (c : Dev nD) : W17 m ρ c (Proc.devRef .tc main_arg4) = m ((c : Thread nD τ).loc main_arg4) :=
  (W17_of_ne m ρ c main_arg4 (by decide)).trans (arg4_at16 m ρ c)

/-! ### main_arg9 at every boundary -/
theorem arg9_at1 (c : Dev nD) : W1 m ρ c (Proc.devRef .tc main_arg9) = m ((c : Thread nD τ).loc main_arg9) :=
  (W1_of_ne m ρ c main_arg9 (by decide)).trans rfl
theorem arg9_at2 (c : Dev nD) : W2 m ρ c (Proc.devRef .tc main_arg9) = m ((c : Thread nD τ).loc main_arg9) :=
  (keep1 (W1 m ρ c) main_arg9 (by decide)).trans (arg9_at1 m ρ c)
theorem arg9_at3 (c : Dev nD) : W3 m ρ c (Proc.devRef .tc main_arg9) = m ((c : Thread nD τ).loc main_arg9) :=
  (W3_of_ne m ρ c main_arg9 (by decide)).trans (arg9_at2 m ρ c)
theorem arg9_at4 (c : Dev nD) : W4 m ρ c (Proc.devRef .tc main_arg9) = m ((c : Thread nD τ).loc main_arg9) :=
  (keep2 (W3 m ρ c) main_arg9 (by decide)).trans (arg9_at3 m ρ c)
theorem arg9_at5 (c : Dev nD) : W5 m ρ c (Proc.devRef .tc main_arg9) = m ((c : Thread nD τ).loc main_arg9) :=
  (W5_of_ne m ρ c main_arg9 (by decide)).trans (arg9_at4 m ρ c)
theorem arg9_at6 (c : Dev nD) : W6 m ρ c (Proc.devRef .tc main_arg9) = m ((c : Thread nD τ).loc main_arg9) :=
  (keep3 (W5 m ρ c) main_arg9 (by decide)).trans (arg9_at5 m ρ c)
theorem arg9_at7 (c : Dev nD) : W7 m ρ c (Proc.devRef .tc main_arg9) = m ((c : Thread nD τ).loc main_arg9) :=
  (W7_of_ne m ρ c main_arg9 (by decide)).trans (arg9_at6 m ρ c)
theorem arg9_at8 (c : Dev nD) : W8 m ρ c (Proc.devRef .tc main_arg9) = m ((c : Thread nD τ).loc main_arg9) :=
  (keep4 (W7 m ρ c) main_arg9 (by decide)).trans (arg9_at7 m ρ c)
theorem arg9_at9 (c : Dev nD) : W9 m ρ c (Proc.devRef .tc main_arg9) = m ((c : Thread nD τ).loc main_arg9) :=
  (W9_of_ne m ρ c main_arg9 (by decide)).trans (arg9_at8 m ρ c)
theorem arg9_at10 (c : Dev nD) : W10 m ρ c (Proc.devRef .tc main_arg9) = m ((c : Thread nD τ).loc main_arg9) :=
  (keep5 (W9 m ρ c) main_arg9 (by decide)).trans (arg9_at9 m ρ c)
theorem arg9_at11 (c : Dev nD) : W11 m ρ c (Proc.devRef .tc main_arg9) = m ((c : Thread nD τ).loc main_arg9) :=
  (W11_of_ne m ρ c main_arg9 (by decide)).trans (arg9_at10 m ρ c)
theorem arg9_at12 (c : Dev nD) : W12 m ρ c (Proc.devRef .tc main_arg9) = m ((c : Thread nD τ).loc main_arg9) :=
  (keep6 (W11 m ρ c) main_arg9 (by decide)).trans (arg9_at11 m ρ c)
theorem arg9_at13 (c : Dev nD) : W13 m ρ c (Proc.devRef .tc main_arg9) = m ((c : Thread nD τ).loc main_arg9) :=
  (W13_of_ne m ρ c main_arg9 (by decide)).trans (arg9_at12 m ρ c)
theorem arg9_at14 (c : Dev nD) : W14 m ρ c (Proc.devRef .tc main_arg9) = m ((c : Thread nD τ).loc main_arg9) :=
  (keep7 (W13 m ρ c) main_arg9 (by decide)).trans (arg9_at13 m ρ c)
theorem arg9_at15 (c : Dev nD) : W15 m ρ c (Proc.devRef .tc main_arg9) = m ((c : Thread nD τ).loc main_arg9) :=
  (W15_of_ne m ρ c main_arg9 (by decide)).trans (arg9_at14 m ρ c)
theorem arg9_at16 (c : Dev nD) : W16 m ρ c (Proc.devRef .tc main_arg9) = m ((c : Thread nD τ).loc main_arg9) :=
  (keep8 (W15 m ρ c) main_arg9 (by decide)).trans (arg9_at15 m ρ c)
theorem arg9_at17 (c : Dev nD) : W17 m ρ c (Proc.devRef .tc main_arg9) = m ((c : Thread nD τ).loc main_arg9) :=
  (W17_of_ne m ρ c main_arg9 (by decide)).trans (arg9_at16 m ρ c)

/-! ### main_arg10 at every boundary -/
theorem arg10_at1 (c : Dev nD) : W1 m ρ c (Proc.devRef .tc main_arg10) = m ((c : Thread nD τ).loc main_arg10) :=
  (W1_of_ne m ρ c main_arg10 (by decide)).trans rfl
theorem arg10_at2 (c : Dev nD) : W2 m ρ c (Proc.devRef .tc main_arg10) = m ((c : Thread nD τ).loc main_arg10) :=
  (keep1 (W1 m ρ c) main_arg10 (by decide)).trans (arg10_at1 m ρ c)
theorem arg10_at3 (c : Dev nD) : W3 m ρ c (Proc.devRef .tc main_arg10) = m ((c : Thread nD τ).loc main_arg10) :=
  (W3_of_ne m ρ c main_arg10 (by decide)).trans (arg10_at2 m ρ c)
theorem arg10_at4 (c : Dev nD) : W4 m ρ c (Proc.devRef .tc main_arg10) = m ((c : Thread nD τ).loc main_arg10) :=
  (keep2 (W3 m ρ c) main_arg10 (by decide)).trans (arg10_at3 m ρ c)
theorem arg10_at5 (c : Dev nD) : W5 m ρ c (Proc.devRef .tc main_arg10) = m ((c : Thread nD τ).loc main_arg10) :=
  (W5_of_ne m ρ c main_arg10 (by decide)).trans (arg10_at4 m ρ c)
theorem arg10_at6 (c : Dev nD) : W6 m ρ c (Proc.devRef .tc main_arg10) = m ((c : Thread nD τ).loc main_arg10) :=
  (keep3 (W5 m ρ c) main_arg10 (by decide)).trans (arg10_at5 m ρ c)
theorem arg10_at7 (c : Dev nD) : W7 m ρ c (Proc.devRef .tc main_arg10) = m ((c : Thread nD τ).loc main_arg10) :=
  (W7_of_ne m ρ c main_arg10 (by decide)).trans (arg10_at6 m ρ c)
theorem arg10_at8 (c : Dev nD) : W8 m ρ c (Proc.devRef .tc main_arg10) = m ((c : Thread nD τ).loc main_arg10) :=
  (keep4 (W7 m ρ c) main_arg10 (by decide)).trans (arg10_at7 m ρ c)
theorem arg10_at9 (c : Dev nD) : W9 m ρ c (Proc.devRef .tc main_arg10) = m ((c : Thread nD τ).loc main_arg10) :=
  (W9_of_ne m ρ c main_arg10 (by decide)).trans (arg10_at8 m ρ c)
theorem arg10_at10 (c : Dev nD) : W10 m ρ c (Proc.devRef .tc main_arg10) = m ((c : Thread nD τ).loc main_arg10) :=
  (keep5 (W9 m ρ c) main_arg10 (by decide)).trans (arg10_at9 m ρ c)
theorem arg10_at11 (c : Dev nD) : W11 m ρ c (Proc.devRef .tc main_arg10) = m ((c : Thread nD τ).loc main_arg10) :=
  (W11_of_ne m ρ c main_arg10 (by decide)).trans (arg10_at10 m ρ c)
theorem arg10_at12 (c : Dev nD) : W12 m ρ c (Proc.devRef .tc main_arg10) = m ((c : Thread nD τ).loc main_arg10) :=
  (keep6 (W11 m ρ c) main_arg10 (by decide)).trans (arg10_at11 m ρ c)
theorem arg10_at13 (c : Dev nD) : W13 m ρ c (Proc.devRef .tc main_arg10) = m ((c : Thread nD τ).loc main_arg10) :=
  (W13_of_ne m ρ c main_arg10 (by decide)).trans (arg10_at12 m ρ c)
theorem arg10_at14 (c : Dev nD) : W14 m ρ c (Proc.devRef .tc main_arg10) = m ((c : Thread nD τ).loc main_arg10) :=
  (keep7 (W13 m ρ c) main_arg10 (by decide)).trans (arg10_at13 m ρ c)
theorem arg10_at15 (c : Dev nD) : W15 m ρ c (Proc.devRef .tc main_arg10) = m ((c : Thread nD τ).loc main_arg10) :=
  (W15_of_ne m ρ c main_arg10 (by decide)).trans (arg10_at14 m ρ c)
theorem arg10_at16 (c : Dev nD) : W16 m ρ c (Proc.devRef .tc main_arg10) = m ((c : Thread nD τ).loc main_arg10) :=
  (keep8 (W15 m ρ c) main_arg10 (by decide)).trans (arg10_at15 m ρ c)
theorem arg10_at17 (c : Dev nD) : W17 m ρ c (Proc.devRef .tc main_arg10) = m ((c : Thread nD τ).loc main_arg10) :=
  (W17_of_ne m ρ c main_arg10 (by decide)).trans (arg10_at16 m ρ c)

/-! ### main_arg11 at every boundary -/
theorem arg11_at1 (c : Dev nD) : W1 m ρ c (Proc.devRef .tc main_arg11) = m ((c : Thread nD τ).loc main_arg11) :=
  (W1_of_ne m ρ c main_arg11 (by decide)).trans rfl
theorem arg11_at2 (c : Dev nD) : W2 m ρ c (Proc.devRef .tc main_arg11) = m ((c : Thread nD τ).loc main_arg11) :=
  (keep1 (W1 m ρ c) main_arg11 (by decide)).trans (arg11_at1 m ρ c)
theorem arg11_at3 (c : Dev nD) : W3 m ρ c (Proc.devRef .tc main_arg11) = m ((c : Thread nD τ).loc main_arg11) :=
  (W3_of_ne m ρ c main_arg11 (by decide)).trans (arg11_at2 m ρ c)
theorem arg11_at4 (c : Dev nD) : W4 m ρ c (Proc.devRef .tc main_arg11) = m ((c : Thread nD τ).loc main_arg11) :=
  (keep2 (W3 m ρ c) main_arg11 (by decide)).trans (arg11_at3 m ρ c)
theorem arg11_at5 (c : Dev nD) : W5 m ρ c (Proc.devRef .tc main_arg11) = m ((c : Thread nD τ).loc main_arg11) :=
  (W5_of_ne m ρ c main_arg11 (by decide)).trans (arg11_at4 m ρ c)
theorem arg11_at6 (c : Dev nD) : W6 m ρ c (Proc.devRef .tc main_arg11) = m ((c : Thread nD τ).loc main_arg11) :=
  (keep3 (W5 m ρ c) main_arg11 (by decide)).trans (arg11_at5 m ρ c)
theorem arg11_at7 (c : Dev nD) : W7 m ρ c (Proc.devRef .tc main_arg11) = m ((c : Thread nD τ).loc main_arg11) :=
  (W7_of_ne m ρ c main_arg11 (by decide)).trans (arg11_at6 m ρ c)
theorem arg11_at8 (c : Dev nD) : W8 m ρ c (Proc.devRef .tc main_arg11) = m ((c : Thread nD τ).loc main_arg11) :=
  (keep4 (W7 m ρ c) main_arg11 (by decide)).trans (arg11_at7 m ρ c)
theorem arg11_at9 (c : Dev nD) : W9 m ρ c (Proc.devRef .tc main_arg11) = m ((c : Thread nD τ).loc main_arg11) :=
  (W9_of_ne m ρ c main_arg11 (by decide)).trans (arg11_at8 m ρ c)
theorem arg11_at10 (c : Dev nD) : W10 m ρ c (Proc.devRef .tc main_arg11) = m ((c : Thread nD τ).loc main_arg11) :=
  (keep5 (W9 m ρ c) main_arg11 (by decide)).trans (arg11_at9 m ρ c)
theorem arg11_at11 (c : Dev nD) : W11 m ρ c (Proc.devRef .tc main_arg11) = m ((c : Thread nD τ).loc main_arg11) :=
  (W11_of_ne m ρ c main_arg11 (by decide)).trans (arg11_at10 m ρ c)
theorem arg11_at12 (c : Dev nD) : W12 m ρ c (Proc.devRef .tc main_arg11) = m ((c : Thread nD τ).loc main_arg11) :=
  (keep6 (W11 m ρ c) main_arg11 (by decide)).trans (arg11_at11 m ρ c)
theorem arg11_at13 (c : Dev nD) : W13 m ρ c (Proc.devRef .tc main_arg11) = m ((c : Thread nD τ).loc main_arg11) :=
  (W13_of_ne m ρ c main_arg11 (by decide)).trans (arg11_at12 m ρ c)
theorem arg11_at14 (c : Dev nD) : W14 m ρ c (Proc.devRef .tc main_arg11) = m ((c : Thread nD τ).loc main_arg11) :=
  (keep7 (W13 m ρ c) main_arg11 (by decide)).trans (arg11_at13 m ρ c)
theorem arg11_at15 (c : Dev nD) : W15 m ρ c (Proc.devRef .tc main_arg11) = m ((c : Thread nD τ).loc main_arg11) :=
  (W15_of_ne m ρ c main_arg11 (by decide)).trans (arg11_at14 m ρ c)
theorem arg11_at16 (c : Dev nD) : W16 m ρ c (Proc.devRef .tc main_arg11) = m ((c : Thread nD τ).loc main_arg11) :=
  (keep8 (W15 m ρ c) main_arg11 (by decide)).trans (arg11_at15 m ρ c)
theorem arg11_at17 (c : Dev nD) : W17 m ρ c (Proc.devRef .tc main_arg11) = m ((c : Thread nD τ).loc main_arg11) :=
  (W17_of_ne m ρ c main_arg11 (by decide)).trans (arg11_at16 m ρ c)

/-! ### main_arg12 at every boundary -/
theorem arg12_at1 (c : Dev nD) : W1 m ρ c (Proc.devRef .tc main_arg12) = m ((c : Thread nD τ).loc main_arg12) :=
  (W1_of_ne m ρ c main_arg12 (by decide)).trans rfl
theorem arg12_at2 (c : Dev nD) : W2 m ρ c (Proc.devRef .tc main_arg12) = m ((c : Thread nD τ).loc main_arg12) :=
  (keep1 (W1 m ρ c) main_arg12 (by decide)).trans (arg12_at1 m ρ c)
theorem arg12_at3 (c : Dev nD) : W3 m ρ c (Proc.devRef .tc main_arg12) = m ((c : Thread nD τ).loc main_arg12) :=
  (W3_of_ne m ρ c main_arg12 (by decide)).trans (arg12_at2 m ρ c)
theorem arg12_at4 (c : Dev nD) : W4 m ρ c (Proc.devRef .tc main_arg12) = m ((c : Thread nD τ).loc main_arg12) :=
  (keep2 (W3 m ρ c) main_arg12 (by decide)).trans (arg12_at3 m ρ c)
theorem arg12_at5 (c : Dev nD) : W5 m ρ c (Proc.devRef .tc main_arg12) = m ((c : Thread nD τ).loc main_arg12) :=
  (W5_of_ne m ρ c main_arg12 (by decide)).trans (arg12_at4 m ρ c)
theorem arg12_at6 (c : Dev nD) : W6 m ρ c (Proc.devRef .tc main_arg12) = m ((c : Thread nD τ).loc main_arg12) :=
  (keep3 (W5 m ρ c) main_arg12 (by decide)).trans (arg12_at5 m ρ c)
theorem arg12_at7 (c : Dev nD) : W7 m ρ c (Proc.devRef .tc main_arg12) = m ((c : Thread nD τ).loc main_arg12) :=
  (W7_of_ne m ρ c main_arg12 (by decide)).trans (arg12_at6 m ρ c)
theorem arg12_at8 (c : Dev nD) : W8 m ρ c (Proc.devRef .tc main_arg12) = m ((c : Thread nD τ).loc main_arg12) :=
  (keep4 (W7 m ρ c) main_arg12 (by decide)).trans (arg12_at7 m ρ c)
theorem arg12_at9 (c : Dev nD) : W9 m ρ c (Proc.devRef .tc main_arg12) = m ((c : Thread nD τ).loc main_arg12) :=
  (W9_of_ne m ρ c main_arg12 (by decide)).trans (arg12_at8 m ρ c)
theorem arg12_at10 (c : Dev nD) : W10 m ρ c (Proc.devRef .tc main_arg12) = m ((c : Thread nD τ).loc main_arg12) :=
  (keep5 (W9 m ρ c) main_arg12 (by decide)).trans (arg12_at9 m ρ c)
theorem arg12_at11 (c : Dev nD) : W11 m ρ c (Proc.devRef .tc main_arg12) = m ((c : Thread nD τ).loc main_arg12) :=
  (W11_of_ne m ρ c main_arg12 (by decide)).trans (arg12_at10 m ρ c)
theorem arg12_at12 (c : Dev nD) : W12 m ρ c (Proc.devRef .tc main_arg12) = m ((c : Thread nD τ).loc main_arg12) :=
  (keep6 (W11 m ρ c) main_arg12 (by decide)).trans (arg12_at11 m ρ c)
theorem arg12_at13 (c : Dev nD) : W13 m ρ c (Proc.devRef .tc main_arg12) = m ((c : Thread nD τ).loc main_arg12) :=
  (W13_of_ne m ρ c main_arg12 (by decide)).trans (arg12_at12 m ρ c)
theorem arg12_at14 (c : Dev nD) : W14 m ρ c (Proc.devRef .tc main_arg12) = m ((c : Thread nD τ).loc main_arg12) :=
  (keep7 (W13 m ρ c) main_arg12 (by decide)).trans (arg12_at13 m ρ c)
theorem arg12_at15 (c : Dev nD) : W15 m ρ c (Proc.devRef .tc main_arg12) = m ((c : Thread nD τ).loc main_arg12) :=
  (W15_of_ne m ρ c main_arg12 (by decide)).trans (arg12_at14 m ρ c)
theorem arg12_at16 (c : Dev nD) : W16 m ρ c (Proc.devRef .tc main_arg12) = m ((c : Thread nD τ).loc main_arg12) :=
  (keep8 (W15 m ρ c) main_arg12 (by decide)).trans (arg12_at15 m ρ c)
theorem arg12_at17 (c : Dev nD) : W17 m ρ c (Proc.devRef .tc main_arg12) = m ((c : Thread nD τ).loc main_arg12) :=
  (W17_of_ne m ρ c main_arg12 (by decide)).trans (arg12_at16 m ρ c)

/-! ### main_arg13 at every boundary -/
theorem arg13_at1 (c : Dev nD) : W1 m ρ c (Proc.devRef .tc main_arg13) = m ((c : Thread nD τ).loc main_arg13) :=
  (W1_of_ne m ρ c main_arg13 (by decide)).trans rfl
theorem arg13_at2 (c : Dev nD) : W2 m ρ c (Proc.devRef .tc main_arg13) = m ((c : Thread nD τ).loc main_arg13) :=
  (keep1 (W1 m ρ c) main_arg13 (by decide)).trans (arg13_at1 m ρ c)
theorem arg13_at3 (c : Dev nD) : W3 m ρ c (Proc.devRef .tc main_arg13) = m ((c : Thread nD τ).loc main_arg13) :=
  (W3_of_ne m ρ c main_arg13 (by decide)).trans (arg13_at2 m ρ c)
theorem arg13_at4 (c : Dev nD) : W4 m ρ c (Proc.devRef .tc main_arg13) = m ((c : Thread nD τ).loc main_arg13) :=
  (keep2 (W3 m ρ c) main_arg13 (by decide)).trans (arg13_at3 m ρ c)
theorem arg13_at5 (c : Dev nD) : W5 m ρ c (Proc.devRef .tc main_arg13) = m ((c : Thread nD τ).loc main_arg13) :=
  (W5_of_ne m ρ c main_arg13 (by decide)).trans (arg13_at4 m ρ c)
theorem arg13_at6 (c : Dev nD) : W6 m ρ c (Proc.devRef .tc main_arg13) = m ((c : Thread nD τ).loc main_arg13) :=
  (keep3 (W5 m ρ c) main_arg13 (by decide)).trans (arg13_at5 m ρ c)
theorem arg13_at7 (c : Dev nD) : W7 m ρ c (Proc.devRef .tc main_arg13) = m ((c : Thread nD τ).loc main_arg13) :=
  (W7_of_ne m ρ c main_arg13 (by decide)).trans (arg13_at6 m ρ c)
theorem arg13_at8 (c : Dev nD) : W8 m ρ c (Proc.devRef .tc main_arg13) = m ((c : Thread nD τ).loc main_arg13) :=
  (keep4 (W7 m ρ c) main_arg13 (by decide)).trans (arg13_at7 m ρ c)
theorem arg13_at9 (c : Dev nD) : W9 m ρ c (Proc.devRef .tc main_arg13) = m ((c : Thread nD τ).loc main_arg13) :=
  (W9_of_ne m ρ c main_arg13 (by decide)).trans (arg13_at8 m ρ c)
theorem arg13_at10 (c : Dev nD) : W10 m ρ c (Proc.devRef .tc main_arg13) = m ((c : Thread nD τ).loc main_arg13) :=
  (keep5 (W9 m ρ c) main_arg13 (by decide)).trans (arg13_at9 m ρ c)
theorem arg13_at11 (c : Dev nD) : W11 m ρ c (Proc.devRef .tc main_arg13) = m ((c : Thread nD τ).loc main_arg13) :=
  (W11_of_ne m ρ c main_arg13 (by decide)).trans (arg13_at10 m ρ c)
theorem arg13_at12 (c : Dev nD) : W12 m ρ c (Proc.devRef .tc main_arg13) = m ((c : Thread nD τ).loc main_arg13) :=
  (keep6 (W11 m ρ c) main_arg13 (by decide)).trans (arg13_at11 m ρ c)
theorem arg13_at13 (c : Dev nD) : W13 m ρ c (Proc.devRef .tc main_arg13) = m ((c : Thread nD τ).loc main_arg13) :=
  (W13_of_ne m ρ c main_arg13 (by decide)).trans (arg13_at12 m ρ c)
theorem arg13_at14 (c : Dev nD) : W14 m ρ c (Proc.devRef .tc main_arg13) = m ((c : Thread nD τ).loc main_arg13) :=
  (keep7 (W13 m ρ c) main_arg13 (by decide)).trans (arg13_at13 m ρ c)
theorem arg13_at15 (c : Dev nD) : W15 m ρ c (Proc.devRef .tc main_arg13) = m ((c : Thread nD τ).loc main_arg13) :=
  (W15_of_ne m ρ c main_arg13 (by decide)).trans (arg13_at14 m ρ c)
theorem arg13_at16 (c : Dev nD) : W16 m ρ c (Proc.devRef .tc main_arg13) = m ((c : Thread nD τ).loc main_arg13) :=
  (keep8 (W15 m ρ c) main_arg13 (by decide)).trans (arg13_at15 m ρ c)
theorem arg13_at17 (c : Dev nD) : W17 m ρ c (Proc.devRef .tc main_arg13) = m ((c : Thread nD τ).loc main_arg13) :=
  (W17_of_ne m ρ c main_arg13 (by decide)).trans (arg13_at16 m ρ c)

/-! ### main_arg14 at every boundary -/
theorem arg14_at1 (c : Dev nD) : W1 m ρ c (Proc.devRef .tc main_arg14) = m ((c : Thread nD τ).loc main_arg14) :=
  (W1_of_ne m ρ c main_arg14 (by decide)).trans rfl
theorem arg14_at2 (c : Dev nD) : W2 m ρ c (Proc.devRef .tc main_arg14) = m ((c : Thread nD τ).loc main_arg14) :=
  (keep1 (W1 m ρ c) main_arg14 (by decide)).trans (arg14_at1 m ρ c)
theorem arg14_at3 (c : Dev nD) : W3 m ρ c (Proc.devRef .tc main_arg14) = m ((c : Thread nD τ).loc main_arg14) :=
  (W3_of_ne m ρ c main_arg14 (by decide)).trans (arg14_at2 m ρ c)
theorem arg14_at4 (c : Dev nD) : W4 m ρ c (Proc.devRef .tc main_arg14) = m ((c : Thread nD τ).loc main_arg14) :=
  (keep2 (W3 m ρ c) main_arg14 (by decide)).trans (arg14_at3 m ρ c)
theorem arg14_at5 (c : Dev nD) : W5 m ρ c (Proc.devRef .tc main_arg14) = m ((c : Thread nD τ).loc main_arg14) :=
  (W5_of_ne m ρ c main_arg14 (by decide)).trans (arg14_at4 m ρ c)
theorem arg14_at6 (c : Dev nD) : W6 m ρ c (Proc.devRef .tc main_arg14) = m ((c : Thread nD τ).loc main_arg14) :=
  (keep3 (W5 m ρ c) main_arg14 (by decide)).trans (arg14_at5 m ρ c)
theorem arg14_at7 (c : Dev nD) : W7 m ρ c (Proc.devRef .tc main_arg14) = m ((c : Thread nD τ).loc main_arg14) :=
  (W7_of_ne m ρ c main_arg14 (by decide)).trans (arg14_at6 m ρ c)
theorem arg14_at8 (c : Dev nD) : W8 m ρ c (Proc.devRef .tc main_arg14) = m ((c : Thread nD τ).loc main_arg14) :=
  (keep4 (W7 m ρ c) main_arg14 (by decide)).trans (arg14_at7 m ρ c)
theorem arg14_at9 (c : Dev nD) : W9 m ρ c (Proc.devRef .tc main_arg14) = m ((c : Thread nD τ).loc main_arg14) :=
  (W9_of_ne m ρ c main_arg14 (by decide)).trans (arg14_at8 m ρ c)
theorem arg14_at10 (c : Dev nD) : W10 m ρ c (Proc.devRef .tc main_arg14) = m ((c : Thread nD τ).loc main_arg14) :=
  (keep5 (W9 m ρ c) main_arg14 (by decide)).trans (arg14_at9 m ρ c)
theorem arg14_at11 (c : Dev nD) : W11 m ρ c (Proc.devRef .tc main_arg14) = m ((c : Thread nD τ).loc main_arg14) :=
  (W11_of_ne m ρ c main_arg14 (by decide)).trans (arg14_at10 m ρ c)
theorem arg14_at12 (c : Dev nD) : W12 m ρ c (Proc.devRef .tc main_arg14) = m ((c : Thread nD τ).loc main_arg14) :=
  (keep6 (W11 m ρ c) main_arg14 (by decide)).trans (arg14_at11 m ρ c)
theorem arg14_at13 (c : Dev nD) : W13 m ρ c (Proc.devRef .tc main_arg14) = m ((c : Thread nD τ).loc main_arg14) :=
  (W13_of_ne m ρ c main_arg14 (by decide)).trans (arg14_at12 m ρ c)
theorem arg14_at14 (c : Dev nD) : W14 m ρ c (Proc.devRef .tc main_arg14) = m ((c : Thread nD τ).loc main_arg14) :=
  (keep7 (W13 m ρ c) main_arg14 (by decide)).trans (arg14_at13 m ρ c)
theorem arg14_at15 (c : Dev nD) : W15 m ρ c (Proc.devRef .tc main_arg14) = m ((c : Thread nD τ).loc main_arg14) :=
  (W15_of_ne m ρ c main_arg14 (by decide)).trans (arg14_at14 m ρ c)
theorem arg14_at16 (c : Dev nD) : W16 m ρ c (Proc.devRef .tc main_arg14) = m ((c : Thread nD τ).loc main_arg14) :=
  (keep8 (W15 m ρ c) main_arg14 (by decide)).trans (arg14_at15 m ρ c)
theorem arg14_at17 (c : Dev nD) : W17 m ρ c (Proc.devRef .tc main_arg14) = m ((c : Thread nD τ).loc main_arg14) :=
  (W17_of_ne m ρ c main_arg14 (by decide)).trans (arg14_at16 m ρ c)

/-! ### main_arg15 at every boundary -/
theorem arg15_at1 (c : Dev nD) : W1 m ρ c (Proc.devRef .tc main_arg15) = m ((c : Thread nD τ).loc main_arg15) :=
  (W1_of_ne m ρ c main_arg15 (by decide)).trans rfl
theorem arg15_at2 (c : Dev nD) : W2 m ρ c (Proc.devRef .tc main_arg15) = m ((c : Thread nD τ).loc main_arg15) :=
  (keep1 (W1 m ρ c) main_arg15 (by decide)).trans (arg15_at1 m ρ c)
theorem arg15_at3 (c : Dev nD) : W3 m ρ c (Proc.devRef .tc main_arg15) = m ((c : Thread nD τ).loc main_arg15) :=
  (W3_of_ne m ρ c main_arg15 (by decide)).trans (arg15_at2 m ρ c)
theorem arg15_at4 (c : Dev nD) : W4 m ρ c (Proc.devRef .tc main_arg15) = m ((c : Thread nD τ).loc main_arg15) :=
  (keep2 (W3 m ρ c) main_arg15 (by decide)).trans (arg15_at3 m ρ c)
theorem arg15_at5 (c : Dev nD) : W5 m ρ c (Proc.devRef .tc main_arg15) = m ((c : Thread nD τ).loc main_arg15) :=
  (W5_of_ne m ρ c main_arg15 (by decide)).trans (arg15_at4 m ρ c)
theorem arg15_at6 (c : Dev nD) : W6 m ρ c (Proc.devRef .tc main_arg15) = m ((c : Thread nD τ).loc main_arg15) :=
  (keep3 (W5 m ρ c) main_arg15 (by decide)).trans (arg15_at5 m ρ c)
theorem arg15_at7 (c : Dev nD) : W7 m ρ c (Proc.devRef .tc main_arg15) = m ((c : Thread nD τ).loc main_arg15) :=
  (W7_of_ne m ρ c main_arg15 (by decide)).trans (arg15_at6 m ρ c)
theorem arg15_at8 (c : Dev nD) : W8 m ρ c (Proc.devRef .tc main_arg15) = m ((c : Thread nD τ).loc main_arg15) :=
  (keep4 (W7 m ρ c) main_arg15 (by decide)).trans (arg15_at7 m ρ c)
theorem arg15_at9 (c : Dev nD) : W9 m ρ c (Proc.devRef .tc main_arg15) = m ((c : Thread nD τ).loc main_arg15) :=
  (W9_of_ne m ρ c main_arg15 (by decide)).trans (arg15_at8 m ρ c)
theorem arg15_at10 (c : Dev nD) : W10 m ρ c (Proc.devRef .tc main_arg15) = m ((c : Thread nD τ).loc main_arg15) :=
  (keep5 (W9 m ρ c) main_arg15 (by decide)).trans (arg15_at9 m ρ c)
theorem arg15_at11 (c : Dev nD) : W11 m ρ c (Proc.devRef .tc main_arg15) = m ((c : Thread nD τ).loc main_arg15) :=
  (W11_of_ne m ρ c main_arg15 (by decide)).trans (arg15_at10 m ρ c)
theorem arg15_at12 (c : Dev nD) : W12 m ρ c (Proc.devRef .tc main_arg15) = m ((c : Thread nD τ).loc main_arg15) :=
  (keep6 (W11 m ρ c) main_arg15 (by decide)).trans (arg15_at11 m ρ c)
theorem arg15_at13 (c : Dev nD) : W13 m ρ c (Proc.devRef .tc main_arg15) = m ((c : Thread nD τ).loc main_arg15) :=
  (W13_of_ne m ρ c main_arg15 (by decide)).trans (arg15_at12 m ρ c)
theorem arg15_at14 (c : Dev nD) : W14 m ρ c (Proc.devRef .tc main_arg15) = m ((c : Thread nD τ).loc main_arg15) :=
  (keep7 (W13 m ρ c) main_arg15 (by decide)).trans (arg15_at13 m ρ c)
theorem arg15_at15 (c : Dev nD) : W15 m ρ c (Proc.devRef .tc main_arg15) = m ((c : Thread nD τ).loc main_arg15) :=
  (W15_of_ne m ρ c main_arg15 (by decide)).trans (arg15_at14 m ρ c)
theorem arg15_at16 (c : Dev nD) : W16 m ρ c (Proc.devRef .tc main_arg15) = m ((c : Thread nD τ).loc main_arg15) :=
  (keep8 (W15 m ρ c) main_arg15 (by decide)).trans (arg15_at15 m ρ c)
theorem arg15_at17 (c : Dev nD) : W17 m ρ c (Proc.devRef .tc main_arg15) = m ((c : Thread nD τ).loc main_arg15) :=
  (W17_of_ne m ρ c main_arg15 (by decide)).trans (arg15_at16 m ρ c)

/-! ### main_arg16 at every boundary -/
theorem arg16_at1 (c : Dev nD) : W1 m ρ c (Proc.devRef .tc main_arg16) = m ((c : Thread nD τ).loc main_arg16) :=
  (W1_of_ne m ρ c main_arg16 (by decide)).trans rfl
theorem arg16_at2 (c : Dev nD) : W2 m ρ c (Proc.devRef .tc main_arg16) = m ((c : Thread nD τ).loc main_arg16) :=
  (keep1 (W1 m ρ c) main_arg16 (by decide)).trans (arg16_at1 m ρ c)
theorem arg16_at3 (c : Dev nD) : W3 m ρ c (Proc.devRef .tc main_arg16) = m ((c : Thread nD τ).loc main_arg16) :=
  (W3_of_ne m ρ c main_arg16 (by decide)).trans (arg16_at2 m ρ c)
theorem arg16_at4 (c : Dev nD) : W4 m ρ c (Proc.devRef .tc main_arg16) = m ((c : Thread nD τ).loc main_arg16) :=
  (keep2 (W3 m ρ c) main_arg16 (by decide)).trans (arg16_at3 m ρ c)
theorem arg16_at5 (c : Dev nD) : W5 m ρ c (Proc.devRef .tc main_arg16) = m ((c : Thread nD τ).loc main_arg16) :=
  (W5_of_ne m ρ c main_arg16 (by decide)).trans (arg16_at4 m ρ c)
theorem arg16_at6 (c : Dev nD) : W6 m ρ c (Proc.devRef .tc main_arg16) = m ((c : Thread nD τ).loc main_arg16) :=
  (keep3 (W5 m ρ c) main_arg16 (by decide)).trans (arg16_at5 m ρ c)
theorem arg16_at7 (c : Dev nD) : W7 m ρ c (Proc.devRef .tc main_arg16) = m ((c : Thread nD τ).loc main_arg16) :=
  (W7_of_ne m ρ c main_arg16 (by decide)).trans (arg16_at6 m ρ c)
theorem arg16_at8 (c : Dev nD) : W8 m ρ c (Proc.devRef .tc main_arg16) = m ((c : Thread nD τ).loc main_arg16) :=
  (keep4 (W7 m ρ c) main_arg16 (by decide)).trans (arg16_at7 m ρ c)
theorem arg16_at9 (c : Dev nD) : W9 m ρ c (Proc.devRef .tc main_arg16) = m ((c : Thread nD τ).loc main_arg16) :=
  (W9_of_ne m ρ c main_arg16 (by decide)).trans (arg16_at8 m ρ c)
theorem arg16_at10 (c : Dev nD) : W10 m ρ c (Proc.devRef .tc main_arg16) = m ((c : Thread nD τ).loc main_arg16) :=
  (keep5 (W9 m ρ c) main_arg16 (by decide)).trans (arg16_at9 m ρ c)
theorem arg16_at11 (c : Dev nD) : W11 m ρ c (Proc.devRef .tc main_arg16) = m ((c : Thread nD τ).loc main_arg16) :=
  (W11_of_ne m ρ c main_arg16 (by decide)).trans (arg16_at10 m ρ c)
theorem arg16_at12 (c : Dev nD) : W12 m ρ c (Proc.devRef .tc main_arg16) = m ((c : Thread nD τ).loc main_arg16) :=
  (keep6 (W11 m ρ c) main_arg16 (by decide)).trans (arg16_at11 m ρ c)
theorem arg16_at13 (c : Dev nD) : W13 m ρ c (Proc.devRef .tc main_arg16) = m ((c : Thread nD τ).loc main_arg16) :=
  (W13_of_ne m ρ c main_arg16 (by decide)).trans (arg16_at12 m ρ c)
theorem arg16_at14 (c : Dev nD) : W14 m ρ c (Proc.devRef .tc main_arg16) = m ((c : Thread nD τ).loc main_arg16) :=
  (keep7 (W13 m ρ c) main_arg16 (by decide)).trans (arg16_at13 m ρ c)
theorem arg16_at15 (c : Dev nD) : W15 m ρ c (Proc.devRef .tc main_arg16) = m ((c : Thread nD τ).loc main_arg16) :=
  (W15_of_ne m ρ c main_arg16 (by decide)).trans (arg16_at14 m ρ c)
theorem arg16_at16 (c : Dev nD) : W16 m ρ c (Proc.devRef .tc main_arg16) = m ((c : Thread nD τ).loc main_arg16) :=
  (keep8 (W15 m ρ c) main_arg16 (by decide)).trans (arg16_at15 m ρ c)
theorem arg16_at17 (c : Dev nD) : W17 m ρ c (Proc.devRef .tc main_arg16) = m ((c : Thread nD τ).loc main_arg16) :=
  (W17_of_ne m ρ c main_arg16 (by decide)).trans (arg16_at16 m ρ c)

/-! ### main_arg17 at every boundary -/
theorem arg17_at1 (c : Dev nD) : W1 m ρ c (Proc.devRef .tc main_arg17) = m ((c : Thread nD τ).loc main_arg17) :=
  (W1_of_ne m ρ c main_arg17 (by decide)).trans rfl
theorem arg17_at2 (c : Dev nD) : W2 m ρ c (Proc.devRef .tc main_arg17) = m ((c : Thread nD τ).loc main_arg17) :=
  (keep1 (W1 m ρ c) main_arg17 (by decide)).trans (arg17_at1 m ρ c)
theorem arg17_at3 (c : Dev nD) : W3 m ρ c (Proc.devRef .tc main_arg17) = m ((c : Thread nD τ).loc main_arg17) :=
  (W3_of_ne m ρ c main_arg17 (by decide)).trans (arg17_at2 m ρ c)
theorem arg17_at4 (c : Dev nD) : W4 m ρ c (Proc.devRef .tc main_arg17) = m ((c : Thread nD τ).loc main_arg17) :=
  (keep2 (W3 m ρ c) main_arg17 (by decide)).trans (arg17_at3 m ρ c)
theorem arg17_at5 (c : Dev nD) : W5 m ρ c (Proc.devRef .tc main_arg17) = m ((c : Thread nD τ).loc main_arg17) :=
  (W5_of_ne m ρ c main_arg17 (by decide)).trans (arg17_at4 m ρ c)
theorem arg17_at6 (c : Dev nD) : W6 m ρ c (Proc.devRef .tc main_arg17) = m ((c : Thread nD τ).loc main_arg17) :=
  (keep3 (W5 m ρ c) main_arg17 (by decide)).trans (arg17_at5 m ρ c)
theorem arg17_at7 (c : Dev nD) : W7 m ρ c (Proc.devRef .tc main_arg17) = m ((c : Thread nD τ).loc main_arg17) :=
  (W7_of_ne m ρ c main_arg17 (by decide)).trans (arg17_at6 m ρ c)
theorem arg17_at8 (c : Dev nD) : W8 m ρ c (Proc.devRef .tc main_arg17) = m ((c : Thread nD τ).loc main_arg17) :=
  (keep4 (W7 m ρ c) main_arg17 (by decide)).trans (arg17_at7 m ρ c)
theorem arg17_at9 (c : Dev nD) : W9 m ρ c (Proc.devRef .tc main_arg17) = m ((c : Thread nD τ).loc main_arg17) :=
  (W9_of_ne m ρ c main_arg17 (by decide)).trans (arg17_at8 m ρ c)
theorem arg17_at10 (c : Dev nD) : W10 m ρ c (Proc.devRef .tc main_arg17) = m ((c : Thread nD τ).loc main_arg17) :=
  (keep5 (W9 m ρ c) main_arg17 (by decide)).trans (arg17_at9 m ρ c)
theorem arg17_at11 (c : Dev nD) : W11 m ρ c (Proc.devRef .tc main_arg17) = m ((c : Thread nD τ).loc main_arg17) :=
  (W11_of_ne m ρ c main_arg17 (by decide)).trans (arg17_at10 m ρ c)
theorem arg17_at12 (c : Dev nD) : W12 m ρ c (Proc.devRef .tc main_arg17) = m ((c : Thread nD τ).loc main_arg17) :=
  (keep6 (W11 m ρ c) main_arg17 (by decide)).trans (arg17_at11 m ρ c)
theorem arg17_at13 (c : Dev nD) : W13 m ρ c (Proc.devRef .tc main_arg17) = m ((c : Thread nD τ).loc main_arg17) :=
  (W13_of_ne m ρ c main_arg17 (by decide)).trans (arg17_at12 m ρ c)
theorem arg17_at14 (c : Dev nD) : W14 m ρ c (Proc.devRef .tc main_arg17) = m ((c : Thread nD τ).loc main_arg17) :=
  (keep7 (W13 m ρ c) main_arg17 (by decide)).trans (arg17_at13 m ρ c)
theorem arg17_at15 (c : Dev nD) : W15 m ρ c (Proc.devRef .tc main_arg17) = m ((c : Thread nD τ).loc main_arg17) :=
  (W15_of_ne m ρ c main_arg17 (by decide)).trans (arg17_at14 m ρ c)
theorem arg17_at16 (c : Dev nD) : W16 m ρ c (Proc.devRef .tc main_arg17) = m ((c : Thread nD τ).loc main_arg17) :=
  (keep8 (W15 m ρ c) main_arg17 (by decide)).trans (arg17_at15 m ρ c)
theorem arg17_at17 (c : Dev nD) : W17 m ρ c (Proc.devRef .tc main_arg17) = m ((c : Thread nD τ).loc main_arg17) :=
  (W17_of_ne m ρ c main_arg17 (by decide)).trans (arg17_at16 m ρ c)

/-! ### main_arg18 at every boundary -/
theorem arg18_at1 (c : Dev nD) : W1 m ρ c (Proc.devRef .tc main_arg18) = m ((c : Thread nD τ).loc main_arg18) :=
  (W1_of_ne m ρ c main_arg18 (by decide)).trans rfl
theorem arg18_at2 (c : Dev nD) : W2 m ρ c (Proc.devRef .tc main_arg18) = m ((c : Thread nD τ).loc main_arg18) :=
  (keep1 (W1 m ρ c) main_arg18 (by decide)).trans (arg18_at1 m ρ c)
theorem arg18_at3 (c : Dev nD) : W3 m ρ c (Proc.devRef .tc main_arg18) = m ((c : Thread nD τ).loc main_arg18) :=
  (W3_of_ne m ρ c main_arg18 (by decide)).trans (arg18_at2 m ρ c)
theorem arg18_at4 (c : Dev nD) : W4 m ρ c (Proc.devRef .tc main_arg18) = m ((c : Thread nD τ).loc main_arg18) :=
  (keep2 (W3 m ρ c) main_arg18 (by decide)).trans (arg18_at3 m ρ c)
theorem arg18_at5 (c : Dev nD) : W5 m ρ c (Proc.devRef .tc main_arg18) = m ((c : Thread nD τ).loc main_arg18) :=
  (W5_of_ne m ρ c main_arg18 (by decide)).trans (arg18_at4 m ρ c)
theorem arg18_at6 (c : Dev nD) : W6 m ρ c (Proc.devRef .tc main_arg18) = m ((c : Thread nD τ).loc main_arg18) :=
  (keep3 (W5 m ρ c) main_arg18 (by decide)).trans (arg18_at5 m ρ c)
theorem arg18_at7 (c : Dev nD) : W7 m ρ c (Proc.devRef .tc main_arg18) = m ((c : Thread nD τ).loc main_arg18) :=
  (W7_of_ne m ρ c main_arg18 (by decide)).trans (arg18_at6 m ρ c)
theorem arg18_at8 (c : Dev nD) : W8 m ρ c (Proc.devRef .tc main_arg18) = m ((c : Thread nD τ).loc main_arg18) :=
  (keep4 (W7 m ρ c) main_arg18 (by decide)).trans (arg18_at7 m ρ c)
theorem arg18_at9 (c : Dev nD) : W9 m ρ c (Proc.devRef .tc main_arg18) = m ((c : Thread nD τ).loc main_arg18) :=
  (W9_of_ne m ρ c main_arg18 (by decide)).trans (arg18_at8 m ρ c)
theorem arg18_at10 (c : Dev nD) : W10 m ρ c (Proc.devRef .tc main_arg18) = m ((c : Thread nD τ).loc main_arg18) :=
  (keep5 (W9 m ρ c) main_arg18 (by decide)).trans (arg18_at9 m ρ c)
theorem arg18_at11 (c : Dev nD) : W11 m ρ c (Proc.devRef .tc main_arg18) = m ((c : Thread nD τ).loc main_arg18) :=
  (W11_of_ne m ρ c main_arg18 (by decide)).trans (arg18_at10 m ρ c)
theorem arg18_at12 (c : Dev nD) : W12 m ρ c (Proc.devRef .tc main_arg18) = m ((c : Thread nD τ).loc main_arg18) :=
  (keep6 (W11 m ρ c) main_arg18 (by decide)).trans (arg18_at11 m ρ c)
theorem arg18_at13 (c : Dev nD) : W13 m ρ c (Proc.devRef .tc main_arg18) = m ((c : Thread nD τ).loc main_arg18) :=
  (W13_of_ne m ρ c main_arg18 (by decide)).trans (arg18_at12 m ρ c)
theorem arg18_at14 (c : Dev nD) : W14 m ρ c (Proc.devRef .tc main_arg18) = m ((c : Thread nD τ).loc main_arg18) :=
  (keep7 (W13 m ρ c) main_arg18 (by decide)).trans (arg18_at13 m ρ c)
theorem arg18_at15 (c : Dev nD) : W15 m ρ c (Proc.devRef .tc main_arg18) = m ((c : Thread nD τ).loc main_arg18) :=
  (W15_of_ne m ρ c main_arg18 (by decide)).trans (arg18_at14 m ρ c)
theorem arg18_at16 (c : Dev nD) : W16 m ρ c (Proc.devRef .tc main_arg18) = m ((c : Thread nD τ).loc main_arg18) :=
  (keep8 (W15 m ρ c) main_arg18 (by decide)).trans (arg18_at15 m ρ c)
theorem arg18_at17 (c : Dev nD) : W17 m ρ c (Proc.devRef .tc main_arg18) = m ((c : Thread nD τ).loc main_arg18) :=
  (W17_of_ne m ρ c main_arg18 (by decide)).trans (arg18_at16 m ρ c)

/-! ### main_arg19 at every boundary -/
theorem arg19_at1 (c : Dev nD) : W1 m ρ c (Proc.devRef .tc main_arg19) = m ((c : Thread nD τ).loc main_arg19) :=
  (W1_of_ne m ρ c main_arg19 (by decide)).trans rfl
theorem arg19_at2 (c : Dev nD) : W2 m ρ c (Proc.devRef .tc main_arg19) = m ((c : Thread nD τ).loc main_arg19) :=
  (keep1 (W1 m ρ c) main_arg19 (by decide)).trans (arg19_at1 m ρ c)
theorem arg19_at3 (c : Dev nD) : W3 m ρ c (Proc.devRef .tc main_arg19) = m ((c : Thread nD τ).loc main_arg19) :=
  (W3_of_ne m ρ c main_arg19 (by decide)).trans (arg19_at2 m ρ c)
theorem arg19_at4 (c : Dev nD) : W4 m ρ c (Proc.devRef .tc main_arg19) = m ((c : Thread nD τ).loc main_arg19) :=
  (keep2 (W3 m ρ c) main_arg19 (by decide)).trans (arg19_at3 m ρ c)
theorem arg19_at5 (c : Dev nD) : W5 m ρ c (Proc.devRef .tc main_arg19) = m ((c : Thread nD τ).loc main_arg19) :=
  (W5_of_ne m ρ c main_arg19 (by decide)).trans (arg19_at4 m ρ c)
theorem arg19_at6 (c : Dev nD) : W6 m ρ c (Proc.devRef .tc main_arg19) = m ((c : Thread nD τ).loc main_arg19) :=
  (keep3 (W5 m ρ c) main_arg19 (by decide)).trans (arg19_at5 m ρ c)
theorem arg19_at7 (c : Dev nD) : W7 m ρ c (Proc.devRef .tc main_arg19) = m ((c : Thread nD τ).loc main_arg19) :=
  (W7_of_ne m ρ c main_arg19 (by decide)).trans (arg19_at6 m ρ c)
theorem arg19_at8 (c : Dev nD) : W8 m ρ c (Proc.devRef .tc main_arg19) = m ((c : Thread nD τ).loc main_arg19) :=
  (keep4 (W7 m ρ c) main_arg19 (by decide)).trans (arg19_at7 m ρ c)
theorem arg19_at9 (c : Dev nD) : W9 m ρ c (Proc.devRef .tc main_arg19) = m ((c : Thread nD τ).loc main_arg19) :=
  (W9_of_ne m ρ c main_arg19 (by decide)).trans (arg19_at8 m ρ c)
theorem arg19_at10 (c : Dev nD) : W10 m ρ c (Proc.devRef .tc main_arg19) = m ((c : Thread nD τ).loc main_arg19) :=
  (keep5 (W9 m ρ c) main_arg19 (by decide)).trans (arg19_at9 m ρ c)
theorem arg19_at11 (c : Dev nD) : W11 m ρ c (Proc.devRef .tc main_arg19) = m ((c : Thread nD τ).loc main_arg19) :=
  (W11_of_ne m ρ c main_arg19 (by decide)).trans (arg19_at10 m ρ c)
theorem arg19_at12 (c : Dev nD) : W12 m ρ c (Proc.devRef .tc main_arg19) = m ((c : Thread nD τ).loc main_arg19) :=
  (keep6 (W11 m ρ c) main_arg19 (by decide)).trans (arg19_at11 m ρ c)
theorem arg19_at13 (c : Dev nD) : W13 m ρ c (Proc.devRef .tc main_arg19) = m ((c : Thread nD τ).loc main_arg19) :=
  (W13_of_ne m ρ c main_arg19 (by decide)).trans (arg19_at12 m ρ c)
theorem arg19_at14 (c : Dev nD) : W14 m ρ c (Proc.devRef .tc main_arg19) = m ((c : Thread nD τ).loc main_arg19) :=
  (keep7 (W13 m ρ c) main_arg19 (by decide)).trans (arg19_at13 m ρ c)
theorem arg19_at15 (c : Dev nD) : W15 m ρ c (Proc.devRef .tc main_arg19) = m ((c : Thread nD τ).loc main_arg19) :=
  (W15_of_ne m ρ c main_arg19 (by decide)).trans (arg19_at14 m ρ c)
theorem arg19_at16 (c : Dev nD) : W16 m ρ c (Proc.devRef .tc main_arg19) = m ((c : Thread nD τ).loc main_arg19) :=
  (keep8 (W15 m ρ c) main_arg19 (by decide)).trans (arg19_at15 m ρ c)
theorem arg19_at17 (c : Dev nD) : W17 m ρ c (Proc.devRef .tc main_arg19) = m ((c : Thread nD τ).loc main_arg19) :=
  (W17_of_ne m ρ c main_arg19 (by decide)).trans (arg19_at16 m ρ c)

/-! ### main_arg20 at every boundary -/
theorem arg20_at1 (c : Dev nD) : W1 m ρ c (Proc.devRef .tc main_arg20) = m ((c : Thread nD τ).loc main_arg20) :=
  (W1_of_ne m ρ c main_arg20 (by decide)).trans rfl
theorem arg20_at2 (c : Dev nD) : W2 m ρ c (Proc.devRef .tc main_arg20) = m ((c : Thread nD τ).loc main_arg20) :=
  (keep1 (W1 m ρ c) main_arg20 (by decide)).trans (arg20_at1 m ρ c)
theorem arg20_at3 (c : Dev nD) : W3 m ρ c (Proc.devRef .tc main_arg20) = m ((c : Thread nD τ).loc main_arg20) :=
  (W3_of_ne m ρ c main_arg20 (by decide)).trans (arg20_at2 m ρ c)
theorem arg20_at4 (c : Dev nD) : W4 m ρ c (Proc.devRef .tc main_arg20) = m ((c : Thread nD τ).loc main_arg20) :=
  (keep2 (W3 m ρ c) main_arg20 (by decide)).trans (arg20_at3 m ρ c)
theorem arg20_at5 (c : Dev nD) : W5 m ρ c (Proc.devRef .tc main_arg20) = m ((c : Thread nD τ).loc main_arg20) :=
  (W5_of_ne m ρ c main_arg20 (by decide)).trans (arg20_at4 m ρ c)
theorem arg20_at6 (c : Dev nD) : W6 m ρ c (Proc.devRef .tc main_arg20) = m ((c : Thread nD τ).loc main_arg20) :=
  (keep3 (W5 m ρ c) main_arg20 (by decide)).trans (arg20_at5 m ρ c)
theorem arg20_at7 (c : Dev nD) : W7 m ρ c (Proc.devRef .tc main_arg20) = m ((c : Thread nD τ).loc main_arg20) :=
  (W7_of_ne m ρ c main_arg20 (by decide)).trans (arg20_at6 m ρ c)
theorem arg20_at8 (c : Dev nD) : W8 m ρ c (Proc.devRef .tc main_arg20) = m ((c : Thread nD τ).loc main_arg20) :=
  (keep4 (W7 m ρ c) main_arg20 (by decide)).trans (arg20_at7 m ρ c)
theorem arg20_at9 (c : Dev nD) : W9 m ρ c (Proc.devRef .tc main_arg20) = m ((c : Thread nD τ).loc main_arg20) :=
  (W9_of_ne m ρ c main_arg20 (by decide)).trans (arg20_at8 m ρ c)
theorem arg20_at10 (c : Dev nD) : W10 m ρ c (Proc.devRef .tc main_arg20) = m ((c : Thread nD τ).loc main_arg20) :=
  (keep5 (W9 m ρ c) main_arg20 (by decide)).trans (arg20_at9 m ρ c)
theorem arg20_at11 (c : Dev nD) : W11 m ρ c (Proc.devRef .tc main_arg20) = m ((c : Thread nD τ).loc main_arg20) :=
  (W11_of_ne m ρ c main_arg20 (by decide)).trans (arg20_at10 m ρ c)
theorem arg20_at12 (c : Dev nD) : W12 m ρ c (Proc.devRef .tc main_arg20) = m ((c : Thread nD τ).loc main_arg20) :=
  (keep6 (W11 m ρ c) main_arg20 (by decide)).trans (arg20_at11 m ρ c)
theorem arg20_at13 (c : Dev nD) : W13 m ρ c (Proc.devRef .tc main_arg20) = m ((c : Thread nD τ).loc main_arg20) :=
  (W13_of_ne m ρ c main_arg20 (by decide)).trans (arg20_at12 m ρ c)
theorem arg20_at14 (c : Dev nD) : W14 m ρ c (Proc.devRef .tc main_arg20) = m ((c : Thread nD τ).loc main_arg20) :=
  (keep7 (W13 m ρ c) main_arg20 (by decide)).trans (arg20_at13 m ρ c)
theorem arg20_at15 (c : Dev nD) : W15 m ρ c (Proc.devRef .tc main_arg20) = m ((c : Thread nD τ).loc main_arg20) :=
  (W15_of_ne m ρ c main_arg20 (by decide)).trans (arg20_at14 m ρ c)
theorem arg20_at16 (c : Dev nD) : W16 m ρ c (Proc.devRef .tc main_arg20) = m ((c : Thread nD τ).loc main_arg20) :=
  (keep8 (W15 m ρ c) main_arg20 (by decide)).trans (arg20_at15 m ρ c)
theorem arg20_at17 (c : Dev nD) : W17 m ρ c (Proc.devRef .tc main_arg20) = m ((c : Thread nD τ).loc main_arg20) :=
  (W17_of_ne m ρ c main_arg20 (by decide)).trans (arg20_at16 m ρ c)

end Cert.KernelIdeal.Keep

end
-- ==== Proof.Spec.lean ====
/-
  The network as plain mathematics over the extended reals, with no program in sight.

  A node array is a matrix `X` of `A` rows; every stage of the network acts on each row by itself:
  * `dense X W b` is the affine map: entry (p, q) is `(∑ k, X (p, k) · W (k, q)) + b q`;
  * `act Y` applies the leaky rectifier `v ↦ if v ≥ 0 then v else slope · v` to every entry;
  * `mlp2 X W₁ b₁ W₂ b₂ = dense (act (dense X W₁ b₁)) W₂ b₂` is the two-layer perceptron of the encoder and of the decoder;
  * `ln H g b` is the layer normalisation of each row of 64 entries: with `μ` the row's mean and `σ²` the mean of the squared
    deviations, entry (p, q) is `(H (p, q) − μ) · rsqrt (σ² + ε) · g q + b q`;
  * `comb Hn M …` is a message-passing layer's update of a row from its normalised features `Hn` and its aggregated message `M`:
    `y = ((Hn·Wn + bn) + M·We) + be`, then `act y · Wm + bm + Hn`.
  Each depends on row `p` of its matrix arguments only (`*_rows`), which is what lets a stage computed tile by tile over
  the rows agree with the stage computed on the whole array.
-/
import Idealize.ShloMosaic.PureOps.Ideal
import Idealize.ShloMosaic.PureOps.Ideal.Laws
import Idealize.ShloMosaic.Lib.ValueIdx

noncomputable section

namespace Gnn

open Idealize.ShloMosaic Idealize.ShloMosaic.ValueIdx

/-- A matrix of extended reals, as a function of its index. -/
abbrev Mat (a b : Nat) : Type := FVec Ideal (⟨2, ![a, b]⟩ : Shape) .f32
/-- A vector of extended reals, as a function of its index. -/
abbrev Vc (a : Nat) : Type := FVec Ideal (⟨1, ![a]⟩ : Shape) .f32

/-- The four float words the network mentions: zero, the rectifier's slope, the normalisation's ε, and the row length 64. -/
abbrev zeroW : EReal := Ideal.ofBits .f32 0x00000000#32
abbrev slopeW : EReal := Ideal.ofBits .f32 0x3C23D70A#32
abbrev epsW : EReal := Ideal.ofBits .f32 0x3727C5AC#32
abbrev n64W : EReal := Ideal.ofBits .f32 0x42800000#32

/-- The leaky rectifier: `v` where `v ≥ 0`, `slope · v` elsewhere. -/
def leaky (v : EReal) : EReal :=
  Scalar.select (FloatOps.cmpf (F := Ideal) (φ := .f32) .oge v zeroW) v (slopeW * v)

/-- The affine map at one entry. -/
def denseAt {A K B : Nat} (X : Mat A K) (W : Mat K B) (b : Vc B) (p : Fin A) (q : Fin B) : EReal :=
  (∑ k : Fin K, X (ix2 p k) * W (ix2 k q)) + b (ix1 q)

/-- The affine map `X · W + b`. -/
def dense {A K B : Nat} (X : Mat A K) (W : Mat K B) (b : Vc B) : Mat A B :=
  fun j => denseAt X W b (j 0) (j 1)

/-- The leaky rectifier on every entry. -/
def act {A B : Nat} (Y : Mat A B) : Mat A B := fun j => leaky (Y j)

/-- The two-layer perceptron `act (X · W₁ + b₁) · W₂ + b₂`. -/
def mlp2 {A K H B : Nat} (X : Mat A K) (W1 : Mat K H) (b1 : Vc H) (W2 : Mat H B) (b2 : Vc B) : Mat A B :=
  dense (act (dense X W1 b1)) W2 b2

/-- A row's mean: its sum divided by 64. -/
def rowMean {A : Nat} (H : Mat A 64) (p : Fin A) : EReal :=
  Ideal.div (∑ k : Fin 64, H (ix2 p k)) n64W

/-- A row's variance: the mean of the squared deviations from the row's mean. -/
def rowVar {A : Nat} (H : Mat A 64) (p : Fin A) : EReal :=
  Ideal.div (∑ k : Fin 64, (H (ix2 p k) - rowMean H p) * (H (ix2 p k) - rowMean H p)) n64W

/-- Layer normalisation at one entry. -/
def lnAt {A : Nat} (H : Mat A 64) (g b : Vc 64) (p : Fin A) (q : Fin 64) : EReal :=
  (H (ix2 p q) - rowMean H p) * Ideal.rsqrt (rowVar H p + epsW) * g (ix1 q) + b (ix1 q)

/-- Layer normalisation of every row. -/
def ln {A : Nat} (H : Mat A 64) (g b : Vc 64) : Mat A 64 := fun j => lnAt H g b (j 0) (j 1)

/-- The pre-activation of a layer's update at one entry: `((Hn·Wn + bn) + M·We) + be`. -/
def preAt {A : Nat} (Hn M : Mat A 64) (nw : Mat 64 32) (nb : Vc 32) (ew : Mat 64 32) (eb : Vc 32) (p : Fin A) (k : Fin 32) : EReal :=
  (((∑ i : Fin 64, Hn (ix2 p i) * nw (ix2 i k)) + nb (ix1 k)) + (∑ i : Fin 64, M (ix2 p i) * ew (ix2 i k))) + eb (ix1 k)

/-- A layer's update at one entry: `act y · Wm + bm + Hn`. -/
def combAt {A : Nat} (Hn M : Mat A 64) (nw : Mat 64 32) (nb : Vc 32) (ew : Mat 64 32) (eb : Vc 32) (mw : Mat 32 64) (mb : Vc 64)
    (p : Fin A) (q : Fin 64) : EReal :=
  ((∑ k : Fin 32, leaky (preAt Hn M nw nb ew eb p k) * mw (ix2 k q)) + mb (ix1 q)) + Hn (ix2 p q)

/-- A layer's update of every row. -/
def comb {A : Nat} (Hn M : Mat A 64) (nw : Mat 64 32) (nb : Vc 32) (ew : Mat 64 32) (eb : Vc 32) (mw : Mat 32 64) (mb : Vc 64) : Mat A 64 :=
  fun j => combAt Hn M nw nb ew eb mw mb (j 0) (j 1)

/-! ## Each stage reads one row -/

theorem denseAt_rows {A A' K B : Nat} (X : Mat A K) (X' : Mat A' K) (W : Mat K B) (b : Vc B) (p : Fin A) (p' : Fin A') (q : Fin B)
    (h : ∀ k : Fin K, X (ix2 p k) = X' (ix2 p' k)) : denseAt X W b p q = denseAt X' W b p' q := by
  unfold denseAt
  exact congrArg (· + b (ix1 q)) (Finset.sum_congr rfl fun k _ => by rw [h k])

theorem mlp2_rows {A A' K H B : Nat} (X : Mat A K) (X' : Mat A' K) (W1 : Mat K H) (b1 : Vc H) (W2 : Mat H B) (b2 : Vc B)
    (p : Fin A) (p' : Fin A') (q : Fin B) (h : ∀ k : Fin K, X (ix2 p k) = X' (ix2 p' k)) :
    mlp2 X W1 b1 W2 b2 (ix2 p q) = mlp2 X' W1 b1 W2 b2 (ix2 p' q) := by
  show denseAt (act (dense X W1 b1)) W2 b2 p q = denseAt (act (dense X' W1 b1)) W2 b2 p' q
  refine denseAt_rows _ _ W2 b2 p p' q fun k => ?_
  show leaky (denseAt X W1 b1 p k) = leaky (denseAt X' W1 b1 p' k)
  rw [denseAt_rows X X' W1 b1 p p' k h]

theorem rowMean_rows {A A' : Nat} (H : Mat A 64) (H' : Mat A' 64) (p : Fin A) (p' : Fin A')
    (h : ∀ k : Fin 64, H (ix2 p k) = H' (ix2 p' k)) : rowMean H p = rowMean H' p' := by
  unfold rowMean
  exact congrArg (Ideal.div · n64W) (Finset.sum_congr rfl fun k _ => h k)

theorem rowVar_rows {A A' : Nat} (H : Mat A 64) (H' : Mat A' 64) (p : Fin A) (p' : Fin A')
    (h : ∀ k : Fin 64, H (ix2 p k) = H' (ix2 p' k)) : rowVar H p = rowVar H' p' := by
  unfold rowVar
  rw [rowMean_rows H H' p p' h]
  exact congrArg (Ideal.div · n64W) (Finset.sum_congr rfl fun k _ => by rw [h k])

theorem ln_rows {A A' : Nat} (H : Mat A 64) (H' : Mat A' 64) (g b : Vc 64) (p : Fin A) (p' : Fin A') (q : Fin 64)
    (h : ∀ k : Fin 64, H (ix2 p k) = H' (ix2 p' k)) : ln H g b (ix2 p q) = ln H' g b (ix2 p' q) := by
  show lnAt H g b p q = lnAt H' g b p' q
  unfold lnAt
  rw [rowMean_rows H H' p p' h, rowVar_rows H H' p p' h, h q]

theorem preAt_rows {A A' : Nat} (Hn M : Mat A 64) (Hn' M' : Mat A' 64) (nw : Mat 64 32) (nb : Vc 32) (ew : Mat 64 32) (eb : Vc 32)
    (p : Fin A) (p' : Fin A') (k : Fin 32)
    (h : ∀ i : Fin 64, Hn (ix2 p i) = Hn' (ix2 p' i)) (hm : ∀ i : Fin 64, M (ix2 p i) = M' (ix2 p' i)) :
    preAt Hn M nw nb ew eb p k = preAt Hn' M' nw nb ew eb p' k := by
  unfold preAt
  simp only [h, hm]

theorem comb_rows {A A' : Nat} (Hn M : Mat A 64) (Hn' M' : Mat A' 64) (nw : Mat 64 32) (nb : Vc 32) (ew : Mat 64 32) (eb : Vc 32)
    (mw : Mat 32 64) (mb : Vc 64) (p : Fin A) (p' : Fin A') (q : Fin 64)
    (h : ∀ i : Fin 64, Hn (ix2 p i) = Hn' (ix2 p' i)) (hm : ∀ i : Fin 64, M (ix2 p i) = M' (ix2 p' i)) :
    comb Hn M nw nb ew eb mw mb (ix2 p q) = comb Hn' M' nw nb ew eb mw mb (ix2 p' q) := by
  show combAt Hn M nw nb ew eb mw mb p q = combAt Hn' M' nw nb ew eb mw mb p' q
  unfold combAt
  rw [h q, Finset.sum_congr rfl fun k _ => by rw [preAt_rows Hn M Hn' M' nw nb ew eb p p' k h hm]]

end Gnn

end
-- ==== Proof.SpecNet.lean ====
/-
  The whole network as one function of its inputs, over the stages of the specification.

  The message aggregation of a layer (gather the normalised rows at the edges' sources, weight them, sum them into the
  edges' destinations) is the same sequence of array operations in both programs, so it enters here as a parameter
  `msg`: the network is stated for ANY function of the normalised node array, and the two programs are compared at the
  same one. A layer's eight parameter arrays are bundled in `LayerP`.
-/
import proofs.«179626_j43602507989842_1_alg».proof.Proof.Spec

noncomputable section

namespace Gnn

open Idealize.ShloMosaic

/-- One layer's parameters: the normalisation's scale and shift, the node and edge projections with their biases, and the
    mixing matrix with its bias. -/
structure LayerP where
  g : Vc 64
  b : Vc 64
  nw : Mat 64 32
  nb : Vc 32
  ew : Mat 64 32
  eb : Vc 32
  mw : Mat 32 64
  mb : Vc 64

/-- One message-passing layer: normalise, aggregate messages of the normalised rows, update with a residual. -/
def layer (msg : Mat 100000 64 → Mat 100000 64) (P : LayerP) (h : Mat 100000 64) : Mat 100000 64 :=
  comb (ln h P.g P.b) (msg (ln h P.g P.b)) P.nw P.nb P.ew P.eb P.mw P.mb

/-- The network: encoder, four layers, decoder. -/
def net (msg : Mat 100000 64 → Mat 100000 64) (x : Mat 100000 16) (W1 : Mat 16 128) (b1 : Vc 128) (W2 : Mat 128 64) (b2 : Vc 64)
    (P0 P1 P2 P3 : LayerP) (dW1 : Mat 64 24) (db1 : Vc 24) (dW2 : Mat 24 3) (db2 : Vc 3) : Mat 100000 3 :=
  mlp2 (layer msg P3 (layer msg P2 (layer msg P1 (layer msg P0 (mlp2 x W1 b1 W2 b2))))) dW1 db1 dW2 db2

end Gnn

end
-- ==== Proof.KTerms.lean ====
/-
  The host operations of the kernel program between its regions, as functions of the arrays they read.

  Before a normalisation region the program cuts row `l` out of the two [4, 64] normalisation parameter arrays; before
  an update region it aggregates the messages (`msgK`: the sources' indices wrapped into range, the normalised rows
  gathered at them, each weighted by its edge weight, and summed into the destinations' rows of a zero array) and cuts
  slab `l` out of the six projection parameter arrays. `PK l` bundles layer `l`'s eight cuts.
-/
import proofs.«179626_j43602507989842_1_alg».proof.Proof.Gen.KernelIdeal
import proofs.«179626_j43602507989842_1_alg».proof.Proof.SpecNet

noncomputable section

namespace Cert.KernelIdeal.Terms

open Cert.KernelIdeal Cert.KernelIdeal.Gen Idealize.ShloMosaic

/-- The aggregated messages of a normalised node array `hn`: for every edge, row `src` of `hn` times the edge's weight,
    summed into row `dst`. -/
def msgK (a2 a3 : IVec S1200000 32) (a4 : FVec Ideal S1200000 .f32) (hn : FVec Ideal S100000x64 .f32) : FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 a3)
    (mulf (broadcastInDim S1200000x64 ![0, 1] bcast_S1200000x1_S1200000x64_0_1 (broadcastInDim S1200000x1 ![0] bcast_S1200000_S1200000x1_0 a4))
      (Host.gather gather_S100000x64_S1200000x1_S1200000x64_1_0_n_n_0_1_164 hn
        (broadcastInDim S1200000x1 ![0] bcast_S1200000_S1200000x1_0
          (select (cmpi .slt a2 (broadcastInDim S1200000 ![] bcast_S_S1200000 (constantI S_ 32 0#32)))
            (addi a2 (broadcastInDim S1200000 ![] bcast_S_S1200000 (constantI S_ 32 100000#32))) a2))))

/-- Row 0 of a [4, 64] parameter array. -/
def row64_0 (a : FVec Ideal S4x64 .f32) : FVec Ideal S64 .f32 :=
  shapeCast S64 (extractStridedSlice S1x64 ![0, 0] a slices_S4x64_S1x64_0_0) shapeCasts_S1x64_S64
/-- Row 0 of a [4, 32] parameter array. -/
def row32_0 (a : FVec Ideal S4x32 .f32) : FVec Ideal S32 .f32 :=
  shapeCast S32 (extractStridedSlice S1x32 ![0, 0] a slices_S4x32_S1x32_0_0) shapeCasts_S1x32_S32
/-- Slab 0 of a [4, 64, 32] parameter array. -/
def slabA_0 (a : FVec Ideal S4x64x32 .f32) : FVec Ideal S64x32 .f32 :=
  shapeCast S64x32 (extractStridedSlice S1x64x32 ![0, 0, 0] a slices_S4x64x32_S1x64x32_0_0_0) shapeCasts_S1x64x32_S64x32
/-- Slab 0 of a [4, 32, 64] parameter array. -/
def slabB_0 (a : FVec Ideal S4x32x64 .f32) : FVec Ideal S32x64 .f32 :=
  shapeCast S32x64 (extractStridedSlice S1x32x64 ![0, 0, 0] a slices_S4x32x64_S1x32x64_0_0_0) shapeCasts_S1x32x64_S32x64
/-- Layer 0's parameters: row / slab 0 of each parameter array. -/
def PK0 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_0 a13, row64_0 a14, slabA_0 a15, row32_0 a16, slabA_0 a17, row32_0 a18, slabB_0 a19, row64_0 a20⟩

/-- Row 1 of a [4, 64] parameter array. -/
def row64_1 (a : FVec Ideal S4x64 .f32) : FVec Ideal S64 .f32 :=
  shapeCast S64 (extractStridedSlice S1x64 ![1, 0] a slices_S4x64_S1x64_1_0) shapeCasts_S1x64_S64
/-- Row 1 of a [4, 32] parameter array. -/
def row32_1 (a : FVec Ideal S4x32 .f32) : FVec Ideal S32 .f32 :=
  shapeCast S32 (extractStridedSlice S1x32 ![1, 0] a slices_S4x32_S1x32_1_0) shapeCasts_S1x32_S32
/-- Slab 1 of a [4, 64, 32] parameter array. -/
def slabA_1 (a : FVec Ideal S4x64x32 .f32) : FVec Ideal S64x32 .f32 :=
  shapeCast S64x32 (extractStridedSlice S1x64x32 ![1, 0, 0] a slices_S4x64x32_S1x64x32_1_0_0) shapeCasts_S1x64x32_S64x32
/-- Slab 1 of a [4, 32, 64] parameter array. -/
def slabB_1 (a : FVec Ideal S4x32x64 .f32) : FVec Ideal S32x64 .f32 :=
  shapeCast S32x64 (extractStridedSlice S1x32x64 ![1, 0, 0] a slices_S4x32x64_S1x32x64_1_0_0) shapeCasts_S1x32x64_S32x64
/-- Layer 1's parameters: row / slab 1 of each parameter array. -/
def PK1 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_1 a13, row64_1 a14, slabA_1 a15, row32_1 a16, slabA_1 a17, row32_1 a18, slabB_1 a19, row64_1 a20⟩

/-- Row 2 of a [4, 64] parameter array. -/
def row64_2 (a : FVec Ideal S4x64 .f32) : FVec Ideal S64 .f32 :=
  shapeCast S64 (extractStridedSlice S1x64 ![2, 0] a slices_S4x64_S1x64_2_0) shapeCasts_S1x64_S64
/-- Row 2 of a [4, 32] parameter array. -/
def row32_2 (a : FVec Ideal S4x32 .f32) : FVec Ideal S32 .f32 :=
  shapeCast S32 (extractStridedSlice S1x32 ![2, 0] a slices_S4x32_S1x32_2_0) shapeCasts_S1x32_S32
/-- Slab 2 of a [4, 64, 32] parameter array. -/
def slabA_2 (a : FVec Ideal S4x64x32 .f32) : FVec Ideal S64x32 .f32 :=
  shapeCast S64x32 (extractStridedSlice S1x64x32 ![2, 0, 0] a slices_S4x64x32_S1x64x32_2_0_0) shapeCasts_S1x64x32_S64x32
/-- Slab 2 of a [4, 32, 64] parameter array. -/
def slabB_2 (a : FVec Ideal S4x32x64 .f32) : FVec Ideal S32x64 .f32 :=
  shapeCast S32x64 (extractStridedSlice S1x32x64 ![2, 0, 0] a slices_S4x32x64_S1x32x64_2_0_0) shapeCasts_S1x32x64_S32x64
/-- Layer 2's parameters: row / slab 2 of each parameter array. -/
def PK2 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_2 a13, row64_2 a14, slabA_2 a15, row32_2 a16, slabA_2 a17, row32_2 a18, slabB_2 a19, row64_2 a20⟩

/-- Row 3 of a [4, 64] parameter array. -/
def row64_3 (a : FVec Ideal S4x64 .f32) : FVec Ideal S64 .f32 :=
  shapeCast S64 (extractStridedSlice S1x64 ![3, 0] a slices_S4x64_S1x64_3_0) shapeCasts_S1x64_S64
/-- Row 3 of a [4, 32] parameter array. -/
def row32_3 (a : FVec Ideal S4x32 .f32) : FVec Ideal S32 .f32 :=
  shapeCast S32 (extractStridedSlice S1x32 ![3, 0] a slices_S4x32_S1x32_3_0) shapeCasts_S1x32_S32
/-- Slab 3 of a [4, 64, 32] parameter array. -/
def slabA_3 (a : FVec Ideal S4x64x32 .f32) : FVec Ideal S64x32 .f32 :=
  shapeCast S64x32 (extractStridedSlice S1x64x32 ![3, 0, 0] a slices_S4x64x32_S1x64x32_3_0_0) shapeCasts_S1x64x32_S64x32
/-- Slab 3 of a [4, 32, 64] parameter array. -/
def slabB_3 (a : FVec Ideal S4x32x64 .f32) : FVec Ideal S32x64 .f32 :=
  shapeCast S32x64 (extractStridedSlice S1x32x64 ![3, 0, 0] a slices_S4x32x64_S1x32x64_3_0_0) shapeCasts_S1x32x64_S32x64
/-- Layer 3's parameters: row / slab 3 of each parameter array. -/
def PK3 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_3 a13, row64_3 a14, slabA_3 a15, row32_3 a16, slabA_3 a17, row32_3 a18, slabB_3 a19, row64_3 a20⟩

end Cert.KernelIdeal.Terms

end
-- ==== Proof.SpecAt.lean ====
/-
  Each stage's entry depends on one row of the node matrices and on the parameters only through their entries: two
  evaluations agree as soon as the rows read agree entry by entry and the parameters agree entry by entry. This is the
  form in which a tile of rows, read out of a whole array, is compared with the whole array.
-/
import proofs.«179626_j43602507989842_1_alg».proof.Proof.Spec

noncomputable section

namespace Gnn

open Idealize.ShloMosaic Idealize.ShloMosaic.ValueIdx

theorem denseAt_congr {A A' K B : Nat} (X : Mat A K) (X' : Mat A' K) (W W' : Mat K B) (b b' : Vc B) (p : Fin A) (p' : Fin A') (q q' : Fin B)
    (hq : q = q') (h : ∀ k : Fin K, X (ix2 p k) = X' (ix2 p' k)) (hW : ∀ (k : Fin K) (r : Fin B), W (ix2 k r) = W' (ix2 k r))
    (hb : ∀ r : Fin B, b (ix1 r) = b' (ix1 r)) : denseAt X W b p q = denseAt X' W' b' p' q' := by
  subst hq
  unfold denseAt
  rw [hb q]
  exact congrArg (· + b' (ix1 q)) (Finset.sum_congr rfl fun k _ => by rw [h k, hW k q])

/-- The two-layer perceptron at one entry, spelt with coordinates. -/
theorem mlp2_apply {A K H B : Nat} (X : Mat A K) (W1 : Mat K H) (b1 : Vc H) (W2 : Mat H B) (b2 : Vc B) (j : (⟨2, ![A, B]⟩ : Shape).Idx) :
    mlp2 X W1 b1 W2 b2 j = denseAt (act (dense X W1 b1)) W2 b2 (j 0) (j 1) := rfl

theorem mlp2At_congr {A A' K H B : Nat} (X : Mat A K) (X' : Mat A' K) (W1 W1' : Mat K H) (b1 b1' : Vc H) (W2 W2' : Mat H B) (b2 b2' : Vc B)
    (p : Fin A) (p' : Fin A') (q q' : Fin B) (hq : q = q')
    (h : ∀ k : Fin K, X (ix2 p k) = X' (ix2 p' k))
    (hW1 : ∀ (k : Fin K) (r : Fin H), W1 (ix2 k r) = W1' (ix2 k r)) (hb1 : ∀ r : Fin H, b1 (ix1 r) = b1' (ix1 r))
    (hW2 : ∀ (k : Fin H) (r : Fin B), W2 (ix2 k r) = W2' (ix2 k r)) (hb2 : ∀ r : Fin B, b2 (ix1 r) = b2' (ix1 r)) :
    denseAt (act (dense X W1 b1)) W2 b2 p q = denseAt (act (dense X' W1' b1')) W2' b2' p' q' := by
  refine denseAt_congr _ _ W2 W2' b2 b2' p p' q q' hq (fun k => ?_) hW2 hb2
  show leaky (denseAt X W1 b1 p k) = leaky (denseAt X' W1' b1' p' k)
  rw [denseAt_congr X X' W1 W1' b1 b1' p p' k k rfl h hW1 hb1]

theorem ln_apply {A : Nat} (H : Mat A 64) (g b : Vc 64) (j : (⟨2, ![A, 64]⟩ : Shape).Idx) :
    ln H g b j = lnAt H g b (j 0) (j 1) := rfl

theorem lnAt_congr {A A' : Nat} (H : Mat A 64) (H' : Mat A' 64) (g g' b b' : Vc 64) (p : Fin A) (p' : Fin A') (q q' : Fin 64)
    (hq : q = q') (h : ∀ k : Fin 64, H (ix2 p k) = H' (ix2 p' k))
    (hg : ∀ r : Fin 64, g (ix1 r) = g' (ix1 r)) (hb : ∀ r : Fin 64, b (ix1 r) = b' (ix1 r)) :
    lnAt H g b p q = lnAt H' g' b' p' q' := by
  subst hq
  unfold lnAt
  rw [rowMean_rows H H' p p' h, rowVar_rows H H' p p' h, h q, hg q, hb q]

theorem comb_apply {A : Nat} (Hn M : Mat A 64) (nw : Mat 64 32) (nb : Vc 32) (ew : Mat 64 32) (eb : Vc 32) (mw : Mat 32 64) (mb : Vc 64)
    (j : (⟨2, ![A, 64]⟩ : Shape).Idx) : comb Hn M nw nb ew eb mw mb j = combAt Hn M nw nb ew eb mw mb (j 0) (j 1) := rfl

theorem preAt_congr {A A' : Nat} (Hn M : Mat A 64) (Hn' M' : Mat A' 64) (nw nw' : Mat 64 32) (nb nb' : Vc 32) (ew ew' : Mat 64 32) (eb eb' : Vc 32)
    (p : Fin A) (p' : Fin A') (k : Fin 32)
    (h : ∀ i : Fin 64, Hn (ix2 p i) = Hn' (ix2 p' i)) (hm : ∀ i : Fin 64, M (ix2 p i) = M' (ix2 p' i))
    (hnw : ∀ (i : Fin 64) (r : Fin 32), nw (ix2 i r) = nw' (ix2 i r)) (hnb : ∀ r : Fin 32, nb (ix1 r) = nb' (ix1 r))
    (hew : ∀ (i : Fin 64) (r : Fin 32), ew (ix2 i r) = ew' (ix2 i r)) (heb : ∀ r : Fin 32, eb (ix1 r) = eb' (ix1 r)) :
    preAt Hn M nw nb ew eb p k = preAt Hn' M' nw' nb' ew' eb' p' k := by
  unfold preAt
  simp only [h, hm, hnw, hnb, hew, heb]

theorem combAt_congr {A A' : Nat} (Hn M : Mat A 64) (Hn' M' : Mat A' 64) (nw nw' : Mat 64 32) (nb nb' : Vc 32) (ew ew' : Mat 64 32) (eb eb' : Vc 32)
    (mw mw' : Mat 32 64) (mb mb' : Vc 64) (p : Fin A) (p' : Fin A') (q q' : Fin 64) (hq : q = q')
    (h : ∀ i : Fin 64, Hn (ix2 p i) = Hn' (ix2 p' i)) (hm : ∀ i : Fin 64, M (ix2 p i) = M' (ix2 p' i))
    (hnw : ∀ (i : Fin 64) (r : Fin 32), nw (ix2 i r) = nw' (ix2 i r)) (hnb : ∀ r : Fin 32, nb (ix1 r) = nb' (ix1 r))
    (hew : ∀ (i : Fin 64) (r : Fin 32), ew (ix2 i r) = ew' (ix2 i r)) (heb : ∀ r : Fin 32, eb (ix1 r) = eb' (ix1 r))
    (hmw : ∀ (i : Fin 32) (r : Fin 64), mw (ix2 i r) = mw' (ix2 i r)) (hmb : ∀ r : Fin 64, mb (ix1 r) = mb' (ix1 r)) :
    combAt Hn M nw nb ew eb mw mb p q = combAt Hn' M' nw' nb' ew' eb' mw' mb' p' q' := by
  subst hq
  unfold combAt
  rw [h q, hmb q, Finset.sum_congr rfl fun k _ => by
    rw [preAt_congr Hn M Hn' M' nw nw' nb nb' ew ew' eb eb' p p' k h hm hnw hnb hew heb, hmw k q]]

end Gnn

end
-- ==== Proof.Region0.lean ====
/-
  Region 0 applies a two-layer perceptron (16 → 128 → 64) to the node rows, 5000 rows per grid point, the two weight
  matrices and biases read whole. An entry of the result depends on its own input row only, so the twenty tiles together
  are the perceptron of the whole array.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row window's block row is the grid point, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

theorem idx_out : ∀ t : Fin cfg0.N, win0_5.index t (0 : Fin 2) = t.val ∧ win0_5.index t (1 : Fin 2) = 0 :=
  (by decide +kernel : ∀ t : Fin grid0.N, _)

/-- What point `t` writes back is block `t` of the perceptron's result. -/
theorem flushed_eq (hpay : ∀ (v0 : Vec Ideal S5000x16 .f32) (v2 : Vec Ideal S16x128 .f32) (v5 : Vec Ideal S128 .f32) (v15 : Vec Ideal S128x64 .f32) (v18 : Vec Ideal S64 .f32), k0_pay1 (F := Ideal) v0 v2 v5 v15 v18 = Gnn.mlp2 v0 v2 v5 v15 v18)
    (c : Dev nD) (t : Fin cfg0.N) :
    (dat0 V c).flushed 5 t = ((cfg0.win 5).blk t).view.read (Elt Ideal)
      (Gnn.mlp2 (A := 100000) (V c main_arg0) (V c main_arg5) (V c main_arg6) (V c main_arg7) (V c main_arg8)) := by
  show (cfg0.win 5).cut (grid0.coords t) ((dat0 V c).after 5 t) = _
  rw [after0_5]
  unfold out0_5
  rw [View.canon_unit_zero hz2]
  simp only [View.ld_unit_zero (S := S5000x16) hz2, View.ld_unit_zero (S := S16x128) hz2, View.ld_unit_zero (S := S128x64) hz2,
    View.ld_unit_zero (S := S128) hz1, View.ld_unit_zero (S := S64) hz1]
  rw [hpay]
  obtain ⟨e0, e1, e2, e3, e4, e5, e6, e7⟩ := idx_facts t
  obtain ⟨o0, o1⟩ := idx_out t
  funext j
  have hj0 : (j 0).val < 5000 := (j 0).isLt
  have hj1 : (j 1).val < 64 := (j 1).isLt
  show Gnn.denseAt (A := 5000) (Gnn.act (Gnn.dense (iblk0 V c 0 t) (iblk0 V c 1 t) (iblk0 V c 2 t))) (iblk0 V c 3 t) (iblk0 V c 4 t) (j 0) (j 1)
    = Gnn.denseAt (A := 100000) (Gnn.act (Gnn.dense (V c main_arg0) (V c main_arg5) (V c main_arg6))) (V c main_arg7) (V c main_arg8) ((((cfg0.win 5).blk t).view.emb j) 0) ((((cfg0.win 5).blk t).view.emb j) 1)
  refine Gnn.mlp2At_congr _ _ _ _ _ _ _ _ _ _ _ _ _ _ ?_ (fun k => ?_) (fun i r => ?_) (fun r => ?_) (fun i r => ?_) (fun r => ?_)
  · apply Fin.ext
    show (j 1).val = win0_5.index t (1 : Fin 2) * 64 + 1 * (j 1).val
    omega
  · show V c main_arg0 (((cfg0.win 0).blk t).view.emb (ix2 (j 0) k)) = V c main_arg0 (ix2 ((((cfg0.win 5).blk t).view.emb j) 0) k)
    refine congrArg (V c main_arg0) ?_
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 16 + 1 * k.val = k.val; omega
  · show V c main_arg5 (((cfg0.win 1).blk t).view.emb (ix2 i r)) = V c main_arg5 (ix2 i r)
    refine congrArg (V c main_arg5) ?_
    funext a; apply Fin.ext
    match a with
    | ⟨0, _⟩ => show win0_1.index t (0 : Fin 2) * 16 + 1 * i.val = i.val; omega
    | ⟨1, _⟩ => show win0_1.index t (1 : Fin 2) * 128 + 1 * r.val = r.val; omega
  · show V c main_arg6 (((cfg0.win 2).blk t).view.emb (ix1 r)) = V c main_arg6 (ix1 r)
    refine congrArg (V c main_arg6) ?_
    funext a; apply Fin.ext
    match a with
    | ⟨0, _⟩ => show win0_2.index t (0 : Fin 1) * 128 + 1 * r.val = r.val; omega
  · show V c main_arg7 (((cfg0.win 3).blk t).view.emb (ix2 i r)) = V c main_arg7 (ix2 i r)
    refine congrArg (V c main_arg7) ?_
    funext a; apply Fin.ext
    match a with
    | ⟨0, _⟩ => show win0_3.index t (0 : Fin 2) * 128 + 1 * i.val = i.val; omega
    | ⟨1, _⟩ => show win0_3.index t (1 : Fin 2) * 64 + 1 * r.val = r.val; omega
  · show V c main_arg8 (((cfg0.win 4).blk t).view.emb (ix1 r)) = V c main_arg8 (ix1 r)
    refine congrArg (V c main_arg8) ?_
    funext a; apply Fin.ext
    match a with
    | ⟨0, _⟩ => show win0_4.index t (0 : Fin 1) * 64 + 1 * r.val = r.val; omega

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v0).slice (win0_5.rect t)).set ↔ _
  rw [View.set_slice_whole, Rect.mem_set_unit]
  exact Iff.rfl

/-- Every row lies in the tile of the grid point `row / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk]
  have ef := idx_out ⟨(i 0).val / 5000, by rw [hN]; omega⟩
  intro a
  match a with
  | ⟨0, _⟩ => show win0_5.index _ (0 : Fin 2) * 5000 ≤ (i 0).val ∧ (i 0).val < win0_5.index _ (0 : Fin 2) * 5000 + 5000; rw [ef.1]; show (i 0).val / 5000 * 5000 ≤ (i 0).val ∧ (i 0).val < (i 0).val / 5000 * 5000 + 5000; omega
  | ⟨1, _⟩ => show win0_5.index _ (1 : Fin 2) * 64 ≤ (i 1).val ∧ (i 1).val < win0_5.index _ (1 : Fin 2) * 64 + 64; rw [ef.2]; omega

/-- The array the region leaves: the perceptron of the array it found. -/
theorem final (hpay : ∀ (v0 : Vec Ideal S5000x16 .f32) (v2 : Vec Ideal S16x128 .f32) (v5 : Vec Ideal S128 .f32) (v15 : Vec Ideal S128x64 .f32) (v18 : Vec Ideal S64 .f32), k0_pay1 (F := Ideal) v0 v2 v5 v15 v18 = Gnn.mlp2 v0 v2 v5 v15 v18)
    (c : Dev nD) : (dat0 V c).arrAt 5 cfg0.N = (Gnn.mlp2 (A := 100000) (V c main_arg0) (V c main_arg5) (V c main_arg6) (V c main_arg7) (V c main_arg8)) :=
  (dat0 V c).arrAt_eq_of_cover 5 _ (fun t _ => flushed_eq V hpay c t) cover

end Cert.KernelIdeal.Region0

end
-- ==== Proof.Region1.lean ====
/-
  Region 1 normalises the rows of a node array, 5000 rows per grid point. What point `t` writes back is the
  normalisation of rows 5000·t … 5000·t+4999 of the array the region finds, with the scale and shift vectors read whole;
  since an entry of the normalised array depends on its own row only, the twenty tiles together are the normalisation of
  the whole array.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows' block row is the grid point, every other block index is 0. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the normalised array. -/
theorem flushed_eq (hpay : ∀ (v0 : Vec Ideal S5000x64 .f32) (v18 v23 : Vec Ideal S64 .f32), k1_pay1 (F := Ideal) v0 v18 v23 = Gnn.ln v0 v18 v23)
    (c : Dev nD) (t : Fin cfg1.N) :
    (dat1 V c).flushed 3 t = ((cfg1.win 3).blk t).view.read (Elt Ideal)
      (Gnn.ln (A := 100000) (V c main_v0) (V c main_v2) (V c main_v4)) := by
  show (cfg1.win 3).cut (grid1.coords t) ((dat1 V c).after 3 t) = _
  rw [after1_3]
  unfold out1_3
  rw [View.canon_unit_zero hz2]
  simp only [View.ld_unit_zero (S := S5000x64) hz2, View.ld_unit_zero (S := S64) hz1]
  rw [hpay]
  obtain ⟨e0, e1, e2, e3, e4, e5⟩ := idx_facts t
  funext j
  have hj0 : (j 0).val < 5000 := (j 0).isLt
  have hj1 : (j 1).val < 64 := (j 1).isLt
  show Gnn.lnAt (A := 5000) (iblk1 V c 0 t) (iblk1 V c 1 t) (iblk1 V c 2 t) (j 0) (j 1)
    = Gnn.lnAt (A := 100000) (V c main_v0) (V c main_v2) (V c main_v4) ((((cfg1.win 3).blk t).view.emb j) 0) ((((cfg1.win 3).blk t).view.emb j) 1)
  refine Gnn.lnAt_congr _ _ _ _ _ _ _ _ _ _ ?_ (fun k => ?_) (fun r => ?_) (fun r => ?_)
  · apply Fin.ext
    show (j 1).val = win1_3.index t (1 : Fin 2) * 64 + 1 * (j 1).val
    omega
  · show V c main_v0 (((cfg1.win 0).blk t).view.emb (ix2 (j 0) k)) = V c main_v0 (ix2 ((((cfg1.win 3).blk t).view.emb j) 0) k)
    refine congrArg (V c main_v0) ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show V c main_v2 (((cfg1.win 1).blk t).view.emb (ix1 r)) = V c main_v2 (ix1 r)
    refine congrArg (V c main_v2) ?_
    funext a; apply Fin.ext
    match a with
    | ⟨0, _⟩ => show win1_1.index t (0 : Fin 1) * 64 + 1 * r.val = r.val; omega
  · show V c main_v4 (((cfg1.win 2).blk t).view.emb (ix1 r)) = V c main_v4 (ix1 r)
    refine congrArg (V c main_v4) ?_
    funext a; apply Fin.ext
    match a with
    | ⟨0, _⟩ => show win1_2.index t (0 : Fin 1) * 64 + 1 * r.val = r.val; omega

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v5).slice (win1_3.rect t)).set ↔ _
  rw [View.set_slice_whole, Rect.mem_set_unit]
  exact Iff.rfl

/-- Every row lies in the tile of the grid point `row / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  rw [mem_blk]
  obtain ⟨e0, e1, e2, e3, e4, e5⟩ := idx_facts ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e4]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e5]; omega

/-- The array the region leaves: the normalisation of the array it found. -/
theorem final (hpay : ∀ (v0 : Vec Ideal S5000x64 .f32) (v18 v23 : Vec Ideal S64 .f32), k1_pay1 (F := Ideal) v0 v18 v23 = Gnn.ln v0 v18 v23)
    (c : Dev nD) : (dat1 V c).arrAt 3 cfg1.N = Gnn.ln (A := 100000) (V c main_v0) (V c main_v2) (V c main_v4) :=
  (dat1 V c).arrAt_eq_of_cover 3 _ (fun t _ => flushed_eq V hpay c t) cover

end Cert.KernelIdeal.Region1

end
-- ==== Proof.Region2.lean ====
/-
  Region 2 updates the node rows of one layer, 5000 rows per grid point, from the normalised rows and the aggregated
  messages (both read tile by tile) and the layer's six parameter arrays (read whole). An entry of the update depends on
  its own row of the two node arrays only, so the twenty tiles together are the update of the whole arrays.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row window's block row is the grid point, every other block index is 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0 :=
  (by decide +kernel : ∀ t : Fin grid2.N, _)

theorem idx_out : ∀ t : Fin cfg2.N, win2_8.index t (0 : Fin 2) = t.val ∧ win2_8.index t (1 : Fin 2) = 0 :=
  (by decide +kernel : ∀ t : Fin grid2.N, _)

set_option maxHeartbeats 2000000 in
/-- What point `t` writes back is block `t` of the updated array. -/
theorem flushed_eq (hpay : ∀ (v0 v2 : Vec Ideal S5000x64 .f32) (v6 v9 : Vec Ideal S64x32 .f32) (v13 v20 : Vec Ideal S32 .f32) (v31 : Vec Ideal S32x64 .f32) (v35 : Vec Ideal S64 .f32), k2_pay1 (F := Ideal) v0 v2 v6 v9 v13 v20 v31 v35 = Gnn.comb v0 v2 v6 v13 v9 v20 v31 v35)
    (c : Dev nD) (t : Fin cfg2.N) :
    (dat2 V c).flushed 8 t = ((cfg2.win 8).blk t).view.read (Elt Ideal)
      (Gnn.comb (A := 100000) (V c main_v5) (V c main_v18) (V c main_v20) (V c main_v22) (V c main_v24) (V c main_v26) (V c main_v28) (V c main_v30)) := by
  show (cfg2.win 8).cut (grid2.coords t) ((dat2 V c).after 8 t) = _
  rw [after2_8]
  unfold out2_8
  rw [View.canon_unit_zero hz2]
  simp only [View.ld_unit_zero (S := S5000x64) hz2, View.ld_unit_zero (S := S64x32) hz2, View.ld_unit_zero (S := S32x64) hz2,
    View.ld_unit_zero (S := S32) hz1, View.ld_unit_zero (S := S64) hz1]
  rw [hpay]
  obtain ⟨e0, e1, e2, e3, e4, e5, e6, e7, e8, e9, e10, e11, e12⟩ := idx_facts t
  obtain ⟨o0, o1⟩ := idx_out t
  funext j
  have hj0 : (j 0).val < 5000 := (j 0).isLt
  have hj1 : (j 1).val < 64 := (j 1).isLt
  show Gnn.combAt (A := 5000) (iblk2 V c 0 t) (iblk2 V c 1 t) (iblk2 V c 2 t) (iblk2 V c 3 t) (iblk2 V c 4 t) (iblk2 V c 5 t) (iblk2 V c 6 t) (iblk2 V c 7 t) (j 0) (j 1)
    = Gnn.combAt (A := 100000) (V c main_v5) (V c main_v18) (V c main_v20) (V c main_v22) (V c main_v24) (V c main_v26) (V c main_v28) (V c main_v30) ((((cfg2.win 8).blk t).view.emb j) 0) ((((cfg2.win 8).blk t).view.emb j) 1)
  refine Gnn.combAt_congr _ _ _ _ _ _ _ _ _ _ _ _ _ _ _ _ _ _ _ _ ?_ (fun k => ?_) (fun k => ?_) (fun i r => ?_) (fun r => ?_) (fun i r => ?_) (fun r => ?_) (fun i r => ?_) (fun r => ?_)
  · apply Fin.ext
    show (j 1).val = win2_8.index t (1 : Fin 2) * 64 + 1 * (j 1).val
    omega
  · show V c main_v5 (((cfg2.win 0).blk t).view.emb (ix2 (j 0) k)) = V c main_v5 (ix2 ((((cfg2.win 8).blk t).view.emb j) 0) k)
    refine congrArg (V c main_v5) ?_
    funext a; apply Fin.ext
    match a with
    | ⟨0, _⟩ => show win2_0.index t (0 : Fin 2) * 5000 + 1 * (j 0).val = win2_8.index t (0 : Fin 2) * 5000 + 1 * (j 0).val; omega
    | ⟨1, _⟩ => show win2_0.index t (1 : Fin 2) * 64 + 1 * k.val = k.val; omega
  · show V c main_v18 (((cfg2.win 1).blk t).view.emb (ix2 (j 0) k)) = V c main_v18 (ix2 ((((cfg2.win 8).blk t).view.emb j) 0) k)
    refine congrArg (V c main_v18) ?_
    funext a; apply Fin.ext
    match a with
    | ⟨0, _⟩ => show win2_1.index t (0 : Fin 2) * 5000 + 1 * (j 0).val = win2_8.index t (0 : Fin 2) * 5000 + 1 * (j 0).val; omega
    | ⟨1, _⟩ => show win2_1.index t (1 : Fin 2) * 64 + 1 * k.val = k.val; omega
  · show V c main_v20 (((cfg2.win 2).blk t).view.emb (ix2 i r)) = V c main_v20 (ix2 i r)
    refine congrArg (V c main_v20) ?_
    funext a; apply Fin.ext
    match a with
    | ⟨0, _⟩ => show win2_2.index t (0 : Fin 2) * 64 + 1 * i.val = i.val; omega
    | ⟨1, _⟩ => show win2_2.index t (1 : Fin 2) * 32 + 1 * r.val = r.val; omega
  · show V c main_v22 (((cfg2.win 3).blk t).view.emb (ix1 r)) = V c main_v22 (ix1 r)
    refine congrArg (V c main_v22) ?_
    funext a; apply Fin.ext
    match a with
    | ⟨0, _⟩ => show win2_3.index t (0 : Fin 1) * 32 + 1 * r.val = r.val; omega
  · show V c main_v24 (((cfg2.win 4).blk t).view.emb (ix2 i r)) = V c main_v24 (ix2 i r)
    refine congrArg (V c main_v24) ?_
    funext a; apply Fin.ext
    match a with
    | ⟨0, _⟩ => show win2_4.index t (0 : Fin 2) * 64 + 1 * i.val = i.val; omega
    | ⟨1, _⟩ => show win2_4.index t (1 : Fin 2) * 32 + 1 * r.val = r.val; omega
  · show V c main_v26 (((cfg2.win 5).blk t).view.emb (ix1 r)) = V c main_v26 (ix1 r)
    refine congrArg (V c main_v26) ?_
    funext a; apply Fin.ext
    match a with
    | ⟨0, _⟩ => show win2_5.index t (0 : Fin 1) * 32 + 1 * r.val = r.val; omega
  · show V c main_v28 (((cfg2.win 6).blk t).view.emb (ix2 i r)) = V c main_v28 (ix2 i r)
    refine congrArg (V c main_v28) ?_
    funext a; apply Fin.ext
    match a with
    | ⟨0, _⟩ => show win2_6.index t (0 : Fin 2) * 32 + 1 * i.val = i.val; omega
    | ⟨1, _⟩ => show win2_6.index t (1 : Fin 2) * 64 + 1 * r.val = r.val; omega
  · show V c main_v30 (((cfg2.win 7).blk t).view.emb (ix1 r)) = V c main_v30 (ix1 r)
    refine congrArg (V c main_v30) ?_
    funext a; apply Fin.ext
    match a with
    | ⟨0, _⟩ => show win2_7.index t (0 : Fin 1) * 64 + 1 * r.val = r.val; omega

/-- An index of the array is in point `t`'s block iff each coordinate is in the block's range on its axis. -/
theorem mem_blk (t : Fin cfg2.N) (i : S100000x64.Idx) :
    i ∈ ((cfg2.win 8).blk t).view.set ↔ ∀ a : Fin 2, win2_8.index t a * S5000x64.size a ≤ (i a).val ∧ (i a).val < win2_8.index t a * S5000x64.size a + S5000x64.size a := by
  show i ∈ ((View.whole main_v31).slice (win2_8.rect t)).set ↔ _
  rw [View.set_slice_whole, Rect.mem_set_unit]
  exact Iff.rfl

/-- Every row lies in the tile of the grid point `row / 5000`. -/
theorem cover (i : S100000x64.Idx) : ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_8 _, ?_⟩
  rw [mem_blk]
  have ef := idx_out ⟨(i 0).val / 5000, by rw [hN]; omega⟩
  intro a
  match a with
  | ⟨0, _⟩ => show win2_8.index _ (0 : Fin 2) * 5000 ≤ (i 0).val ∧ (i 0).val < win2_8.index _ (0 : Fin 2) * 5000 + 5000; rw [ef.1]; show (i 0).val / 5000 * 5000 ≤ (i 0).val ∧ (i 0).val < (i 0).val / 5000 * 5000 + 5000; omega
  | ⟨1, _⟩ => show win2_8.index _ (1 : Fin 2) * 64 ≤ (i 1).val ∧ (i 1).val < win2_8.index _ (1 : Fin 2) * 64 + 64; rw [ef.2]; omega

/-- The array the region leaves: the layer's update of the arrays it found. -/
theorem final (hpay : ∀ (v0 v2 : Vec Ideal S5000x64 .f32) (v6 v9 : Vec Ideal S64x32 .f32) (v13 v20 : Vec Ideal S32 .f32) (v31 : Vec Ideal S32x64 .f32) (v35 : Vec Ideal S64 .f32), k2_pay1 (F := Ideal) v0 v2 v6 v9 v13 v20 v31 v35 = Gnn.comb v0 v2 v6 v13 v9 v20 v31 v35)
    (c : Dev nD) : (dat2 V c).arrAt 8 cfg2.N = (Gnn.comb (A := 100000) (V c main_v5) (V c main_v18) (V c main_v20) (V c main_v22) (V c main_v24) (V c main_v26) (V c main_v28) (V c main_v30)) :=
  (dat2 V c).arrAt_eq_of_cover 8 _ (fun t _ => flushed_eq V hpay c t) cover

end Cert.KernelIdeal.Region2

end
-- ==== Proof.Region3.lean ====
/-
  Region 3 normalises the rows of a node array, 5000 rows per grid point. What point `t` writes back is the
  normalisation of rows 5000·t … 5000·t+4999 of the array the region finds, with the scale and shift vectors read whole;
  since an entry of the normalised array depends on its own row only, the twenty tiles together are the normalisation of
  the whole array.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows' block row is the grid point, every other block index is 0. -/
theorem idx_facts : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

/-- What point `t` writes back is block `t` of the normalised array. -/
theorem flushed_eq (hpay : ∀ (v0 : Vec Ideal S5000x64 .f32) (v18 v23 : Vec Ideal S64 .f32), k3_pay1 (F := Ideal) v0 v18 v23 = Gnn.ln v0 v18 v23)
    (c : Dev nD) (t : Fin cfg3.N) :
    (dat3 V c).flushed 3 t = ((cfg3.win 3).blk t).view.read (Elt Ideal)
      (Gnn.ln (A := 100000) (V c main_v31) (V c main_v33) (V c main_v35)) := by
  show (cfg3.win 3).cut (grid3.coords t) ((dat3 V c).after 3 t) = _
  rw [after3_3]
  unfold out3_3
  rw [View.canon_unit_zero hz2]
  simp only [View.ld_unit_zero (S := S5000x64) hz2, View.ld_unit_zero (S := S64) hz1]
  rw [hpay]
  obtain ⟨e0, e1, e2, e3, e4, e5⟩ := idx_facts t
  funext j
  have hj0 : (j 0).val < 5000 := (j 0).isLt
  have hj1 : (j 1).val < 64 := (j 1).isLt
  show Gnn.lnAt (A := 5000) (iblk3 V c 0 t) (iblk3 V c 1 t) (iblk3 V c 2 t) (j 0) (j 1)
    = Gnn.lnAt (A := 100000) (V c main_v31) (V c main_v33) (V c main_v35) ((((cfg3.win 3).blk t).view.emb j) 0) ((((cfg3.win 3).blk t).view.emb j) 1)
  refine Gnn.lnAt_congr _ _ _ _ _ _ _ _ _ _ ?_ (fun k => ?_) (fun r => ?_) (fun r => ?_)
  · apply Fin.ext
    show (j 1).val = win3_3.index t (1 : Fin 2) * 64 + 1 * (j 1).val
    omega
  · show V c main_v31 (((cfg3.win 0).blk t).view.emb (ix2 (j 0) k)) = V c main_v31 (ix2 ((((cfg3.win 3).blk t).view.emb j) 0) k)
    refine congrArg (V c main_v31) ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  · show V c main_v33 (((cfg3.win 1).blk t).view.emb (ix1 r)) = V c main_v33 (ix1 r)
    refine congrArg (V c main_v33) ?_
    funext a; apply Fin.ext
    match a with
    | ⟨0, _⟩ => show win3_1.index t (0 : Fin 1) * 64 + 1 * r.val = r.val; omega
  · show V c main_v35 (((cfg3.win 2).blk t).view.emb (ix1 r)) = V c main_v35 (ix1 r)
    refine congrArg (V c main_v35) ?_
    funext a; apply Fin.ext
    match a with
    | ⟨0, _⟩ => show win3_2.index t (0 : Fin 1) * 64 + 1 * r.val = r.val; omega

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v36).slice (win3_3.rect t)).set ↔ _
  rw [View.set_slice_whole, Rect.mem_set_unit]
  exact Iff.rfl

/-- Every row lies in the tile of the grid point `row / 5000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_3 _, ?_⟩
  rw [mem_blk]
  obtain ⟨e0, e1, e2, e3, e4, e5⟩ := idx_facts ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e4]; show (i 0).val / 5000 * 5000 ≤ (i 0).val ∧ (i 0).val < (i 0).val / 5000 * 5000 + 5000; omega
  | ⟨1, _⟩ => show win3_3.index _ (1 : Fin 2) * 64 ≤ (i 1).val ∧ (i 1).val < win3_3.index _ (1 : Fin 2) * 64 + 64; rw [e5]; omega

/-- The array the region leaves: the normalisation of the array it found. -/
theorem final (hpay : ∀ (v0 : Vec Ideal S5000x64 .f32) (v18 v23 : Vec Ideal S64 .f32), k3_pay1 (F := Ideal) v0 v18 v23 = Gnn.ln v0 v18 v23)
    (c : Dev nD) : (dat3 V c).arrAt 3 cfg3.N = Gnn.ln (A := 100000) (V c main_v31) (V c main_v33) (V c main_v35) :=
  (dat3 V c).arrAt_eq_of_cover 3 _ (fun t _ => flushed_eq V hpay c t) cover

end Cert.KernelIdeal.Region3

end
-- ==== Proof.Region4.lean ====
/-
  Region 4 updates the node rows of one layer, 5000 rows per grid point, from the normalised rows and the aggregated
  messages (both read tile by tile) and the layer's six parameter arrays (read whole). An entry of the update depends on
  its own row of the two node arrays only, so the twenty tiles together are the update of the whole arrays.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row window's block row is the grid point, every other block index is 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = 0 ∧ win4_6.index t (1 : Fin 2) = 0
    ∧ win4_7.index t (0 : Fin 1) = 0 :=
  (by decide +kernel : ∀ t : Fin grid4.N, _)

theorem idx_out : ∀ t : Fin cfg4.N, win4_8.index t (0 : Fin 2) = t.val ∧ win4_8.index t (1 : Fin 2) = 0 :=
  (by decide +kernel : ∀ t : Fin grid4.N, _)

set_option maxHeartbeats 2000000 in
/-- What point `t` writes back is block `t` of the updated array. -/
theorem flushed_eq (hpay : ∀ (v0 v2 : Vec Ideal S5000x64 .f32) (v6 v9 : Vec Ideal S64x32 .f32) (v13 v20 : Vec Ideal S32 .f32) (v31 : Vec Ideal S32x64 .f32) (v35 : Vec Ideal S64 .f32), k4_pay1 (F := Ideal) v0 v2 v6 v9 v13 v20 v31 v35 = Gnn.comb v0 v2 v6 v13 v9 v20 v31 v35)
    (c : Dev nD) (t : Fin cfg4.N) :
    (dat4 V c).flushed 8 t = ((cfg4.win 8).blk t).view.read (Elt Ideal)
      (Gnn.comb (A := 100000) (V c main_v36) (V c main_v49) (V c main_v51) (V c main_v53) (V c main_v55) (V c main_v57) (V c main_v59) (V c main_v61)) := by
  show (cfg4.win 8).cut (grid4.coords t) ((dat4 V c).after 8 t) = _
  rw [after4_8]
  unfold out4_8
  rw [View.canon_unit_zero hz2]
  simp only [View.ld_unit_zero (S := S5000x64) hz2, View.ld_unit_zero (S := S64x32) hz2, View.ld_unit_zero (S := S32x64) hz2,
    View.ld_unit_zero (S := S32) hz1, View.ld_unit_zero (S := S64) hz1]
  rw [hpay]
  obtain ⟨e0, e1, e2, e3, e4, e5, e6, e7, e8, e9, e10, e11, e12⟩ := idx_facts t
  obtain ⟨o0, o1⟩ := idx_out t
  funext j
  have hj0 : (j 0).val < 5000 := (j 0).isLt
  have hj1 : (j 1).val < 64 := (j 1).isLt
  show Gnn.combAt (A := 5000) (iblk4 V c 0 t) (iblk4 V c 1 t) (iblk4 V c 2 t) (iblk4 V c 3 t) (iblk4 V c 4 t) (iblk4 V c 5 t) (iblk4 V c 6 t) (iblk4 V c 7 t) (j 0) (j 1)
    = Gnn.combAt (A := 100000) (V c main_v36) (V c main_v49) (V c main_v51) (V c main_v53) (V c main_v55) (V c main_v57) (V c main_v59) (V c main_v61) ((((cfg4.win 8).blk t).view.emb j) 0) ((((cfg4.win 8).blk t).view.emb j) 1)
  refine Gnn.combAt_congr _ _ _ _ _ _ _ _ _ _ _ _ _ _ _ _ _ _ _ _ ?_ (fun k => ?_) (fun k => ?_) (fun i r => ?_) (fun r => ?_) (fun i r => ?_) (fun r => ?_) (fun i r => ?_) (fun r => ?_)
  · apply Fin.ext
    show (j 1).val = win4_8.index t (1 : Fin 2) * 64 + 1 * (j 1).val
    omega
  · show V c main_v36 (((cfg4.win 0).blk t).view.emb (ix2 (j 0) k)) = V c main_v36 (ix2 ((((cfg4.win 8).blk t).view.emb j) 0) k)
    refine congrArg (V c main_v36) ?_
    funext a; apply Fin.ext
    match a with
    | ⟨0, _⟩ => show win4_0.index t (0 : Fin 2) * 5000 + 1 * (j 0).val = win4_8.index t (0 : Fin 2) * 5000 + 1 * (j 0).val; omega
    | ⟨1, _⟩ => show win4_0.index t (1 : Fin 2) * 64 + 1 * k.val = k.val; omega
  · show V c main_v49 (((cfg4.win 1).blk t).view.emb (ix2 (j 0) k)) = V c main_v49 (ix2 ((((cfg4.win 8).blk t).view.emb j) 0) k)
    refine congrArg (V c main_v49) ?_
    funext a; apply Fin.ext
    match a with
    | ⟨0, _⟩ => show win4_1.index t (0 : Fin 2) * 5000 + 1 * (j 0).val = win4_8.index t (0 : Fin 2) * 5000 + 1 * (j 0).val; omega
    | ⟨1, _⟩ => show win4_1.index t (1 : Fin 2) * 64 + 1 * k.val = k.val; omega
  · show V c main_v51 (((cfg4.win 2).blk t).view.emb (ix2 i r)) = V c main_v51 (ix2 i r)
    refine congrArg (V c main_v51) ?_
    funext a; apply Fin.ext
    match a with
    | ⟨0, _⟩ => show win4_2.index t (0 : Fin 2) * 64 + 1 * i.val = i.val; omega
    | ⟨1, _⟩ => show win4_2.index t (1 : Fin 2) * 32 + 1 * r.val = r.val; omega
  · show V c main_v53 (((cfg4.win 3).blk t).view.emb (ix1 r)) = V c main_v53 (ix1 r)
    refine congrArg (V c main_v53) ?_
    funext a; apply Fin.ext
    match a with
    | ⟨0, _⟩ => show win4_3.index t (0 : Fin 1) * 32 + 1 * r.val = r.val; omega
  · show V c main_v55 (((cfg4.win 4).blk t).view.emb (ix2 i r)) = V c main_v55 (ix2 i r)
    refine congrArg (V c main_v55) ?_
    funext a; apply Fin.ext
    match a with
    | ⟨0, _⟩ => show win4_4.index t (0 : Fin 2) * 64 + 1 * i.val = i.val; omega
    | ⟨1, _⟩ => show win4_4.index t (1 : Fin 2) * 32 + 1 * r.val = r.val; omega
  · show V c main_v57 (((cfg4.win 5).blk t).view.emb (ix1 r)) = V c main_v57 (ix1 r)
    refine congrArg (V c main_v57) ?_
    funext a; apply Fin.ext
    match a with
    | ⟨0, _⟩ => show win4_5.index t (0 : Fin 1) * 32 + 1 * r.val = r.val; omega
  · show V c main_v59 (((cfg4.win 6).blk t).view.emb (ix2 i r)) = V c main_v59 (ix2 i r)
    refine congrArg (V c main_v59) ?_
    funext a; apply Fin.ext
    match a with
    | ⟨0, _⟩ => show win4_6.index t (0 : Fin 2) * 32 + 1 * i.val = i.val; omega
    | ⟨1, _⟩ => show win4_6.index t (1 : Fin 2) * 64 + 1 * r.val = r.val; omega
  · show V c main_v61 (((cfg4.win 7).blk t).view.emb (ix1 r)) = V c main_v61 (ix1 r)
    refine congrArg (V c main_v61) ?_
    funext a; apply Fin.ext
    match a with
    | ⟨0, _⟩ => show win4_7.index t (0 : Fin 1) * 64 + 1 * r.val = r.val; omega

/-- An index of the array is in point `t`'s block iff each coordinate is in the block's range on its axis. -/
theorem mem_blk (t : Fin cfg4.N) (i : S100000x64.Idx) :
    i ∈ ((cfg4.win 8).blk t).view.set ↔ ∀ a : Fin 2, win4_8.index t a * S5000x64.size a ≤ (i a).val ∧ (i a).val < win4_8.index t a * S5000x64.size a + S5000x64.size a := by
  show i ∈ ((View.whole main_v62).slice (win4_8.rect t)).set ↔ _
  rw [View.set_slice_whole, Rect.mem_set_unit]
  exact Iff.rfl

/-- Every row lies in the tile of the grid point `row / 5000`. -/
theorem cover (i : S100000x64.Idx) : ∃ t : Fin cfg4.N, (cfg4.win 8).flush t = true ∧ i ∈ ((cfg4.win 8).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_8 _, ?_⟩
  rw [mem_blk]
  have ef := idx_out ⟨(i 0).val / 5000, by rw [hN]; omega⟩
  intro a
  match a with
  | ⟨0, _⟩ => show win4_8.index _ (0 : Fin 2) * 5000 ≤ (i 0).val ∧ (i 0).val < win4_8.index _ (0 : Fin 2) * 5000 + 5000; rw [ef.1]; show (i 0).val / 5000 * 5000 ≤ (i 0).val ∧ (i 0).val < (i 0).val / 5000 * 5000 + 5000; omega
  | ⟨1, _⟩ => show win4_8.index _ (1 : Fin 2) * 64 ≤ (i 1).val ∧ (i 1).val < win4_8.index _ (1 : Fin 2) * 64 + 64; rw [ef.2]; omega

/-- The array the region leaves: the layer's update of the arrays it found. -/
theorem final (hpay : ∀ (v0 v2 : Vec Ideal S5000x64 .f32) (v6 v9 : Vec Ideal S64x32 .f32) (v13 v20 : Vec Ideal S32 .f32) (v31 : Vec Ideal S32x64 .f32) (v35 : Vec Ideal S64 .f32), k4_pay1 (F := Ideal) v0 v2 v6 v9 v13 v20 v31 v35 = Gnn.comb v0 v2 v6 v13 v9 v20 v31 v35)
    (c : Dev nD) : (dat4 V c).arrAt 8 cfg4.N = (Gnn.comb (A := 100000) (V c main_v36) (V c main_v49) (V c main_v51) (V c main_v53) (V c main_v55) (V c main_v57) (V c main_v59) (V c main_v61)) :=
  (dat4 V c).arrAt_eq_of_cover 8 _ (fun t _ => flushed_eq V hpay c t) cover

end Cert.KernelIdeal.Region4

end
-- ==== Proof.Region5.lean ====
/-
  Region 5 normalises the rows of a node array, 5000 rows per grid point. What point `t` writes back is the
  normalisation of rows 5000·t … 5000·t+4999 of the array the region finds, with the scale and shift vectors read whole;
  since an entry of the normalised array depends on its own row only, the twenty tiles together are the normalisation of
  the whole array.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows' block row is the grid point, every other block index is 0. -/
theorem idx_facts : ∀ t : Fin cfg5.N, win5_0.index t (0 : Fin 2) = t.val ∧ win5_0.index t (1 : Fin 2) = 0
    ∧ win5_1.index t (0 : Fin 1) = 0 ∧ win5_2.index t (0 : Fin 1) = 0
    ∧ win5_3.index t (0 : Fin 2) = t.val ∧ win5_3.index t (1 : Fin 2) = 0 :=
  (by decide +kernel : ∀ t : Fin grid5.N, _)

/-- What point `t` writes back is block `t` of the normalised array. -/
theorem flushed_eq (hpay : ∀ (v0 : Vec Ideal S5000x64 .f32) (v18 v23 : Vec Ideal S64 .f32), k5_pay1 (F := Ideal) v0 v18 v23 = Gnn.ln v0 v18 v23)
    (c : Dev nD) (t : Fin cfg5.N) :
    (dat5 V c).flushed 3 t = ((cfg5.win 3).blk t).view.read (Elt Ideal)
      (Gnn.ln (A := 100000) (V c main_v62) (V c main_v64) (V c main_v66)) := by
  show (cfg5.win 3).cut (grid5.coords t) ((dat5 V c).after 3 t) = _
  rw [after5_3]
  unfold out5_3
  rw [View.canon_unit_zero hz2]
  simp only [View.ld_unit_zero (S := S5000x64) hz2, View.ld_unit_zero (S := S64) hz1]
  rw [hpay]
  obtain ⟨e0, e1, e2, e3, e4, e5⟩ := idx_facts t
  funext j
  have hj0 : (j 0).val < 5000 := (j 0).isLt
  have hj1 : (j 1).val < 64 := (j 1).isLt
  show Gnn.lnAt (A := 5000) (iblk5 V c 0 t) (iblk5 V c 1 t) (iblk5 V c 2 t) (j 0) (j 1)
    = Gnn.lnAt (A := 100000) (V c main_v62) (V c main_v64) (V c main_v66) ((((cfg5.win 3).blk t).view.emb j) 0) ((((cfg5.win 3).blk t).view.emb j) 1)
  refine Gnn.lnAt_congr _ _ _ _ _ _ _ _ _ _ ?_ (fun k => ?_) (fun r => ?_) (fun r => ?_)
  · apply Fin.ext
    show (j 1).val = win5_3.index t (1 : Fin 2) * 64 + 1 * (j 1).val
    omega
  · show V c main_v62 (((cfg5.win 0).blk t).view.emb (ix2 (j 0) k)) = V c main_v62 (ix2 ((((cfg5.win 3).blk t).view.emb j) 0) k)
    refine congrArg (V c main_v62) ?_
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * k.val = k.val; omega
  · show V c main_v64 (((cfg5.win 1).blk t).view.emb (ix1 r)) = V c main_v64 (ix1 r)
    refine congrArg (V c main_v64) ?_
    funext a; apply Fin.ext
    match a with
    | ⟨0, _⟩ => show win5_1.index t (0 : Fin 1) * 64 + 1 * r.val = r.val; omega
  · show V c main_v66 (((cfg5.win 2).blk t).view.emb (ix1 r)) = V c main_v66 (ix1 r)
    refine congrArg (V c main_v66) ?_
    funext a; apply Fin.ext
    match a with
    | ⟨0, _⟩ => show win5_2.index t (0 : Fin 1) * 64 + 1 * r.val = r.val; omega

/-- An index of the array is in point `t`'s block iff each coordinate is in the block's range on its axis. -/
theorem mem_blk (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v67).slice (win5_3.rect t)).set ↔ _
  rw [View.set_slice_whole, Rect.mem_set_unit]
  exact Iff.rfl

/-- Every row lies in the tile of the grid point `row / 5000`. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_3 _, ?_⟩
  rw [mem_blk]
  obtain ⟨e0, e1, e2, e3, e4, e5⟩ := idx_facts ⟨(i 0).val / 5000, by rw [hN]; omega⟩
  intro a
  match a with
  | ⟨0, _⟩ => show win5_3.index _ (0 : Fin 2) * 5000 ≤ (i 0).val ∧ (i 0).val < win5_3.index _ (0 : Fin 2) * 5000 + 5000; rw [e4]; show (i 0).val / 5000 * 5000 ≤ (i 0).val ∧ (i 0).val < (i 0).val / 5000 * 5000 + 5000; omega
  | ⟨1, _⟩ => show win5_3.index _ (1 : Fin 2) * 64 ≤ (i 1).val ∧ (i 1).val < win5_3.index _ (1 : Fin 2) * 64 + 64; rw [e5]; omega

/-- The array the region leaves: the normalisation of the array it found. -/
theorem final (hpay : ∀ (v0 : Vec Ideal S5000x64 .f32) (v18 v23 : Vec Ideal S64 .f32), k5_pay1 (F := Ideal) v0 v18 v23 = Gnn.ln v0 v18 v23)
    (c : Dev nD) : (dat5 V c).arrAt 3 cfg5.N = Gnn.ln (A := 100000) (V c main_v62) (V c main_v64) (V c main_v66) :=
  (dat5 V c).arrAt_eq_of_cover 3 _ (fun t _ => flushed_eq V hpay c t) cover

end Cert.KernelIdeal.Region5

end
-- ==== Proof.Region6.lean ====
/-
  Region 6 updates the node rows of one layer, 5000 rows per grid point, from the normalised rows and the aggregated
  messages (both read tile by tile) and the layer's six parameter arrays (read whole). An entry of the update depends on
  its own row of the two node arrays only, so the twenty tiles together are the update of the whole arrays.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row window's block row is the grid point, every other block index is 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 1) = 0
    ∧ win6_4.index t (0 : Fin 2) = 0 ∧ win6_4.index t (1 : Fin 2) = 0
    ∧ win6_5.index t (0 : Fin 1) = 0
    ∧ win6_6.index t (0 : Fin 2) = 0 ∧ win6_6.index t (1 : Fin 2) = 0
    ∧ win6_7.index t (0 : Fin 1) = 0 :=
  (by decide +kernel : ∀ t : Fin grid6.N, _)

theorem idx_out : ∀ t : Fin cfg6.N, win6_8.index t (0 : Fin 2) = t.val ∧ win6_8.index t (1 : Fin 2) = 0 :=
  (by decide +kernel : ∀ t : Fin grid6.N, _)

set_option maxHeartbeats 2000000 in
/-- What point `t` writes back is block `t` of the updated array. -/
theorem flushed_eq (hpay : ∀ (v0 v2 : Vec Ideal S5000x64 .f32) (v6 v9 : Vec Ideal S64x32 .f32) (v13 v20 : Vec Ideal S32 .f32) (v31 : Vec Ideal S32x64 .f32) (v35 : Vec Ideal S64 .f32), k6_pay1 (F := Ideal) v0 v2 v6 v9 v13 v20 v31 v35 = Gnn.comb v0 v2 v6 v13 v9 v20 v31 v35)
    (c : Dev nD) (t : Fin cfg6.N) :
    (dat6 V c).flushed 8 t = ((cfg6.win 8).blk t).view.read (Elt Ideal)
      (Gnn.comb (A := 100000) (V c main_v67) (V c main_v80) (V c main_v82) (V c main_v84) (V c main_v86) (V c main_v88) (V c main_v90) (V c main_v92)) := by
  show (cfg6.win 8).cut (grid6.coords t) ((dat6 V c).after 8 t) = _
  rw [after6_8]
  unfold out6_8
  rw [View.canon_unit_zero hz2]
  simp only [View.ld_unit_zero (S := S5000x64) hz2, View.ld_unit_zero (S := S64x32) hz2, View.ld_unit_zero (S := S32x64) hz2,
    View.ld_unit_zero (S := S32) hz1, View.ld_unit_zero (S := S64) hz1]
  rw [hpay]
  obtain ⟨e0, e1, e2, e3, e4, e5, e6, e7, e8, e9, e10, e11, e12⟩ := idx_facts t
  obtain ⟨o0, o1⟩ := idx_out t
  funext j
  have hj0 : (j 0).val < 5000 := (j 0).isLt
  have hj1 : (j 1).val < 64 := (j 1).isLt
  show Gnn.combAt (A := 5000) (iblk6 V c 0 t) (iblk6 V c 1 t) (iblk6 V c 2 t) (iblk6 V c 3 t) (iblk6 V c 4 t) (iblk6 V c 5 t) (iblk6 V c 6 t) (iblk6 V c 7 t) (j 0) (j 1)
    = Gnn.combAt (A := 100000) (V c main_v67) (V c main_v80) (V c main_v82) (V c main_v84) (V c main_v86) (V c main_v88) (V c main_v90) (V c main_v92) ((((cfg6.win 8).blk t).view.emb j) 0) ((((cfg6.win 8).blk t).view.emb j) 1)
  refine Gnn.combAt_congr _ _ _ _ _ _ _ _ _ _ _ _ _ _ _ _ _ _ _ _ ?_ (fun k => ?_) (fun k => ?_) (fun i r => ?_) (fun r => ?_) (fun i r => ?_) (fun r => ?_) (fun i r => ?_) (fun r => ?_)
  · apply Fin.ext
    show (j 1).val = win6_8.index t (1 : Fin 2) * 64 + 1 * (j 1).val
    omega
  · show V c main_v67 (((cfg6.win 0).blk t).view.emb (ix2 (j 0) k)) = V c main_v67 (ix2 ((((cfg6.win 8).blk t).view.emb j) 0) k)
    refine congrArg (V c main_v67) ?_
    funext a; apply Fin.ext
    match a with
    | ⟨0, _⟩ => show win6_0.index t (0 : Fin 2) * 5000 + 1 * (j 0).val = win6_8.index t (0 : Fin 2) * 5000 + 1 * (j 0).val; omega
    | ⟨1, _⟩ => show win6_0.index t (1 : Fin 2) * 64 + 1 * k.val = k.val; omega
  · show V c main_v80 (((cfg6.win 1).blk t).view.emb (ix2 (j 0) k)) = V c main_v80 (ix2 ((((cfg6.win 8).blk t).view.emb j) 0) k)
    refine congrArg (V c main_v80) ?_
    funext a; apply Fin.ext
    match a with
    | ⟨0, _⟩ => show win6_1.index t (0 : Fin 2) * 5000 + 1 * (j 0).val = win6_8.index t (0 : Fin 2) * 5000 + 1 * (j 0).val; omega
    | ⟨1, _⟩ => show win6_1.index t (1 : Fin 2) * 64 + 1 * k.val = k.val; omega
  · show V c main_v82 (((cfg6.win 2).blk t).view.emb (ix2 i r)) = V c main_v82 (ix2 i r)
    refine congrArg (V c main_v82) ?_
    funext a; apply Fin.ext
    match a with
    | ⟨0, _⟩ => show win6_2.index t (0 : Fin 2) * 64 + 1 * i.val = i.val; omega
    | ⟨1, _⟩ => show win6_2.index t (1 : Fin 2) * 32 + 1 * r.val = r.val; omega
  · show V c main_v84 (((cfg6.win 3).blk t).view.emb (ix1 r)) = V c main_v84 (ix1 r)
    refine congrArg (V c main_v84) ?_
    funext a; apply Fin.ext
    match a with
    | ⟨0, _⟩ => show win6_3.index t (0 : Fin 1) * 32 + 1 * r.val = r.val; omega
  · show V c main_v86 (((cfg6.win 4).blk t).view.emb (ix2 i r)) = V c main_v86 (ix2 i r)
    refine congrArg (V c main_v86) ?_
    funext a; apply Fin.ext
    match a with
    | ⟨0, _⟩ => show win6_4.index t (0 : Fin 2) * 64 + 1 * i.val = i.val; omega
    | ⟨1, _⟩ => show win6_4.index t (1 : Fin 2) * 32 + 1 * r.val = r.val; omega
  · show V c main_v88 (((cfg6.win 5).blk t).view.emb (ix1 r)) = V c main_v88 (ix1 r)
    refine congrArg (V c main_v88) ?_
    funext a; apply Fin.ext
    match a with
    | ⟨0, _⟩ => show win6_5.index t (0 : Fin 1) * 32 + 1 * r.val = r.val; omega
  · show V c main_v90 (((cfg6.win 6).blk t).view.emb (ix2 i r)) = V c main_v90 (ix2 i r)
    refine congrArg (V c main_v90) ?_
    funext a; apply Fin.ext
    match a with
    | ⟨0, _⟩ => show win6_6.index t (0 : Fin 2) * 32 + 1 * i.val = i.val; omega
    | ⟨1, _⟩ => show win6_6.index t (1 : Fin 2) * 64 + 1 * r.val = r.val; omega
  · show V c main_v92 (((cfg6.win 7).blk t).view.emb (ix1 r)) = V c main_v92 (ix1 r)
    refine congrArg (V c main_v92) ?_
    funext a; apply Fin.ext
    match a with
    | ⟨0, _⟩ => show win6_7.index t (0 : Fin 1) * 64 + 1 * r.val = r.val; omega

/-- An index of the array is in point `t`'s block iff each coordinate is in the block's range on its axis. -/
theorem mem_blk (t : Fin cfg6.N) (i : S100000x64.Idx) :
    i ∈ ((cfg6.win 8).blk t).view.set ↔ ∀ a : Fin 2, win6_8.index t a * S5000x64.size a ≤ (i a).val ∧ (i a).val < win6_8.index t a * S5000x64.size a + S5000x64.size a := by
  show i ∈ ((View.whole main_v93).slice (win6_8.rect t)).set ↔ _
  rw [View.set_slice_whole, Rect.mem_set_unit]
  exact Iff.rfl

/-- Every row lies in the tile of the grid point `row / 5000`. -/
theorem cover (i : S100000x64.Idx) : ∃ t : Fin cfg6.N, (cfg6.win 8).flush t = true ∧ i ∈ ((cfg6.win 8).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_8 _, ?_⟩
  rw [mem_blk]
  have ef := idx_out ⟨(i 0).val / 5000, by rw [hN]; omega⟩
  intro a
  match a with
  | ⟨0, _⟩ => show win6_8.index _ (0 : Fin 2) * 5000 ≤ (i 0).val ∧ (i 0).val < win6_8.index _ (0 : Fin 2) * 5000 + 5000; rw [ef.1]; show (i 0).val / 5000 * 5000 ≤ (i 0).val ∧ (i 0).val < (i 0).val / 5000 * 5000 + 5000; omega
  | ⟨1, _⟩ => show win6_8.index _ (1 : Fin 2) * 64 ≤ (i 1).val ∧ (i 1).val < win6_8.index _ (1 : Fin 2) * 64 + 64; rw [ef.2]; omega

/-- The array the region leaves: the layer's update of the arrays it found. -/
theorem final (hpay : ∀ (v0 v2 : Vec Ideal S5000x64 .f32) (v6 v9 : Vec Ideal S64x32 .f32) (v13 v20 : Vec Ideal S32 .f32) (v31 : Vec Ideal S32x64 .f32) (v35 : Vec Ideal S64 .f32), k6_pay1 (F := Ideal) v0 v2 v6 v9 v13 v20 v31 v35 = Gnn.comb v0 v2 v6 v13 v9 v20 v31 v35)
    (c : Dev nD) : (dat6 V c).arrAt 8 cfg6.N = (Gnn.comb (A := 100000) (V c main_v67) (V c main_v80) (V c main_v82) (V c main_v84) (V c main_v86) (V c main_v88) (V c main_v90) (V c main_v92)) :=
  (dat6 V c).arrAt_eq_of_cover 8 _ (fun t _ => flushed_eq V hpay c t) cover

end Cert.KernelIdeal.Region6

end
-- ==== Proof.Region7.lean ====
/-
  Region 7 normalises the rows of a node array, 5000 rows per grid point. What point `t` writes back is the
  normalisation of rows 5000·t … 5000·t+4999 of the array the region finds, with the scale and shift vectors read whole;
  since an entry of the normalised array depends on its own row only, the twenty tiles together are the normalisation of
  the whole array.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region7

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows' block row is the grid point, every other block index is 0. -/
theorem idx_facts : ∀ t : Fin cfg7.N, win7_0.index t (0 : Fin 2) = t.val ∧ win7_0.index t (1 : Fin 2) = 0
    ∧ win7_1.index t (0 : Fin 1) = 0 ∧ win7_2.index t (0 : Fin 1) = 0
    ∧ win7_3.index t (0 : Fin 2) = t.val ∧ win7_3.index t (1 : Fin 2) = 0 :=
  (by decide +kernel : ∀ t : Fin grid7.N, _)

/-- What point `t` writes back is block `t` of the normalised array. -/
theorem flushed_eq (hpay : ∀ (v0 : Vec Ideal S5000x64 .f32) (v18 v23 : Vec Ideal S64 .f32), k7_pay1 (F := Ideal) v0 v18 v23 = Gnn.ln v0 v18 v23)
    (c : Dev nD) (t : Fin cfg7.N) :
    (dat7 V c).flushed 3 t = ((cfg7.win 3).blk t).view.read (Elt Ideal)
      (Gnn.ln (A := 100000) (V c main_v93) (V c main_v95) (V c main_v97)) := by
  show (cfg7.win 3).cut (grid7.coords t) ((dat7 V c).after 3 t) = _
  rw [after7_3]
  unfold out7_3
  rw [View.canon_unit_zero hz2]
  simp only [View.ld_unit_zero (S := S5000x64) hz2, View.ld_unit_zero (S := S64) hz1]
  rw [hpay]
  obtain ⟨e0, e1, e2, e3, e4, e5⟩ := idx_facts t
  funext j
  have hj0 : (j 0).val < 5000 := (j 0).isLt
  have hj1 : (j 1).val < 64 := (j 1).isLt
  show Gnn.lnAt (A := 5000) (iblk7 V c 0 t) (iblk7 V c 1 t) (iblk7 V c 2 t) (j 0) (j 1)
    = Gnn.lnAt (A := 100000) (V c main_v93) (V c main_v95) (V c main_v97) ((((cfg7.win 3).blk t).view.emb j) 0) ((((cfg7.win 3).blk t).view.emb j) 1)
  refine Gnn.lnAt_congr _ _ _ _ _ _ _ _ _ _ ?_ (fun k => ?_) (fun r => ?_) (fun r => ?_)
  · apply Fin.ext
    show (j 1).val = win7_3.index t (1 : Fin 2) * 64 + 1 * (j 1).val
    omega
  · show V c main_v93 (((cfg7.win 0).blk t).view.emb (ix2 (j 0) k)) = V c main_v93 (ix2 ((((cfg7.win 3).blk t).view.emb j) 0) k)
    refine congrArg (V c main_v93) ?_
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * k.val = k.val; omega
  · show V c main_v95 (((cfg7.win 1).blk t).view.emb (ix1 r)) = V c main_v95 (ix1 r)
    refine congrArg (V c main_v95) ?_
    funext a; apply Fin.ext
    match a with
    | ⟨0, _⟩ => show win7_1.index t (0 : Fin 1) * 64 + 1 * r.val = r.val; omega
  · show V c main_v97 (((cfg7.win 2).blk t).view.emb (ix1 r)) = V c main_v97 (ix1 r)
    refine congrArg (V c main_v97) ?_
    funext a; apply Fin.ext
    match a with
    | ⟨0, _⟩ => show win7_2.index t (0 : Fin 1) * 64 + 1 * r.val = r.val; omega

/-- An index of the array is in point `t`'s block iff each coordinate is in the block's range on its axis. -/
theorem mem_blk (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v98).slice (win7_3.rect t)).set ↔ _
  rw [View.set_slice_whole, Rect.mem_set_unit]
  exact Iff.rfl

/-- Every row lies in the tile of the grid point `row / 5000`. -/
theorem cover (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 20 := N_7
  refine ⟨⟨(i 0).val / 5000, by rw [hN]; omega⟩, flush7_3 _, ?_⟩
  rw [mem_blk]
  obtain ⟨e0, e1, e2, e3, e4, e5⟩ := idx_facts ⟨(i 0).val / 5000, by rw [hN]; omega⟩
  intro a
  match a with
  | ⟨0, _⟩ => show win7_3.index _ (0 : Fin 2) * 5000 ≤ (i 0).val ∧ (i 0).val < win7_3.index _ (0 : Fin 2) * 5000 + 5000; rw [e4]; show (i 0).val / 5000 * 5000 ≤ (i 0).val ∧ (i 0).val < (i 0).val / 5000 * 5000 + 5000; omega
  | ⟨1, _⟩ => show win7_3.index _ (1 : Fin 2) * 64 ≤ (i 1).val ∧ (i 1).val < win7_3.index _ (1 : Fin 2) * 64 + 64; rw [e5]; omega

/-- The array the region leaves: the normalisation of the array it found. -/
theorem final (hpay : ∀ (v0 : Vec Ideal S5000x64 .f32) (v18 v23 : Vec Ideal S64 .f32), k7_pay1 (F := Ideal) v0 v18 v23 = Gnn.ln v0 v18 v23)
    (c : Dev nD) : (dat7 V c).arrAt 3 cfg7.N = Gnn.ln (A := 100000) (V c main_v93) (V c main_v95) (V c main_v97) :=
  (dat7 V c).arrAt_eq_of_cover 3 _ (fun t _ => flushed_eq V hpay c t) cover

end Cert.KernelIdeal.Region7

end
-- ==== Proof.Region8.lean ====
/-
  Region 8 updates the node rows of one layer, 5000 rows per grid point, from the normalised rows and the aggregated
  messages (both read tile by tile) and the layer's six parameter arrays (read whole). An entry of the update depends on
  its own row of the two node arrays only, so the twenty tiles together are the update of the whole arrays.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region8

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row window's block row is the grid point, every other block index is 0. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 1) = 0
    ∧ win8_4.index t (0 : Fin 2) = 0 ∧ win8_4.index t (1 : Fin 2) = 0
    ∧ win8_5.index t (0 : Fin 1) = 0
    ∧ win8_6.index t (0 : Fin 2) = 0 ∧ win8_6.index t (1 : Fin 2) = 0
    ∧ win8_7.index t (0 : Fin 1) = 0 :=
  (by decide +kernel : ∀ t : Fin grid8.N, _)

theorem idx_out : ∀ t : Fin cfg8.N, win8_8.index t (0 : Fin 2) = t.val ∧ win8_8.index t (1 : Fin 2) = 0 :=
  (by decide +kernel : ∀ t : Fin grid8.N, _)

set_option maxHeartbeats 2000000 in
/-- What point `t` writes back is block `t` of the updated array. -/
theorem flushed_eq (hpay : ∀ (v0 v2 : Vec Ideal S5000x64 .f32) (v6 v9 : Vec Ideal S64x32 .f32) (v13 v20 : Vec Ideal S32 .f32) (v31 : Vec Ideal S32x64 .f32) (v35 : Vec Ideal S64 .f32), k8_pay1 (F := Ideal) v0 v2 v6 v9 v13 v20 v31 v35 = Gnn.comb v0 v2 v6 v13 v9 v20 v31 v35)
    (c : Dev nD) (t : Fin cfg8.N) :
    (dat8 V c).flushed 8 t = ((cfg8.win 8).blk t).view.read (Elt Ideal)
      (Gnn.comb (A := 100000) (V c main_v98) (V c main_v111) (V c main_v113) (V c main_v115) (V c main_v117) (V c main_v119) (V c main_v121) (V c main_v123)) := by
  show (cfg8.win 8).cut (grid8.coords t) ((dat8 V c).after 8 t) = _
  rw [after8_8]
  unfold out8_8
  rw [View.canon_unit_zero hz2]
  simp only [View.ld_unit_zero (S := S5000x64) hz2, View.ld_unit_zero (S := S64x32) hz2, View.ld_unit_zero (S := S32x64) hz2,
    View.ld_unit_zero (S := S32) hz1, View.ld_unit_zero (S := S64) hz1]
  rw [hpay]
  obtain ⟨e0, e1, e2, e3, e4, e5, e6, e7, e8, e9, e10, e11, e12⟩ := idx_facts t
  obtain ⟨o0, o1⟩ := idx_out t
  funext j
  have hj0 : (j 0).val < 5000 := (j 0).isLt
  have hj1 : (j 1).val < 64 := (j 1).isLt
  show Gnn.combAt (A := 5000) (iblk8 V c 0 t) (iblk8 V c 1 t) (iblk8 V c 2 t) (iblk8 V c 3 t) (iblk8 V c 4 t) (iblk8 V c 5 t) (iblk8 V c 6 t) (iblk8 V c 7 t) (j 0) (j 1)
    = Gnn.combAt (A := 100000) (V c main_v98) (V c main_v111) (V c main_v113) (V c main_v115) (V c main_v117) (V c main_v119) (V c main_v121) (V c main_v123) ((((cfg8.win 8).blk t).view.emb j) 0) ((((cfg8.win 8).blk t).view.emb j) 1)
  refine Gnn.combAt_congr _ _ _ _ _ _ _ _ _ _ _ _ _ _ _ _ _ _ _ _ ?_ (fun k => ?_) (fun k => ?_) (fun i r => ?_) (fun r => ?_) (fun i r => ?_) (fun r => ?_) (fun i r => ?_) (fun r => ?_)
  · apply Fin.ext
    show (j 1).val = win8_8.index t (1 : Fin 2) * 64 + 1 * (j 1).val
    omega
  · show V c main_v98 (((cfg8.win 0).blk t).view.emb (ix2 (j 0) k)) = V c main_v98 (ix2 ((((cfg8.win 8).blk t).view.emb j) 0) k)
    refine congrArg (V c main_v98) ?_
    funext a; apply Fin.ext
    match a with
    | ⟨0, _⟩ => show win8_0.index t (0 : Fin 2) * 5000 + 1 * (j 0).val = win8_8.index t (0 : Fin 2) * 5000 + 1 * (j 0).val; omega
    | ⟨1, _⟩ => show win8_0.index t (1 : Fin 2) * 64 + 1 * k.val = k.val; omega
  · show V c main_v111 (((cfg8.win 1).blk t).view.emb (ix2 (j 0) k)) = V c main_v111 (ix2 ((((cfg8.win 8).blk t).view.emb j) 0) k)
    refine congrArg (V c main_v111) ?_
    funext a; apply Fin.ext
    match a with
    | ⟨0, _⟩ => show win8_1.index t (0 : Fin 2) * 5000 + 1 * (j 0).val = win8_8.index t (0 : Fin 2) * 5000 + 1 * (j 0).val; omega
    | ⟨1, _⟩ => show win8_1.index t (1 : Fin 2) * 64 + 1 * k.val = k.val; omega
  · show V c main_v113 (((cfg8.win 2).blk t).view.emb (ix2 i r)) = V c main_v113 (ix2 i r)
    refine congrArg (V c main_v113) ?_
    funext a; apply Fin.ext
    match a with
    | ⟨0, _⟩ => show win8_2.index t (0 : Fin 2) * 64 + 1 * i.val = i.val; omega
    | ⟨1, _⟩ => show win8_2.index t (1 : Fin 2) * 32 + 1 * r.val = r.val; omega
  · show V c main_v115 (((cfg8.win 3).blk t).view.emb (ix1 r)) = V c main_v115 (ix1 r)
    refine congrArg (V c main_v115) ?_
    funext a; apply Fin.ext
    match a with
    | ⟨0, _⟩ => show win8_3.index t (0 : Fin 1) * 32 + 1 * r.val = r.val; omega
  · show V c main_v117 (((cfg8.win 4).blk t).view.emb (ix2 i r)) = V c main_v117 (ix2 i r)
    refine congrArg (V c main_v117) ?_
    funext a; apply Fin.ext
    match a with
    | ⟨0, _⟩ => show win8_4.index t (0 : Fin 2) * 64 + 1 * i.val = i.val; omega
    | ⟨1, _⟩ => show win8_4.index t (1 : Fin 2) * 32 + 1 * r.val = r.val; omega
  · show V c main_v119 (((cfg8.win 5).blk t).view.emb (ix1 r)) = V c main_v119 (ix1 r)
    refine congrArg (V c main_v119) ?_
    funext a; apply Fin.ext
    match a with
    | ⟨0, _⟩ => show win8_5.index t (0 : Fin 1) * 32 + 1 * r.val = r.val; omega
  · show V c main_v121 (((cfg8.win 6).blk t).view.emb (ix2 i r)) = V c main_v121 (ix2 i r)
    refine congrArg (V c main_v121) ?_
    funext a; apply Fin.ext
    match a with
    | ⟨0, _⟩ => show win8_6.index t (0 : Fin 2) * 32 + 1 * i.val = i.val; omega
    | ⟨1, _⟩ => show win8_6.index t (1 : Fin 2) * 64 + 1 * r.val = r.val; omega
  · show V c main_v123 (((cfg8.win 7).blk t).view.emb (ix1 r)) = V c main_v123 (ix1 r)
    refine congrArg (V c main_v123) ?_
    funext a; apply Fin.ext
    match a with
    | ⟨0, _⟩ => show win8_7.index t (0 : Fin 1) * 64 + 1 * r.val = r.val; omega

/-- An index of the array is in point `t`'s block iff each coordinate is in the block's range on its axis. -/
theorem mem_blk (t : Fin cfg8.N) (i : S100000x64.Idx) :
    i ∈ ((cfg8.win 8).blk t).view.set ↔ ∀ a : Fin 2, win8_8.index t a * S5000x64.size a ≤ (i a).val ∧ (i a).val < win8_8.index t a * S5000x64.size a + S5000x64.size a := by
  show i ∈ ((View.whole main_v124).slice (win8_8.rect t)).set ↔ _
  rw [View.set_slice_whole, Rect.mem_set_unit]
  exact Iff.rfl

/-- Every row lies in the tile of the grid point `row / 5000`. -/
theorem cover (i : S100000x64.Idx) : ∃ t : Fin cfg8.N, (cfg8.win 8).flush t = true ∧ i ∈ ((cfg8.win 8).blk t).view.set := by
  have hi0 : (i 0).val < 100000 := (i 0).isLt
  have hi1 : (i 1).val < 64 := (i 1).isLt
  have hN : cfg8.N = 20 := N_8
  refine ⟨⟨(i 0).val / 5000, by rw [hN]; omega⟩, flush8_8 _, ?_⟩
  rw [mem_blk]
  have ef := idx_out ⟨(i 0).val / 5000, by rw [hN]; omega⟩
  intro a
  match a with
  | ⟨0, _⟩ => show win8_8.index _ (0 : Fin 2) * 5000 ≤ (i 0).val ∧ (i 0).val < win8_8.index _ (0 : Fin 2) * 5000 + 5000; rw [ef.1]; show (i 0).val / 5000 * 5000 ≤ (i 0).val ∧ (i 0).val < (i 0).val / 5000 * 5000 + 5000; omega
  | ⟨1, _⟩ => show win8_8.index _ (1 : Fin 2) * 64 ≤ (i 1).val ∧ (i 1).val < win8_8.index _ (1 : Fin 2) * 64 + 64; rw [ef.2]; omega

/-- The array the region leaves: the layer's update of the arrays it found. -/
theorem final (hpay : ∀ (v0 v2 : Vec Ideal S5000x64 .f32) (v6 v9 : Vec Ideal S64x32 .f32) (v13 v20 : Vec Ideal S32 .f32) (v31 : Vec Ideal S32x64 .f32) (v35 : Vec Ideal S64 .f32), k8_pay1 (F := Ideal) v0 v2 v6 v9 v13 v20 v31 v35 = Gnn.comb v0 v2 v6 v13 v9 v20 v31 v35)
    (c : Dev nD) : (dat8 V c).arrAt 8 cfg8.N = (Gnn.comb (A := 100000) (V c main_v98) (V c main_v111) (V c main_v113) (V c main_v115) (V c main_v117) (V c main_v119) (V c main_v121) (V c main_v123)) :=
  (dat8 V c).arrAt_eq_of_cover 8 _ (fun t _ => flushed_eq V hpay c t) cover

end Cert.KernelIdeal.Region8

end
-- ==== Proof.Region9.lean ====
/-
  Region 9 applies a two-layer perceptron (64 → 24 → 3) to the node rows, 5000 rows per grid point, the two weight
  matrices and biases read whole. An entry of the result depends on its own input row only, so the twenty tiles together
  are the perceptron of the whole array.
-/
import proofs.«179626_j43602507989842_1_alg».proof.Proof.Gen.KernelIdeal.Frame
import proofs.«179626_j43602507989842_1_alg».proof.Proof.SpecAt
import Idealize.ShloMosaic.Lib.Pipeline.Value

set_option maxRecDepth 16384

noncomputable section

namespace Cert.KernelIdeal.Region9

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row window's block row is the grid point, every other block index is 0. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = 0 ∧ win9_3.index t (1 : Fin 2) = 0
    ∧ win9_4.index t (0 : Fin 1) = 0 :=
  (by decide +kernel : ∀ t : Fin grid9.N, _)

theorem idx_out : ∀ t : Fin cfg9.N, win9_5.index t (0 : Fin 2) = t.val ∧ win9_5.index t (1 : Fin 2) = 0 :=
  (by decide +kernel : ∀ t : Fin grid9.N, _)

/-- What point `t` writes back is block `t` of the perceptron's result. -/
theorem flushed_eq (hpay : ∀ (v0 : Vec Ideal S5000x64 .f32) (v3 : Vec Ideal S64x24 .f32) (v6 : Vec Ideal S24 .f32) (v16 : Vec Ideal S24x3 .f32) (v19 : Vec Ideal S3 .f32), k9_pay1 (F := Ideal) v0 v3 v6 v16 v19 = Gnn.mlp2 v0 v3 v6 v16 v19)
    (c : Dev nD) (t : Fin cfg9.N) :
    (dat9 V c).flushed 5 t = ((cfg9.win 5).blk t).view.read (Elt Ideal)
      (Gnn.mlp2 (A := 100000) (V c main_v124) (V c main_arg9) (V c main_arg10) (V c main_arg11) (V c main_arg12)) := by
  show (cfg9.win 5).cut (grid9.coords t) ((dat9 V c).after 5 t) = _
  rw [after9_5]
  unfold out9_5
  rw [View.canon_unit_zero hz2]
  simp only [View.ld_unit_zero (S := S5000x64) hz2, View.ld_unit_zero (S := S64x24) hz2, View.ld_unit_zero (S := S24x3) hz2,
    View.ld_unit_zero (S := S24) hz1, View.ld_unit_zero (S := S3) hz1]
  rw [hpay]
  obtain ⟨e0, e1, e2, e3, e4, e5, e6, e7⟩ := idx_facts t
  obtain ⟨o0, o1⟩ := idx_out t
  funext j
  have hj0 : (j 0).val < 5000 := (j 0).isLt
  have hj1 : (j 1).val < 3 := (j 1).isLt
  show Gnn.denseAt (A := 5000) (Gnn.act (Gnn.dense (iblk9 V c 0 t) (iblk9 V c 1 t) (iblk9 V c 2 t))) (iblk9 V c 3 t) (iblk9 V c 4 t) (j 0) (j 1)
    = Gnn.denseAt (A := 100000) (Gnn.act (Gnn.dense (V c main_v124) (V c main_arg9) (V c main_arg10))) (V c main_arg11) (V c main_arg12) ((((cfg9.win 5).blk t).view.emb j) 0) ((((cfg9.win 5).blk t).view.emb j) 1)
  refine Gnn.mlp2At_congr _ _ _ _ _ _ _ _ _ _ _ _ _ _ ?_ (fun k => ?_) (fun i r => ?_) (fun r => ?_) (fun i r => ?_) (fun r => ?_)
  · apply Fin.ext
    show (j 1).val = win9_5.index t (1 : Fin 2) * 3 + 1 * (j 1).val
    omega
  · show V c main_v124 (((cfg9.win 0).blk t).view.emb (ix2 (j 0) k)) = V c main_v124 (ix2 ((((cfg9.win 5).blk t).view.emb j) 0) k)
    refine congrArg (V c main_v124) ?_
    funext a; apply Fin.ext
    match a with
    | ⟨0, _⟩ => show win9_0.index t (0 : Fin 2) * 5000 + 1 * (j 0).val = win9_5.index t (0 : Fin 2) * 5000 + 1 * (j 0).val; omega
    | ⟨1, _⟩ => show win9_0.index t (1 : Fin 2) * 64 + 1 * k.val = k.val; omega
  · show V c main_arg9 (((cfg9.win 1).blk t).view.emb (ix2 i r)) = V c main_arg9 (ix2 i r)
    refine congrArg (V c main_arg9) ?_
    funext a; apply Fin.ext
    match a with
    | ⟨0, _⟩ => show win9_1.index t (0 : Fin 2) * 64 + 1 * i.val = i.val; omega
    | ⟨1, _⟩ => show win9_1.index t (1 : Fin 2) * 24 + 1 * r.val = r.val; omega
  · show V c main_arg10 (((cfg9.win 2).blk t).view.emb (ix1 r)) = V c main_arg10 (ix1 r)
    refine congrArg (V c main_arg10) ?_
    funext a; apply Fin.ext
    match a with
    | ⟨0, _⟩ => show win9_2.index t (0 : Fin 1) * 24 + 1 * r.val = r.val; omega
  · show V c main_arg11 (((cfg9.win 3).blk t).view.emb (ix2 i r)) = V c main_arg11 (ix2 i r)
    refine congrArg (V c main_arg11) ?_
    funext a; apply Fin.ext
    match a with
    | ⟨0, _⟩ => show win9_3.index t (0 : Fin 2) * 24 + 1 * i.val = i.val; omega
    | ⟨1, _⟩ => show win9_3.index t (1 : Fin 2) * 3 + 1 * r.val = r.val; omega
  · show V c main_arg12 (((cfg9.win 4).blk t).view.emb (ix1 r)) = V c main_arg12 (ix1 r)
    refine congrArg (V c main_arg12) ?_
    funext a; apply Fin.ext
    match a with
    | ⟨0, _⟩ => show win9_4.index t (0 : Fin 1) * 3 + 1 * r.val = r.val; omega

/-- An index of the array is in point `t`'s block iff each coordinate is in the block's range on its axis. -/
theorem mem_blk (t : Fin cfg9.N) (i : S100000x3.Idx) :
    i ∈ ((cfg9.win 5).blk t).view.set ↔ ∀ a : Fin 2, win9_5.index t a * S5000x3.size a ≤ (i a).val ∧ (i a).val < win9_5.index t a * S5000x3.size a + S5000x3.size a := by
  show i ∈ ((View.whole main_v125).slice (win9_5.rect t)).set ↔ _
  rw [View.set_slice_whole, Rect.mem_set_unit]
  exact Iff.rfl

/-- Every row lies in the tile of the grid point `row / 5000`. -/
theorem cover (i : S100000x3.Idx) : ∃ t : Fin cfg9.N, (cfg9.win 5).flush t = true ∧ i ∈ ((cfg9.win 5).blk t).view.set := by
  have hi0 : (i 0).val < 100000 := (i 0).isLt
  have hi1 : (i 1).val < 3 := (i 1).isLt
  have hN : cfg9.N = 20 := N_9
  refine ⟨⟨(i 0).val / 5000, by rw [hN]; omega⟩, flush9_5 _, ?_⟩
  rw [mem_blk]
  have ef := idx_out ⟨(i 0).val / 5000, by rw [hN]; omega⟩
  intro a
  match a with
  | ⟨0, _⟩ => show win9_5.index _ (0 : Fin 2) * 5000 ≤ (i 0).val ∧ (i 0).val < win9_5.index _ (0 : Fin 2) * 5000 + 5000; rw [ef.1]; show (i 0).val / 5000 * 5000 ≤ (i 0).val ∧ (i 0).val < (i 0).val / 5000 * 5000 + 5000; omega
  | ⟨1, _⟩ => show win9_5.index _ (1 : Fin 2) * 3 ≤ (i 1).val ∧ (i 1).val < win9_5.index _ (1 : Fin 2) * 3 + 3; rw [ef.2]; omega

/-- The array the region leaves: the perceptron of the array it found. -/
theorem final (hpay : ∀ (v0 : Vec Ideal S5000x64 .f32) (v3 : Vec Ideal S64x24 .f32) (v6 : Vec Ideal S24 .f32) (v16 : Vec Ideal S24x3 .f32) (v19 : Vec Ideal S3 .f32), k9_pay1 (F := Ideal) v0 v3 v6 v16 v19 = Gnn.mlp2 v0 v3 v6 v16 v19)
    (c : Dev nD) : (dat9 V c).arrAt 5 cfg9.N = (Gnn.mlp2 (A := 100000) (V c main_v124) (V c main_arg9) (V c main_arg10) (V c main_arg11) (V c main_arg12)) :=
  (dat9 V c).arrAt_eq_of_cover 5 _ (fun t _ => flushed_eq V hpay c t) cover

end Cert.KernelIdeal.Region9

end
-- ==== Proof.KChain.lean ====
/-
  The kernel program's buffers, boundary by boundary, as the network's stages of the launch arrays.

  After region 0 the first feature buffer holds the encoder's perceptron of the input; in layer `l` the normalisation
  region leaves the normalised features, the host stretch behind it aggregates the messages and cuts the layer's parameter
  slabs, and the update region leaves the next features; region 9 leaves the decoder's perceptron of the last features in
  the result buffer. Each step reads its inputs off the previous boundary: a region's arrays hold what its tiles cover
  (the modules Region0 … Region9), a host stretch's results are its operations' terms, and every argument array still
  holds its launch contents (module KKeep). The tile bodies' arithmetic enters as the hypotheses `Pays`.
-/
import proofs.«179626_j43602507989842_1_alg».proof.Proof.KKeep
import proofs.«179626_j43602507989842_1_alg».proof.Proof.KTerms
import proofs.«179626_j43602507989842_1_alg».proof.Proof.Region0
import proofs.«179626_j43602507989842_1_alg».proof.Proof.Region1
import proofs.«179626_j43602507989842_1_alg».proof.Proof.Region2
import proofs.«179626_j43602507989842_1_alg».proof.Proof.Region3
import proofs.«179626_j43602507989842_1_alg».proof.Proof.Region4
import proofs.«179626_j43602507989842_1_alg».proof.Proof.Region5
import proofs.«179626_j43602507989842_1_alg».proof.Proof.Region6
import proofs.«179626_j43602507989842_1_alg».proof.Proof.Region7
import proofs.«179626_j43602507989842_1_alg».proof.Proof.Region8
import proofs.«179626_j43602507989842_1_alg».proof.Proof.Region9

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- The ten tile bodies' arithmetic, as the specification's stages on a tile of 5000 rows. -/
structure Pays : Prop where
  p0 : ∀ (v0 : Vec Ideal S5000x16 .f32) (v2 : Vec Ideal S16x128 .f32) (v5 : Vec Ideal S128 .f32) (v15 : Vec Ideal S128x64 .f32) (v18 : Vec Ideal S64 .f32), k0_pay1 (F := Ideal) v0 v2 v5 v15 v18 = Gnn.mlp2 v0 v2 v5 v15 v18
  p1 : ∀ (v0 : Vec Ideal S5000x64 .f32) (v18 v23 : Vec Ideal S64 .f32), k1_pay1 (F := Ideal) v0 v18 v23 = Gnn.ln v0 v18 v23
  p3 : ∀ (v0 : Vec Ideal S5000x64 .f32) (v18 v23 : Vec Ideal S64 .f32), k3_pay1 (F := Ideal) v0 v18 v23 = Gnn.ln v0 v18 v23
  p5 : ∀ (v0 : Vec Ideal S5000x64 .f32) (v18 v23 : Vec Ideal S64 .f32), k5_pay1 (F := Ideal) v0 v18 v23 = Gnn.ln v0 v18 v23
  p7 : ∀ (v0 : Vec Ideal S5000x64 .f32) (v18 v23 : Vec Ideal S64 .f32), k7_pay1 (F := Ideal) v0 v18 v23 = Gnn.ln v0 v18 v23
  p2 : ∀ (v0 v2 : Vec Ideal S5000x64 .f32) (v6 v9 : Vec Ideal S64x32 .f32) (v13 v20 : Vec Ideal S32 .f32) (v31 : Vec Ideal S32x64 .f32) (v35 : Vec Ideal S64 .f32), k2_pay1 (F := Ideal) v0 v2 v6 v9 v13 v20 v31 v35 = Gnn.comb v0 v2 v6 v13 v9 v20 v31 v35
  p4 : ∀ (v0 v2 : Vec Ideal S5000x64 .f32) (v6 v9 : Vec Ideal S64x32 .f32) (v13 v20 : Vec Ideal S32 .f32) (v31 : Vec Ideal S32x64 .f32) (v35 : Vec Ideal S64 .f32), k4_pay1 (F := Ideal) v0 v2 v6 v9 v13 v20 v31 v35 = Gnn.comb v0 v2 v6 v13 v9 v20 v31 v35
  p6 : ∀ (v0 v2 : Vec Ideal S5000x64 .f32) (v6 v9 : Vec Ideal S64x32 .f32) (v13 v20 : Vec Ideal S32 .f32) (v31 : Vec Ideal S32x64 .f32) (v35 : Vec Ideal S64 .f32), k6_pay1 (F := Ideal) v0 v2 v6 v9 v13 v20 v31 v35 = Gnn.comb v0 v2 v6 v13 v9 v20 v31 v35
  p8 : ∀ (v0 v2 : Vec Ideal S5000x64 .f32) (v6 v9 : Vec Ideal S64x32 .f32) (v13 v20 : Vec Ideal S32 .f32) (v31 : Vec Ideal S32x64 .f32) (v35 : Vec Ideal S64 .f32), k8_pay1 (F := Ideal) v0 v2 v6 v9 v13 v20 v31 v35 = Gnn.comb v0 v2 v6 v13 v9 v20 v31 v35
  p9 : ∀ (v0 : Vec Ideal S5000x64 .f32) (v3 : Vec Ideal S64x24 .f32) (v6 : Vec Ideal S24 .f32) (v16 : Vec Ideal S24x3 .f32) (v19 : Vec Ideal S3 .f32), k9_pay1 (F := Ideal) v0 v3 v6 v16 v19 = Gnn.mlp2 v0 v3 v6 v16 v19

/-! ## Congruences (equal inputs, equal stage) -/

theorem mlp2_eq {A K H B : Nat} {X X' : Gnn.Mat A K} {W1 W1' : Gnn.Mat K H} {b1 b1' : Gnn.Vc H} {W2 W2' : Gnn.Mat H B} {b2 b2' : Gnn.Vc B}
    (e0 : X = X') (e1 : W1 = W1') (e2 : b1 = b1') (e3 : W2 = W2') (e4 : b2 = b2') : Gnn.mlp2 X W1 b1 W2 b2 = Gnn.mlp2 X' W1' b1' W2' b2' := by
  subst e0 e1 e2 e3 e4; rfl
theorem ln_eq {A : Nat} {h h' : Gnn.Mat A 64} {g g' b b' : Gnn.Vc 64} (e0 : h = h') (e1 : g = g') (e2 : b = b') : Gnn.ln h g b = Gnn.ln h' g' b' := by
  subst e0 e1 e2; rfl
theorem comb_eq {A : Nat} {hn hn' ms ms' : Gnn.Mat A 64} {nw nw' : Gnn.Mat 64 32} {nb nb' : Gnn.Vc 32} {ew ew' : Gnn.Mat 64 32} {eb eb' : Gnn.Vc 32}
    {mw mw' : Gnn.Mat 32 64} {mb mb' : Gnn.Vc 64} (e0 : hn = hn') (e1 : ms = ms') (e2 : nw = nw') (e3 : nb = nb') (e4 : ew = ew') (e5 : eb = eb')
    (e6 : mw = mw') (e7 : mb = mb') : Gnn.comb hn ms nw nb ew eb mw mb = Gnn.comb hn' ms' nw' nb' ew' eb' mw' mb' := by
  subst e0 e1 e2 e3 e4 e5 e6 e7; rfl
theorem msg_eq {a2 a2' a3 a3' : IVec S1200000 32} {a4 a4' : FVec Ideal S1200000 .f32} {hn hn' : FVec Ideal S100000x64 .f32}
    (e0 : a2 = a2') (e1 : a3 = a3') (e2 : a4 = a4') (e3 : hn = hn') : Terms.msgK a2 a3 a4 hn = Terms.msgK a2' a3' a4' hn' := by
  subst e0 e1 e2 e3; rfl

/-! ## The host stretches' results, at any contents they start from -/

theorem s1_g (W : Valuation τ sig (Elt Ideal)) : StableHlo.after hostOps1 W (Proc.devRef .tc main_v2) = Terms.row64_0 (W (Proc.devRef .tc main_arg13)) := by
  after_results_simp; rfl
theorem s1_b (W : Valuation τ sig (Elt Ideal)) : StableHlo.after hostOps1 W (Proc.devRef .tc main_v4) = Terms.row64_0 (W (Proc.devRef .tc main_arg14)) := by
  after_results_simp; rfl
set_option maxHeartbeats 1000000 in
theorem s2_msg (W : Valuation τ sig (Elt Ideal)) : StableHlo.after hostOps2 W (Proc.devRef .tc main_v18)
    = Terms.msgK (W (Proc.devRef .tc main_arg2)) (W (Proc.devRef .tc main_arg3)) (W (Proc.devRef .tc main_arg4)) (W (Proc.devRef .tc main_v5)) := by
  after_results_simp; rfl
set_option maxHeartbeats 1000000 in
theorem s2_nw (W : Valuation τ sig (Elt Ideal)) : StableHlo.after hostOps2 W (Proc.devRef .tc main_v20) = Terms.slabA_0 (W (Proc.devRef .tc main_arg15)) := by
  after_results_simp; rfl
set_option maxHeartbeats 1000000 in
theorem s2_nb (W : Valuation τ sig (Elt Ideal)) : StableHlo.after hostOps2 W (Proc.devRef .tc main_v22) = Terms.row32_0 (W (Proc.devRef .tc main_arg16)) := by
  after_results_simp; rfl
set_option maxHeartbeats 1000000 in
theorem s2_ew (W : Valuation τ sig (Elt Ideal)) : StableHlo.after hostOps2 W (Proc.devRef .tc main_v24) = Terms.slabA_0 (W (Proc.devRef .tc main_arg17)) := by
  after_results_simp; rfl
set_option maxHeartbeats 1000000 in
theorem s2_eb (W : Valuation τ sig (Elt Ideal)) : StableHlo.after hostOps2 W (Proc.devRef .tc main_v26) = Terms.row32_0 (W (Proc.devRef .tc main_arg18)) := by
  after_results_simp; rfl
set_option maxHeartbeats 1000000 in
theorem s2_mw (W : Valuation τ sig (Elt Ideal)) : StableHlo.after hostOps2 W (Proc.devRef .tc main_v28) = Terms.slabB_0 (W (Proc.devRef .tc main_arg19)) := by
  after_results_simp; rfl
set_option maxHeartbeats 1000000 in
theorem s2_mb (W : Valuation τ sig (Elt Ideal)) : StableHlo.after hostOps2 W (Proc.devRef .tc main_v30) = Terms.row64_0 (W (Proc.devRef .tc main_arg20)) := by
  after_results_simp; rfl

theorem s3_g (W : Valuation τ sig (Elt Ideal)) : StableHlo.after hostOps3 W (Proc.devRef .tc main_v33) = Terms.row64_1 (W (Proc.devRef .tc main_arg13)) := by
  after_results_simp; rfl
theorem s3_b (W : Valuation τ sig (Elt Ideal)) : StableHlo.after hostOps3 W (Proc.devRef .tc main_v35) = Terms.row64_1 (W (Proc.devRef .tc main_arg14)) := by
  after_results_simp; rfl
set_option maxHeartbeats 1000000 in
theorem s4_msg (W : Valuation τ sig (Elt Ideal)) : StableHlo.after hostOps4 W (Proc.devRef .tc main_v49)
    = Terms.msgK (W (Proc.devRef .tc main_arg2)) (W (Proc.devRef .tc main_arg3)) (W (Proc.devRef .tc main_arg4)) (W (Proc.devRef .tc main_v36)) := by
  after_results_simp; rfl
set_option maxHeartbeats 1000000 in
theorem s4_nw (W : Valuation τ sig (Elt Ideal)) : StableHlo.after hostOps4 W (Proc.devRef .tc main_v51) = Terms.slabA_1 (W (Proc.devRef .tc main_arg15)) := by
  after_results_simp; rfl
set_option maxHeartbeats 1000000 in
theorem s4_nb (W : Valuation τ sig (Elt Ideal)) : StableHlo.after hostOps4 W (Proc.devRef .tc main_v53) = Terms.row32_1 (W (Proc.devRef .tc main_arg16)) := by
  after_results_simp; rfl
set_option maxHeartbeats 1000000 in
theorem s4_ew (W : Valuation τ sig (Elt Ideal)) : StableHlo.after hostOps4 W (Proc.devRef .tc main_v55) = Terms.slabA_1 (W (Proc.devRef .tc main_arg17)) := by
  after_results_simp; rfl
set_option maxHeartbeats 1000000 in
theorem s4_eb (W : Valuation τ sig (Elt Ideal)) : StableHlo.after hostOps4 W (Proc.devRef .tc main_v57) = Terms.row32_1 (W (Proc.devRef .tc main_arg18)) := by
  after_results_simp; rfl
set_option maxHeartbeats 1000000 in
theorem s4_mw (W : Valuation τ sig (Elt Ideal)) : StableHlo.after hostOps4 W (Proc.devRef .tc main_v59) = Terms.slabB_1 (W (Proc.devRef .tc main_arg19)) := by
  after_results_simp; rfl
set_option maxHeartbeats 1000000 in
theorem s4_mb (W : Valuation τ sig (Elt Ideal)) : StableHlo.after hostOps4 W (Proc.devRef .tc main_v61) = Terms.row64_1 (W (Proc.devRef .tc main_arg20)) := by
  after_results_simp; rfl

theorem s5_g (W : Valuation τ sig (Elt Ideal)) : StableHlo.after hostOps5 W (Proc.devRef .tc main_v64) = Terms.row64_2 (W (Proc.devRef .tc main_arg13)) := by
  after_results_simp; rfl
theorem s5_b (W : Valuation τ sig (Elt Ideal)) : StableHlo.after hostOps5 W (Proc.devRef .tc main_v66) = Terms.row64_2 (W (Proc.devRef .tc main_arg14)) := by
  after_results_simp; rfl
set_option maxHeartbeats 1000000 in
theorem s6_msg (W : Valuation τ sig (Elt Ideal)) : StableHlo.after hostOps6 W (Proc.devRef .tc main_v80)
    = Terms.msgK (W (Proc.devRef .tc main_arg2)) (W (Proc.devRef .tc main_arg3)) (W (Proc.devRef .tc main_arg4)) (W (Proc.devRef .tc main_v67)) := by
  after_results_simp; rfl
set_option maxHeartbeats 1000000 in
theorem s6_nw (W : Valuation τ sig (Elt Ideal)) : StableHlo.after hostOps6 W (Proc.devRef .tc main_v82) = Terms.slabA_2 (W (Proc.devRef .tc main_arg15)) := by
  after_results_simp; rfl
set_option maxHeartbeats 1000000 in
theorem s6_nb (W : Valuation τ sig (Elt Ideal)) : StableHlo.after hostOps6 W (Proc.devRef .tc main_v84) = Terms.row32_2 (W (Proc.devRef .tc main_arg16)) := by
  after_results_simp; rfl
set_option maxHeartbeats 1000000 in
theorem s6_ew (W : Valuation τ sig (Elt Ideal)) : StableHlo.after hostOps6 W (Proc.devRef .tc main_v86) = Terms.slabA_2 (W (Proc.devRef .tc main_arg17)) := by
  after_results_simp; rfl
set_option maxHeartbeats 1000000 in
theorem s6_eb (W : Valuation τ sig (Elt Ideal)) : StableHlo.after hostOps6 W (Proc.devRef .tc main_v88) = Terms.row32_2 (W (Proc.devRef .tc main_arg18)) := by
  after_results_simp; rfl
set_option maxHeartbeats 1000000 in
theorem s6_mw (W : Valuation τ sig (Elt Ideal)) : StableHlo.after hostOps6 W (Proc.devRef .tc main_v90) = Terms.slabB_2 (W (Proc.devRef .tc main_arg19)) := by
  after_results_simp; rfl
set_option maxHeartbeats 1000000 in
theorem s6_mb (W : Valuation τ sig (Elt Ideal)) : StableHlo.after hostOps6 W (Proc.devRef .tc main_v92) = Terms.row64_2 (W (Proc.devRef .tc main_arg20)) := by
  after_results_simp; rfl

theorem s7_g (W : Valuation τ sig (Elt Ideal)) : StableHlo.after hostOps7 W (Proc.devRef .tc main_v95) = Terms.row64_3 (W (Proc.devRef .tc main_arg13)) := by
  after_results_simp; rfl
theorem s7_b (W : Valuation τ sig (Elt Ideal)) : StableHlo.after hostOps7 W (Proc.devRef .tc main_v97) = Terms.row64_3 (W (Proc.devRef .tc main_arg14)) := by
  after_results_simp; rfl
set_option maxHeartbeats 1000000 in
theorem s8_msg (W : Valuation τ sig (Elt Ideal)) : StableHlo.after hostOps8 W (Proc.devRef .tc main_v111)
    = Terms.msgK (W (Proc.devRef .tc main_arg2)) (W (Proc.devRef .tc main_arg3)) (W (Proc.devRef .tc main_arg4)) (W (Proc.devRef .tc main_v98)) := by
  after_results_simp; rfl
set_option maxHeartbeats 1000000 in
theorem s8_nw (W : Valuation τ sig (Elt Ideal)) : StableHlo.after hostOps8 W (Proc.devRef .tc main_v113) = Terms.slabA_3 (W (Proc.devRef .tc main_arg15)) := by
  after_results_simp; rfl
set_option maxHeartbeats 1000000 in
theorem s8_nb (W : Valuation τ sig (Elt Ideal)) : StableHlo.after hostOps8 W (Proc.devRef .tc main_v115) = Terms.row32_3 (W (Proc.devRef .tc main_arg16)) := by
  after_results_simp; rfl
set_option maxHeartbeats 1000000 in
theorem s8_ew (W : Valuation τ sig (Elt Ideal)) : StableHlo.after hostOps8 W (Proc.devRef .tc main_v117) = Terms.slabA_3 (W (Proc.devRef .tc main_arg17)) := by
  after_results_simp; rfl
set_option maxHeartbeats 1000000 in
theorem s8_eb (W : Valuation τ sig (Elt Ideal)) : StableHlo.after hostOps8 W (Proc.devRef .tc main_v119) = Terms.row32_3 (W (Proc.devRef .tc main_arg18)) := by
  after_results_simp; rfl
set_option maxHeartbeats 1000000 in
theorem s8_mw (W : Valuation τ sig (Elt Ideal)) : StableHlo.after hostOps8 W (Proc.devRef .tc main_v121) = Terms.slabB_3 (W (Proc.devRef .tc main_arg19)) := by
  after_results_simp; rfl
set_option maxHeartbeats 1000000 in
theorem s8_mb (W : Valuation τ sig (Elt Ideal)) : StableHlo.after hostOps8 W (Proc.devRef .tc main_v123) = Terms.row64_3 (W (Proc.devRef .tc main_arg20)) := by
  after_results_simp; rfl

/-! ## The values, boundary by boundary -/

variable (m : (ℓ : Loc nD τ sig) → Buf (Elt Ideal) ℓ) (ρ : Dev nD → PrngReg)

/-- The aggregation at the launch's edge arrays. -/
def msgm (c : Dev nD) : Gnn.Mat 100000 64 → Gnn.Mat 100000 64 := Terms.msgK (m ((c : Thread nD τ).loc main_arg2)) (m ((c : Thread nD τ).loc main_arg3)) (m ((c : Thread nD τ).loc main_arg4))
/-- Layer 0's parameters at the launch's parameter arrays. -/
def P0 (c : Dev nD) : Gnn.LayerP := Terms.PK0 (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
/-- Layer 1's parameters at the launch's parameter arrays. -/
def P1 (c : Dev nD) : Gnn.LayerP := Terms.PK1 (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
/-- Layer 2's parameters at the launch's parameter arrays. -/
def P2 (c : Dev nD) : Gnn.LayerP := Terms.PK2 (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
/-- Layer 3's parameters at the launch's parameter arrays. -/
def P3 (c : Dev nD) : Gnn.LayerP := Terms.PK3 (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
/-- The features after the encoder, and after each layer. -/
def h0 (c : Dev nD) : Gnn.Mat 100000 64 := Gnn.mlp2 (m ((c : Thread nD τ).loc main_arg0)) (m ((c : Thread nD τ).loc main_arg5)) (m ((c : Thread nD τ).loc main_arg6)) (m ((c : Thread nD τ).loc main_arg7)) (m ((c : Thread nD τ).loc main_arg8))
def h1 (c : Dev nD) : Gnn.Mat 100000 64 := Gnn.layer (msgm m c) (P0 m c) (h0 m c)
def h2 (c : Dev nD) : Gnn.Mat 100000 64 := Gnn.layer (msgm m c) (P1 m c) (h1 m c)
def h3 (c : Dev nD) : Gnn.Mat 100000 64 := Gnn.layer (msgm m c) (P2 m c) (h2 m c)
def h4 (c : Dev nD) : Gnn.Mat 100000 64 := Gnn.layer (msgm m c) (P3 m c) (h3 m c)
/-- The decoder's result. -/
def out (c : Dev nD) : Gnn.Mat 100000 3 := Gnn.mlp2 (h4 m c) (m ((c : Thread nD τ).loc main_arg9)) (m ((c : Thread nD τ).loc main_arg10)) (m ((c : Thread nD τ).loc main_arg11)) (m ((c : Thread nD τ).loc main_arg12))

theorem out_eq_net (c : Dev nD) : out m c = Gnn.net (msgm m c) (m ((c : Thread nD τ).loc main_arg0)) (m ((c : Thread nD τ).loc main_arg5)) (m ((c : Thread nD τ).loc main_arg6)) (m ((c : Thread nD τ).loc main_arg7)) (m ((c : Thread nD τ).loc main_arg8)) (P0 m c) (P1 m c) (P2 m c) (P3 m c) (m ((c : Thread nD τ).loc main_arg9)) (m ((c : Thread nD τ).loc main_arg10)) (m ((c : Thread nD τ).loc main_arg11)) (m ((c : Thread nD τ).loc main_arg12)) := rfl

/-- Region 0 leaves the encoder's perceptron of the input in the first feature buffer. -/
theorem enc_out (P : Pays) (c : Dev nD) : W1 m ρ c (Proc.devRef .tc main_v0) = h0 m c :=
  (W1_arr m ρ c 5).trans (Region0.final (V0 m ρ) P.p0 c)

/-! ### Layer 0 -/

/-- The normalisation region of layer 0 leaves the normalised features. -/
theorem norm0 (P : Pays) (c : Dev nD) : W3 m ρ c (Proc.devRef .tc main_v5) = Gnn.ln (h0 m c) (P0 m c).g (P0 m c).b :=
  (W3_arr m ρ c 3).trans ((Region1.final (V2 m ρ) P.p1 c).trans (ln_eq
    ((Keep.keep1 (W1 m ρ c) main_v0 (by decide)).trans (enc_out m ρ P c))
    ((s1_g (W1 m ρ c)).trans (congrArg Terms.row64_0 (Keep.arg13_at1 m ρ c)))
    ((s1_b (W1 m ρ c)).trans (congrArg Terms.row64_0 (Keep.arg14_at1 m ρ c)))))

/-- The update region of layer 0 leaves the next features. -/
theorem upd0 (P : Pays) (c : Dev nD) : W5 m ρ c (Proc.devRef .tc main_v31) = h1 m c :=
  (W5_arr m ρ c 8).trans ((Region2.final (V4 m ρ) P.p2 c).trans (comb_eq
    ((Keep.keep2 (W3 m ρ c) main_v5 (by decide)).trans (norm0 m ρ P c))
    ((s2_msg (W3 m ρ c)).trans (msg_eq (Keep.arg2_at3 m ρ c) (Keep.arg3_at3 m ρ c) (Keep.arg4_at3 m ρ c) (norm0 m ρ P c)))
    ((s2_nw (W3 m ρ c)).trans (congrArg Terms.slabA_0 (Keep.arg15_at3 m ρ c)))
    ((s2_nb (W3 m ρ c)).trans (congrArg Terms.row32_0 (Keep.arg16_at3 m ρ c)))
    ((s2_ew (W3 m ρ c)).trans (congrArg Terms.slabA_0 (Keep.arg17_at3 m ρ c)))
    ((s2_eb (W3 m ρ c)).trans (congrArg Terms.row32_0 (Keep.arg18_at3 m ρ c)))
    ((s2_mw (W3 m ρ c)).trans (congrArg Terms.slabB_0 (Keep.arg19_at3 m ρ c)))
    ((s2_mb (W3 m ρ c)).trans (congrArg Terms.row64_0 (Keep.arg20_at3 m ρ c)))))

/-! ### Layer 1 -/

/-- The normalisation region of layer 1 leaves the normalised features. -/
theorem norm1 (P : Pays) (c : Dev nD) : W7 m ρ c (Proc.devRef .tc main_v36) = Gnn.ln (h1 m c) (P1 m c).g (P1 m c).b :=
  (W7_arr m ρ c 3).trans ((Region3.final (V6 m ρ) P.p3 c).trans (ln_eq
    ((Keep.keep3 (W5 m ρ c) main_v31 (by decide)).trans (upd0 m ρ P c))
    ((s3_g (W5 m ρ c)).trans (congrArg Terms.row64_1 (Keep.arg13_at5 m ρ c)))
    ((s3_b (W5 m ρ c)).trans (congrArg Terms.row64_1 (Keep.arg14_at5 m ρ c)))))

/-- The update region of layer 1 leaves the next features. -/
theorem upd1 (P : Pays) (c : Dev nD) : W9 m ρ c (Proc.devRef .tc main_v62) = h2 m c :=
  (W9_arr m ρ c 8).trans ((Region4.final (V8 m ρ) P.p4 c).trans (comb_eq
    ((Keep.keep4 (W7 m ρ c) main_v36 (by decide)).trans (norm1 m ρ P c))
    ((s4_msg (W7 m ρ c)).trans (msg_eq (Keep.arg2_at7 m ρ c) (Keep.arg3_at7 m ρ c) (Keep.arg4_at7 m ρ c) (norm1 m ρ P c)))
    ((s4_nw (W7 m ρ c)).trans (congrArg Terms.slabA_1 (Keep.arg15_at7 m ρ c)))
    ((s4_nb (W7 m ρ c)).trans (congrArg Terms.row32_1 (Keep.arg16_at7 m ρ c)))
    ((s4_ew (W7 m ρ c)).trans (congrArg Terms.slabA_1 (Keep.arg17_at7 m ρ c)))
    ((s4_eb (W7 m ρ c)).trans (congrArg Terms.row32_1 (Keep.arg18_at7 m ρ c)))
    ((s4_mw (W7 m ρ c)).trans (congrArg Terms.slabB_1 (Keep.arg19_at7 m ρ c)))
    ((s4_mb (W7 m ρ c)).trans (congrArg Terms.row64_1 (Keep.arg20_at7 m ρ c)))))

/-! ### Layer 2 -/

/-- The normalisation region of layer 2 leaves the normalised features. -/
theorem norm2 (P : Pays) (c : Dev nD) : W11 m ρ c (Proc.devRef .tc main_v67) = Gnn.ln (h2 m c) (P2 m c).g (P2 m c).b :=
  (W11_arr m ρ c 3).trans ((Region5.final (V10 m ρ) P.p5 c).trans (ln_eq
    ((Keep.keep5 (W9 m ρ c) main_v62 (by decide)).trans (upd1 m ρ P c))
    ((s5_g (W9 m ρ c)).trans (congrArg Terms.row64_2 (Keep.arg13_at9 m ρ c)))
    ((s5_b (W9 m ρ c)).trans (congrArg Terms.row64_2 (Keep.arg14_at9 m ρ c)))))

/-- The update region of layer 2 leaves the next features. -/
theorem upd2 (P : Pays) (c : Dev nD) : W13 m ρ c (Proc.devRef .tc main_v93) = h3 m c :=
  (W13_arr m ρ c 8).trans ((Region6.final (V12 m ρ) P.p6 c).trans (comb_eq
    ((Keep.keep6 (W11 m ρ c) main_v67 (by decide)).trans (norm2 m ρ P c))
    ((s6_msg (W11 m ρ c)).trans (msg_eq (Keep.arg2_at11 m ρ c) (Keep.arg3_at11 m ρ c) (Keep.arg4_at11 m ρ c) (norm2 m ρ P c)))
    ((s6_nw (W11 m ρ c)).trans (congrArg Terms.slabA_2 (Keep.arg15_at11 m ρ c)))
    ((s6_nb (W11 m ρ c)).trans (congrArg Terms.row32_2 (Keep.arg16_at11 m ρ c)))
    ((s6_ew (W11 m ρ c)).trans (congrArg Terms.slabA_2 (Keep.arg17_at11 m ρ c)))
    ((s6_eb (W11 m ρ c)).trans (congrArg Terms.row32_2 (Keep.arg18_at11 m ρ c)))
    ((s6_mw (W11 m ρ c)).trans (congrArg Terms.slabB_2 (Keep.arg19_at11 m ρ c)))
    ((s6_mb (W11 m ρ c)).trans (congrArg Terms.row64_2 (Keep.arg20_at11 m ρ c)))))

/-! ### Layer 3 -/

/-- The normalisation region of layer 3 leaves the normalised features. -/
theorem norm3 (P : Pays) (c : Dev nD) : W15 m ρ c (Proc.devRef .tc main_v98) = Gnn.ln (h3 m c) (P3 m c).g (P3 m c).b :=
  (W15_arr m ρ c 3).trans ((Region7.final (V14 m ρ) P.p7 c).trans (ln_eq
    ((Keep.keep7 (W13 m ρ c) main_v93 (by decide)).trans (upd2 m ρ P c))
    ((s7_g (W13 m ρ c)).trans (congrArg Terms.row64_3 (Keep.arg13_at13 m ρ c)))
    ((s7_b (W13 m ρ c)).trans (congrArg Terms.row64_3 (Keep.arg14_at13 m ρ c)))))

/-- The update region of layer 3 leaves the next features. -/
theorem upd3 (P : Pays) (c : Dev nD) : W17 m ρ c (Proc.devRef .tc main_v124) = h4 m c :=
  (W17_arr m ρ c 8).trans ((Region8.final (V16 m ρ) P.p8 c).trans (comb_eq
    ((Keep.keep8 (W15 m ρ c) main_v98 (by decide)).trans (norm3 m ρ P c))
    ((s8_msg (W15 m ρ c)).trans (msg_eq (Keep.arg2_at15 m ρ c) (Keep.arg3_at15 m ρ c) (Keep.arg4_at15 m ρ c) (norm3 m ρ P c)))
    ((s8_nw (W15 m ρ c)).trans (congrArg Terms.slabA_3 (Keep.arg15_at15 m ρ c)))
    ((s8_nb (W15 m ρ c)).trans (congrArg Terms.row32_3 (Keep.arg16_at15 m ρ c)))
    ((s8_ew (W15 m ρ c)).trans (congrArg Terms.slabA_3 (Keep.arg17_at15 m ρ c)))
    ((s8_eb (W15 m ρ c)).trans (congrArg Terms.row32_3 (Keep.arg18_at15 m ρ c)))
    ((s8_mw (W15 m ρ c)).trans (congrArg Terms.slabB_3 (Keep.arg19_at15 m ρ c)))
    ((s8_mb (W15 m ρ c)).trans (congrArg Terms.row64_3 (Keep.arg20_at15 m ρ c)))))

/-- Region 9 leaves the decoder's perceptron of the last features in the result buffer. -/
theorem dec_out (P : Pays) (c : Dev nD) : W18 m ρ c (Proc.devRef .tc main_v125) = out m c :=
  (W18_arr m ρ c 5).trans ((Region9.final (V17 m ρ) P.p9 c).trans (mlp2_eq
    (upd3 m ρ P c) (Keep.arg9_at17 m ρ c) (Keep.arg10_at17 m ρ c) (Keep.arg11_at17 m ρ c) (Keep.arg12_at17 m ρ c)))

end Cert.KernelIdeal.Chain

end
-- ==== Proof.KValue.lean ====
/-
  The kernel program's run with its result named: every weakly fair execution terminates, nothing faulting, with the
  result buffer at the network `Chain.out` of the launch arrays (the last boundary's contents, read stage by stage in
  module KChain) and every argument array unchanged.
-/
import proofs.«179626_j43602507989842_1_alg».proof.Proof.KRun
import proofs.«179626_j43602507989842_1_alg».proof.Proof.KChain

set_option maxRecDepth 16384

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_value (P : Chain.Pays) : θ_run defs (onTc (τ := τ) (main (F := Ideal))) ⟨m, fun _ => 0, ρ⟩ (fun r => ∀ c : Dev nD,
      r.2.mem ((c.tc : Thread nD τ).loc main_v125) = Chain.out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c main_v125 (by decide)).trans (Chain.dec_out m ρ P c),
     (h c main_arg0 (by decide)).trans (W18_main_arg0 m ρ c),
     (h c main_arg1 (by decide)).trans (W18_main_arg1 m ρ c),
     (h c main_arg2 (by decide)).trans (W18_main_arg2 m ρ c),
     (h c main_arg3 (by decide)).trans (W18_main_arg3 m ρ c),
     (h c main_arg4 (by decide)).trans (W18_main_arg4 m ρ c),
     (h c main_arg5 (by decide)).trans (W18_main_arg5 m ρ c),
     (h c main_arg6 (by decide)).trans (W18_main_arg6 m ρ c),
     (h c main_arg7 (by decide)).trans (W18_main_arg7 m ρ c),
     (h c main_arg8 (by decide)).trans (W18_main_arg8 m ρ c),
     (h c main_arg9 (by decide)).trans (W18_main_arg9 m ρ c),
     (h c main_arg10 (by decide)).trans (W18_main_arg10 m ρ c),
     (h c main_arg11 (by decide)).trans (W18_main_arg11 m ρ c),
     (h c main_arg12 (by decide)).trans (W18_main_arg12 m ρ c),
     (h c main_arg13 (by decide)).trans (W18_main_arg13 m ρ c),
     (h c main_arg14 (by decide)).trans (W18_main_arg14 m ρ c),
     (h c main_arg15 (by decide)).trans (W18_main_arg15 m ρ c),
     (h c main_arg16 (by decide)).trans (W18_main_arg16 m ρ c),
     (h c main_arg17 (by decide)).trans (W18_main_arg17 m ρ c),
     (h c main_arg18 (by decide)).trans (W18_main_arg18 m ρ c),
     (h c main_arg19 (by decide)).trans (W18_main_arg19 m ρ c),
     (h c main_arg20 (by decide)).trans (W18_main_arg20 m ρ c)⟩)
    (RunAll.run_all m ρ)

end Cert.KernelIdeal.KValue

end
-- ==== Proof.KPayLib.lean ====
/-
  A tile's operations read at one entry, at the ideal values.

  The network's stages act on a tile of rows. Beside the pointwise operations, whose value at an entry is the
  operation on the operands' entries, a stage uses four operations that move entries around, and one that sums:
  * a vector of length `b` viewed as the one row of a `[1, b]` matrix and that row copied to every row of an
    `[a, b]` matrix (a bias added to every row): entry (p, q) is the vector's entry q (`rowBias_apply`);
  * a vector of length `a` viewed as the one column of an `[a, 1]` matrix (`shapeCast_a_a1_apply`), and such a
    column copied to every column of an `[a, b]` matrix (`broadcastTo_a1_ab_apply`): a row's statistic used at
    every entry of the row;
  * the sum of each row's entries (`rowSum_apply`): entry p is `∑ k, X (p, k)`;
  * the product of an `[m, k]` tile by a `[k, n]` matrix accumulated into zero (`mm_apply`): entry (p, q) is
    `∑ c, A (p, c) · B (c, q)`, the contraction re-indexed by its one coordinate.
  All are stated for any extents, over indices written by their coordinates.
-/
import proofs.«179626_j43602507989842_1_alg».proof.Proof.Gen.KernelIdeal.Skeleton
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

variable {α : Type}

/-! ## A bias added to every row -/

/-- A vector viewed as a one-row matrix and copied to every row reads, at `(p, q)`, the vector at `q`. -/
theorem rowBias_apply {a b : ℕ} (x : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ x hs) hb (ix2 p q) = x (ix1 q) :=
  (broadcastTo_1b_ab_apply _ hb p q).trans (shapeCast_a_1a_apply x hs 0 q)

/-! ## A row's statistic used at every entry of the row -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum of a row -/

/-- The sum along each row, at the ideal values: entry `p` is the sum of row `p`'s entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-! ## The reciprocal square root and the float words, at the ideal values -/

/-- A reciprocal square root at an index is the extended reals' (PureOps/Ideal.lean `Ideal.rsqrt`) of the element. -/
theorem rsqrt_apply {s : Shape} {φ : FTy} (x : FVec Ideal s φ) (i : s.Idx) : rsqrt x i = Ideal.rsqrt (x i) := rfl

/-- A float word read at the ideal values is the extended real it encodes. -/
theorem ofBits_apply {φ : FTy} (b : BitVec φ.bits) : (Scalar.ofBits φ b : Ideal φ) = Ideal.ofBits φ b := rfl

/-! ## A tile times a matrix -/

/-- The product of an `[m, k]` tile by a `[k, n]` matrix accumulated into the zero splat, read at `(p, q)`: the sum
    over the contracted coordinate of the products of the entries. -/
theorem mm_apply {m k n : ℕ} {φ₁ φ₂ : FTy} (prec : Option ContractPrecision)
    (A : FVec Ideal ⟨2, ![m, k]⟩ φ₁) (B : FVec Ideal ⟨2, ![k, n]⟩ φ₂) (p : Fin m) (q : Fin n) :
    FloatOps.matmul (DotDims.plain m k n) prec A B (constant (F := Ideal) ⟨2, ![m, n]⟩ .f32 0x00000000#32) (ix2 p q)
      = ∑ c : Fin k, A (ix2 p c) * B (ix2 c q) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 p q) ((contrEquiv1 (DotDims.plain m k n) k rfl rfl).symm c) = ix2 p c :=
    funext fun ax => Fin.ext (by
      match ax with
      | ⟨0, _⟩ => rfl
      | ⟨1, _⟩ => exact ((DotDims.plain m k n).lhsIdx_val_of_single (cl := 1) rfl _ _).trans hc)
  have er : (DotDims.plain m k n).rhsIdx (ix2 p q) ((contrEquiv1 (DotDims.plain m k n) k rfl rfl).symm c) = ix2 c q :=
    funext fun ax => Fin.ext (by
      match ax with
      | ⟨0, _⟩ => exact ((DotDims.plain m k n).rhsIdx_val_of_single (cr := 0) rfl _ _).trans hc
      | ⟨1, _⟩ => rfl)
  rw [el, er]

end Cert.KernelIdeal.Pay

end
-- ==== Proof.KPayLn.lean ====
/-
  The layer normalisation tile: the kernel's stored value is `Gnn.ln` of the tile.

  Read at entry (p, q): the row sum with kept axis, divided by 64 and copied along the row, is the row's mean `μ`; the
  deviations `d = H − μ`, squared, summed the same way and divided by 64 are the row's variance `σ²`;
  `rsqrt (σ² + ε)` copied along the row multiplies `d`, then the scale's entry `q` multiplies and the shift's entry
  `q` is added: `(H (p, q) − μ) · rsqrt (σ² + ε) · g q + b q`, which is `Gnn.lnAt`. The four layers' tiles are the same
  term, so one proof serves all four.
-/
import proofs.«179626_j43602507989842_1_alg».proof.Proof.KPayLib
import proofs.«179626_j43602507989842_1_alg».proof.Proof.Spec

noncomputable section

namespace Cert.KernelIdeal.Pay

open Cert.KernelIdeal Cert.KernelIdeal.Gen Idealize.ShloMosaic Idealize.ShloMosaic.ValueIdx

/-- The first layer's normalisation tile is the layer normalisation of its rows. -/
theorem pay1 (v0 : Vec Ideal S5000x64 .f32) (v18 v23 : Vec Ideal S64 .f32) :
    k1_pay1 (F := Ideal) v0 v18 v23 = Gnn.ln v0 v18 v23 := by
  funext j
  obtain ⟨p, q, rfl⟩ : ∃ (p : Fin 5000) (q : Fin 64), j = ix2 p q := ⟨j 0, j 1, eq_ix2 j⟩
  show _ = Gnn.lnAt v0 v18 v23 p q
  unfold k1_pay1 Gnn.lnAt Gnn.rowVar Gnn.rowMean
  -- the pointwise operations, the row copies and the kept-axis casts read at (p, q); the two outer row sums remain
  simp only [addf_apply, mulf_apply, subf_apply, divf_apply, broadcast_apply, rsqrt_apply, rowBias_apply, broadcastTo_a1_ab_apply,
    shapeCast_a_a1_apply, shapeCast_self, Ideal.ofBits_def]
  -- the mean's sum and the variance's sum (the side conditions of the sums are equations between words, matched up to unfolding)
  erw [rowSum_apply, rowSum_apply]
  -- under the variance's sum: the deviations at (p, k), whose mean is the first sum again
  simp only [mulf_apply, subf_apply, divf_apply, broadcast_apply, broadcastTo_a1_ab_apply, shapeCast_a_a1_apply]
  erw [rowSum_apply]

/-- The second, third and fourth layers' normalisation tiles are the same term. -/
theorem pay3 (v0 : Vec Ideal S5000x64 .f32) (v18 v23 : Vec Ideal S64 .f32) :
    k3_pay1 (F := Ideal) v0 v18 v23 = Gnn.ln v0 v18 v23 := pay1 v0 v18 v23
theorem pay5 (v0 : Vec Ideal S5000x64 .f32) (v18 v23 : Vec Ideal S64 .f32) :
    k5_pay1 (F := Ideal) v0 v18 v23 = Gnn.ln v0 v18 v23 := pay1 v0 v18 v23
theorem pay7 (v0 : Vec Ideal S5000x64 .f32) (v18 v23 : Vec Ideal S64 .f32) :
    k7_pay1 (F := Ideal) v0 v18 v23 = Gnn.ln v0 v18 v23 := pay1 v0 v18 v23

end Cert.KernelIdeal.Pay

end
-- ==== Proof.KPayMlp.lean ====
/-
  The encoder's and the decoder's tiles: the kernel's stored value is the two-layer perceptron `Gnn.mlp2` of the tile.

  Read at entry (p, q): the second product's entry is `∑ c, Y (p, c) · W₂ (c, q)` with `Y` the rectified first layer,
  whose entry (p, c) is the leaky rectifier of `(∑ i, X (p, i) · W₁ (i, c)) + b₁ c`; the biases are rows copied to every
  row of the tile, and the narrowing of the operands before each product is the identity on the extended reals. The
  dimension numbers of each product are the plain row-by-column ones (`DotDims.plain`).
-/
import proofs.«179626_j43602507989842_1_alg».proof.Proof.KPayLib
import proofs.«179626_j43602507989842_1_alg».proof.Proof.Spec

noncomputable section

namespace Cert.KernelIdeal.Pay

open Cert.KernelIdeal Cert.KernelIdeal.Gen Idealize.ShloMosaic Idealize.ShloMosaic.ValueIdx

/-- The four products' dimension numbers are the plain ones. -/
theorem dot_16_128 : dot_S5000x16_S16x128_S5000x128_1_0_0_1_n_n = DotDims.plain 5000 16 128 := rfl
theorem dot_128_64 : dot_S5000x128_S128x64_S5000x64_1_0_0_1_n_n = DotDims.plain 5000 128 64 := rfl
theorem dot_64_24 : dot_S5000x64_S64x24_S5000x24_1_0_0_1_n_n = DotDims.plain 5000 64 24 := rfl
theorem dot_24_3 : dot_S5000x24_S24x3_S5000x3_1_0_0_1_n_n = DotDims.plain 5000 24 3 := rfl

/-- The encoder's tile is the two-layer perceptron 16 → 128 → 64 of its rows. -/
theorem pay0 (v0 : Vec Ideal S5000x16 .f32) (v2 : Vec Ideal S16x128 .f32) (v5 : Vec Ideal S128 .f32)
    (v15 : Vec Ideal S128x64 .f32) (v18 : Vec Ideal S64 .f32) :
    k0_pay1 (F := Ideal) v0 v2 v5 v15 v18 = Gnn.mlp2 v0 v2 v5 v15 v18 := by
  funext j
  obtain ⟨p, q, rfl⟩ : ∃ (p : Fin 5000) (q : Fin 64), j = ix2 p q := ⟨j 0, j 1, eq_ix2 j⟩
  show _ = Gnn.denseAt (Gnn.act (Gnn.dense v0 v2 v5)) v15 v18 p q
  unfold k0_pay1 Gnn.denseAt
  -- both products, both biases and the rectifier between them, read at (p, q); what is left is the specification unfolded
  simp only [matmul, dot_16_128, dot_128_64, addf_apply, mm_apply, rowBias_apply, truncf_apply, select_apply, cmpf_apply,
    mulf_apply, broadcast_apply, Ideal.ofBits_def]
  rfl

/-- The decoder's tile is the two-layer perceptron 64 → 24 → 3 of its rows. -/
theorem pay9 (v0 : Vec Ideal S5000x64 .f32) (v3 : Vec Ideal S64x24 .f32) (v6 : Vec Ideal S24 .f32)
    (v16 : Vec Ideal S24x3 .f32) (v19 : Vec Ideal S3 .f32) :
    k9_pay1 (F := Ideal) v0 v3 v6 v16 v19 = Gnn.mlp2 v0 v3 v6 v16 v19 := by
  funext j
  obtain ⟨p, q, rfl⟩ : ∃ (p : Fin 5000) (q : Fin 3), j = ix2 p q := ⟨j 0, j 1, eq_ix2 j⟩
  show _ = Gnn.denseAt (Gnn.act (Gnn.dense v0 v3 v6)) v16 v19 p q
  unfold k9_pay1 Gnn.denseAt
  simp only [matmul, dot_64_24, dot_24_3, shapeCast_self, addf_apply, mm_apply, rowBias_apply, truncf_apply, select_apply,
    cmpf_apply, mulf_apply, broadcast_apply, Ideal.ofBits_def]
  rfl

end Cert.KernelIdeal.Pay

end
-- ==== Proof.KPayComb.lean ====
/-
  The combine tile of a message-passing layer: the kernel's stored value is `Gnn.comb` of the normalised tile and the
  aggregated-message tile.

  Read at entry (p, q): the pre-activation's entry (p, c) is
  `(((∑ i, Hn (p, i) · Wn (i, c)) + bn c) + ∑ i, M (p, i) · We (i, c)) + be c`, two products and two biases added in
  the kernel's order; its leaky rectifier times the mixing matrix, summed over `c`, plus the mixing bias and the
  residual `Hn (p, q)` is `Gnn.combAt`. The four layers' tiles are the same term, so one proof serves all four.
-/
import proofs.«179626_j43602507989842_1_alg».proof.Proof.KPayLib
import proofs.«179626_j43602507989842_1_alg».proof.Proof.Spec

noncomputable section

namespace Cert.KernelIdeal.Pay

open Cert.KernelIdeal Cert.KernelIdeal.Gen Idealize.ShloMosaic Idealize.ShloMosaic.ValueIdx

/-- The two products' dimension numbers are the plain ones. -/
theorem dot_64_32 : dot_S5000x64_S64x32_S5000x32_1_0_0_1_n_n = DotDims.plain 5000 64 32 := rfl
theorem dot_32_64 : dot_S5000x32_S32x64_S5000x64_1_0_0_1_n_n = DotDims.plain 5000 32 64 := rfl

/-- The first layer's combine tile is the layer's update of its rows. The payload takes the two weight matrices first
    and the two biases after them; the specification takes each weight with its bias. -/
theorem pay2 (v0 v2 : Vec Ideal S5000x64 .f32) (v6 v9 : Vec Ideal S64x32 .f32) (v13 v20 : Vec Ideal S32 .f32)
    (v31 : Vec Ideal S32x64 .f32) (v35 : Vec Ideal S64 .f32) :
    k2_pay1 (F := Ideal) v0 v2 v6 v9 v13 v20 v31 v35 = Gnn.comb v0 v2 v6 v13 v9 v20 v31 v35 := by
  funext j
  obtain ⟨p, q, rfl⟩ : ∃ (p : Fin 5000) (q : Fin 64), j = ix2 p q := ⟨j 0, j 1, eq_ix2 j⟩
  show _ = Gnn.combAt v0 v2 v6 v13 v9 v20 v31 v35 p q
  unfold k2_pay1 Gnn.combAt
  -- the three products, the three biases, the rectifier and the residual read at (p, q); what is left is the
  -- specification's pre-activation unfolded
  simp only [matmul, dot_64_32, dot_32_64, shapeCast_self, addf_apply, mm_apply, rowBias_apply, truncf_apply, select_apply,
    cmpf_apply, mulf_apply, broadcast_apply, Ideal.ofBits_def]
  rfl

/-- The second, third and fourth layers' combine tiles are the same term. -/
theorem pay4 (v0 v2 : Vec Ideal S5000x64 .f32) (v6 v9 : Vec Ideal S64x32 .f32) (v13 v20 : Vec Ideal S32 .f32)
    (v31 : Vec Ideal S32x64 .f32) (v35 : Vec Ideal S64 .f32) :
    k4_pay1 (F := Ideal) v0 v2 v6 v9 v13 v20 v31 v35 = Gnn.comb v0 v2 v6 v13 v9 v20 v31 v35 :=
  pay2 v0 v2 v6 v9 v13 v20 v31 v35
theorem pay6 (v0 v2 : Vec Ideal S5000x64 .f32) (v6 v9 : Vec Ideal S64x32 .f32) (v13 v20 : Vec Ideal S32 .f32)
    (v31 : Vec Ideal S32x64 .f32) (v35 : Vec Ideal S64 .f32) :
    k6_pay1 (F := Ideal) v0 v2 v6 v9 v13 v20 v31 v35 = Gnn.comb v0 v2 v6 v13 v9 v20 v31 v35 :=
  pay2 v0 v2 v6 v9 v13 v20 v31 v35
theorem pay8 (v0 v2 : Vec Ideal S5000x64 .f32) (v6 v9 : Vec Ideal S64x32 .f32) (v13 v20 : Vec Ideal S32 .f32)
    (v31 : Vec Ideal S32x64 .f32) (v35 : Vec Ideal S64 .f32) :
    k8_pay1 (F := Ideal) v0 v2 v6 v9 v13 v20 v31 v35 = Gnn.comb v0 v2 v6 v13 v9 v20 v31 v35 :=
  pay2 v0 v2 v6 v9 v13 v20 v31 v35

end Cert.KernelIdeal.Pay

end
-- ==== Proof.RefOps0.lean ====
import proofs.«179626_j43602507989842_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 0 of @main, in order; each call of an outlined function is the callee's
    operations over that call's own buffers. -/
abbrev ops0 : List (HloOp τ sig (Elt F)) :=
  [ StableHlo.binary main_arg0 main_arg5 main_v0 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg6 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x00000000#32),
    StableHlo.unary main_cst main_v4 (broadcastInDim S100000x128 ![] bcast_S_S100000x128 : (⟨S_, .f32⟩ : BufTy).Contents (Elt F) → (⟨S100000x128, .f32⟩ : BufTy).Contents (Elt F)),
    StableHlo.binary main_v3 main_v4 main_v5 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_0 (constant S_ .f32 0x3C23D70A#32),
    StableHlo.unary main_cst_0 main_v6 (broadcastInDim S100000x128 ![] bcast_S_S100000x128 : (⟨S_, .f32⟩ : BufTy).Contents (Elt F) → (⟨S100000x128, .f32⟩ : BufTy).Contents (Elt F)),
    StableHlo.binary main_v6 main_v3 main_v7 (mulf : (⟨S100000x128, .f32⟩ : BufTy).Contents (Elt F) → (⟨S100000x128, .f32⟩ : BufTy).Contents (Elt F) → (⟨S100000x128, .f32⟩ : BufTy).Contents (Elt F)),
    StableHlo.ternary main_v5 main_v3 main_v7 main_v8 ((select) : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.binary main_v8 main_arg7 main_v9 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)),
    StableHlo.unary main_arg13 main_v13 ((extractStridedSlice S1x64 ![0, 0] · slices_S4x64_S1x64_0_0) : (⟨S4x64, .f32⟩ : BufTy).Contents (Elt F) → (⟨S1x64, .f32⟩ : BufTy).Contents (Elt F)),
    StableHlo.reshape main_v13 main_v14 rfl shapeCasts_S1x64_S64,
    StableHlo.unary main_arg14 main_v15 ((extractStridedSlice S1x64 ![0, 0] · slices_S4x64_S1x64_0_0) : (⟨S4x64, .f32⟩ : BufTy).Contents (Elt F) → (⟨S1x64, .f32⟩ : BufTy).Contents (Elt F)),
    StableHlo.reshape main_v15 main_v16 rfl shapeCasts_S1x64_S64,
    StableHlo.nullary main_cst_1 (constant S_ .f32 0x00000000#32),
    StableHlo.binary main_v12 main_cst_1 main_v17 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v17 main_v18 (broadcastInDim S100000x1 ![0] bcast_S100000_S100000x1_0 : (⟨S100000, .f32⟩ : BufTy).Contents (Elt F) → (⟨S100000x1, .f32⟩ : BufTy).Contents (Elt F)),
    StableHlo.nullary main_cst_2 (constant S_ .f32 0x42800000#32),
    StableHlo.unary main_cst_2 main_v19 (broadcastInDim S100000x1 ![] bcast_S_S100000x1 : (⟨S_, .f32⟩ : BufTy).Contents (Elt F) → (⟨S100000x1, .f32⟩ : BufTy).Contents (Elt F)),
    StableHlo.binary main_v18 main_v19 main_v20 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.nullary main_call1_cst (constant S_ .f32 0x00000000#32),
    StableHlo.binary main_v12 main_call1_cst main_call1_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call1_v0 main_call1_v1 ((broadcastInDim S100000x1 ![0] bcast_S100000_S100000x1_0) : (⟨S100000, .f32⟩ : BufTy).Contents (Elt F) → (⟨S100000x1, .f32⟩ : BufTy).Contents (Elt F)),
    StableHlo.nullary main_call1_cst_0 (constant S_ .f32 0x42800000#32),
    StableHlo.unary main_call1_cst_0 main_call1_v2 ((broadcastInDim S100000x1 ![] bcast_S_S100000x1) : (⟨S_, .f32⟩ : BufTy).Contents (Elt F) → (⟨S100000x1, .f32⟩ : BufTy).Contents (Elt F)),
    StableHlo.binary main_call1_v1 main_call1_v2 main_call1_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call1_v3 main_call1_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v12 main_call1_v4 main_call1_v5 ((subf) : (⟨S100000x64, .f32⟩ : BufTy).Contents (Elt F) → (⟨S100000x64, .f32⟩ : BufTy).Contents (Elt F) → (⟨S100000x64, .f32⟩ : BufTy).Contents (Elt F)),
    StableHlo.binary main_call1_v5 main_call1_v5 main_call1_v6 ((mulf) : (⟨S100000x64, .f32⟩ : BufTy).Contents (Elt F) → (⟨S100000x64, .f32⟩ : BufTy).Contents (Elt F) → (⟨S100000x64, .f32⟩ : BufTy).Contents (Elt F)),
    StableHlo.unary main_c main_call1_v7 ((sitofp .f32) : (⟨S_, .i32⟩ : BufTy).Contents (Elt F) → (⟨S_, .f32⟩ : BufTy).Contents (Elt F)),
    StableHlo.nullary main_call1_cst_1 (constant S_ .f32 0x42800000#32),
    StableHlo.binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call1_v9 main_call1_v10 ((broadcastInDim S100000x1 ![0] bcast_S100000_S100000x1_0) : (⟨S100000, .f32⟩ : BufTy).Contents (Elt F) → (⟨S100000x1, .f32⟩ : BufTy).Contents (Elt F)),
    StableHlo.unary main_call1_v8 main_call1_v11 ((broadcastInDim S100000x1 ![] bcast_S_S100000x1) : (⟨S_, .f32⟩ : BufTy).Contents (Elt F) → (⟨S100000x1, .f32⟩ : BufTy).Contents (Elt F)),
    StableHlo.binary main_call1_v10 main_call1_v11 main_call1_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call1_cst_3 (constant S_ .f32 0x00000000#32),
    StableHlo.binary main_call1_v8 main_call1_cst_3 main_call1_v13 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 ((id) : (⟨S_, .f32⟩ : BufTy).Contents (Elt F) → (⟨S_, .f32⟩ : BufTy).Contents (Elt F)),
    StableHlo.unary main_call1_call0_v0 main_call1_call0_v1 ((broadcastInDim S100000x1 ![] bcast_S_S100000x1) : (⟨S_, .f32⟩ : BufTy).Contents (Elt F) → (⟨S100000x1, .f32⟩ : BufTy).Contents (Elt F)),
    StableHlo.ternary main_call1_v13 main_call1_v12 main_call1_call0_v1 main_v21 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v20 main_v22 (broadcastInDim S100000x64 ![0, 1] bcast_S100000x1_S100000x64_0_1 : (⟨S100000x1, .f32⟩ : BufTy).Contents (Elt F) → (⟨S100000x64, .f32⟩ : BufTy).Contents (Elt F)),
    StableHlo.binary main_v12 main_v22 main_v23 (subf : (⟨S100000x64, .f32⟩ : BufTy).Contents (Elt F) → (⟨S100000x64, .f32⟩ : BufTy).Contents (Elt F) → (⟨S100000x64, .f32⟩ : BufTy).Contents (Elt F)),
    StableHlo.nullary main_cst_3 (constant S_ .f32 0x3727C5AC#32),
    StableHlo.unary main_cst_3 main_v24 (broadcastInDim S100000x1 ![] bcast_S_S100000x1 : (⟨S_, .f32⟩ : BufTy).Contents (Elt F) → (⟨S100000x1, .f32⟩ : BufTy).Contents (Elt F)),
    StableHlo.binary main_v21 main_v24 main_v25 (addf : (⟨S100000x1, .f32⟩ : BufTy).Contents (Elt F) → (⟨S100000x1, .f32⟩ : BufTy).Contents (Elt F) → (⟨S100000x1, .f32⟩ : BufTy).Contents (Elt F)),
    StableHlo.unary main_v25 main_v26 (Host.rsqrt : (⟨S100000x1, .f32⟩ : BufTy).Contents (Elt F) → (⟨S100000x1, .f32⟩ : BufTy).Contents (Elt F)),
    StableHlo.unary main_v26 main_v27 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v27 main_v28 (mulf : (⟨S100000x64, .f32⟩ : BufTy).Contents (Elt F) → (⟨S100000x64, .f32⟩ : BufTy).Contents (Elt F) → (⟨S100000x64, .f32⟩ : BufTy).Contents (Elt F)),
    StableHlo.unary main_v14 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v30 main_v31 (mulf : (⟨S100000x64, .f32⟩ : BufTy).Contents (Elt F) → (⟨S100000x64, .f32⟩ : BufTy).Contents (Elt F) → (⟨S100000x64, .f32⟩ : BufTy).Contents (Elt F)),
    StableHlo.unary main_v16 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v33 main_v34 (addf : (⟨S100000x64, .f32⟩ : BufTy).Contents (Elt F) → (⟨S100000x64, .f32⟩ : BufTy).Contents (Elt F) → (⟨S100000x64, .f32⟩ : BufTy).Contents (Elt F)),
    StableHlo.unary main_arg4 main_v35 (broadcastInDim S1200000x1 ![0] bcast_S1200000_S1200000x1_0 : (⟨S1200000, .f32⟩ : BufTy).Contents (Elt F) → (⟨S1200000x1, .f32⟩ : BufTy).Contents (Elt F)),
    StableHlo.nullary main_c_4 (constantI S_ 32 0#32),
    StableHlo.unary main_c_4 main_v36 (broadcastInDim S1200000 ![] bcast_S_S1200000 : (⟨S_, .i32⟩ : BufTy).Contents (Elt F) → (⟨S1200000, .i32⟩ : BufTy).Contents (Elt F)),
    StableHlo.binary main_arg2 main_v36 main_v37 (cmpi .slt : (⟨S1200000, .i32⟩ : BufTy).Contents (Elt F) → (⟨S1200000, .i32⟩ : BufTy).Contents (Elt F) → (⟨S1200000, .i1⟩ : BufTy).Contents (Elt F)),
    StableHlo.nullary main_c_5 (constantI S_ 32 100000#32),
    StableHlo.unary main_c_5 main_v38 (broadcastInDim S1200000 ![] bcast_S_S1200000 : (⟨S_, .i32⟩ : BufTy).Contents (Elt F) → (⟨S1200000, .i32⟩ : BufTy).Contents (Elt F)),
    StableHlo.binary main_arg2 main_v38 main_v39 (addi : (⟨S1200000, .i32⟩ : BufTy).Contents (Elt F) → (⟨S1200000, .i32⟩ : BufTy).Contents (Elt F) → (⟨S1200000, .i32⟩ : BufTy).Contents (Elt F)),
    StableHlo.ternary main_v37 main_v39 main_arg2 main_v40 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v40 main_v41 (broadcastInDim S1200000x1 ![0] bcast_S1200000_S1200000x1_0 : (⟨S1200000, .i32⟩ : BufTy).Contents (Elt F) → (⟨S1200000x1, .i32⟩ : BufTy).Contents (Elt F)),
    StableHlo.binary main_v34 main_v41 main_v42 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v35 main_v43 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v43 main_v42 main_v44 (mulf : (⟨S1200000x64, .f32⟩ : BufTy).Contents (Elt F) → (⟨S1200000x64, .f32⟩ : BufTy).Contents (Elt F) → (⟨S1200000x64, .f32⟩ : BufTy).Contents (Elt F)),
    StableHlo.nullary main_cst_6 (constant S_ .f32 0x00000000#32),
    StableHlo.unary main_cst_6 main_v45 (broadcastInDim S100000x64 ![] bcast_S_S100000x64 : (⟨S_, .f32⟩ : BufTy).Contents (Elt F) → (⟨S100000x64, .f32⟩ : BufTy).Contents (Elt F)),
    StableHlo.unary main_arg3 main_v46 (broadcastInDim S1200000x1 ![0] bcast_S1200000_S1200000x1_0 : (⟨S1200000, .i32⟩ : BufTy).Contents (Elt F) → (⟨S1200000x1, .i32⟩ : BufTy).Contents (Elt F)),
    StableHlo.ternary main_v45 main_v46 main_v44 main_v47 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg15 main_v48 ((extractStridedSlice S1x64x32 ![0, 0, 0] · slices_S4x64x32_S1x64x32_0_0_0) : (⟨S4x64x32, .f32⟩ : BufTy).Contents (Elt F) → (⟨S1x64x32, .f32⟩ : BufTy).Contents (Elt F)),
    StableHlo.reshape main_v48 main_v49 rfl shapeCasts_S1x64x32_S64x32,
    StableHlo.binary main_v34 main_v49 main_v50 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]

set_option maxRecDepth 4096 in
/-- The window is that straight line: the outlined functions unfolded at their calls, both sides are one chain of
    steps once sequencing is reassociated. -/
theorem part0_eq (c : Dev nD) : main_part0 (F := F) c = seq ops0 := by
  simp only [main_part0, fn_where.body, fn_var.body, fn_where_0.body, fn_where_1.body, fn_where_2.body, seq, bind_assoc, pure_bind]
  rfl

/-- Every operation of the window touches TensorCore references only. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub ..⟩

/-- No operation of the window allocates: each determines its results. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefOps1.lean ====
import proofs.«179626_j43602507989842_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 1 of @main, in order; each call of an outlined function is the callee's
    operations over that call's own buffers. -/
abbrev ops1 : List (HloOp τ sig (Elt F)) :=
  [ StableHlo.unary main_arg16 main_v51 ((extractStridedSlice S1x32 ![0, 0] · slices_S4x32_S1x32_0_0) : (⟨S4x32, .f32⟩ : BufTy).Contents (Elt F) → (⟨S1x32, .f32⟩ : BufTy).Contents (Elt F)),
    StableHlo.reshape main_v51 main_v52 rfl shapeCasts_S1x32_S32,
    StableHlo.unary main_v52 main_v53 (broadcastInDim S1x32 ![1] bcast_S32_S1x32_1 : (⟨S32, .f32⟩ : BufTy).Contents (Elt F) → (⟨S1x32, .f32⟩ : BufTy).Contents (Elt F)),
    StableHlo.unary main_v53 main_v54 (broadcastInDim S100000x32 ![0, 1] bcast_S1x32_S100000x32_0_1 : (⟨S1x32, .f32⟩ : BufTy).Contents (Elt F) → (⟨S100000x32, .f32⟩ : BufTy).Contents (Elt F)),
    StableHlo.binary main_v50 main_v54 main_v55 (addf : (⟨S100000x32, .f32⟩ : BufTy).Contents (Elt F) → (⟨S100000x32, .f32⟩ : BufTy).Contents (Elt F) → (⟨S100000x32, .f32⟩ : BufTy).Contents (Elt F)),
    StableHlo.unary main_arg17 main_v56 ((extractStridedSlice S1x64x32 ![0, 0, 0] · slices_S4x64x32_S1x64x32_0_0_0) : (⟨S4x64x32, .f32⟩ : BufTy).Contents (Elt F) → (⟨S1x64x32, .f32⟩ : BufTy).Contents (Elt F)),
    StableHlo.reshape main_v56 main_v57 rfl shapeCasts_S1x64x32_S64x32,
    StableHlo.binary main_v47 main_v57 main_v58 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v59 ((extractStridedSlice S1x32 ![0, 0] · slices_S4x32_S1x32_0_0) : (⟨S4x32, .f32⟩ : BufTy).Contents (Elt F) → (⟨S1x32, .f32⟩ : BufTy).Contents (Elt F)),
    StableHlo.reshape main_v59 main_v60 rfl shapeCasts_S1x32_S32,
    StableHlo.unary main_v60 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S100000x32 ![0, 1] bcast_S1x32_S100000x32_0_1 : (⟨S1x32, .f32⟩ : BufTy).Contents (Elt F) → (⟨S100000x32, .f32⟩ : BufTy).Contents (Elt F)),
    StableHlo.binary main_v58 main_v62 main_v63 (addf : (⟨S100000x32, .f32⟩ : BufTy).Contents (Elt F) → (⟨S100000x32, .f32⟩ : BufTy).Contents (Elt F) → (⟨S100000x32, .f32⟩ : BufTy).Contents (Elt F)),
    StableHlo.binary main_v55 main_v63 main_v64 (addf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x00000000#32),
    StableHlo.unary main_cst_7 main_v65 (broadcastInDim S100000x32 ![] bcast_S_S100000x32 : (⟨S_, .f32⟩ : BufTy).Contents (Elt F) → (⟨S100000x32, .f32⟩ : BufTy).Contents (Elt F)),
    StableHlo.binary main_v64 main_v65 main_v66 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_8 (constant S_ .f32 0x3C23D70A#32),
    StableHlo.unary main_cst_8 main_v67 (broadcastInDim S100000x32 ![] bcast_S_S100000x32 : (⟨S_, .f32⟩ : BufTy).Contents (Elt F) → (⟨S100000x32, .f32⟩ : BufTy).Contents (Elt F)),
    StableHlo.binary main_v67 main_v64 main_v68 (mulf : (⟨S100000x32, .f32⟩ : BufTy).Contents (Elt F) → (⟨S100000x32, .f32⟩ : BufTy).Contents (Elt F) → (⟨S100000x32, .f32⟩ : BufTy).Contents (Elt F)),
    StableHlo.ternary main_v66 main_v64 main_v68 main_v69 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v70 ((extractStridedSlice S1x32x64 ![0, 0, 0] · slices_S4x32x64_S1x32x64_0_0_0) : (⟨S4x32x64, .f32⟩ : BufTy).Contents (Elt F) → (⟨S1x32x64, .f32⟩ : BufTy).Contents (Elt F)),
    StableHlo.reshape main_v70 main_v71 rfl shapeCasts_S1x32x64_S32x64,
    StableHlo.binary main_v69 main_v71 main_v72 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v73 ((extractStridedSlice S1x64 ![0, 0] · slices_S4x64_S1x64_0_0) : (⟨S4x64, .f32⟩ : BufTy).Contents (Elt F) → (⟨S1x64, .f32⟩ : BufTy).Contents (Elt F)),
    StableHlo.reshape main_v73 main_v74 rfl shapeCasts_S1x64_S64,
    StableHlo.unary main_v74 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v72 main_v76 main_v77 (addf : (⟨S100000x64, .f32⟩ : BufTy).Contents (Elt F) → (⟨S100000x64, .f32⟩ : BufTy).Contents (Elt F) → (⟨S100000x64, .f32⟩ : BufTy).Contents (Elt F)),
    StableHlo.binary main_v77 main_v34 main_v78 (addf : (⟨S100000x64, .f32⟩ : BufTy).Contents (Elt F) → (⟨S100000x64, .f32⟩ : BufTy).Contents (Elt F) → (⟨S100000x64, .f32⟩ : BufTy).Contents (Elt F)),
    StableHlo.unary main_arg13 main_v79 ((extractStridedSlice S1x64 ![1, 0] · slices_S4x64_S1x64_1_0) : (⟨S4x64, .f32⟩ : BufTy).Contents (Elt F) → (⟨S1x64, .f32⟩ : BufTy).Contents (Elt F)),
    StableHlo.reshape main_v79 main_v80 rfl shapeCasts_S1x64_S64,
    StableHlo.unary main_arg14 main_v81 ((extractStridedSlice S1x64 ![1, 0] · slices_S4x64_S1x64_1_0) : (⟨S4x64, .f32⟩ : BufTy).Contents (Elt F) → (⟨S1x64, .f32⟩ : BufTy).Contents (Elt F)),
    StableHlo.reshape main_v81 main_v82 rfl shapeCasts_S1x64_S64,
    StableHlo.nullary main_cst_9 (constant S_ .f32 0x00000000#32),
    StableHlo.binary main_v78 main_cst_9 main_v83 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v83 main_v84 (broadcastInDim S100000x1 ![0] bcast_S100000_S100000x1_0 : (⟨S100000, .f32⟩ : BufTy).Contents (Elt F) → (⟨S100000x1, .f32⟩ : BufTy).Contents (Elt F)),
    StableHlo.nullary main_cst_10 (constant S_ .f32 0x42800000#32),
    StableHlo.unary main_cst_10 main_v85 (broadcastInDim S100000x1 ![] bcast_S_S100000x1 : (⟨S_, .f32⟩ : BufTy).Contents (Elt F) → (⟨S100000x1, .f32⟩ : BufTy).Contents (Elt F)),
    StableHlo.binary main_v84 main_v85 main_v86 (Host.divf : (⟨S100000x1, .f32⟩ : BufTy).Contents (Elt F) → (⟨S100000x1, .f32⟩ : BufTy).Contents (Elt F) → (⟨S100000x1, .f32⟩ : BufTy).Contents (Elt F)),
    StableHlo.nullary main_c_11 (constantI S_ 32 0#32),
    StableHlo.nullary main_call3_cst (constant S_ .f32 0x00000000#32),
    StableHlo.binary main_v78 main_call3_cst main_call3_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call3_v0 main_call3_v1 ((broadcastInDim S100000x1 ![0] bcast_S100000_S100000x1_0) : (⟨S100000, .f32⟩ : BufTy).Contents (Elt F) → (⟨S100000x1, .f32⟩ : BufTy).Contents (Elt F)),
    StableHlo.nullary main_call3_cst_0 (constant S_ .f32 0x42800000#32),
    StableHlo.unary main_call3_cst_0 main_call3_v2 ((broadcastInDim S100000x1 ![] bcast_S_S100000x1) : (⟨S_, .f32⟩ : BufTy).Contents (Elt F) → (⟨S100000x1, .f32⟩ : BufTy).Contents (Elt F)),
    StableHlo.binary main_call3_v1 main_call3_v2 main_call3_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call3_v3 main_call3_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v78 main_call3_v4 main_call3_v5 ((subf) : (⟨S100000x64, .f32⟩ : BufTy).Contents (Elt F) → (⟨S100000x64, .f32⟩ : BufTy).Contents (Elt F) → (⟨S100000x64, .f32⟩ : BufTy).Contents (Elt F)),
    StableHlo.binary main_call3_v5 main_call3_v5 main_call3_v6 ((mulf) : (⟨S100000x64, .f32⟩ : BufTy).Contents (Elt F) → (⟨S100000x64, .f32⟩ : BufTy).Contents (Elt F) → (⟨S100000x64, .f32⟩ : BufTy).Contents (Elt F)),
    StableHlo.unary main_c_11 main_call3_v7 ((sitofp .f32) : (⟨S_, .i32⟩ : BufTy).Contents (Elt F) → (⟨S_, .f32⟩ : BufTy).Contents (Elt F)),
    StableHlo.nullary main_call3_cst_1 (constant S_ .f32 0x42800000#32),
    StableHlo.binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call3_v9 main_call3_v10 ((broadcastInDim S100000x1 ![0] bcast_S100000_S100000x1_0) : (⟨S100000, .f32⟩ : BufTy).Contents (Elt F) → (⟨S100000x1, .f32⟩ : BufTy).Contents (Elt F)),
    StableHlo.unary main_call3_v8 main_call3_v11 ((broadcastInDim S100000x1 ![] bcast_S_S100000x1) : (⟨S_, .f32⟩ : BufTy).Contents (Elt F) → (⟨S100000x1, .f32⟩ : BufTy).Contents (Elt F)),
    StableHlo.binary main_call3_v10 main_call3_v11 main_call3_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call3_cst_3 (constant S_ .f32 0x00000000#32),
    StableHlo.binary main_call3_v8 main_call3_cst_3 main_call3_v13 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 ((id) : (⟨S_, .f32⟩ : BufTy).Contents (Elt F) → (⟨S_, .f32⟩ : BufTy).Contents (Elt F)),
    StableHlo.unary main_call3_call0_v0 main_call3_call0_v1 ((broadcastInDim S100000x1 ![] bcast_S_S100000x1) : (⟨S_, .f32⟩ : BufTy).Contents (Elt F) → (⟨S100000x1, .f32⟩ : BufTy).Contents (Elt F)),
    StableHlo.ternary main_call3_v13 main_call3_v12 main_call3_call0_v1 main_v87 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v86 main_v88 (broadcastInDim S100000x64 ![0, 1] bcast_S100000x1_S100000x64_0_1 : (⟨S100000x1, .f32⟩ : BufTy).Contents (Elt F) → (⟨S100000x64, .f32⟩ : BufTy).Contents (Elt F)),
    StableHlo.binary main_v78 main_v88 main_v89 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v90 (broadcastInDim S100000x1 ![] bcast_S_S100000x1 : (⟨S_, .f32⟩ : BufTy).Contents (Elt F) → (⟨S100000x1, .f32⟩ : BufTy).Contents (Elt F)),
    StableHlo.binary main_v87 main_v90 main_v91 (addf : (⟨S100000x1, .f32⟩ : BufTy).Contents (Elt F) → (⟨S100000x1, .f32⟩ : BufTy).Contents (Elt F) → (⟨S100000x1, .f32⟩ : BufTy).Contents (Elt F)),
    StableHlo.unary main_v91 main_v92 (Host.rsqrt : (⟨S100000x1, .f32⟩ : BufTy).Contents (Elt F) → (⟨S100000x1, .f32⟩ : BufTy).Contents (Elt F)),
    StableHlo.unary main_v92 main_v93 (broadcastInDim S100000x64 ![0, 1] bcast_S100000x1_S100000x64_0_1 : (⟨S100000x1, .f32⟩ : BufTy).Contents (Elt F) → (⟨S100000x64, .f32⟩ : BufTy).Contents (Elt F)),
    StableHlo.binary main_v89 main_v93 main_v94 (mulf : (⟨S100000x64, .f32⟩ : BufTy).Contents (Elt F) → (⟨S100000x64, .f32⟩ : BufTy).Contents (Elt F) → (⟨S100000x64, .f32⟩ : BufTy).Contents (Elt F)),
    StableHlo.unary main_v80 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v96 main_v97 (mulf : (⟨S100000x64, .f32⟩ : BufTy).Contents (Elt F) → (⟨S100000x64, .f32⟩ : BufTy).Contents (Elt F) → (⟨S100000x64, .f32⟩ : BufTy).Contents (Elt F)),
    StableHlo.unary main_v82 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v99 main_v100 (addf : (⟨S100000x64, .f32⟩ : BufTy).Contents (Elt F) → (⟨S100000x64, .f32⟩ : BufTy).Contents (Elt F) → (⟨S100000x64, .f32⟩ : BufTy).Contents (Elt F)),
    StableHlo.unary main_arg4 main_v101 (broadcastInDim S1200000x1 ![0] bcast_S1200000_S1200000x1_0 : (⟨S1200000, .f32⟩ : BufTy).Contents (Elt F) → (⟨S1200000x1, .f32⟩ : BufTy).Contents (Elt F)),
    StableHlo.nullary main_c_13 (constantI S_ 32 0#32),
    StableHlo.unary main_c_13 main_v102 (broadcastInDim S1200000 ![] bcast_S_S1200000 : (⟨S_, .i32⟩ : BufTy).Contents (Elt F) → (⟨S1200000, .i32⟩ : BufTy).Contents (Elt F)),
    StableHlo.binary main_arg2 main_v102 main_v103 (cmpi .slt : (⟨S1200000, .i32⟩ : BufTy).Contents (Elt F) → (⟨S1200000, .i32⟩ : BufTy).Contents (Elt F) → (⟨S1200000, .i1⟩ : BufTy).Contents (Elt F)) ]

set_option maxRecDepth 4096 in
/-- The window is that straight line: the outlined functions unfolded at their calls, both sides are one chain of
    steps once sequencing is reassociated. -/
theorem part1_eq (c : Dev nD) : main_part1 (F := F) c = seq ops1 := by
  simp only [main_part1, fn_where.body, fn_var.body, fn_where_0.body, fn_where_1.body, fn_where_2.body, seq, bind_assoc, pure_bind]
  rfl

/-- Every operation of the window touches TensorCore references only. -/
theorem ops1_sub : (ops1 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub ..⟩

/-- No operation of the window allocates: each determines its results. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefOps2.lean ====
import proofs.«179626_j43602507989842_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 2 of @main, in order; each call of an outlined function is the callee's
    operations over that call's own buffers. -/
abbrev ops2 : List (HloOp τ sig (Elt F)) :=
  [ StableHlo.nullary main_c_14 (constantI S_ 32 100000#32),
    StableHlo.unary main_c_14 main_v104 (broadcastInDim S1200000 ![] bcast_S_S1200000 : (⟨S_, .i32⟩ : BufTy).Contents (Elt F) → (⟨S1200000, .i32⟩ : BufTy).Contents (Elt F)),
    StableHlo.binary main_arg2 main_v104 main_v105 (addi : (⟨S1200000, .i32⟩ : BufTy).Contents (Elt F) → (⟨S1200000, .i32⟩ : BufTy).Contents (Elt F) → (⟨S1200000, .i32⟩ : BufTy).Contents (Elt F)),
    StableHlo.ternary main_v103 main_v105 main_arg2 main_v106 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v106 main_v107 (broadcastInDim S1200000x1 ![0] bcast_S1200000_S1200000x1_0 : (⟨S1200000, .i32⟩ : BufTy).Contents (Elt F) → (⟨S1200000x1, .i32⟩ : BufTy).Contents (Elt F)),
    StableHlo.binary main_v100 main_v107 main_v108 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v101 main_v109 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v109 main_v108 main_v110 (mulf : (⟨S1200000x64, .f32⟩ : BufTy).Contents (Elt F) → (⟨S1200000x64, .f32⟩ : BufTy).Contents (Elt F) → (⟨S1200000x64, .f32⟩ : BufTy).Contents (Elt F)),
    StableHlo.nullary main_cst_15 (constant S_ .f32 0x00000000#32),
    StableHlo.unary main_cst_15 main_v111 (broadcastInDim S100000x64 ![] bcast_S_S100000x64 : (⟨S_, .f32⟩ : BufTy).Contents (Elt F) → (⟨S100000x64, .f32⟩ : BufTy).Contents (Elt F)),
    StableHlo.unary main_arg3 main_v112 (broadcastInDim S1200000x1 ![0] bcast_S1200000_S1200000x1_0 : (⟨S1200000, .i32⟩ : BufTy).Contents (Elt F) → (⟨S1200000x1, .i32⟩ : BufTy).Contents (Elt F)),
    StableHlo.ternary main_v111 main_v112 main_v110 main_v113 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg15 main_v114 ((extractStridedSlice S1x64x32 ![1, 0, 0] · slices_S4x64x32_S1x64x32_1_0_0) : (⟨S4x64x32, .f32⟩ : BufTy).Contents (Elt F) → (⟨S1x64x32, .f32⟩ : BufTy).Contents (Elt F)),
    StableHlo.reshape main_v114 main_v115 rfl shapeCasts_S1x64x32_S64x32,
    StableHlo.binary main_v100 main_v115 main_v116 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v117 ((extractStridedSlice S1x32 ![1, 0] · slices_S4x32_S1x32_1_0) : (⟨S4x32, .f32⟩ : BufTy).Contents (Elt F) → (⟨S1x32, .f32⟩ : BufTy).Contents (Elt F)),
    StableHlo.reshape main_v117 main_v118 rfl shapeCasts_S1x32_S32,
    StableHlo.unary main_v118 main_v119 (broadcastInDim S1x32 ![1] bcast_S32_S1x32_1 : (⟨S32, .f32⟩ : BufTy).Contents (Elt F) → (⟨S1x32, .f32⟩ : BufTy).Contents (Elt F)),
    StableHlo.unary main_v119 main_v120 (broadcastInDim S100000x32 ![0, 1] bcast_S1x32_S100000x32_0_1 : (⟨S1x32, .f32⟩ : BufTy).Contents (Elt F) → (⟨S100000x32, .f32⟩ : BufTy).Contents (Elt F)),
    StableHlo.binary main_v116 main_v120 main_v121 (addf : (⟨S100000x32, .f32⟩ : BufTy).Contents (Elt F) → (⟨S100000x32, .f32⟩ : BufTy).Contents (Elt F) → (⟨S100000x32, .f32⟩ : BufTy).Contents (Elt F)),
    StableHlo.unary main_arg17 main_v122 ((extractStridedSlice S1x64x32 ![1, 0, 0] · slices_S4x64x32_S1x64x32_1_0_0) : (⟨S4x64x32, .f32⟩ : BufTy).Contents (Elt F) → (⟨S1x64x32, .f32⟩ : BufTy).Contents (Elt F)),
    StableHlo.reshape main_v122 main_v123 rfl shapeCasts_S1x64x32_S64x32,
    StableHlo.binary main_v113 main_v123 main_v124 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v125 ((extractStridedSlice S1x32 ![1, 0] · slices_S4x32_S1x32_1_0) : (⟨S4x32, .f32⟩ : BufTy).Contents (Elt F) → (⟨S1x32, .f32⟩ : BufTy).Contents (Elt F)),
    StableHlo.reshape main_v125 main_v126 rfl shapeCasts_S1x32_S32,
    StableHlo.unary main_v126 main_v127 (broadcastInDim S1x32 ![1] bcast_S32_S1x32_1 : (⟨S32, .f32⟩ : BufTy).Contents (Elt F) → (⟨S1x32, .f32⟩ : BufTy).Contents (Elt F)),
    StableHlo.unary main_v127 main_v128 (broadcastInDim S100000x32 ![0, 1] bcast_S1x32_S100000x32_0_1 : (⟨S1x32, .f32⟩ : BufTy).Contents (Elt F) → (⟨S100000x32, .f32⟩ : BufTy).Contents (Elt F)),
    StableHlo.binary main_v124 main_v128 main_v129 (addf : (⟨S100000x32, .f32⟩ : BufTy).Contents (Elt F) → (⟨S100000x32, .f32⟩ : BufTy).Contents (Elt F) → (⟨S100000x32, .f32⟩ : BufTy).Contents (Elt F)),
    StableHlo.binary main_v121 main_v129 main_v130 (addf : (⟨S100000x32, .f32⟩ : BufTy).Contents (Elt F) → (⟨S100000x32, .f32⟩ : BufTy).Contents (Elt F) → (⟨S100000x32, .f32⟩ : BufTy).Contents (Elt F)),
    StableHlo.nullary main_cst_16 (constant S_ .f32 0x00000000#32),
    StableHlo.unary main_cst_16 main_v131 (broadcastInDim S100000x32 ![] bcast_S_S100000x32 : (⟨S_, .f32⟩ : BufTy).Contents (Elt F) → (⟨S100000x32, .f32⟩ : BufTy).Contents (Elt F)),
    StableHlo.binary main_v130 main_v131 main_v132 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_17 (constant S_ .f32 0x3C23D70A#32),
    StableHlo.unary main_cst_17 main_v133 (broadcastInDim S100000x32 ![] bcast_S_S100000x32 : (⟨S_, .f32⟩ : BufTy).Contents (Elt F) → (⟨S100000x32, .f32⟩ : BufTy).Contents (Elt F)),
    StableHlo.binary main_v133 main_v130 main_v134 (mulf : (⟨S100000x32, .f32⟩ : BufTy).Contents (Elt F) → (⟨S100000x32, .f32⟩ : BufTy).Contents (Elt F) → (⟨S100000x32, .f32⟩ : BufTy).Contents (Elt F)),
    StableHlo.ternary main_v132 main_v130 main_v134 main_v135 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v136 ((extractStridedSlice S1x32x64 ![1, 0, 0] · slices_S4x32x64_S1x32x64_1_0_0) : (⟨S4x32x64, .f32⟩ : BufTy).Contents (Elt F) → (⟨S1x32x64, .f32⟩ : BufTy).Contents (Elt F)),
    StableHlo.reshape main_v136 main_v137 rfl shapeCasts_S1x32x64_S32x64,
    StableHlo.binary main_v135 main_v137 main_v138 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v139 ((extractStridedSlice S1x64 ![1, 0] · slices_S4x64_S1x64_1_0) : (⟨S4x64, .f32⟩ : BufTy).Contents (Elt F) → (⟨S1x64, .f32⟩ : BufTy).Contents (Elt F)),
    StableHlo.reshape main_v139 main_v140 rfl shapeCasts_S1x64_S64,
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v142 main_v143 (addf : (⟨S100000x64, .f32⟩ : BufTy).Contents (Elt F) → (⟨S100000x64, .f32⟩ : BufTy).Contents (Elt F) → (⟨S100000x64, .f32⟩ : BufTy).Contents (Elt F)),
    StableHlo.binary main_v143 main_v100 main_v144 (addf : (⟨S100000x64, .f32⟩ : BufTy).Contents (Elt F) → (⟨S100000x64, .f32⟩ : BufTy).Contents (Elt F) → (⟨S100000x64, .f32⟩ : BufTy).Contents (Elt F)),
    StableHlo.unary main_arg13 main_v145 ((extractStridedSlice S1x64 ![2, 0] · slices_S4x64_S1x64_2_0) : (⟨S4x64, .f32⟩ : BufTy).Contents (Elt F) → (⟨S1x64, .f32⟩ : BufTy).Contents (Elt F)),
    StableHlo.reshape main_v145 main_v146 rfl shapeCasts_S1x64_S64,
    StableHlo.unary main_arg14 main_v147 ((extractStridedSlice S1x64 ![2, 0] · slices_S4x64_S1x64_2_0) : (⟨S4x64, .f32⟩ : BufTy).Contents (Elt F) → (⟨S1x64, .f32⟩ : BufTy).Contents (Elt F)),
    StableHlo.reshape main_v147 main_v148 rfl shapeCasts_S1x64_S64,
    StableHlo.nullary main_cst_18 (constant S_ .f32 0x00000000#32),
    StableHlo.binary main_v144 main_cst_18 main_v149 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v149 main_v150 (broadcastInDim S100000x1 ![0] bcast_S100000_S100000x1_0 : (⟨S100000, .f32⟩ : BufTy).Contents (Elt F) → (⟨S100000x1, .f32⟩ : BufTy).Contents (Elt F)),
    StableHlo.nullary main_cst_19 (constant S_ .f32 0x42800000#32),
    StableHlo.unary main_cst_19 main_v151 (broadcastInDim S100000x1 ![] bcast_S_S100000x1 : (⟨S_, .f32⟩ : BufTy).Contents (Elt F) → (⟨S100000x1, .f32⟩ : BufTy).Contents (Elt F)),
    StableHlo.binary main_v150 main_v151 main_v152 (Host.divf : (⟨S100000x1, .f32⟩ : BufTy).Contents (Elt F) → (⟨S100000x1, .f32⟩ : BufTy).Contents (Elt F) → (⟨S100000x1, .f32⟩ : BufTy).Contents (Elt F)),
    StableHlo.nullary main_c_20 (constantI S_ 32 0#32),
    StableHlo.nullary main_call5_cst (constant S_ .f32 0x00000000#32),
    StableHlo.binary main_v144 main_call5_cst main_call5_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call5_v0 main_call5_v1 ((broadcastInDim S100000x1 ![0] bcast_S100000_S100000x1_0) : (⟨S100000, .f32⟩ : BufTy).Contents (Elt F) → (⟨S100000x1, .f32⟩ : BufTy).Contents (Elt F)),
    StableHlo.nullary main_call5_cst_0 (constant S_ .f32 0x42800000#32),
    StableHlo.unary main_call5_cst_0 main_call5_v2 ((broadcastInDim S100000x1 ![] bcast_S_S100000x1) : (⟨S_, .f32⟩ : BufTy).Contents (Elt F) → (⟨S100000x1, .f32⟩ : BufTy).Contents (Elt F)),
    StableHlo.binary main_call5_v1 main_call5_v2 main_call5_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call5_v3 main_call5_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v144 main_call5_v4 main_call5_v5 ((subf) : (⟨S100000x64, .f32⟩ : BufTy).Contents (Elt F) → (⟨S100000x64, .f32⟩ : BufTy).Contents (Elt F) → (⟨S100000x64, .f32⟩ : BufTy).Contents (Elt F)),
    StableHlo.binary main_call5_v5 main_call5_v5 main_call5_v6 ((mulf) : (⟨S100000x64, .f32⟩ : BufTy).Contents (Elt F) → (⟨S100000x64, .f32⟩ : BufTy).Contents (Elt F) → (⟨S100000x64, .f32⟩ : BufTy).Contents (Elt F)),
    StableHlo.unary main_c_20 main_call5_v7 ((sitofp .f32) : (⟨S_, .i32⟩ : BufTy).Contents (Elt F) → (⟨S_, .f32⟩ : BufTy).Contents (Elt F)),
    StableHlo.nullary main_call5_cst_1 (constant S_ .f32 0x42800000#32),
    StableHlo.binary main_call5_cst_1 main_call5_v7 main_call5_v8 ((subf) : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call5_v9 main_call5_v10 ((broadcastInDim S100000x1 ![0] bcast_S100000_S100000x1_0) : (⟨S100000, .f32⟩ : BufTy).Contents (Elt F) → (⟨S100000x1, .f32⟩ : BufTy).Contents (Elt F)),
    StableHlo.unary main_call5_v8 main_call5_v11 ((broadcastInDim S100000x1 ![] bcast_S_S100000x1) : (⟨S_, .f32⟩ : BufTy).Contents (Elt F) → (⟨S100000x1, .f32⟩ : BufTy).Contents (Elt F)),
    StableHlo.binary main_call5_v10 main_call5_v11 main_call5_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call5_cst_3 (constant S_ .f32 0x00000000#32),
    StableHlo.binary main_call5_v8 main_call5_cst_3 main_call5_v13 ((cmpf .ogt) : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 ((id) : (⟨S_, .f32⟩ : BufTy).Contents (Elt F) → (⟨S_, .f32⟩ : BufTy).Contents (Elt F)),
    StableHlo.unary main_call5_call0_v0 main_call5_call0_v1 ((broadcastInDim S100000x1 ![] bcast_S_S100000x1) : (⟨S_, .f32⟩ : BufTy).Contents (Elt F) → (⟨S100000x1, .f32⟩ : BufTy).Contents (Elt F)),
    StableHlo.ternary main_call5_v13 main_call5_v12 main_call5_call0_v1 main_v153 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v152 main_v154 (broadcastInDim S100000x64 ![0, 1] bcast_S100000x1_S100000x64_0_1 : (⟨S100000x1, .f32⟩ : BufTy).Contents (Elt F) → (⟨S100000x64, .f32⟩ : BufTy).Contents (Elt F)),
    StableHlo.binary main_v144 main_v154 main_v155 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32) ]

set_option maxRecDepth 4096 in
/-- The window is that straight line: the outlined functions unfolded at their calls, both sides are one chain of
    steps once sequencing is reassociated. -/
theorem part2_eq (c : Dev nD) : main_part2 (F := F) c = seq ops2 := by
  simp only [main_part2, fn_where.body, fn_var.body, fn_where_0.body, fn_where_1.body, fn_where_2.body, seq, bind_assoc, pure_bind]
  rfl

/-- Every operation of the window touches TensorCore references only. -/
theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub ..⟩

/-- No operation of the window allocates: each determines its results. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefOps3.lean ====
import proofs.«179626_j43602507989842_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 3 of @main, in order; each call of an outlined function is the callee's
    operations over that call's own buffers. -/
abbrev ops3 : List (HloOp τ sig (Elt F)) :=
  [ StableHlo.unary main_cst_21 main_v156 (broadcastInDim S100000x1 ![] bcast_S_S100000x1 : (⟨S_, .f32⟩ : BufTy).Contents (Elt F) → (⟨S100000x1, .f32⟩ : BufTy).Contents (Elt F)),
    StableHlo.binary main_v153 main_v156 main_v157 (addf : (⟨S100000x1, .f32⟩ : BufTy).Contents (Elt F) → (⟨S100000x1, .f32⟩ : BufTy).Contents (Elt F) → (⟨S100000x1, .f32⟩ : BufTy).Contents (Elt F)),
    StableHlo.unary main_v157 main_v158 (Host.rsqrt : (⟨S100000x1, .f32⟩ : BufTy).Contents (Elt F) → (⟨S100000x1, .f32⟩ : BufTy).Contents (Elt F)),
    StableHlo.unary main_v158 main_v159 (broadcastInDim S100000x64 ![0, 1] bcast_S100000x1_S100000x64_0_1 : (⟨S100000x1, .f32⟩ : BufTy).Contents (Elt F) → (⟨S100000x64, .f32⟩ : BufTy).Contents (Elt F)),
    StableHlo.binary main_v155 main_v159 main_v160 (mulf : (⟨S100000x64, .f32⟩ : BufTy).Contents (Elt F) → (⟨S100000x64, .f32⟩ : BufTy).Contents (Elt F) → (⟨S100000x64, .f32⟩ : BufTy).Contents (Elt F)),
    StableHlo.unary main_v146 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S100000x64 ![0, 1] bcast_S1x64_S100000x64_0_1 : (⟨S1x64, .f32⟩ : BufTy).Contents (Elt F) → (⟨S100000x64, .f32⟩ : BufTy).Contents (Elt F)),
    StableHlo.binary main_v160 main_v162 main_v163 (mulf : (⟨S100000x64, .f32⟩ : BufTy).Contents (Elt F) → (⟨S100000x64, .f32⟩ : BufTy).Contents (Elt F) → (⟨S100000x64, .f32⟩ : BufTy).Contents (Elt F)),
    StableHlo.unary main_v148 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)),
    StableHlo.unary main_arg4 main_v167 (broadcastInDim S1200000x1 ![0] bcast_S1200000_S1200000x1_0 : (⟨S1200000, .f32⟩ : BufTy).Contents (Elt F) → (⟨S1200000x1, .f32⟩ : BufTy).Contents (Elt F)),
    StableHlo.nullary main_c_22 (constantI S_ 32 0#32),
    StableHlo.unary main_c_22 main_v168 (broadcastInDim S1200000 ![] bcast_S_S1200000 : (⟨S_, .i32⟩ : BufTy).Contents (Elt F) → (⟨S1200000, .i32⟩ : BufTy).Contents (Elt F)),
    StableHlo.binary main_arg2 main_v168 main_v169 (cmpi .slt : (⟨S1200000, .i32⟩ : BufTy).Contents (Elt F) → (⟨S1200000, .i32⟩ : BufTy).Contents (Elt F) → (⟨S1200000, .i1⟩ : BufTy).Contents (Elt F)),
    StableHlo.nullary main_c_23 (constantI S_ 32 100000#32),
    StableHlo.unary main_c_23 main_v170 (broadcastInDim S1200000 ![] bcast_S_S1200000 : (⟨S_, .i32⟩ : BufTy).Contents (Elt F) → (⟨S1200000, .i32⟩ : BufTy).Contents (Elt F)),
    StableHlo.binary main_arg2 main_v170 main_v171 (addi : (⟨S1200000, .i32⟩ : BufTy).Contents (Elt F) → (⟨S1200000, .i32⟩ : BufTy).Contents (Elt F) → (⟨S1200000, .i32⟩ : BufTy).Contents (Elt F)),
    StableHlo.ternary main_v169 main_v171 main_arg2 main_v172 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v172 main_v173 (broadcastInDim S1200000x1 ![0] bcast_S1200000_S1200000x1_0 : (⟨S1200000, .i32⟩ : BufTy).Contents (Elt F) → (⟨S1200000x1, .i32⟩ : BufTy).Contents (Elt F)),
    StableHlo.binary main_v166 main_v173 main_v174 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v167 main_v175 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v175 main_v174 main_v176 (mulf : (⟨S1200000x64, .f32⟩ : BufTy).Contents (Elt F) → (⟨S1200000x64, .f32⟩ : BufTy).Contents (Elt F) → (⟨S1200000x64, .f32⟩ : BufTy).Contents (Elt F)),
    StableHlo.nullary main_cst_24 (constant S_ .f32 0x00000000#32),
    StableHlo.unary main_cst_24 main_v177 (broadcastInDim S100000x64 ![] bcast_S_S100000x64 : (⟨S_, .f32⟩ : BufTy).Contents (Elt F) → (⟨S100000x64, .f32⟩ : BufTy).Contents (Elt F)),
    StableHlo.unary main_arg3 main_v178 (broadcastInDim S1200000x1 ![0] bcast_S1200000_S1200000x1_0 : (⟨S1200000, .i32⟩ : BufTy).Contents (Elt F) → (⟨S1200000x1, .i32⟩ : BufTy).Contents (Elt F)),
    StableHlo.ternary main_v177 main_v178 main_v176 main_v179 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg15 main_v180 ((extractStridedSlice S1x64x32 ![2, 0, 0] · slices_S4x64x32_S1x64x32_2_0_0) : (⟨S4x64x32, .f32⟩ : BufTy).Contents (Elt F) → (⟨S1x64x32, .f32⟩ : BufTy).Contents (Elt F)),
    StableHlo.reshape main_v180 main_v181 rfl shapeCasts_S1x64x32_S64x32,
    StableHlo.binary main_v166 main_v181 main_v182 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v183 ((extractStridedSlice S1x32 ![2, 0] · slices_S4x32_S1x32_2_0) : (⟨S4x32, .f32⟩ : BufTy).Contents (Elt F) → (⟨S1x32, .f32⟩ : BufTy).Contents (Elt F)),
    StableHlo.reshape main_v183 main_v184 rfl shapeCasts_S1x32_S32,
    StableHlo.unary main_v184 main_v185 (broadcastInDim S1x32 ![1] bcast_S32_S1x32_1 : (⟨S32, .f32⟩ : BufTy).Contents (Elt F) → (⟨S1x32, .f32⟩ : BufTy).Contents (Elt F)),
    StableHlo.unary main_v185 main_v186 (broadcastInDim S100000x32 ![0, 1] bcast_S1x32_S100000x32_0_1 : (⟨S1x32, .f32⟩ : BufTy).Contents (Elt F) → (⟨S100000x32, .f32⟩ : BufTy).Contents (Elt F)),
    StableHlo.binary main_v182 main_v186 main_v187 (addf : (⟨S100000x32, .f32⟩ : BufTy).Contents (Elt F) → (⟨S100000x32, .f32⟩ : BufTy).Contents (Elt F) → (⟨S100000x32, .f32⟩ : BufTy).Contents (Elt F)),
    StableHlo.unary main_arg17 main_v188 ((extractStridedSlice S1x64x32 ![2, 0, 0] · slices_S4x64x32_S1x64x32_2_0_0) : (⟨S4x64x32, .f32⟩ : BufTy).Contents (Elt F) → (⟨S1x64x32, .f32⟩ : BufTy).Contents (Elt F)),
    StableHlo.reshape main_v188 main_v189 rfl shapeCasts_S1x64x32_S64x32,
    StableHlo.binary main_v179 main_v189 main_v190 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v191 ((extractStridedSlice S1x32 ![2, 0] · slices_S4x32_S1x32_2_0) : (⟨S4x32, .f32⟩ : BufTy).Contents (Elt F) → (⟨S1x32, .f32⟩ : BufTy).Contents (Elt F)),
    StableHlo.reshape main_v191 main_v192 rfl shapeCasts_S1x32_S32,
    StableHlo.unary main_v192 main_v193 (broadcastInDim S1x32 ![1] bcast_S32_S1x32_1 : (⟨S32, .f32⟩ : BufTy).Contents (Elt F) → (⟨S1x32, .f32⟩ : BufTy).Contents (Elt F)),
    StableHlo.unary main_v193 main_v194 (broadcastInDim S100000x32 ![0, 1] bcast_S1x32_S100000x32_0_1 : (⟨S1x32, .f32⟩ : BufTy).Contents (Elt F) → (⟨S100000x32, .f32⟩ : BufTy).Contents (Elt F)),
    StableHlo.binary main_v190 main_v194 main_v195 (addf : (⟨S100000x32, .f32⟩ : BufTy).Contents (Elt F) → (⟨S100000x32, .f32⟩ : BufTy).Contents (Elt F) → (⟨S100000x32, .f32⟩ : BufTy).Contents (Elt F)),
    StableHlo.binary main_v187 main_v195 main_v196 (addf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x00000000#32),
    StableHlo.unary main_cst_25 main_v197 (broadcastInDim S100000x32 ![] bcast_S_S100000x32 : (⟨S_, .f32⟩ : BufTy).Contents (Elt F) → (⟨S100000x32, .f32⟩ : BufTy).Contents (Elt F)),
    StableHlo.binary main_v196 main_v197 main_v198 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_26 (constant S_ .f32 0x3C23D70A#32),
    StableHlo.unary main_cst_26 main_v199 (broadcastInDim S100000x32 ![] bcast_S_S100000x32 : (⟨S_, .f32⟩ : BufTy).Contents (Elt F) → (⟨S100000x32, .f32⟩ : BufTy).Contents (Elt F)),
    StableHlo.binary main_v199 main_v196 main_v200 (mulf : (⟨S100000x32, .f32⟩ : BufTy).Contents (Elt F) → (⟨S100000x32, .f32⟩ : BufTy).Contents (Elt F) → (⟨S100000x32, .f32⟩ : BufTy).Contents (Elt F)),
    StableHlo.ternary main_v198 main_v196 main_v200 main_v201 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v202 ((extractStridedSlice S1x32x64 ![2, 0, 0] · slices_S4x32x64_S1x32x64_2_0_0) : (⟨S4x32x64, .f32⟩ : BufTy).Contents (Elt F) → (⟨S1x32x64, .f32⟩ : BufTy).Contents (Elt F)),
    StableHlo.reshape main_v202 main_v203 rfl shapeCasts_S1x32x64_S32x64,
    StableHlo.binary main_v201 main_v203 main_v204 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v205 ((extractStridedSlice S1x64 ![2, 0] · slices_S4x64_S1x64_2_0) : (⟨S4x64, .f32⟩ : BufTy).Contents (Elt F) → (⟨S1x64, .f32⟩ : BufTy).Contents (Elt F)),
    StableHlo.reshape main_v205 main_v206 rfl shapeCasts_S1x64_S64,
    StableHlo.unary main_v206 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S100000x64 ![0, 1] bcast_S1x64_S100000x64_0_1 : (⟨S1x64, .f32⟩ : BufTy).Contents (Elt F) → (⟨S100000x64, .f32⟩ : BufTy).Contents (Elt F)),
    StableHlo.binary main_v204 main_v208 main_v209 (addf : (⟨S100000x64, .f32⟩ : BufTy).Contents (Elt F) → (⟨S100000x64, .f32⟩ : BufTy).Contents (Elt F) → (⟨S100000x64, .f32⟩ : BufTy).Contents (Elt F)),
    StableHlo.binary main_v209 main_v166 main_v210 (addf : (⟨S100000x64, .f32⟩ : BufTy).Contents (Elt F) → (⟨S100000x64, .f32⟩ : BufTy).Contents (Elt F) → (⟨S100000x64, .f32⟩ : BufTy).Contents (Elt F)) ]

set_option maxRecDepth 4096 in
/-- The window is that straight line: the outlined functions unfolded at their calls, both sides are one chain of
    steps once sequencing is reassociated. -/
theorem part3_eq (c : Dev nD) : main_part3 (F := F) c = seq ops3 := by
  simp only [main_part3, fn_where.body, fn_var.body, fn_where_0.body, fn_where_1.body, fn_where_2.body, seq, bind_assoc, pure_bind]
  rfl

/-- Every operation of the window touches TensorCore references only. -/
theorem ops3_sub : (ops3 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub ..⟩

/-- No operation of the window allocates: each determines its results. -/
theorem ops3_fresh : ∀ op ∈ (ops3 : List (HloOp τ sig (Elt F))), op.fresh = ∅ := by
  intro _ h; (repeat (cases h with | head => rfl | tail _ h => ?_)); exact nomatch h

end Cert.ReferenceIdeal.RefRun

end
-- ==== Proof.RefOps4.lean ====
import proofs.«179626_j43602507989842_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 4 of @main, in order; each call of an outlined function is the callee's
    operations over that call's own buffers. -/
abbrev ops4 : List (HloOp τ sig (Elt F)) :=
  [ StableHlo.unary main_arg13 main_v211 ((extractStridedSlice S1x64 ![3, 0] · slices_S4x64_S1x64_3_0) : (⟨S4x64, .f32⟩ : BufTy).Contents (Elt F) → (⟨S1x64, .f32⟩ : BufTy).Contents (Elt F)),
    StableHlo.reshape main_v211 main_v212 rfl shapeCasts_S1x64_S64,
    StableHlo.unary main_arg14 main_v213 ((extractStridedSlice S1x64 ![3, 0] · slices_S4x64_S1x64_3_0) : (⟨S4x64, .f32⟩ : BufTy).Contents (Elt F) → (⟨S1x64, .f32⟩ : BufTy).Contents (Elt F)),
    StableHlo.reshape main_v213 main_v214 rfl shapeCasts_S1x64_S64,
    StableHlo.nullary main_cst_27 (constant S_ .f32 0x00000000#32),
    StableHlo.binary main_v210 main_cst_27 main_v215 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v215 main_v216 (broadcastInDim S100000x1 ![0] bcast_S100000_S100000x1_0 : (⟨S100000, .f32⟩ : BufTy).Contents (Elt F) → (⟨S100000x1, .f32⟩ : BufTy).Contents (Elt F)),
    StableHlo.nullary main_cst_28 (constant S_ .f32 0x42800000#32),
    StableHlo.unary main_cst_28 main_v217 (broadcastInDim S100000x1 ![] bcast_S_S100000x1 : (⟨S_, .f32⟩ : BufTy).Contents (Elt F) → (⟨S100000x1, .f32⟩ : BufTy).Contents (Elt F)),
    StableHlo.binary main_v216 main_v217 main_v218 (Host.divf : (⟨S100000x1, .f32⟩ : BufTy).Contents (Elt F) → (⟨S100000x1, .f32⟩ : BufTy).Contents (Elt F) → (⟨S100000x1, .f32⟩ : BufTy).Contents (Elt F)),
    StableHlo.nullary main_c_29 (constantI S_ 32 0#32),
    StableHlo.nullary main_call7_cst (constant S_ .f32 0x00000000#32),
    StableHlo.binary main_v210 main_call7_cst main_call7_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call7_v0 main_call7_v1 ((broadcastInDim S100000x1 ![0] bcast_S100000_S100000x1_0) : (⟨S100000, .f32⟩ : BufTy).Contents (Elt F) → (⟨S100000x1, .f32⟩ : BufTy).Contents (Elt F)),
    StableHlo.nullary main_call7_cst_0 (constant S_ .f32 0x42800000#32),
    StableHlo.unary main_call7_cst_0 main_call7_v2 ((broadcastInDim S100000x1 ![] bcast_S_S100000x1) : (⟨S_, .f32⟩ : BufTy).Contents (Elt F) → (⟨S100000x1, .f32⟩ : BufTy).Contents (Elt F)),
    StableHlo.binary main_call7_v1 main_call7_v2 main_call7_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call7_v3 main_call7_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v210 main_call7_v4 main_call7_v5 ((subf) : (⟨S100000x64, .f32⟩ : BufTy).Contents (Elt F) → (⟨S100000x64, .f32⟩ : BufTy).Contents (Elt F) → (⟨S100000x64, .f32⟩ : BufTy).Contents (Elt F)),
    StableHlo.binary main_call7_v5 main_call7_v5 main_call7_v6 ((mulf) : (⟨S100000x64, .f32⟩ : BufTy).Contents (Elt F) → (⟨S100000x64, .f32⟩ : BufTy).Contents (Elt F) → (⟨S100000x64, .f32⟩ : BufTy).Contents (Elt F)),
    StableHlo.unary main_c_29 main_call7_v7 ((sitofp .f32) : (⟨S_, .i32⟩ : BufTy).Contents (Elt F) → (⟨S_, .f32⟩ : BufTy).Contents (Elt F)),
    StableHlo.nullary main_call7_cst_1 (constant S_ .f32 0x42800000#32),
    StableHlo.binary main_call7_cst_1 main_call7_v7 main_call7_v8 ((subf) : (⟨S_, .f32⟩ : BufTy).Contents (Elt F) → (⟨S_, .f32⟩ : BufTy).Contents (Elt F) → (⟨S_, .f32⟩ : BufTy).Contents (Elt F)),
    StableHlo.nullary main_call7_cst_2 (constant S_ .f32 0x00000000#32),
    StableHlo.binary main_call7_v6 main_call7_cst_2 main_call7_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call7_v9 main_call7_v10 ((broadcastInDim S100000x1 ![0] bcast_S100000_S100000x1_0) : (⟨S100000, .f32⟩ : BufTy).Contents (Elt F) → (⟨S100000x1, .f32⟩ : BufTy).Contents (Elt F)),
    StableHlo.unary main_call7_v8 main_call7_v11 ((broadcastInDim S100000x1 ![] bcast_S_S100000x1) : (⟨S_, .f32⟩ : BufTy).Contents (Elt F) → (⟨S100000x1, .f32⟩ : BufTy).Contents (Elt F)),
    StableHlo.binary main_call7_v10 main_call7_v11 main_call7_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call7_cst_3 (constant S_ .f32 0x00000000#32),
    StableHlo.binary main_call7_v8 main_call7_cst_3 main_call7_v13 ((cmpf .ogt) : (⟨S_, .f32⟩ : BufTy).Contents (Elt F) → (⟨S_, .f32⟩ : BufTy).Contents (Elt F) → (⟨S_, .i1⟩ : BufTy).Contents (Elt F)),
    StableHlo.nullary main_call7_cst_4 (constant S_ .f32 0x7FC00000#32),
    StableHlo.unary main_call7_cst_4 main_call7_call0_v0 ((id) : (⟨S_, .f32⟩ : BufTy).Contents (Elt F) → (⟨S_, .f32⟩ : BufTy).Contents (Elt F)),
    StableHlo.unary main_call7_call0_v0 main_call7_call0_v1 ((broadcastInDim S100000x1 ![] bcast_S_S100000x1) : (⟨S_, .f32⟩ : BufTy).Contents (Elt F) → (⟨S100000x1, .f32⟩ : BufTy).Contents (Elt F)),
    StableHlo.ternary main_call7_v13 main_call7_v12 main_call7_call0_v1 main_v219 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v218 main_v220 (broadcastInDim S100000x64 ![0, 1] bcast_S100000x1_S100000x64_0_1 : (⟨S100000x1, .f32⟩ : BufTy).Contents (Elt F) → (⟨S100000x64, .f32⟩ : BufTy).Contents (Elt F)),
    StableHlo.binary main_v210 main_v220 main_v221 (subf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3727C5AC#32),
    StableHlo.unary main_cst_30 main_v222 (broadcastInDim S100000x1 ![] bcast_S_S100000x1 : (⟨S_, .f32⟩ : BufTy).Contents (Elt F) → (⟨S100000x1, .f32⟩ : BufTy).Contents (Elt F)),
    StableHlo.binary main_v219 main_v222 main_v223 (addf : (⟨S100000x1, .f32⟩ : BufTy).Contents (Elt F) → (⟨S100000x1, .f32⟩ : BufTy).Contents (Elt F) → (⟨S100000x1, .f32⟩ : BufTy).Contents (Elt F)),
    StableHlo.unary main_v223 main_v224 (Host.rsqrt : (⟨S100000x1, .f32⟩ : BufTy).Contents (Elt F) → (⟨S100000x1, .f32⟩ : BufTy).Contents (Elt F)),
    StableHlo.unary main_v224 main_v225 (broadcastInDim S100000x64 ![0, 1] bcast_S100000x1_S100000x64_0_1 : (⟨S100000x1, .f32⟩ : BufTy).Contents (Elt F) → (⟨S100000x64, .f32⟩ : BufTy).Contents (Elt F)),
    StableHlo.binary main_v221 main_v225 main_v226 (mulf : (⟨S100000x64, .f32⟩ : BufTy).Contents (Elt F) → (⟨S100000x64, .f32⟩ : BufTy).Contents (Elt F) → (⟨S100000x64, .f32⟩ : BufTy).Contents (Elt F)),
    StableHlo.unary main_v212 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S100000x64 ![0, 1] bcast_S1x64_S100000x64_0_1 : (⟨S1x64, .f32⟩ : BufTy).Contents (Elt F) → (⟨S100000x64, .f32⟩ : BufTy).Contents (Elt F)),
    StableHlo.binary main_v226 main_v228 main_v229 (mulf : (⟨S100000x64, .f32⟩ : BufTy).Contents (Elt F) → (⟨S100000x64, .f32⟩ : BufTy).Contents (Elt F) → (⟨S100000x64, .f32⟩ : BufTy).Contents (Elt F)),
    StableHlo.unary main_v214 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v231 main_v232 (addf : (⟨S100000x64, .f32⟩ : BufTy).Contents (Elt F) → (⟨S100000x64, .f32⟩ : BufTy).Contents (Elt F) → (⟨S100000x64, .f32⟩ : BufTy).Contents (Elt F)),
    StableHlo.unary main_arg4 main_v233 (broadcastInDim S1200000x1 ![0] bcast_S1200000_S1200000x1_0 : (⟨S1200000, .f32⟩ : BufTy).Contents (Elt F) → (⟨S1200000x1, .f32⟩ : BufTy).Contents (Elt F)),
    StableHlo.nullary main_c_31 (constantI S_ 32 0#32),
    StableHlo.unary main_c_31 main_v234 (broadcastInDim S1200000 ![] bcast_S_S1200000 : (⟨S_, .i32⟩ : BufTy).Contents (Elt F) → (⟨S1200000, .i32⟩ : BufTy).Contents (Elt F)),
    StableHlo.binary main_arg2 main_v234 main_v235 (cmpi .slt : (⟨S1200000, .i32⟩ : BufTy).Contents (Elt F) → (⟨S1200000, .i32⟩ : BufTy).Contents (Elt F) → (⟨S1200000, .i1⟩ : BufTy).Contents (Elt F)),
    StableHlo.nullary main_c_32 (constantI S_ 32 100000#32),
    StableHlo.unary main_c_32 main_v236 (broadcastInDim S1200000 ![] bcast_S_S1200000 : (⟨S_, .i32⟩ : BufTy).Contents (Elt F) → (⟨S1200000, .i32⟩ : BufTy).Contents (Elt F)),
    StableHlo.binary main_arg2 main_v236 main_v237 (addi : (⟨S1200000, .i32⟩ : BufTy).Contents (Elt F) → (⟨S1200000, .i32⟩ : BufTy).Contents (Elt F) → (⟨S1200000, .i32⟩ : BufTy).Contents (Elt F)),
    StableHlo.ternary main_v235 main_v237 main_arg2 main_v238 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v238 main_v239 (broadcastInDim S1200000x1 ![0] bcast_S1200000_S1200000x1_0 : (⟨S1200000, .i32⟩ : BufTy).Contents (Elt F) → (⟨S1200000x1, .i32⟩ : BufTy).Contents (Elt F)),
    StableHlo.binary main_v232 main_v239 main_v240 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v233 main_v241 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v241 main_v240 main_v242 (mulf : (⟨S1200000x64, .f32⟩ : BufTy).Contents (Elt F) → (⟨S1200000x64, .f32⟩ : BufTy).Contents (Elt F) → (⟨S1200000x64, .f32⟩ : BufTy).Contents (Elt F)),
    StableHlo.nullary main_cst_33 (constant S_ .f32 0x00000000#32),
    StableHlo.unary main_cst_33 main_v243 (broadcastInDim S100000x64 ![] bcast_S_S100000x64 : (⟨S_, .f32⟩ : BufTy).Contents (Elt F) → (⟨S100000x64, .f32⟩ : BufTy).Contents (Elt F)),
    StableHlo.unary main_arg3 main_v244 (broadcastInDim S1200000x1 ![0] bcast_S1200000_S1200000x1_0 : (⟨S1200000, .i32⟩ : BufTy).Contents (Elt F) → (⟨S1200000x1, .i32⟩ : BufTy).Contents (Elt F)),
    StableHlo.ternary main_v243 main_v244 main_v242 main_v245 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.unary main_arg15 main_v246 ((extractStridedSlice S1x64x32 ![3, 0, 0] · slices_S4x64x32_S1x64x32_3_0_0) : (⟨S4x64x32, .f32⟩ : BufTy).Contents (Elt F) → (⟨S1x64x32, .f32⟩ : BufTy).Contents (Elt F)),
    StableHlo.reshape main_v246 main_v247 rfl shapeCasts_S1x64x32_S64x32,
    StableHlo.binary main_v232 main_v247 main_v248 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v249 ((extractStridedSlice S1x32 ![3, 0] · slices_S4x32_S1x32_3_0) : (⟨S4x32, .f32⟩ : BufTy).Contents (Elt F) → (⟨S1x32, .f32⟩ : BufTy).Contents (Elt F)),
    StableHlo.reshape main_v249 main_v250 rfl shapeCasts_S1x32_S32,
    StableHlo.unary main_v250 main_v251 (broadcastInDim S1x32 ![1] bcast_S32_S1x32_1 : (⟨S32, .f32⟩ : BufTy).Contents (Elt F) → (⟨S1x32, .f32⟩ : BufTy).Contents (Elt F)),
    StableHlo.unary main_v251 main_v252 (broadcastInDim S100000x32 ![0, 1] bcast_S1x32_S100000x32_0_1 : (⟨S1x32, .f32⟩ : BufTy).Contents (Elt F) → (⟨S100000x32, .f32⟩ : BufTy).Contents (Elt F)),
    StableHlo.binary main_v248 main_v252 main_v253 (addf : (⟨S100000x32, .f32⟩ : BufTy).Contents (Elt F) → (⟨S100000x32, .f32⟩ : BufTy).Contents (Elt F) → (⟨S100000x32, .f32⟩ : BufTy).Contents (Elt F)),
    StableHlo.unary main_arg17 main_v254 ((extractStridedSlice S1x64x32 ![3, 0, 0] · slices_S4x64x32_S1x64x32_3_0_0) : (⟨S4x64x32, .f32⟩ : BufTy).Contents (Elt F) → (⟨S1x64x32, .f32⟩ : BufTy).Contents (Elt F)),
    StableHlo.reshape main_v254 main_v255 rfl shapeCasts_S1x64x32_S64x32,
    StableHlo.binary main_v245 main_v255 main_v256 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v257 ((extractStridedSlice S1x32 ![3, 0] · slices_S4x32_S1x32_3_0) : (⟨S4x32, .f32⟩ : BufTy).Contents (Elt F) → (⟨S1x32, .f32⟩ : BufTy).Contents (Elt F)),
    StableHlo.reshape main_v257 main_v258 rfl shapeCasts_S1x32_S32,
    StableHlo.unary main_v258 main_v259 (broadcastInDim S1x32 ![1] bcast_S32_S1x32_1 : (⟨S32, .f32⟩ : BufTy).Contents (Elt F) → (⟨S1x32, .f32⟩ : BufTy).Contents (Elt F)),
    StableHlo.unary main_v259 main_v260 (broadcastInDim S100000x32 ![0, 1] bcast_S1x32_S100000x32_0_1 : (⟨S1x32, .f32⟩ : BufTy).Contents (Elt F) → (⟨S100000x32, .f32⟩ : BufTy).Contents (Elt F)),
    StableHlo.binary main_v256 main_v260 main_v261 (addf : (⟨S100000x32, .f32⟩ : BufTy).Contents (Elt F) → (⟨S100000x32, .f32⟩ : BufTy).Contents (Elt F) → (⟨S100000x32, .f32⟩ : BufTy).Contents (Elt F)),
    StableHlo.binary main_v253 main_v261 main_v262 (addf : (⟨S100000x32, .f32⟩ : BufTy).Contents (Elt F) → (⟨S100000x32, .f32⟩ : BufTy).Contents (Elt F) → (⟨S100000x32, .f32⟩ : BufTy).Contents (Elt F)),
    StableHlo.nullary main_cst_34 (constant S_ .f32 0x00000000#32) ]

set_option maxRecDepth 4096 in
/-- The window is that straight line: the outlined functions unfolded at their calls, both sides are one chain of
    steps once sequencing is reassociated. -/
theorem part4_eq (c : Dev nD) : main_part4 (F := F) c = seq ops4 := by
  simp only [main_part4, fn_where.body, fn_var.body, fn_where_0.body, fn_where_1.body, fn_where_2.body, seq, bind_assoc, pure_bind]
  rfl

/-- Every operation of the window touches TensorCore references only. -/
theorem ops4_sub : (ops4 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub ..⟩

/-- No operation of the window allocates: each determines its results. -/
theorem ops4_fresh : ∀ op ∈ (ops4 : List (HloOp τ sig (Elt F))), op.fresh = ∅ := by
  intro _ h; (repeat (cases h with | head => rfl | tail _ h => ?_)); exact nomatch h

end Cert.ReferenceIdeal.RefRun

end
-- ==== Proof.RefOps5.lean ====
import proofs.«179626_j43602507989842_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed window 5 of @main, in order; each call of an outlined function is the callee's
    operations over that call's own buffers. -/
abbrev ops5 : List (HloOp τ sig (Elt F)) :=
  [ StableHlo.unary main_cst_34 main_v263 (broadcastInDim S100000x32 ![] bcast_S_S100000x32 : (⟨S_, .f32⟩ : BufTy).Contents (Elt F) → (⟨S100000x32, .f32⟩ : BufTy).Contents (Elt F)),
    StableHlo.binary main_v262 main_v263 main_v264 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_35 (constant S_ .f32 0x3C23D70A#32),
    StableHlo.unary main_cst_35 main_v265 (broadcastInDim S100000x32 ![] bcast_S_S100000x32 : (⟨S_, .f32⟩ : BufTy).Contents (Elt F) → (⟨S100000x32, .f32⟩ : BufTy).Contents (Elt F)),
    StableHlo.binary main_v265 main_v262 main_v266 (mulf : (⟨S100000x32, .f32⟩ : BufTy).Contents (Elt F) → (⟨S100000x32, .f32⟩ : BufTy).Contents (Elt F) → (⟨S100000x32, .f32⟩ : BufTy).Contents (Elt F)),
    StableHlo.ternary main_v264 main_v262 main_v266 main_v267 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v268 ((extractStridedSlice S1x32x64 ![3, 0, 0] · slices_S4x32x64_S1x32x64_3_0_0) : (⟨S4x32x64, .f32⟩ : BufTy).Contents (Elt F) → (⟨S1x32x64, .f32⟩ : BufTy).Contents (Elt F)),
    StableHlo.reshape main_v268 main_v269 rfl shapeCasts_S1x32x64_S32x64,
    StableHlo.binary main_v267 main_v269 main_v270 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v271 ((extractStridedSlice S1x64 ![3, 0] · slices_S4x64_S1x64_3_0) : (⟨S4x64, .f32⟩ : BufTy).Contents (Elt F) → (⟨S1x64, .f32⟩ : BufTy).Contents (Elt F)),
    StableHlo.reshape main_v271 main_v272 rfl shapeCasts_S1x64_S64,
    StableHlo.unary main_v272 main_v273 (broadcastInDim S1x64 ![1] bcast_S64_S1x64_1 : (⟨S64, .f32⟩ : BufTy).Contents (Elt F) → (⟨S1x64, .f32⟩ : BufTy).Contents (Elt F)),
    StableHlo.unary main_v273 main_v274 (broadcastInDim S100000x64 ![0, 1] bcast_S1x64_S100000x64_0_1 : (⟨S1x64, .f32⟩ : BufTy).Contents (Elt F) → (⟨S100000x64, .f32⟩ : BufTy).Contents (Elt F)),
    StableHlo.binary main_v270 main_v274 main_v275 (addf : (⟨S100000x64, .f32⟩ : BufTy).Contents (Elt F) → (⟨S100000x64, .f32⟩ : BufTy).Contents (Elt F) → (⟨S100000x64, .f32⟩ : BufTy).Contents (Elt F)),
    StableHlo.binary main_v275 main_v232 main_v276 (addf : (⟨S100000x64, .f32⟩ : BufTy).Contents (Elt F) → (⟨S100000x64, .f32⟩ : BufTy).Contents (Elt F) → (⟨S100000x64, .f32⟩ : BufTy).Contents (Elt F)),
    StableHlo.binary main_v276 main_arg9 main_v277 ((fun l r => Host.dotGeneral dot_S100000x64_S64x24_S100000x24_1_0_0_1_n_n none l r) : (⟨S100000x64, .f32⟩ : BufTy).Contents (Elt F) → (⟨S64x24, .f32⟩ : BufTy).Contents (Elt F) → (⟨S100000x24, .f32⟩ : BufTy).Contents (Elt F)),
    StableHlo.unary main_arg10 main_v278 (broadcastInDim S1x24 ![1] bcast_S24_S1x24_1 : (⟨S24, .f32⟩ : BufTy).Contents (Elt F) → (⟨S1x24, .f32⟩ : BufTy).Contents (Elt F)),
    StableHlo.unary main_v278 main_v279 (broadcastInDim S100000x24 ![0, 1] bcast_S1x24_S100000x24_0_1 : (⟨S1x24, .f32⟩ : BufTy).Contents (Elt F) → (⟨S100000x24, .f32⟩ : BufTy).Contents (Elt F)),
    StableHlo.binary main_v277 main_v279 main_v280 (addf : (⟨S100000x24, .f32⟩ : BufTy).Contents (Elt F) → (⟨S100000x24, .f32⟩ : BufTy).Contents (Elt F) → (⟨S100000x24, .f32⟩ : BufTy).Contents (Elt F)),
    StableHlo.nullary main_cst_36 (constant S_ .f32 0x00000000#32),
    StableHlo.unary main_cst_36 main_v281 (broadcastInDim S100000x24 ![] bcast_S_S100000x24 : (⟨S_, .f32⟩ : BufTy).Contents (Elt F) → (⟨S100000x24, .f32⟩ : BufTy).Contents (Elt F)),
    StableHlo.binary main_v280 main_v281 main_v282 (cmpf .oge : (⟨S100000x24, .f32⟩ : BufTy).Contents (Elt F) → (⟨S100000x24, .f32⟩ : BufTy).Contents (Elt F) → (⟨S100000x24, .i1⟩ : BufTy).Contents (Elt F)),
    StableHlo.nullary main_cst_37 (constant S_ .f32 0x3C23D70A#32),
    StableHlo.unary main_cst_37 main_v283 (broadcastInDim S100000x24 ![] bcast_S_S100000x24 : (⟨S_, .f32⟩ : BufTy).Contents (Elt F) → (⟨S100000x24, .f32⟩ : BufTy).Contents (Elt F)),
    StableHlo.binary main_v283 main_v280 main_v284 (mulf : (⟨S100000x24, .f32⟩ : BufTy).Contents (Elt F) → (⟨S100000x24, .f32⟩ : BufTy).Contents (Elt F) → (⟨S100000x24, .f32⟩ : BufTy).Contents (Elt F)),
    StableHlo.ternary main_v282 main_v280 main_v284 main_v285 ((select) : (⟨S100000x24, .i1⟩ : BufTy).Contents (Elt F) → (⟨S100000x24, .f32⟩ : BufTy).Contents (Elt F) → (⟨S100000x24, .f32⟩ : BufTy).Contents (Elt F) → (⟨S100000x24, .f32⟩ : BufTy).Contents (Elt F)),
    StableHlo.binary main_v285 main_arg11 main_v286 ((fun l r => Host.dotGeneral dot_S100000x24_S24x3_S100000x3_1_0_0_1_n_n none l r) : (⟨S100000x24, .f32⟩ : BufTy).Contents (Elt F) → (⟨S24x3, .f32⟩ : BufTy).Contents (Elt F) → (⟨S100000x3, .f32⟩ : BufTy).Contents (Elt F)),
    StableHlo.unary main_arg12 main_v287 (broadcastInDim S1x3 ![1] bcast_S3_S1x3_1 : (⟨S3, .f32⟩ : BufTy).Contents (Elt F) → (⟨S1x3, .f32⟩ : BufTy).Contents (Elt F)),
    StableHlo.unary main_v287 main_v288 (broadcastInDim S100000x3 ![0, 1] bcast_S1x3_S100000x3_0_1 : (⟨S1x3, .f32⟩ : BufTy).Contents (Elt F) → (⟨S100000x3, .f32⟩ : BufTy).Contents (Elt F)),
    StableHlo.binary main_v286 main_v288 main_v289 (addf : (⟨S100000x3, .f32⟩ : BufTy).Contents (Elt F) → (⟨S100000x3, .f32⟩ : BufTy).Contents (Elt F) → (⟨S100000x3, .f32⟩ : BufTy).Contents (Elt F)) ]

set_option maxRecDepth 4096 in
/-- The window is that straight line: the outlined functions unfolded at their calls, both sides are one chain of
    steps once sequencing is reassociated. -/
theorem part5_eq (c : Dev nD) : main_part5 (F := F) c = seq ops5 := by
  simp only [main_part5, fn_where.body, fn_var.body, fn_where_0.body, fn_where_1.body, fn_where_2.body, seq, bind_assoc, pure_bind]
  rfl

/-- Every operation of the window touches TensorCore references only. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

/-- No operation of the window allocates: each determines its results. -/
theorem ops5_fresh : ∀ op ∈ (ops5 : List (HloOp τ sig (Elt F))), op.fresh = ∅ := by
  intro _ h; (repeat (cases h with | head => rfl | tail _ h => ?_)); exact nomatch h

end Cert.ReferenceIdeal.RefRun

end
-- ==== Proof.RefRun.lean ====
/-
  The reference program's run.  @main is printed as six consecutive windows; each is a straight line of host
  operations once the outlined functions are unfolded at their calls (the six sibling modules).  Here the six lines
  are put end to end: @main is the straight line `ops`, and so, from any memory with zero counters, every weakly fair
  execution of @main on the TensorCores terminates with every buffer at the fold of `ops` over the launch contents.
-/
import proofs.«179626_j43602507989842_1_alg».proof.Proof.RefOps0
import proofs.«179626_j43602507989842_1_alg».proof.Proof.RefOps1
import proofs.«179626_j43602507989842_1_alg».proof.Proof.RefOps2
import proofs.«179626_j43602507989842_1_alg».proof.Proof.RefOps3
import proofs.«179626_j43602507989842_1_alg».proof.Proof.RefOps4
import proofs.«179626_j43602507989842_1_alg».proof.Proof.RefOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's host operations in order, every call of an outlined function unfolded: the six windows end to end. -/
abbrev ops : List (HloOp τ sig (Elt F)) := ops0 ++ (ops1 ++ (ops2 ++ (ops3 ++ (ops4 ++ ops5))))

/-- @main runs its windows in order, and each window is its line. -/
theorem main_eq (c : Dev nD) : main (F := F) c = seq ops := by
  show main (F := F) c = seq (ops0 ++ (ops1 ++ (ops2 ++ (ops3 ++ (ops4 ++ ops5)))))
  rw [seq_append, seq_append, seq_append, seq_append, seq_append,
    ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig := by
  rw [List.forall_iff_forall_mem]
  intro op h
  simp only [List.mem_append] at h
  rcases h with h | h | h | h | h | h
  · exact List.forall_iff_forall_mem.1 ops0_sub op h
  · exact List.forall_iff_forall_mem.1 ops1_sub op h
  · exact List.forall_iff_forall_mem.1 ops2_sub op h
  · exact List.forall_iff_forall_mem.1 ops3_sub op h
  · exact List.forall_iff_forall_mem.1 ops4_sub op h
  · exact List.forall_iff_forall_mem.1 ops5_sub op h

/-- No operation allocates: window by window. -/
theorem ops_fresh : ∀ op ∈ (ops : List (HloOp τ sig (Elt F))), op.fresh = ∅ := by
  intro op h
  simp only [List.mem_append] at h
  rcases h with h | h | h | h | h | h
  · exact ops0_fresh op h
  · exact ops1_fresh op h
  · exact ops2_fresh op h
  · exact ops3_fresh op h
  · exact ops4_fresh op h
  · exact ops5_fresh op h

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefSegs.lean ====
import proofs.«179626_j43602507989842_1_alg».proof.Proof.Gen.ReferenceIdeal
import proofs.«179626_j43602507989842_1_alg».proof.Proof.RefRun
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references @main's operations write, in the operations' order. -/
abbrev written : List (Ref sig .tc) :=
  [ main_v0, main_v1, main_v2, main_v3, main_cst, main_v4, main_v5, main_cst_0,
    main_v6, main_v7, main_v8, main_v9, main_v10, main_v11, main_v12, main_v13,
    main_v14, main_v15, main_v16, main_cst_1, main_v17, main_v18, main_cst_2, main_v19,
    main_v20, main_c, main_call1_cst, main_call1_v0, main_call1_v1, main_call1_cst_0, main_call1_v2, main_call1_v3,
    main_call1_v4, main_call1_v5, main_call1_v6, main_call1_v7, main_call1_cst_1, main_call1_v8, main_call1_cst_2, main_call1_v9,
    main_call1_v10, main_call1_v11, main_call1_v12, main_call1_cst_3, main_call1_v13, main_call1_cst_4, main_call1_call0_v0, main_call1_call0_v1,
    main_v21, main_v22, main_v23, main_cst_3, main_v24, main_v25, main_v26, main_v27,
    main_v28, main_v29, main_v30, main_v31, main_v32, main_v33, main_v34, main_v35,
    main_c_4, main_v36, main_v37, main_c_5, main_v38, main_v39, main_v40, main_v41,
    main_v42, main_v43, main_v44, main_cst_6, main_v45, main_v46, main_v47, main_v48,
    main_v49, main_v50, main_v51, main_v52, main_v53, main_v54, main_v55, main_v56,
    main_v57, main_v58, main_v59, main_v60, main_v61, main_v62, main_v63, main_v64,
    main_cst_7, main_v65, main_v66, main_cst_8, main_v67, main_v68, main_v69, main_v70,
    main_v71, main_v72, main_v73, main_v74, main_v75, main_v76, main_v77, main_v78,
    main_v79, main_v80, main_v81, main_v82, main_cst_9, main_v83, main_v84, main_cst_10,
    main_v85, main_v86, main_c_11, main_call3_cst, main_call3_v0, main_call3_v1, main_call3_cst_0, main_call3_v2,
    main_call3_v3, main_call3_v4, main_call3_v5, main_call3_v6, main_call3_v7, main_call3_cst_1, main_call3_v8, main_call3_cst_2,
    main_call3_v9, main_call3_v10, main_call3_v11, main_call3_v12, main_call3_cst_3, main_call3_v13, main_call3_cst_4, main_call3_call0_v0,
    main_call3_call0_v1, main_v87, main_v88, main_v89, main_cst_12, main_v90, main_v91, main_v92,
    main_v93, main_v94, main_v95, main_v96, main_v97, main_v98, main_v99, main_v100,
    main_v101, main_c_13, main_v102, main_v103, main_c_14, main_v104, main_v105, main_v106,
    main_v107, main_v108, main_v109, main_v110, main_cst_15, main_v111, main_v112, main_v113,
    main_v114, main_v115, main_v116, main_v117, main_v118, main_v119, main_v120, main_v121,
    main_v122, main_v123, main_v124, main_v125, main_v126, main_v127, main_v128, main_v129,
    main_v130, main_cst_16, main_v131, main_v132, main_cst_17, main_v133, main_v134, main_v135,
    main_v136, main_v137, main_v138, main_v139, main_v140, main_v141, main_v142, main_v143,
    main_v144, main_v145, main_v146, main_v147, main_v148, main_cst_18, main_v149, main_v150,
    main_cst_19, main_v151, main_v152, main_c_20, main_call5_cst, main_call5_v0, main_call5_v1, main_call5_cst_0,
    main_call5_v2, main_call5_v3, main_call5_v4, main_call5_v5, main_call5_v6, main_call5_v7, main_call5_cst_1, main_call5_v8,
    main_call5_cst_2, main_call5_v9, main_call5_v10, main_call5_v11, main_call5_v12, main_call5_cst_3, main_call5_v13, main_call5_cst_4,
    main_call5_call0_v0, main_call5_call0_v1, main_v153, main_v154, main_v155, main_cst_21, main_v156, main_v157,
    main_v158, main_v159, main_v160, main_v161, main_v162, main_v163, main_v164, main_v165,
    main_v166, main_v167, main_c_22, main_v168, main_v169, main_c_23, main_v170, main_v171,
    main_v172, main_v173, main_v174, main_v175, main_v176, main_cst_24, main_v177, main_v178,
    main_v179, main_v180, main_v181, main_v182, main_v183, main_v184, main_v185, main_v186,
    main_v187, main_v188, main_v189, main_v190, main_v191, main_v192, main_v193, main_v194,
    main_v195, main_v196, main_cst_25, main_v197, main_v198, main_cst_26, main_v199, main_v200,
    main_v201, main_v202, main_v203, main_v204, main_v205, main_v206, main_v207, main_v208,
    main_v209, main_v210, main_v211, main_v212, main_v213, main_v214, main_cst_27, main_v215,
    main_v216, main_cst_28, main_v217, main_v218, main_c_29, main_call7_cst, main_call7_v0, main_call7_v1,
    main_call7_cst_0, main_call7_v2, main_call7_v3, main_call7_v4, main_call7_v5, main_call7_v6, main_call7_v7, main_call7_cst_1,
    main_call7_v8, main_call7_cst_2, main_call7_v9, main_call7_v10, main_call7_v11, main_call7_v12, main_call7_cst_3, main_call7_v13,
    main_call7_cst_4, main_call7_call0_v0, main_call7_call0_v1, main_v219, main_v220, main_v221, main_cst_30, main_v222,
    main_v223, main_v224, main_v225, main_v226, main_v227, main_v228, main_v229, main_v230,
    main_v231, main_v232, main_v233, main_c_31, main_v234, main_v235, main_c_32, main_v236,
    main_v237, main_v238, main_v239, main_v240, main_v241, main_v242, main_cst_33, main_v243,
    main_v244, main_v245, main_v246, main_v247, main_v248, main_v249, main_v250, main_v251,
    main_v252, main_v253, main_v254, main_v255, main_v256, main_v257, main_v258, main_v259,
    main_v260, main_v261, main_v262, main_cst_34, main_v263, main_v264, main_cst_35, main_v265,
    main_v266, main_v267, main_v268, main_v269, main_v270, main_v271, main_v272, main_v273,
    main_v274, main_v275, main_v276, main_v277, main_v278, main_v279, main_v280, main_cst_36,
    main_v281, main_v282, main_cst_37, main_v283, main_v284, main_v285, main_v286, main_v287,
    main_v288, main_v289 ]

/-- An operation whose one result is among the written references writes inside their set. -/
theorem sub_of_mem {W : List (Ref sig .tc)} {y : Ref sig .tc} (h : y ∈ W) :
    ({Proc.devRef .tc y} : Finset (DevRef τ sig)) ⊆ (W.map (Proc.devRef (τ := τ) .tc)).toFinset := by
  intro b hb
  rw [Finset.mem_singleton] at hb
  subst hb
  exact List.mem_toFinset.2 (List.mem_map_of_mem h)

/-- The stretch of @main's operations from the one writing main_v0 to the one writing main_v12. -/
abbrev encOps : List (HloOp τ sig (Elt F)) :=
  [ StableHlo.binary main_arg0 main_arg5 main_v0 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg6 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x00000000#32),
    StableHlo.unary main_cst main_v4 (broadcastInDim S100000x128 ![] bcast_S_S100000x128 : (⟨S_, .f32⟩ : BufTy).Contents (Elt F) → (⟨S100000x128, .f32⟩ : BufTy).Contents (Elt F)),
    StableHlo.binary main_v3 main_v4 main_v5 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_0 (constant S_ .f32 0x3C23D70A#32),
    StableHlo.unary main_cst_0 main_v6 (broadcastInDim S100000x128 ![] bcast_S_S100000x128 : (⟨S_, .f32⟩ : BufTy).Contents (Elt F) → (⟨S100000x128, .f32⟩ : BufTy).Contents (Elt F)),
    StableHlo.binary main_v6 main_v3 main_v7 (mulf : (⟨S100000x128, .f32⟩ : BufTy).Contents (Elt F) → (⟨S100000x128, .f32⟩ : BufTy).Contents (Elt F) → (⟨S100000x128, .f32⟩ : BufTy).Contents (Elt F)),
    StableHlo.ternary main_v5 main_v3 main_v7 main_v8 ((select) : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.binary main_v8 main_arg7 main_v9 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S100000x64 ![0, 1] bcast_S1x64_S100000x64_0_1 : (⟨S1x64, .f32⟩ : BufTy).Contents (Elt F) → (⟨S100000x64, .f32⟩ : BufTy).Contents (Elt F)),
    StableHlo.binary main_v9 main_v11 main_v12 (addf : (⟨S100000x64, .f32⟩ : BufTy).Contents (Elt F) → (⟨S100000x64, .f32⟩ : BufTy).Contents (Elt F) → (⟨S100000x64, .f32⟩ : BufTy).Contents (Elt F)) ]

theorem encOps_writes : (encOps : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v13 to the one writing main_v34. -/
abbrev lnOps0 : List (HloOp τ sig (Elt F)) :=
  [ StableHlo.unary main_arg13 main_v13 ((extractStridedSlice S1x64 ![0, 0] · slices_S4x64_S1x64_0_0) : (⟨S4x64, .f32⟩ : BufTy).Contents (Elt F) → (⟨S1x64, .f32⟩ : BufTy).Contents (Elt F)),
    StableHlo.reshape main_v13 main_v14 rfl shapeCasts_S1x64_S64,
    StableHlo.unary main_arg14 main_v15 ((extractStridedSlice S1x64 ![0, 0] · slices_S4x64_S1x64_0_0) : (⟨S4x64, .f32⟩ : BufTy).Contents (Elt F) → (⟨S1x64, .f32⟩ : BufTy).Contents (Elt F)),
    StableHlo.reshape main_v15 main_v16 rfl shapeCasts_S1x64_S64,
    StableHlo.nullary main_cst_1 (constant S_ .f32 0x00000000#32),
    StableHlo.binary main_v12 main_cst_1 main_v17 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v17 main_v18 (broadcastInDim S100000x1 ![0] bcast_S100000_S100000x1_0 : (⟨S100000, .f32⟩ : BufTy).Contents (Elt F) → (⟨S100000x1, .f32⟩ : BufTy).Contents (Elt F)),
    StableHlo.nullary main_cst_2 (constant S_ .f32 0x42800000#32),
    StableHlo.unary main_cst_2 main_v19 (broadcastInDim S100000x1 ![] bcast_S_S100000x1 : (⟨S_, .f32⟩ : BufTy).Contents (Elt F) → (⟨S100000x1, .f32⟩ : BufTy).Contents (Elt F)),
    StableHlo.binary main_v18 main_v19 main_v20 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.nullary main_call1_cst (constant S_ .f32 0x00000000#32),
    StableHlo.binary main_v12 main_call1_cst main_call1_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call1_v0 main_call1_v1 ((broadcastInDim S100000x1 ![0] bcast_S100000_S100000x1_0) : (⟨S100000, .f32⟩ : BufTy).Contents (Elt F) → (⟨S100000x1, .f32⟩ : BufTy).Contents (Elt F)),
    StableHlo.nullary main_call1_cst_0 (constant S_ .f32 0x42800000#32),
    StableHlo.unary main_call1_cst_0 main_call1_v2 ((broadcastInDim S100000x1 ![] bcast_S_S100000x1) : (⟨S_, .f32⟩ : BufTy).Contents (Elt F) → (⟨S100000x1, .f32⟩ : BufTy).Contents (Elt F)),
    StableHlo.binary main_call1_v1 main_call1_v2 main_call1_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call1_v3 main_call1_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v12 main_call1_v4 main_call1_v5 ((subf) : (⟨S100000x64, .f32⟩ : BufTy).Contents (Elt F) → (⟨S100000x64, .f32⟩ : BufTy).Contents (Elt F) → (⟨S100000x64, .f32⟩ : BufTy).Contents (Elt F)),
    StableHlo.binary main_call1_v5 main_call1_v5 main_call1_v6 ((mulf) : (⟨S100000x64, .f32⟩ : BufTy).Contents (Elt F) → (⟨S100000x64, .f32⟩ : BufTy).Contents (Elt F) → (⟨S100000x64, .f32⟩ : BufTy).Contents (Elt F)),
    StableHlo.unary main_c main_call1_v7 ((sitofp .f32) : (⟨S_, .i32⟩ : BufTy).Contents (Elt F) → (⟨S_, .f32⟩ : BufTy).Contents (Elt F)),
    StableHlo.nullary main_call1_cst_1 (constant S_ .f32 0x42800000#32),
    StableHlo.binary main_call1_cst_1 main_call1_v7 main_call1_v8 ((subf) : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call1_v9 main_call1_v10 ((broadcastInDim S100000x1 ![0] bcast_S100000_S100000x1_0) : (⟨S100000, .f32⟩ : BufTy).Contents (Elt F) → (⟨S100000x1, .f32⟩ : BufTy).Contents (Elt F)),
    StableHlo.unary main_call1_v8 main_call1_v11 ((broadcastInDim S100000x1 ![] bcast_S_S100000x1) : (⟨S_, .f32⟩ : BufTy).Contents (Elt F) → (⟨S100000x1, .f32⟩ : BufTy).Contents (Elt F)),
    StableHlo.binary main_call1_v10 main_call1_v11 main_call1_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call1_cst_3 (constant S_ .f32 0x00000000#32),
    StableHlo.binary main_call1_v8 main_call1_cst_3 main_call1_v13 ((cmpf .ogt) : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 ((id) : (⟨S_, .f32⟩ : BufTy).Contents (Elt F) → (⟨S_, .f32⟩ : BufTy).Contents (Elt F)),
    StableHlo.unary main_call1_call0_v0 main_call1_call0_v1 ((broadcastInDim S100000x1 ![] bcast_S_S100000x1) : (⟨S_, .f32⟩ : BufTy).Contents (Elt F) → (⟨S100000x1, .f32⟩ : BufTy).Contents (Elt F)),
    StableHlo.ternary main_call1_v13 main_call1_v12 main_call1_call0_v1 main_v21 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v20 main_v22 (broadcastInDim S100000x64 ![0, 1] bcast_S100000x1_S100000x64_0_1 : (⟨S100000x1, .f32⟩ : BufTy).Contents (Elt F) → (⟨S100000x64, .f32⟩ : BufTy).Contents (Elt F)),
    StableHlo.binary main_v12 main_v22 main_v23 (subf : (⟨S100000x64, .f32⟩ : BufTy).Contents (Elt F) → (⟨S100000x64, .f32⟩ : BufTy).Contents (Elt F) → (⟨S100000x64, .f32⟩ : BufTy).Contents (Elt F)),
    StableHlo.nullary main_cst_3 (constant S_ .f32 0x3727C5AC#32),
    StableHlo.unary main_cst_3 main_v24 (broadcastInDim S100000x1 ![] bcast_S_S100000x1 : (⟨S_, .f32⟩ : BufTy).Contents (Elt F) → (⟨S100000x1, .f32⟩ : BufTy).Contents (Elt F)),
    StableHlo.binary main_v21 main_v24 main_v25 (addf : (⟨S100000x1, .f32⟩ : BufTy).Contents (Elt F) → (⟨S100000x1, .f32⟩ : BufTy).Contents (Elt F) → (⟨S100000x1, .f32⟩ : BufTy).Contents (Elt F)),
    StableHlo.unary main_v25 main_v26 (Host.rsqrt : (⟨S100000x1, .f32⟩ : BufTy).Contents (Elt F) → (⟨S100000x1, .f32⟩ : BufTy).Contents (Elt F)),
    StableHlo.unary main_v26 main_v27 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v27 main_v28 (mulf : (⟨S100000x64, .f32⟩ : BufTy).Contents (Elt F) → (⟨S100000x64, .f32⟩ : BufTy).Contents (Elt F) → (⟨S100000x64, .f32⟩ : BufTy).Contents (Elt F)),
    StableHlo.unary main_v14 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v28 main_v30 main_v31 (mulf : (⟨S100000x64, .f32⟩ : BufTy).Contents (Elt F) → (⟨S100000x64, .f32⟩ : BufTy).Contents (Elt F) → (⟨S100000x64, .f32⟩ : BufTy).Contents (Elt F)),
    StableHlo.unary main_v16 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v33 main_v34 (addf : (⟨S100000x64, .f32⟩ : BufTy).Contents (Elt F) → (⟨S100000x64, .f32⟩ : BufTy).Contents (Elt F) → (⟨S100000x64, .f32⟩ : BufTy).Contents (Elt F)) ]

theorem lnOps0_writes : (lnOps0 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v35 to the one writing main_v47. -/
abbrev msgOps0 : List (HloOp τ sig (Elt F)) :=
  [ StableHlo.unary main_arg4 main_v35 (broadcastInDim S1200000x1 ![0] bcast_S1200000_S1200000x1_0 : (⟨S1200000, .f32⟩ : BufTy).Contents (Elt F) → (⟨S1200000x1, .f32⟩ : BufTy).Contents (Elt F)),
    StableHlo.nullary main_c_4 (constantI S_ 32 0#32),
    StableHlo.unary main_c_4 main_v36 (broadcastInDim S1200000 ![] bcast_S_S1200000 : (⟨S_, .i32⟩ : BufTy).Contents (Elt F) → (⟨S1200000, .i32⟩ : BufTy).Contents (Elt F)),
    StableHlo.binary main_arg2 main_v36 main_v37 (cmpi .slt : (⟨S1200000, .i32⟩ : BufTy).Contents (Elt F) → (⟨S1200000, .i32⟩ : BufTy).Contents (Elt F) → (⟨S1200000, .i1⟩ : BufTy).Contents (Elt F)),
    StableHlo.nullary main_c_5 (constantI S_ 32 100000#32),
    StableHlo.unary main_c_5 main_v38 (broadcastInDim S1200000 ![] bcast_S_S1200000 : (⟨S_, .i32⟩ : BufTy).Contents (Elt F) → (⟨S1200000, .i32⟩ : BufTy).Contents (Elt F)),
    StableHlo.binary main_arg2 main_v38 main_v39 (addi : (⟨S1200000, .i32⟩ : BufTy).Contents (Elt F) → (⟨S1200000, .i32⟩ : BufTy).Contents (Elt F) → (⟨S1200000, .i32⟩ : BufTy).Contents (Elt F)),
    StableHlo.ternary main_v37 main_v39 main_arg2 main_v40 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v40 main_v41 (broadcastInDim S1200000x1 ![0] bcast_S1200000_S1200000x1_0 : (⟨S1200000, .i32⟩ : BufTy).Contents (Elt F) → (⟨S1200000x1, .i32⟩ : BufTy).Contents (Elt F)),
    StableHlo.binary main_v34 main_v41 main_v42 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v35 main_v43 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v43 main_v42 main_v44 (mulf : (⟨S1200000x64, .f32⟩ : BufTy).Contents (Elt F) → (⟨S1200000x64, .f32⟩ : BufTy).Contents (Elt F) → (⟨S1200000x64, .f32⟩ : BufTy).Contents (Elt F)),
    StableHlo.nullary main_cst_6 (constant S_ .f32 0x00000000#32),
    StableHlo.unary main_cst_6 main_v45 (broadcastInDim S100000x64 ![] bcast_S_S100000x64 : (⟨S_, .f32⟩ : BufTy).Contents (Elt F) → (⟨S100000x64, .f32⟩ : BufTy).Contents (Elt F)),
    StableHlo.unary main_arg3 main_v46 (broadcastInDim S1200000x1 ![0] bcast_S1200000_S1200000x1_0 : (⟨S1200000, .i32⟩ : BufTy).Contents (Elt F) → (⟨S1200000x1, .i32⟩ : BufTy).Contents (Elt F)),
    StableHlo.ternary main_v45 main_v46 main_v44 main_v47 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

theorem msgOps0_writes : (msgOps0 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v48 to the one writing main_v78. -/
abbrev combOps0 : List (HloOp τ sig (Elt F)) :=
  [ StableHlo.unary main_arg15 main_v48 ((extractStridedSlice S1x64x32 ![0, 0, 0] · slices_S4x64x32_S1x64x32_0_0_0) : (⟨S4x64x32, .f32⟩ : BufTy).Contents (Elt F) → (⟨S1x64x32, .f32⟩ : BufTy).Contents (Elt F)),
    StableHlo.reshape main_v48 main_v49 rfl shapeCasts_S1x64x32_S64x32,
    StableHlo.binary main_v34 main_v49 main_v50 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v51 ((extractStridedSlice S1x32 ![0, 0] · slices_S4x32_S1x32_0_0) : (⟨S4x32, .f32⟩ : BufTy).Contents (Elt F) → (⟨S1x32, .f32⟩ : BufTy).Contents (Elt F)),
    StableHlo.reshape main_v51 main_v52 rfl shapeCasts_S1x32_S32,
    StableHlo.unary main_v52 main_v53 (broadcastInDim S1x32 ![1] bcast_S32_S1x32_1 : (⟨S32, .f32⟩ : BufTy).Contents (Elt F) → (⟨S1x32, .f32⟩ : BufTy).Contents (Elt F)),
    StableHlo.unary main_v53 main_v54 (broadcastInDim S100000x32 ![0, 1] bcast_S1x32_S100000x32_0_1 : (⟨S1x32, .f32⟩ : BufTy).Contents (Elt F) → (⟨S100000x32, .f32⟩ : BufTy).Contents (Elt F)),
    StableHlo.binary main_v50 main_v54 main_v55 (addf : (⟨S100000x32, .f32⟩ : BufTy).Contents (Elt F) → (⟨S100000x32, .f32⟩ : BufTy).Contents (Elt F) → (⟨S100000x32, .f32⟩ : BufTy).Contents (Elt F)),
    StableHlo.unary main_arg17 main_v56 ((extractStridedSlice S1x64x32 ![0, 0, 0] · slices_S4x64x32_S1x64x32_0_0_0) : (⟨S4x64x32, .f32⟩ : BufTy).Contents (Elt F) → (⟨S1x64x32, .f32⟩ : BufTy).Contents (Elt F)),
    StableHlo.reshape main_v56 main_v57 rfl shapeCasts_S1x64x32_S64x32,
    StableHlo.binary main_v47 main_v57 main_v58 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v59 ((extractStridedSlice S1x32 ![0, 0] · slices_S4x32_S1x32_0_0) : (⟨S4x32, .f32⟩ : BufTy).Contents (Elt F) → (⟨S1x32, .f32⟩ : BufTy).Contents (Elt F)),
    StableHlo.reshape main_v59 main_v60 rfl shapeCasts_S1x32_S32,
    StableHlo.unary main_v60 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S100000x32 ![0, 1] bcast_S1x32_S100000x32_0_1 : (⟨S1x32, .f32⟩ : BufTy).Contents (Elt F) → (⟨S100000x32, .f32⟩ : BufTy).Contents (Elt F)),
    StableHlo.binary main_v58 main_v62 main_v63 (addf : (⟨S100000x32, .f32⟩ : BufTy).Contents (Elt F) → (⟨S100000x32, .f32⟩ : BufTy).Contents (Elt F) → (⟨S100000x32, .f32⟩ : BufTy).Contents (Elt F)),
    StableHlo.binary main_v55 main_v63 main_v64 (addf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x00000000#32),
    StableHlo.unary main_cst_7 main_v65 (broadcastInDim S100000x32 ![] bcast_S_S100000x32 : (⟨S_, .f32⟩ : BufTy).Contents (Elt F) → (⟨S100000x32, .f32⟩ : BufTy).Contents (Elt F)),
    StableHlo.binary main_v64 main_v65 main_v66 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_8 (constant S_ .f32 0x3C23D70A#32),
    StableHlo.unary main_cst_8 main_v67 (broadcastInDim S100000x32 ![] bcast_S_S100000x32 : (⟨S_, .f32⟩ : BufTy).Contents (Elt F) → (⟨S100000x32, .f32⟩ : BufTy).Contents (Elt F)),
    StableHlo.binary main_v67 main_v64 main_v68 (mulf : (⟨S100000x32, .f32⟩ : BufTy).Contents (Elt F) → (⟨S100000x32, .f32⟩ : BufTy).Contents (Elt F) → (⟨S100000x32, .f32⟩ : BufTy).Contents (Elt F)),
    StableHlo.ternary main_v66 main_v64 main_v68 main_v69 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v70 ((extractStridedSlice S1x32x64 ![0, 0, 0] · slices_S4x32x64_S1x32x64_0_0_0) : (⟨S4x32x64, .f32⟩ : BufTy).Contents (Elt F) → (⟨S1x32x64, .f32⟩ : BufTy).Contents (Elt F)),
    StableHlo.reshape main_v70 main_v71 rfl shapeCasts_S1x32x64_S32x64,
    StableHlo.binary main_v69 main_v71 main_v72 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v73 ((extractStridedSlice S1x64 ![0, 0] · slices_S4x64_S1x64_0_0) : (⟨S4x64, .f32⟩ : BufTy).Contents (Elt F) → (⟨S1x64, .f32⟩ : BufTy).Contents (Elt F)),
    StableHlo.reshape main_v73 main_v74 rfl shapeCasts_S1x64_S64,
    StableHlo.unary main_v74 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v72 main_v76 main_v77 (addf : (⟨S100000x64, .f32⟩ : BufTy).Contents (Elt F) → (⟨S100000x64, .f32⟩ : BufTy).Contents (Elt F) → (⟨S100000x64, .f32⟩ : BufTy).Contents (Elt F)),
    StableHlo.binary main_v77 main_v34 main_v78 (addf : (⟨S100000x64, .f32⟩ : BufTy).Contents (Elt F) → (⟨S100000x64, .f32⟩ : BufTy).Contents (Elt F) → (⟨S100000x64, .f32⟩ : BufTy).Contents (Elt F)) ]

theorem combOps0_writes : (combOps0 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v79 to the one writing main_v100. -/
abbrev lnOps1 : List (HloOp τ sig (Elt F)) :=
  [ StableHlo.unary main_arg13 main_v79 ((extractStridedSlice S1x64 ![1, 0] · slices_S4x64_S1x64_1_0) : (⟨S4x64, .f32⟩ : BufTy).Contents (Elt F) → (⟨S1x64, .f32⟩ : BufTy).Contents (Elt F)),
    StableHlo.reshape main_v79 main_v80 rfl shapeCasts_S1x64_S64,
    StableHlo.unary main_arg14 main_v81 ((extractStridedSlice S1x64 ![1, 0] · slices_S4x64_S1x64_1_0) : (⟨S4x64, .f32⟩ : BufTy).Contents (Elt F) → (⟨S1x64, .f32⟩ : BufTy).Contents (Elt F)),
    StableHlo.reshape main_v81 main_v82 rfl shapeCasts_S1x64_S64,
    StableHlo.nullary main_cst_9 (constant S_ .f32 0x00000000#32),
    StableHlo.binary main_v78 main_cst_9 main_v83 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v83 main_v84 (broadcastInDim S100000x1 ![0] bcast_S100000_S100000x1_0 : (⟨S100000, .f32⟩ : BufTy).Contents (Elt F) → (⟨S100000x1, .f32⟩ : BufTy).Contents (Elt F)),
    StableHlo.nullary main_cst_10 (constant S_ .f32 0x42800000#32),
    StableHlo.unary main_cst_10 main_v85 (broadcastInDim S100000x1 ![] bcast_S_S100000x1 : (⟨S_, .f32⟩ : BufTy).Contents (Elt F) → (⟨S100000x1, .f32⟩ : BufTy).Contents (Elt F)),
    StableHlo.binary main_v84 main_v85 main_v86 (Host.divf : (⟨S100000x1, .f32⟩ : BufTy).Contents (Elt F) → (⟨S100000x1, .f32⟩ : BufTy).Contents (Elt F) → (⟨S100000x1, .f32⟩ : BufTy).Contents (Elt F)),
    StableHlo.nullary main_c_11 (constantI S_ 32 0#32),
    StableHlo.nullary main_call3_cst (constant S_ .f32 0x00000000#32),
    StableHlo.binary main_v78 main_call3_cst main_call3_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call3_v0 main_call3_v1 ((broadcastInDim S100000x1 ![0] bcast_S100000_S100000x1_0) : (⟨S100000, .f32⟩ : BufTy).Contents (Elt F) → (⟨S100000x1, .f32⟩ : BufTy).Contents (Elt F)),
    StableHlo.nullary main_call3_cst_0 (constant S_ .f32 0x42800000#32),
    StableHlo.unary main_call3_cst_0 main_call3_v2 ((broadcastInDim S100000x1 ![] bcast_S_S100000x1) : (⟨S_, .f32⟩ : BufTy).Contents (Elt F) → (⟨S100000x1, .f32⟩ : BufTy).Contents (Elt F)),
    StableHlo.binary main_call3_v1 main_call3_v2 main_call3_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call3_v3 main_call3_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v78 main_call3_v4 main_call3_v5 ((subf) : (⟨S100000x64, .f32⟩ : BufTy).Contents (Elt F) → (⟨S100000x64, .f32⟩ : BufTy).Contents (Elt F) → (⟨S100000x64, .f32⟩ : BufTy).Contents (Elt F)),
    StableHlo.binary main_call3_v5 main_call3_v5 main_call3_v6 ((mulf) : (⟨S100000x64, .f32⟩ : BufTy).Contents (Elt F) → (⟨S100000x64, .f32⟩ : BufTy).Contents (Elt F) → (⟨S100000x64, .f32⟩ : BufTy).Contents (Elt F)),
    StableHlo.unary main_c_11 main_call3_v7 ((sitofp .f32) : (⟨S_, .i32⟩ : BufTy).Contents (Elt F) → (⟨S_, .f32⟩ : BufTy).Contents (Elt F)),
    StableHlo.nullary main_call3_cst_1 (constant S_ .f32 0x42800000#32),
    StableHlo.binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call3_v9 main_call3_v10 ((broadcastInDim S100000x1 ![0] bcast_S100000_S100000x1_0) : (⟨S100000, .f32⟩ : BufTy).Contents (Elt F) → (⟨S100000x1, .f32⟩ : BufTy).Contents (Elt F)),
    StableHlo.unary main_call3_v8 main_call3_v11 ((broadcastInDim S100000x1 ![] bcast_S_S100000x1) : (⟨S_, .f32⟩ : BufTy).Contents (Elt F) → (⟨S100000x1, .f32⟩ : BufTy).Contents (Elt F)),
    StableHlo.binary main_call3_v10 main_call3_v11 main_call3_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call3_cst_3 (constant S_ .f32 0x00000000#32),
    StableHlo.binary main_call3_v8 main_call3_cst_3 main_call3_v13 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 ((id) : (⟨S_, .f32⟩ : BufTy).Contents (Elt F) → (⟨S_, .f32⟩ : BufTy).Contents (Elt F)),
    StableHlo.unary main_call3_call0_v0 main_call3_call0_v1 ((broadcastInDim S100000x1 ![] bcast_S_S100000x1) : (⟨S_, .f32⟩ : BufTy).Contents (Elt F) → (⟨S100000x1, .f32⟩ : BufTy).Contents (Elt F)),
    StableHlo.ternary main_call3_v13 main_call3_v12 main_call3_call0_v1 main_v87 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v86 main_v88 (broadcastInDim S100000x64 ![0, 1] bcast_S100000x1_S100000x64_0_1 : (⟨S100000x1, .f32⟩ : BufTy).Contents (Elt F) → (⟨S100000x64, .f32⟩ : BufTy).Contents (Elt F)),
    StableHlo.binary main_v78 main_v88 main_v89 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v90 (broadcastInDim S100000x1 ![] bcast_S_S100000x1 : (⟨S_, .f32⟩ : BufTy).Contents (Elt F) → (⟨S100000x1, .f32⟩ : BufTy).Contents (Elt F)),
    StableHlo.binary main_v87 main_v90 main_v91 (addf : (⟨S100000x1, .f32⟩ : BufTy).Contents (Elt F) → (⟨S100000x1, .f32⟩ : BufTy).Contents (Elt F) → (⟨S100000x1, .f32⟩ : BufTy).Contents (Elt F)),
    StableHlo.unary main_v91 main_v92 (Host.rsqrt : (⟨S100000x1, .f32⟩ : BufTy).Contents (Elt F) → (⟨S100000x1, .f32⟩ : BufTy).Contents (Elt F)),
    StableHlo.unary main_v92 main_v93 (broadcastInDim S100000x64 ![0, 1] bcast_S100000x1_S100000x64_0_1 : (⟨S100000x1, .f32⟩ : BufTy).Contents (Elt F) → (⟨S100000x64, .f32⟩ : BufTy).Contents (Elt F)),
    StableHlo.binary main_v89 main_v93 main_v94 (mulf : (⟨S100000x64, .f32⟩ : BufTy).Contents (Elt F) → (⟨S100000x64, .f32⟩ : BufTy).Contents (Elt F) → (⟨S100000x64, .f32⟩ : BufTy).Contents (Elt F)),
    StableHlo.unary main_v80 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v94 main_v96 main_v97 (mulf : (⟨S100000x64, .f32⟩ : BufTy).Contents (Elt F) → (⟨S100000x64, .f32⟩ : BufTy).Contents (Elt F) → (⟨S100000x64, .f32⟩ : BufTy).Contents (Elt F)),
    StableHlo.unary main_v82 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v99 main_v100 (addf : (⟨S100000x64, .f32⟩ : BufTy).Contents (Elt F) → (⟨S100000x64, .f32⟩ : BufTy).Contents (Elt F) → (⟨S100000x64, .f32⟩ : BufTy).Contents (Elt F)) ]

theorem lnOps1_writes : (lnOps1 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v101 to the one writing main_v113. -/
abbrev msgOps1 : List (HloOp τ sig (Elt F)) :=
  [ StableHlo.unary main_arg4 main_v101 (broadcastInDim S1200000x1 ![0] bcast_S1200000_S1200000x1_0 : (⟨S1200000, .f32⟩ : BufTy).Contents (Elt F) → (⟨S1200000x1, .f32⟩ : BufTy).Contents (Elt F)),
    StableHlo.nullary main_c_13 (constantI S_ 32 0#32),
    StableHlo.unary main_c_13 main_v102 (broadcastInDim S1200000 ![] bcast_S_S1200000 : (⟨S_, .i32⟩ : BufTy).Contents (Elt F) → (⟨S1200000, .i32⟩ : BufTy).Contents (Elt F)),
    StableHlo.binary main_arg2 main_v102 main_v103 (cmpi .slt : (⟨S1200000, .i32⟩ : BufTy).Contents (Elt F) → (⟨S1200000, .i32⟩ : BufTy).Contents (Elt F) → (⟨S1200000, .i1⟩ : BufTy).Contents (Elt F)),
    StableHlo.nullary main_c_14 (constantI S_ 32 100000#32),
    StableHlo.unary main_c_14 main_v104 (broadcastInDim S1200000 ![] bcast_S_S1200000 : (⟨S_, .i32⟩ : BufTy).Contents (Elt F) → (⟨S1200000, .i32⟩ : BufTy).Contents (Elt F)),
    StableHlo.binary main_arg2 main_v104 main_v105 (addi : (⟨S1200000, .i32⟩ : BufTy).Contents (Elt F) → (⟨S1200000, .i32⟩ : BufTy).Contents (Elt F) → (⟨S1200000, .i32⟩ : BufTy).Contents (Elt F)),
    StableHlo.ternary main_v103 main_v105 main_arg2 main_v106 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v106 main_v107 (broadcastInDim S1200000x1 ![0] bcast_S1200000_S1200000x1_0 : (⟨S1200000, .i32⟩ : BufTy).Contents (Elt F) → (⟨S1200000x1, .i32⟩ : BufTy).Contents (Elt F)),
    StableHlo.binary main_v100 main_v107 main_v108 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v101 main_v109 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v109 main_v108 main_v110 (mulf : (⟨S1200000x64, .f32⟩ : BufTy).Contents (Elt F) → (⟨S1200000x64, .f32⟩ : BufTy).Contents (Elt F) → (⟨S1200000x64, .f32⟩ : BufTy).Contents (Elt F)),
    StableHlo.nullary main_cst_15 (constant S_ .f32 0x00000000#32),
    StableHlo.unary main_cst_15 main_v111 (broadcastInDim S100000x64 ![] bcast_S_S100000x64 : (⟨S_, .f32⟩ : BufTy).Contents (Elt F) → (⟨S100000x64, .f32⟩ : BufTy).Contents (Elt F)),
    StableHlo.unary main_arg3 main_v112 (broadcastInDim S1200000x1 ![0] bcast_S1200000_S1200000x1_0 : (⟨S1200000, .i32⟩ : BufTy).Contents (Elt F) → (⟨S1200000x1, .i32⟩ : BufTy).Contents (Elt F)),
    StableHlo.ternary main_v111 main_v112 main_v110 main_v113 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

theorem msgOps1_writes : (msgOps1 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v114 to the one writing main_v144. -/
abbrev combOps1 : List (HloOp τ sig (Elt F)) :=
  [ StableHlo.unary main_arg15 main_v114 ((extractStridedSlice S1x64x32 ![1, 0, 0] · slices_S4x64x32_S1x64x32_1_0_0) : (⟨S4x64x32, .f32⟩ : BufTy).Contents (Elt F) → (⟨S1x64x32, .f32⟩ : BufTy).Contents (Elt F)),
    StableHlo.reshape main_v114 main_v115 rfl shapeCasts_S1x64x32_S64x32,
    StableHlo.binary main_v100 main_v115 main_v116 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v117 ((extractStridedSlice S1x32 ![1, 0] · slices_S4x32_S1x32_1_0) : (⟨S4x32, .f32⟩ : BufTy).Contents (Elt F) → (⟨S1x32, .f32⟩ : BufTy).Contents (Elt F)),
    StableHlo.reshape main_v117 main_v118 rfl shapeCasts_S1x32_S32,
    StableHlo.unary main_v118 main_v119 (broadcastInDim S1x32 ![1] bcast_S32_S1x32_1 : (⟨S32, .f32⟩ : BufTy).Contents (Elt F) → (⟨S1x32, .f32⟩ : BufTy).Contents (Elt F)),
    StableHlo.unary main_v119 main_v120 (broadcastInDim S100000x32 ![0, 1] bcast_S1x32_S100000x32_0_1 : (⟨S1x32, .f32⟩ : BufTy).Contents (Elt F) → (⟨S100000x32, .f32⟩ : BufTy).Contents (Elt F)),
    StableHlo.binary main_v116 main_v120 main_v121 (addf : (⟨S100000x32, .f32⟩ : BufTy).Contents (Elt F) → (⟨S100000x32, .f32⟩ : BufTy).Contents (Elt F) → (⟨S100000x32, .f32⟩ : BufTy).Contents (Elt F)),
    StableHlo.unary main_arg17 main_v122 ((extractStridedSlice S1x64x32 ![1, 0, 0] · slices_S4x64x32_S1x64x32_1_0_0) : (⟨S4x64x32, .f32⟩ : BufTy).Contents (Elt F) → (⟨S1x64x32, .f32⟩ : BufTy).Contents (Elt F)),
    StableHlo.reshape main_v122 main_v123 rfl shapeCasts_S1x64x32_S64x32,
    StableHlo.binary main_v113 main_v123 main_v124 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v125 ((extractStridedSlice S1x32 ![1, 0] · slices_S4x32_S1x32_1_0) : (⟨S4x32, .f32⟩ : BufTy).Contents (Elt F) → (⟨S1x32, .f32⟩ : BufTy).Contents (Elt F)),
    StableHlo.reshape main_v125 main_v126 rfl shapeCasts_S1x32_S32,
    StableHlo.unary main_v126 main_v127 (broadcastInDim S1x32 ![1] bcast_S32_S1x32_1 : (⟨S32, .f32⟩ : BufTy).Contents (Elt F) → (⟨S1x32, .f32⟩ : BufTy).Contents (Elt F)),
    StableHlo.unary main_v127 main_v128 (broadcastInDim S100000x32 ![0, 1] bcast_S1x32_S100000x32_0_1 : (⟨S1x32, .f32⟩ : BufTy).Contents (Elt F) → (⟨S100000x32, .f32⟩ : BufTy).Contents (Elt F)),
    StableHlo.binary main_v124 main_v128 main_v129 (addf : (⟨S100000x32, .f32⟩ : BufTy).Contents (Elt F) → (⟨S100000x32, .f32⟩ : BufTy).Contents (Elt F) → (⟨S100000x32, .f32⟩ : BufTy).Contents (Elt F)),
    StableHlo.binary main_v121 main_v129 main_v130 (addf : (⟨S100000x32, .f32⟩ : BufTy).Contents (Elt F) → (⟨S100000x32, .f32⟩ : BufTy).Contents (Elt F) → (⟨S100000x32, .f32⟩ : BufTy).Contents (Elt F)),
    StableHlo.nullary main_cst_16 (constant S_ .f32 0x00000000#32),
    StableHlo.unary main_cst_16 main_v131 (broadcastInDim S100000x32 ![] bcast_S_S100000x32 : (⟨S_, .f32⟩ : BufTy).Contents (Elt F) → (⟨S100000x32, .f32⟩ : BufTy).Contents (Elt F)),
    StableHlo.binary main_v130 main_v131 main_v132 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_17 (constant S_ .f32 0x3C23D70A#32),
    StableHlo.unary main_cst_17 main_v133 (broadcastInDim S100000x32 ![] bcast_S_S100000x32 : (⟨S_, .f32⟩ : BufTy).Contents (Elt F) → (⟨S100000x32, .f32⟩ : BufTy).Contents (Elt F)),
    StableHlo.binary main_v133 main_v130 main_v134 (mulf : (⟨S100000x32, .f32⟩ : BufTy).Contents (Elt F) → (⟨S100000x32, .f32⟩ : BufTy).Contents (Elt F) → (⟨S100000x32, .f32⟩ : BufTy).Contents (Elt F)),
    StableHlo.ternary main_v132 main_v130 main_v134 main_v135 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v136 ((extractStridedSlice S1x32x64 ![1, 0, 0] · slices_S4x32x64_S1x32x64_1_0_0) : (⟨S4x32x64, .f32⟩ : BufTy).Contents (Elt F) → (⟨S1x32x64, .f32⟩ : BufTy).Contents (Elt F)),
    StableHlo.reshape main_v136 main_v137 rfl shapeCasts_S1x32x64_S32x64,
    StableHlo.binary main_v135 main_v137 main_v138 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v139 ((extractStridedSlice S1x64 ![1, 0] · slices_S4x64_S1x64_1_0) : (⟨S4x64, .f32⟩ : BufTy).Contents (Elt F) → (⟨S1x64, .f32⟩ : BufTy).Contents (Elt F)),
    StableHlo.reshape main_v139 main_v140 rfl shapeCasts_S1x64_S64,
    StableHlo.unary main_v140 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v142 main_v143 (addf : (⟨S100000x64, .f32⟩ : BufTy).Contents (Elt F) → (⟨S100000x64, .f32⟩ : BufTy).Contents (Elt F) → (⟨S100000x64, .f32⟩ : BufTy).Contents (Elt F)),
    StableHlo.binary main_v143 main_v100 main_v144 (addf : (⟨S100000x64, .f32⟩ : BufTy).Contents (Elt F) → (⟨S100000x64, .f32⟩ : BufTy).Contents (Elt F) → (⟨S100000x64, .f32⟩ : BufTy).Contents (Elt F)) ]

theorem combOps1_writes : (combOps1 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v145 to the one writing main_v166. -/
abbrev lnOps2 : List (HloOp τ sig (Elt F)) :=
  [ StableHlo.unary main_arg13 main_v145 ((extractStridedSlice S1x64 ![2, 0] · slices_S4x64_S1x64_2_0) : (⟨S4x64, .f32⟩ : BufTy).Contents (Elt F) → (⟨S1x64, .f32⟩ : BufTy).Contents (Elt F)),
    StableHlo.reshape main_v145 main_v146 rfl shapeCasts_S1x64_S64,
    StableHlo.unary main_arg14 main_v147 ((extractStridedSlice S1x64 ![2, 0] · slices_S4x64_S1x64_2_0) : (⟨S4x64, .f32⟩ : BufTy).Contents (Elt F) → (⟨S1x64, .f32⟩ : BufTy).Contents (Elt F)),
    StableHlo.reshape main_v147 main_v148 rfl shapeCasts_S1x64_S64,
    StableHlo.nullary main_cst_18 (constant S_ .f32 0x00000000#32),
    StableHlo.binary main_v144 main_cst_18 main_v149 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v149 main_v150 (broadcastInDim S100000x1 ![0] bcast_S100000_S100000x1_0 : (⟨S100000, .f32⟩ : BufTy).Contents (Elt F) → (⟨S100000x1, .f32⟩ : BufTy).Contents (Elt F)),
    StableHlo.nullary main_cst_19 (constant S_ .f32 0x42800000#32),
    StableHlo.unary main_cst_19 main_v151 (broadcastInDim S100000x1 ![] bcast_S_S100000x1 : (⟨S_, .f32⟩ : BufTy).Contents (Elt F) → (⟨S100000x1, .f32⟩ : BufTy).Contents (Elt F)),
    StableHlo.binary main_v150 main_v151 main_v152 (Host.divf : (⟨S100000x1, .f32⟩ : BufTy).Contents (Elt F) → (⟨S100000x1, .f32⟩ : BufTy).Contents (Elt F) → (⟨S100000x1, .f32⟩ : BufTy).Contents (Elt F)),
    StableHlo.nullary main_c_20 (constantI S_ 32 0#32),
    StableHlo.nullary main_call5_cst (constant S_ .f32 0x00000000#32),
    StableHlo.binary main_v144 main_call5_cst main_call5_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call5_v0 main_call5_v1 ((broadcastInDim S100000x1 ![0] bcast_S100000_S100000x1_0) : (⟨S100000, .f32⟩ : BufTy).Contents (Elt F) → (⟨S100000x1, .f32⟩ : BufTy).Contents (Elt F)),
    StableHlo.nullary main_call5_cst_0 (constant S_ .f32 0x42800000#32),
    StableHlo.unary main_call5_cst_0 main_call5_v2 ((broadcastInDim S100000x1 ![] bcast_S_S100000x1) : (⟨S_, .f32⟩ : BufTy).Contents (Elt F) → (⟨S100000x1, .f32⟩ : BufTy).Contents (Elt F)),
    StableHlo.binary main_call5_v1 main_call5_v2 main_call5_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call5_v3 main_call5_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v144 main_call5_v4 main_call5_v5 ((subf) : (⟨S100000x64, .f32⟩ : BufTy).Contents (Elt F) → (⟨S100000x64, .f32⟩ : BufTy).Contents (Elt F) → (⟨S100000x64, .f32⟩ : BufTy).Contents (Elt F)),
    StableHlo.binary main_call5_v5 main_call5_v5 main_call5_v6 ((mulf) : (⟨S100000x64, .f32⟩ : BufTy).Contents (Elt F) → (⟨S100000x64, .f32⟩ : BufTy).Contents (Elt F) → (⟨S100000x64, .f32⟩ : BufTy).Contents (Elt F)),
    StableHlo.unary main_c_20 main_call5_v7 ((sitofp .f32) : (⟨S_, .i32⟩ : BufTy).Contents (Elt F) → (⟨S_, .f32⟩ : BufTy).Contents (Elt F)),
    StableHlo.nullary main_call5_cst_1 (constant S_ .f32 0x42800000#32),
    StableHlo.binary main_call5_cst_1 main_call5_v7 main_call5_v8 ((subf) : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call5_v9 main_call5_v10 ((broadcastInDim S100000x1 ![0] bcast_S100000_S100000x1_0) : (⟨S100000, .f32⟩ : BufTy).Contents (Elt F) → (⟨S100000x1, .f32⟩ : BufTy).Contents (Elt F)),
    StableHlo.unary main_call5_v8 main_call5_v11 ((broadcastInDim S100000x1 ![] bcast_S_S100000x1) : (⟨S_, .f32⟩ : BufTy).Contents (Elt F) → (⟨S100000x1, .f32⟩ : BufTy).Contents (Elt F)),
    StableHlo.binary main_call5_v10 main_call5_v11 main_call5_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call5_cst_3 (constant S_ .f32 0x00000000#32),
    StableHlo.binary main_call5_v8 main_call5_cst_3 main_call5_v13 ((cmpf .ogt) : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 ((id) : (⟨S_, .f32⟩ : BufTy).Contents (Elt F) → (⟨S_, .f32⟩ : BufTy).Contents (Elt F)),
    StableHlo.unary main_call5_call0_v0 main_call5_call0_v1 ((broadcastInDim S100000x1 ![] bcast_S_S100000x1) : (⟨S_, .f32⟩ : BufTy).Contents (Elt F) → (⟨S100000x1, .f32⟩ : BufTy).Contents (Elt F)),
    StableHlo.ternary main_call5_v13 main_call5_v12 main_call5_call0_v1 main_v153 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v152 main_v154 (broadcastInDim S100000x64 ![0, 1] bcast_S100000x1_S100000x64_0_1 : (⟨S100000x1, .f32⟩ : BufTy).Contents (Elt F) → (⟨S100000x64, .f32⟩ : BufTy).Contents (Elt F)),
    StableHlo.binary main_v144 main_v154 main_v155 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v156 (broadcastInDim S100000x1 ![] bcast_S_S100000x1 : (⟨S_, .f32⟩ : BufTy).Contents (Elt F) → (⟨S100000x1, .f32⟩ : BufTy).Contents (Elt F)),
    StableHlo.binary main_v153 main_v156 main_v157 (addf : (⟨S100000x1, .f32⟩ : BufTy).Contents (Elt F) → (⟨S100000x1, .f32⟩ : BufTy).Contents (Elt F) → (⟨S100000x1, .f32⟩ : BufTy).Contents (Elt F)),
    StableHlo.unary main_v157 main_v158 (Host.rsqrt : (⟨S100000x1, .f32⟩ : BufTy).Contents (Elt F) → (⟨S100000x1, .f32⟩ : BufTy).Contents (Elt F)),
    StableHlo.unary main_v158 main_v159 (broadcastInDim S100000x64 ![0, 1] bcast_S100000x1_S100000x64_0_1 : (⟨S100000x1, .f32⟩ : BufTy).Contents (Elt F) → (⟨S100000x64, .f32⟩ : BufTy).Contents (Elt F)),
    StableHlo.binary main_v155 main_v159 main_v160 (mulf : (⟨S100000x64, .f32⟩ : BufTy).Contents (Elt F) → (⟨S100000x64, .f32⟩ : BufTy).Contents (Elt F) → (⟨S100000x64, .f32⟩ : BufTy).Contents (Elt F)),
    StableHlo.unary main_v146 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S100000x64 ![0, 1] bcast_S1x64_S100000x64_0_1 : (⟨S1x64, .f32⟩ : BufTy).Contents (Elt F) → (⟨S100000x64, .f32⟩ : BufTy).Contents (Elt F)),
    StableHlo.binary main_v160 main_v162 main_v163 (mulf : (⟨S100000x64, .f32⟩ : BufTy).Contents (Elt F) → (⟨S100000x64, .f32⟩ : BufTy).Contents (Elt F) → (⟨S100000x64, .f32⟩ : BufTy).Contents (Elt F)),
    StableHlo.unary main_v148 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)) ]

theorem lnOps2_writes : (lnOps2 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v167 to the one writing main_v179. -/
abbrev msgOps2 : List (HloOp τ sig (Elt F)) :=
  [ StableHlo.unary main_arg4 main_v167 (broadcastInDim S1200000x1 ![0] bcast_S1200000_S1200000x1_0 : (⟨S1200000, .f32⟩ : BufTy).Contents (Elt F) → (⟨S1200000x1, .f32⟩ : BufTy).Contents (Elt F)),
    StableHlo.nullary main_c_22 (constantI S_ 32 0#32),
    StableHlo.unary main_c_22 main_v168 (broadcastInDim S1200000 ![] bcast_S_S1200000 : (⟨S_, .i32⟩ : BufTy).Contents (Elt F) → (⟨S1200000, .i32⟩ : BufTy).Contents (Elt F)),
    StableHlo.binary main_arg2 main_v168 main_v169 (cmpi .slt : (⟨S1200000, .i32⟩ : BufTy).Contents (Elt F) → (⟨S1200000, .i32⟩ : BufTy).Contents (Elt F) → (⟨S1200000, .i1⟩ : BufTy).Contents (Elt F)),
    StableHlo.nullary main_c_23 (constantI S_ 32 100000#32),
    StableHlo.unary main_c_23 main_v170 (broadcastInDim S1200000 ![] bcast_S_S1200000 : (⟨S_, .i32⟩ : BufTy).Contents (Elt F) → (⟨S1200000, .i32⟩ : BufTy).Contents (Elt F)),
    StableHlo.binary main_arg2 main_v170 main_v171 (addi : (⟨S1200000, .i32⟩ : BufTy).Contents (Elt F) → (⟨S1200000, .i32⟩ : BufTy).Contents (Elt F) → (⟨S1200000, .i32⟩ : BufTy).Contents (Elt F)),
    StableHlo.ternary main_v169 main_v171 main_arg2 main_v172 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v172 main_v173 (broadcastInDim S1200000x1 ![0] bcast_S1200000_S1200000x1_0 : (⟨S1200000, .i32⟩ : BufTy).Contents (Elt F) → (⟨S1200000x1, .i32⟩ : BufTy).Contents (Elt F)),
    StableHlo.binary main_v166 main_v173 main_v174 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v167 main_v175 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v175 main_v174 main_v176 (mulf : (⟨S1200000x64, .f32⟩ : BufTy).Contents (Elt F) → (⟨S1200000x64, .f32⟩ : BufTy).Contents (Elt F) → (⟨S1200000x64, .f32⟩ : BufTy).Contents (Elt F)),
    StableHlo.nullary main_cst_24 (constant S_ .f32 0x00000000#32),
    StableHlo.unary main_cst_24 main_v177 (broadcastInDim S100000x64 ![] bcast_S_S100000x64 : (⟨S_, .f32⟩ : BufTy).Contents (Elt F) → (⟨S100000x64, .f32⟩ : BufTy).Contents (Elt F)),
    StableHlo.unary main_arg3 main_v178 (broadcastInDim S1200000x1 ![0] bcast_S1200000_S1200000x1_0 : (⟨S1200000, .i32⟩ : BufTy).Contents (Elt F) → (⟨S1200000x1, .i32⟩ : BufTy).Contents (Elt F)),
    StableHlo.ternary main_v177 main_v178 main_v176 main_v179 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

theorem msgOps2_writes : (msgOps2 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v180 to the one writing main_v210. -/
abbrev combOps2 : List (HloOp τ sig (Elt F)) :=
  [ StableHlo.unary main_arg15 main_v180 ((extractStridedSlice S1x64x32 ![2, 0, 0] · slices_S4x64x32_S1x64x32_2_0_0) : (⟨S4x64x32, .f32⟩ : BufTy).Contents (Elt F) → (⟨S1x64x32, .f32⟩ : BufTy).Contents (Elt F)),
    StableHlo.reshape main_v180 main_v181 rfl shapeCasts_S1x64x32_S64x32,
    StableHlo.binary main_v166 main_v181 main_v182 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v183 ((extractStridedSlice S1x32 ![2, 0] · slices_S4x32_S1x32_2_0) : (⟨S4x32, .f32⟩ : BufTy).Contents (Elt F) → (⟨S1x32, .f32⟩ : BufTy).Contents (Elt F)),
    StableHlo.reshape main_v183 main_v184 rfl shapeCasts_S1x32_S32,
    StableHlo.unary main_v184 main_v185 (broadcastInDim S1x32 ![1] bcast_S32_S1x32_1 : (⟨S32, .f32⟩ : BufTy).Contents (Elt F) → (⟨S1x32, .f32⟩ : BufTy).Contents (Elt F)),
    StableHlo.unary main_v185 main_v186 (broadcastInDim S100000x32 ![0, 1] bcast_S1x32_S100000x32_0_1 : (⟨S1x32, .f32⟩ : BufTy).Contents (Elt F) → (⟨S100000x32, .f32⟩ : BufTy).Contents (Elt F)),
    StableHlo.binary main_v182 main_v186 main_v187 (addf : (⟨S100000x32, .f32⟩ : BufTy).Contents (Elt F) → (⟨S100000x32, .f32⟩ : BufTy).Contents (Elt F) → (⟨S100000x32, .f32⟩ : BufTy).Contents (Elt F)),
    StableHlo.unary main_arg17 main_v188 ((extractStridedSlice S1x64x32 ![2, 0, 0] · slices_S4x64x32_S1x64x32_2_0_0) : (⟨S4x64x32, .f32⟩ : BufTy).Contents (Elt F) → (⟨S1x64x32, .f32⟩ : BufTy).Contents (Elt F)),
    StableHlo.reshape main_v188 main_v189 rfl shapeCasts_S1x64x32_S64x32,
    StableHlo.binary main_v179 main_v189 main_v190 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v191 ((extractStridedSlice S1x32 ![2, 0] · slices_S4x32_S1x32_2_0) : (⟨S4x32, .f32⟩ : BufTy).Contents (Elt F) → (⟨S1x32, .f32⟩ : BufTy).Contents (Elt F)),
    StableHlo.reshape main_v191 main_v192 rfl shapeCasts_S1x32_S32,
    StableHlo.unary main_v192 main_v193 (broadcastInDim S1x32 ![1] bcast_S32_S1x32_1 : (⟨S32, .f32⟩ : BufTy).Contents (Elt F) → (⟨S1x32, .f32⟩ : BufTy).Contents (Elt F)),
    StableHlo.unary main_v193 main_v194 (broadcastInDim S100000x32 ![0, 1] bcast_S1x32_S100000x32_0_1 : (⟨S1x32, .f32⟩ : BufTy).Contents (Elt F) → (⟨S100000x32, .f32⟩ : BufTy).Contents (Elt F)),
    StableHlo.binary main_v190 main_v194 main_v195 (addf : (⟨S100000x32, .f32⟩ : BufTy).Contents (Elt F) → (⟨S100000x32, .f32⟩ : BufTy).Contents (Elt F) → (⟨S100000x32, .f32⟩ : BufTy).Contents (Elt F)),
    StableHlo.binary main_v187 main_v195 main_v196 (addf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x00000000#32),
    StableHlo.unary main_cst_25 main_v197 (broadcastInDim S100000x32 ![] bcast_S_S100000x32 : (⟨S_, .f32⟩ : BufTy).Contents (Elt F) → (⟨S100000x32, .f32⟩ : BufTy).Contents (Elt F)),
    StableHlo.binary main_v196 main_v197 main_v198 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_26 (constant S_ .f32 0x3C23D70A#32),
    StableHlo.unary main_cst_26 main_v199 (broadcastInDim S100000x32 ![] bcast_S_S100000x32 : (⟨S_, .f32⟩ : BufTy).Contents (Elt F) → (⟨S100000x32, .f32⟩ : BufTy).Contents (Elt F)),
    StableHlo.binary main_v199 main_v196 main_v200 (mulf : (⟨S100000x32, .f32⟩ : BufTy).Contents (Elt F) → (⟨S100000x32, .f32⟩ : BufTy).Contents (Elt F) → (⟨S100000x32, .f32⟩ : BufTy).Contents (Elt F)),
    StableHlo.ternary main_v198 main_v196 main_v200 main_v201 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v202 ((extractStridedSlice S1x32x64 ![2, 0, 0] · slices_S4x32x64_S1x32x64_2_0_0) : (⟨S4x32x64, .f32⟩ : BufTy).Contents (Elt F) → (⟨S1x32x64, .f32⟩ : BufTy).Contents (Elt F)),
    StableHlo.reshape main_v202 main_v203 rfl shapeCasts_S1x32x64_S32x64,
    StableHlo.binary main_v201 main_v203 main_v204 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v205 ((extractStridedSlice S1x64 ![2, 0] · slices_S4x64_S1x64_2_0) : (⟨S4x64, .f32⟩ : BufTy).Contents (Elt F) → (⟨S1x64, .f32⟩ : BufTy).Contents (Elt F)),
    StableHlo.reshape main_v205 main_v206 rfl shapeCasts_S1x64_S64,
    StableHlo.unary main_v206 main_v207 (broadcastInDim S1x64 ![1] bcast_S64_S1x64_1 : (⟨S64, .f32⟩ : BufTy).Contents (Elt F) → (⟨S1x64, .f32⟩ : BufTy).Contents (Elt F)),
    StableHlo.unary main_v207 main_v208 (broadcastInDim S100000x64 ![0, 1] bcast_S1x64_S100000x64_0_1 : (⟨S1x64, .f32⟩ : BufTy).Contents (Elt F) → (⟨S100000x64, .f32⟩ : BufTy).Contents (Elt F)),
    StableHlo.binary main_v204 main_v208 main_v209 (addf : (⟨S100000x64, .f32⟩ : BufTy).Contents (Elt F) → (⟨S100000x64, .f32⟩ : BufTy).Contents (Elt F) → (⟨S100000x64, .f32⟩ : BufTy).Contents (Elt F)),
    StableHlo.binary main_v209 main_v166 main_v210 (addf : (⟨S100000x64, .f32⟩ : BufTy).Contents (Elt F) → (⟨S100000x64, .f32⟩ : BufTy).Contents (Elt F) → (⟨S100000x64, .f32⟩ : BufTy).Contents (Elt F)) ]

theorem combOps2_writes : (combOps2 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v211 to the one writing main_v232. -/
abbrev lnOps3 : List (HloOp τ sig (Elt F)) :=
  [ StableHlo.unary main_arg13 main_v211 ((extractStridedSlice S1x64 ![3, 0] · slices_S4x64_S1x64_3_0) : (⟨S4x64, .f32⟩ : BufTy).Contents (Elt F) → (⟨S1x64, .f32⟩ : BufTy).Contents (Elt F)),
    StableHlo.reshape main_v211 main_v212 rfl shapeCasts_S1x64_S64,
    StableHlo.unary main_arg14 main_v213 ((extractStridedSlice S1x64 ![3, 0] · slices_S4x64_S1x64_3_0) : (⟨S4x64, .f32⟩ : BufTy).Contents (Elt F) → (⟨S1x64, .f32⟩ : BufTy).Contents (Elt F)),
    StableHlo.reshape main_v213 main_v214 rfl shapeCasts_S1x64_S64,
    StableHlo.nullary main_cst_27 (constant S_ .f32 0x00000000#32),
    StableHlo.binary main_v210 main_cst_27 main_v215 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v215 main_v216 (broadcastInDim S100000x1 ![0] bcast_S100000_S100000x1_0 : (⟨S100000, .f32⟩ : BufTy).Contents (Elt F) → (⟨S100000x1, .f32⟩ : BufTy).Contents (Elt F)),
    StableHlo.nullary main_cst_28 (constant S_ .f32 0x42800000#32),
    StableHlo.unary main_cst_28 main_v217 (broadcastInDim S100000x1 ![] bcast_S_S100000x1 : (⟨S_, .f32⟩ : BufTy).Contents (Elt F) → (⟨S100000x1, .f32⟩ : BufTy).Contents (Elt F)),
    StableHlo.binary main_v216 main_v217 main_v218 (Host.divf : (⟨S100000x1, .f32⟩ : BufTy).Contents (Elt F) → (⟨S100000x1, .f32⟩ : BufTy).Contents (Elt F) → (⟨S100000x1, .f32⟩ : BufTy).Contents (Elt F)),
    StableHlo.nullary main_c_29 (constantI S_ 32 0#32),
    StableHlo.nullary main_call7_cst (constant S_ .f32 0x00000000#32),
    StableHlo.binary main_v210 main_call7_cst main_call7_v0 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call7_v0 main_call7_v1 ((broadcastInDim S100000x1 ![0] bcast_S100000_S100000x1_0) : (⟨S100000, .f32⟩ : BufTy).Contents (Elt F) → (⟨S100000x1, .f32⟩ : BufTy).Contents (Elt F)),
    StableHlo.nullary main_call7_cst_0 (constant S_ .f32 0x42800000#32),
    StableHlo.unary main_call7_cst_0 main_call7_v2 ((broadcastInDim S100000x1 ![] bcast_S_S100000x1) : (⟨S_, .f32⟩ : BufTy).Contents (Elt F) → (⟨S100000x1, .f32⟩ : BufTy).Contents (Elt F)),
    StableHlo.binary main_call7_v1 main_call7_v2 main_call7_v3 ((Host.divf) : (⟨S100000x1, .f32⟩ : BufTy).Contents (Elt F) → (⟨S100000x1, .f32⟩ : BufTy).Contents (Elt F) → (⟨S100000x1, .f32⟩ : BufTy).Contents (Elt F)),
    StableHlo.unary main_call7_v3 main_call7_v4 ((broadcastInDim S100000x64 ![0, 1] bcast_S100000x1_S100000x64_0_1) : (⟨S100000x1, .f32⟩ : BufTy).Contents (Elt F) → (⟨S100000x64, .f32⟩ : BufTy).Contents (Elt F)),
    StableHlo.binary main_v210 main_call7_v4 main_call7_v5 ((subf) : (⟨S100000x64, .f32⟩ : BufTy).Contents (Elt F) → (⟨S100000x64, .f32⟩ : BufTy).Contents (Elt F) → (⟨S100000x64, .f32⟩ : BufTy).Contents (Elt F)),
    StableHlo.binary main_call7_v5 main_call7_v5 main_call7_v6 ((mulf) : (⟨S100000x64, .f32⟩ : BufTy).Contents (Elt F) → (⟨S100000x64, .f32⟩ : BufTy).Contents (Elt F) → (⟨S100000x64, .f32⟩ : BufTy).Contents (Elt F)),
    StableHlo.unary main_c_29 main_call7_v7 ((sitofp .f32) : (⟨S_, .i32⟩ : BufTy).Contents (Elt F) → (⟨S_, .f32⟩ : BufTy).Contents (Elt F)),
    StableHlo.nullary main_call7_cst_1 (constant S_ .f32 0x42800000#32),
    StableHlo.binary main_call7_cst_1 main_call7_v7 main_call7_v8 ((subf) : (⟨S_, .f32⟩ : BufTy).Contents (Elt F) → (⟨S_, .f32⟩ : BufTy).Contents (Elt F) → (⟨S_, .f32⟩ : BufTy).Contents (Elt F)),
    StableHlo.nullary main_call7_cst_2 (constant S_ .f32 0x00000000#32),
    StableHlo.binary main_call7_v6 main_call7_cst_2 main_call7_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_call7_v9 main_call7_v10 ((broadcastInDim S100000x1 ![0] bcast_S100000_S100000x1_0) : (⟨S100000, .f32⟩ : BufTy).Contents (Elt F) → (⟨S100000x1, .f32⟩ : BufTy).Contents (Elt F)),
    StableHlo.unary main_call7_v8 main_call7_v11 ((broadcastInDim S100000x1 ![] bcast_S_S100000x1) : (⟨S_, .f32⟩ : BufTy).Contents (Elt F) → (⟨S100000x1, .f32⟩ : BufTy).Contents (Elt F)),
    StableHlo.binary main_call7_v10 main_call7_v11 main_call7_v12 ((Host.divf) : (⟨S100000x1, .f32⟩ : BufTy).Contents (Elt F) → (⟨S100000x1, .f32⟩ : BufTy).Contents (Elt F) → (⟨S100000x1, .f32⟩ : BufTy).Contents (Elt F)),
    StableHlo.nullary main_call7_cst_3 (constant S_ .f32 0x00000000#32),
    StableHlo.binary main_call7_v8 main_call7_cst_3 main_call7_v13 ((cmpf .ogt) : (⟨S_, .f32⟩ : BufTy).Contents (Elt F) → (⟨S_, .f32⟩ : BufTy).Contents (Elt F) → (⟨S_, .i1⟩ : BufTy).Contents (Elt F)),
    StableHlo.nullary main_call7_cst_4 (constant S_ .f32 0x7FC00000#32),
    StableHlo.unary main_call7_cst_4 main_call7_call0_v0 ((id) : (⟨S_, .f32⟩ : BufTy).Contents (Elt F) → (⟨S_, .f32⟩ : BufTy).Contents (Elt F)),
    StableHlo.unary main_call7_call0_v0 main_call7_call0_v1 ((broadcastInDim S100000x1 ![] bcast_S_S100000x1) : (⟨S_, .f32⟩ : BufTy).Contents (Elt F) → (⟨S100000x1, .f32⟩ : BufTy).Contents (Elt F)),
    StableHlo.ternary main_call7_v13 main_call7_v12 main_call7_call0_v1 main_v219 ((fun p a b => select (broadcastInDim S100000x1 ![] bcast_S_S100000x1 p) a b) : (⟨S_, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    StableHlo.unary main_v218 main_v220 (broadcastInDim S100000x64 ![0, 1] bcast_S100000x1_S100000x64_0_1 : (⟨S100000x1, .f32⟩ : BufTy).Contents (Elt F) → (⟨S100000x64, .f32⟩ : BufTy).Contents (Elt F)),
    StableHlo.binary main_v210 main_v220 main_v221 (subf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3727C5AC#32),
    StableHlo.unary main_cst_30 main_v222 (broadcastInDim S100000x1 ![] bcast_S_S100000x1 : (⟨S_, .f32⟩ : BufTy).Contents (Elt F) → (⟨S100000x1, .f32⟩ : BufTy).Contents (Elt F)),
    StableHlo.binary main_v219 main_v222 main_v223 (addf : (⟨S100000x1, .f32⟩ : BufTy).Contents (Elt F) → (⟨S100000x1, .f32⟩ : BufTy).Contents (Elt F) → (⟨S100000x1, .f32⟩ : BufTy).Contents (Elt F)),
    StableHlo.unary main_v223 main_v224 (Host.rsqrt : (⟨S100000x1, .f32⟩ : BufTy).Contents (Elt F) → (⟨S100000x1, .f32⟩ : BufTy).Contents (Elt F)),
    StableHlo.unary main_v224 main_v225 (broadcastInDim S100000x64 ![0, 1] bcast_S100000x1_S100000x64_0_1 : (⟨S100000x1, .f32⟩ : BufTy).Contents (Elt F) → (⟨S100000x64, .f32⟩ : BufTy).Contents (Elt F)),
    StableHlo.binary main_v221 main_v225 main_v226 (mulf : (⟨S100000x64, .f32⟩ : BufTy).Contents (Elt F) → (⟨S100000x64, .f32⟩ : BufTy).Contents (Elt F) → (⟨S100000x64, .f32⟩ : BufTy).Contents (Elt F)),
    StableHlo.unary main_v212 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S100000x64 ![0, 1] bcast_S1x64_S100000x64_0_1 : (⟨S1x64, .f32⟩ : BufTy).Contents (Elt F) → (⟨S100000x64, .f32⟩ : BufTy).Contents (Elt F)),
    StableHlo.binary main_v226 main_v228 main_v229 (mulf : (⟨S100000x64, .f32⟩ : BufTy).Contents (Elt F) → (⟨S100000x64, .f32⟩ : BufTy).Contents (Elt F) → (⟨S100000x64, .f32⟩ : BufTy).Contents (Elt F)),
    StableHlo.unary main_v214 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v231 main_v232 (addf : (⟨S100000x64, .f32⟩ : BufTy).Contents (Elt F) → (⟨S100000x64, .f32⟩ : BufTy).Contents (Elt F) → (⟨S100000x64, .f32⟩ : BufTy).Contents (Elt F)) ]

theorem lnOps3_writes : (lnOps3 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v233 to the one writing main_v245. -/
abbrev msgOps3 : List (HloOp τ sig (Elt F)) :=
  [ StableHlo.unary main_arg4 main_v233 (broadcastInDim S1200000x1 ![0] bcast_S1200000_S1200000x1_0 : (⟨S1200000, .f32⟩ : BufTy).Contents (Elt F) → (⟨S1200000x1, .f32⟩ : BufTy).Contents (Elt F)),
    StableHlo.nullary main_c_31 (constantI S_ 32 0#32),
    StableHlo.unary main_c_31 main_v234 (broadcastInDim S1200000 ![] bcast_S_S1200000 : (⟨S_, .i32⟩ : BufTy).Contents (Elt F) → (⟨S1200000, .i32⟩ : BufTy).Contents (Elt F)),
    StableHlo.binary main_arg2 main_v234 main_v235 (cmpi .slt : (⟨S1200000, .i32⟩ : BufTy).Contents (Elt F) → (⟨S1200000, .i32⟩ : BufTy).Contents (Elt F) → (⟨S1200000, .i1⟩ : BufTy).Contents (Elt F)),
    StableHlo.nullary main_c_32 (constantI S_ 32 100000#32),
    StableHlo.unary main_c_32 main_v236 (broadcastInDim S1200000 ![] bcast_S_S1200000 : (⟨S_, .i32⟩ : BufTy).Contents (Elt F) → (⟨S1200000, .i32⟩ : BufTy).Contents (Elt F)),
    StableHlo.binary main_arg2 main_v236 main_v237 (addi : (⟨S1200000, .i32⟩ : BufTy).Contents (Elt F) → (⟨S1200000, .i32⟩ : BufTy).Contents (Elt F) → (⟨S1200000, .i32⟩ : BufTy).Contents (Elt F)),
    StableHlo.ternary main_v235 main_v237 main_arg2 main_v238 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v238 main_v239 (broadcastInDim S1200000x1 ![0] bcast_S1200000_S1200000x1_0 : (⟨S1200000, .i32⟩ : BufTy).Contents (Elt F) → (⟨S1200000x1, .i32⟩ : BufTy).Contents (Elt F)),
    StableHlo.binary main_v232 main_v239 main_v240 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.unary main_v233 main_v241 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v241 main_v240 main_v242 (mulf : (⟨S1200000x64, .f32⟩ : BufTy).Contents (Elt F) → (⟨S1200000x64, .f32⟩ : BufTy).Contents (Elt F) → (⟨S1200000x64, .f32⟩ : BufTy).Contents (Elt F)),
    StableHlo.nullary main_cst_33 (constant S_ .f32 0x00000000#32),
    StableHlo.unary main_cst_33 main_v243 (broadcastInDim S100000x64 ![] bcast_S_S100000x64 : (⟨S_, .f32⟩ : BufTy).Contents (Elt F) → (⟨S100000x64, .f32⟩ : BufTy).Contents (Elt F)),
    StableHlo.unary main_arg3 main_v244 (broadcastInDim S1200000x1 ![0] bcast_S1200000_S1200000x1_0 : (⟨S1200000, .i32⟩ : BufTy).Contents (Elt F) → (⟨S1200000x1, .i32⟩ : BufTy).Contents (Elt F)),
    StableHlo.ternary main_v243 main_v244 main_v242 main_v245 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

theorem msgOps3_writes : (msgOps3 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v246 to the one writing main_v276. -/
abbrev combOps3 : List (HloOp τ sig (Elt F)) :=
  [ StableHlo.unary main_arg15 main_v246 ((extractStridedSlice S1x64x32 ![3, 0, 0] · slices_S4x64x32_S1x64x32_3_0_0) : (⟨S4x64x32, .f32⟩ : BufTy).Contents (Elt F) → (⟨S1x64x32, .f32⟩ : BufTy).Contents (Elt F)),
    StableHlo.reshape main_v246 main_v247 rfl shapeCasts_S1x64x32_S64x32,
    StableHlo.binary main_v232 main_v247 main_v248 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg16 main_v249 ((extractStridedSlice S1x32 ![3, 0] · slices_S4x32_S1x32_3_0) : (⟨S4x32, .f32⟩ : BufTy).Contents (Elt F) → (⟨S1x32, .f32⟩ : BufTy).Contents (Elt F)),
    StableHlo.reshape main_v249 main_v250 rfl shapeCasts_S1x32_S32,
    StableHlo.unary main_v250 main_v251 (broadcastInDim S1x32 ![1] bcast_S32_S1x32_1 : (⟨S32, .f32⟩ : BufTy).Contents (Elt F) → (⟨S1x32, .f32⟩ : BufTy).Contents (Elt F)),
    StableHlo.unary main_v251 main_v252 (broadcastInDim S100000x32 ![0, 1] bcast_S1x32_S100000x32_0_1 : (⟨S1x32, .f32⟩ : BufTy).Contents (Elt F) → (⟨S100000x32, .f32⟩ : BufTy).Contents (Elt F)),
    StableHlo.binary main_v248 main_v252 main_v253 (addf : (⟨S100000x32, .f32⟩ : BufTy).Contents (Elt F) → (⟨S100000x32, .f32⟩ : BufTy).Contents (Elt F) → (⟨S100000x32, .f32⟩ : BufTy).Contents (Elt F)),
    StableHlo.unary main_arg17 main_v254 ((extractStridedSlice S1x64x32 ![3, 0, 0] · slices_S4x64x32_S1x64x32_3_0_0) : (⟨S4x64x32, .f32⟩ : BufTy).Contents (Elt F) → (⟨S1x64x32, .f32⟩ : BufTy).Contents (Elt F)),
    StableHlo.reshape main_v254 main_v255 rfl shapeCasts_S1x64x32_S64x32,
    StableHlo.binary main_v245 main_v255 main_v256 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg18 main_v257 ((extractStridedSlice S1x32 ![3, 0] · slices_S4x32_S1x32_3_0) : (⟨S4x32, .f32⟩ : BufTy).Contents (Elt F) → (⟨S1x32, .f32⟩ : BufTy).Contents (Elt F)),
    StableHlo.reshape main_v257 main_v258 rfl shapeCasts_S1x32_S32,
    StableHlo.unary main_v258 main_v259 (broadcastInDim S1x32 ![1] bcast_S32_S1x32_1 : (⟨S32, .f32⟩ : BufTy).Contents (Elt F) → (⟨S1x32, .f32⟩ : BufTy).Contents (Elt F)),
    StableHlo.unary main_v259 main_v260 (broadcastInDim S100000x32 ![0, 1] bcast_S1x32_S100000x32_0_1 : (⟨S1x32, .f32⟩ : BufTy).Contents (Elt F) → (⟨S100000x32, .f32⟩ : BufTy).Contents (Elt F)),
    StableHlo.binary main_v256 main_v260 main_v261 (addf : (⟨S100000x32, .f32⟩ : BufTy).Contents (Elt F) → (⟨S100000x32, .f32⟩ : BufTy).Contents (Elt F) → (⟨S100000x32, .f32⟩ : BufTy).Contents (Elt F)),
    StableHlo.binary main_v253 main_v261 main_v262 (addf : (⟨S100000x32, .f32⟩ : BufTy).Contents (Elt F) → (⟨S100000x32, .f32⟩ : BufTy).Contents (Elt F) → (⟨S100000x32, .f32⟩ : BufTy).Contents (Elt F)),
    StableHlo.nullary main_cst_34 (constant S_ .f32 0x00000000#32),
    StableHlo.unary main_cst_34 main_v263 (broadcastInDim S100000x32 ![] bcast_S_S100000x32 : (⟨S_, .f32⟩ : BufTy).Contents (Elt F) → (⟨S100000x32, .f32⟩ : BufTy).Contents (Elt F)),
    StableHlo.binary main_v262 main_v263 main_v264 (cmpf .oge : (⟨S100000x32, .f32⟩ : BufTy).Contents (Elt F) → (⟨S100000x32, .f32⟩ : BufTy).Contents (Elt F) → (⟨S100000x32, .i1⟩ : BufTy).Contents (Elt F)),
    StableHlo.nullary main_cst_35 (constant S_ .f32 0x3C23D70A#32),
    StableHlo.unary main_cst_35 main_v265 (broadcastInDim S100000x32 ![] bcast_S_S100000x32 : (⟨S_, .f32⟩ : BufTy).Contents (Elt F) → (⟨S100000x32, .f32⟩ : BufTy).Contents (Elt F)),
    StableHlo.binary main_v265 main_v262 main_v266 (mulf : (⟨S100000x32, .f32⟩ : BufTy).Contents (Elt F) → (⟨S100000x32, .f32⟩ : BufTy).Contents (Elt F) → (⟨S100000x32, .f32⟩ : BufTy).Contents (Elt F)),
    StableHlo.ternary main_v264 main_v262 main_v266 main_v267 ((select) : (⟨S100000x32, .i1⟩ : BufTy).Contents (Elt F) → (⟨S100000x32, .f32⟩ : BufTy).Contents (Elt F) → (⟨S100000x32, .f32⟩ : BufTy).Contents (Elt F) → (⟨S100000x32, .f32⟩ : BufTy).Contents (Elt F)),
    StableHlo.unary main_arg19 main_v268 ((extractStridedSlice S1x32x64 ![3, 0, 0] · slices_S4x32x64_S1x32x64_3_0_0) : (⟨S4x32x64, .f32⟩ : BufTy).Contents (Elt F) → (⟨S1x32x64, .f32⟩ : BufTy).Contents (Elt F)),
    StableHlo.reshape main_v268 main_v269 rfl shapeCasts_S1x32x64_S32x64,
    StableHlo.binary main_v267 main_v269 main_v270 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg20 main_v271 ((extractStridedSlice S1x64 ![3, 0] · slices_S4x64_S1x64_3_0) : (⟨S4x64, .f32⟩ : BufTy).Contents (Elt F) → (⟨S1x64, .f32⟩ : BufTy).Contents (Elt F)),
    StableHlo.reshape main_v271 main_v272 rfl shapeCasts_S1x64_S64,
    StableHlo.unary main_v272 main_v273 (broadcastInDim S1x64 ![1] bcast_S64_S1x64_1 : (⟨S64, .f32⟩ : BufTy).Contents (Elt F) → (⟨S1x64, .f32⟩ : BufTy).Contents (Elt F)),
    StableHlo.unary main_v273 main_v274 (broadcastInDim S100000x64 ![0, 1] bcast_S1x64_S100000x64_0_1 : (⟨S1x64, .f32⟩ : BufTy).Contents (Elt F) → (⟨S100000x64, .f32⟩ : BufTy).Contents (Elt F)),
    StableHlo.binary main_v270 main_v274 main_v275 (addf : (⟨S100000x64, .f32⟩ : BufTy).Contents (Elt F) → (⟨S100000x64, .f32⟩ : BufTy).Contents (Elt F) → (⟨S100000x64, .f32⟩ : BufTy).Contents (Elt F)),
    StableHlo.binary main_v275 main_v232 main_v276 (addf : (⟨S100000x64, .f32⟩ : BufTy).Contents (Elt F) → (⟨S100000x64, .f32⟩ : BufTy).Contents (Elt F) → (⟨S100000x64, .f32⟩ : BufTy).Contents (Elt F)) ]

theorem combOps3_writes : (combOps3 : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- The stretch of @main's operations from the one writing main_v277 to the one writing main_v289. -/
abbrev decOps : List (HloOp τ sig (Elt F)) :=
  [ StableHlo.binary main_v276 main_arg9 main_v277 ((fun l r => Host.dotGeneral dot_S100000x64_S64x24_S100000x24_1_0_0_1_n_n none l r) : (⟨S100000x64, .f32⟩ : BufTy).Contents (Elt F) → (⟨S64x24, .f32⟩ : BufTy).Contents (Elt F) → (⟨S100000x24, .f32⟩ : BufTy).Contents (Elt F)),
    StableHlo.unary main_arg10 main_v278 (broadcastInDim S1x24 ![1] bcast_S24_S1x24_1 : (⟨S24, .f32⟩ : BufTy).Contents (Elt F) → (⟨S1x24, .f32⟩ : BufTy).Contents (Elt F)),
    StableHlo.unary main_v278 main_v279 (broadcastInDim S100000x24 ![0, 1] bcast_S1x24_S100000x24_0_1 : (⟨S1x24, .f32⟩ : BufTy).Contents (Elt F) → (⟨S100000x24, .f32⟩ : BufTy).Contents (Elt F)),
    StableHlo.binary main_v277 main_v279 main_v280 (addf : (⟨S100000x24, .f32⟩ : BufTy).Contents (Elt F) → (⟨S100000x24, .f32⟩ : BufTy).Contents (Elt F) → (⟨S100000x24, .f32⟩ : BufTy).Contents (Elt F)),
    StableHlo.nullary main_cst_36 (constant S_ .f32 0x00000000#32),
    StableHlo.unary main_cst_36 main_v281 (broadcastInDim S100000x24 ![] bcast_S_S100000x24 : (⟨S_, .f32⟩ : BufTy).Contents (Elt F) → (⟨S100000x24, .f32⟩ : BufTy).Contents (Elt F)),
    StableHlo.binary main_v280 main_v281 main_v282 (cmpf .oge : (⟨S100000x24, .f32⟩ : BufTy).Contents (Elt F) → (⟨S100000x24, .f32⟩ : BufTy).Contents (Elt F) → (⟨S100000x24, .i1⟩ : BufTy).Contents (Elt F)),
    StableHlo.nullary main_cst_37 (constant S_ .f32 0x3C23D70A#32),
    StableHlo.unary main_cst_37 main_v283 (broadcastInDim S100000x24 ![] bcast_S_S100000x24 : (⟨S_, .f32⟩ : BufTy).Contents (Elt F) → (⟨S100000x24, .f32⟩ : BufTy).Contents (Elt F)),
    StableHlo.binary main_v283 main_v280 main_v284 (mulf : (⟨S100000x24, .f32⟩ : BufTy).Contents (Elt F) → (⟨S100000x24, .f32⟩ : BufTy).Contents (Elt F) → (⟨S100000x24, .f32⟩ : BufTy).Contents (Elt F)),
    StableHlo.ternary main_v282 main_v280 main_v284 main_v285 ((select) : (⟨S100000x24, .i1⟩ : BufTy).Contents (Elt F) → (⟨S100000x24, .f32⟩ : BufTy).Contents (Elt F) → (⟨S100000x24, .f32⟩ : BufTy).Contents (Elt F) → (⟨S100000x24, .f32⟩ : BufTy).Contents (Elt F)),
    StableHlo.binary main_v285 main_arg11 main_v286 ((fun l r => Host.dotGeneral dot_S100000x24_S24x3_S100000x3_1_0_0_1_n_n none l r) : (⟨S100000x24, .f32⟩ : BufTy).Contents (Elt F) → (⟨S24x3, .f32⟩ : BufTy).Contents (Elt F) → (⟨S100000x3, .f32⟩ : BufTy).Contents (Elt F)),
    StableHlo.unary main_arg12 main_v287 (broadcastInDim S1x3 ![1] bcast_S3_S1x3_1 : (⟨S3, .f32⟩ : BufTy).Contents (Elt F) → (⟨S1x3, .f32⟩ : BufTy).Contents (Elt F)),
    StableHlo.unary main_v287 main_v288 (broadcastInDim S100000x3 ![0, 1] bcast_S1x3_S100000x3_0_1 : (⟨S1x3, .f32⟩ : BufTy).Contents (Elt F) → (⟨S100000x3, .f32⟩ : BufTy).Contents (Elt F)),
    StableHlo.binary main_v286 main_v288 main_v289 (addf : (⟨S100000x3, .f32⟩ : BufTy).Contents (Elt F) → (⟨S100000x3, .f32⟩ : BufTy).Contents (Elt F) → (⟨S100000x3, .f32⟩ : BufTy).Contents (Elt F)) ]

theorem decOps_writes : (decOps : List (HloOp τ sig (Elt F))).Forall fun op =>
    op.writes ⊆ (written.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- @main's operations are the stretches end to end. -/
theorem ops_eq_stages : (ops : List (HloOp τ sig (Elt F))) = encOps ++ (lnOps0 ++ (msgOps0 ++ (combOps0 ++ (lnOps1 ++ (msgOps1 ++ (combOps1 ++ (lnOps2 ++ (msgOps2 ++ (combOps2 ++ (lnOps3 ++ (msgOps3 ++ (combOps3 ++ (decOps))))))))))))) := rfl

end Cert.ReferenceIdeal.RefRun

end
-- ==== Proof.RefStages.lean ====
/-
  The reference's stages as functions.

  The reference's @main is a straight line of host operations.  Each definition below is the composition of the
  pure functions of one stretch of that line, in its order and with its shape evidence: the encoder (%0 … %12), one
  layer's normalisation (%17 … %34, the variance function and the select nested in it inlined), one layer's
  message aggregation (%35 … %47), one layer's update (%50 … %78 without the parameter slices) and the decoder
  (%277 … %289).  The four layers apply the same operations; only the rows of the stacked parameters differ, and
  those rows are arguments here.
-/
import proofs.«179626_j43602507989842_1_alg».proof.ReferenceIdeal

noncomputable section

namespace Cert.ReferenceIdeal.Stages

open Idealize.ShloMosaic Cert.ReferenceIdeal Cert.ReferenceIdeal.Facts₀

variable {F : FTy → Type} [FloatOps F] [Facts₀]

/-- The encoder, %0 … %12: `x · W1 + b1`, the leaky rectifier, `· W2 + b2`. -/
def encR (x : FVec F S100000x16 .f32) (W1 : FVec F S16x128 .f32) (b1 : FVec F S128 .f32)
    (W2 : FVec F S128x64 .f32) (b2 : FVec F S64 .f32) : FVec F S100000x64 .f32 :=
  let v0 : FVec F S100000x128 .f32 := Host.dotGeneral dot_S100000x16_S16x128_S100000x128_1_0_0_1_n_n none x W1
  let v1 : FVec F S1x128 .f32 := broadcastInDim S1x128 ![1] bcast_S128_S1x128_1 b1
  let v2 : FVec F S100000x128 .f32 := broadcastInDim S100000x128 ![0, 1] bcast_S1x128_S100000x128_0_1 v1
  let v3 : FVec F S100000x128 .f32 := addf v0 v2
  let cst : FVec F S_ .f32 := constant S_ .f32 0x00000000#32
  let v4 : FVec F S100000x128 .f32 := broadcastInDim S100000x128 ![] bcast_S_S100000x128 cst
  let v5 : IVec S100000x128 1 := cmpf .oge v3 v4
  let cst_0 : FVec F S_ .f32 := constant S_ .f32 0x3C23D70A#32
  let v6 : FVec F S100000x128 .f32 := broadcastInDim S100000x128 ![] bcast_S_S100000x128 cst_0
  let v7 : FVec F S100000x128 .f32 := mulf v6 v3
  let v8 : FVec F S100000x128 .f32 := select v5 v3 v7
  let v9 : FVec F S100000x64 .f32 := Host.dotGeneral dot_S100000x128_S128x64_S100000x64_1_0_0_1_n_n none v8 W2
  let v10 : FVec F S1x64 .f32 := broadcastInDim S1x64 ![1] bcast_S64_S1x64_1 b2
  let v11 : FVec F S100000x64 .f32 := broadcastInDim S100000x64 ![0, 1] bcast_S1x64_S100000x64_0_1 v10
  addf v9 v11

/-- The select of the variance function: `a` where the scalar predicate holds, the scalar `c` elsewhere. -/
def where0R (p : IVec S_ 1) (a : FVec F S100000x1 .f32) (c : FVec F S_ .f32) : FVec F S100000x1 .f32 :=
  let v0 : FVec F S_ .f32 := id c
  let v1 : FVec F S100000x1 .f32 := broadcastInDim S100000x1 ![] bcast_S_S100000x1 v0
  select (broadcastInDim S100000x1 ![] bcast_S_S100000x1 p) a v1

/-- The variance function: each row's sum of squared deviations from the row's mean, divided by `64 - ddof`,
    behind a select on `64 - ddof > 0`. -/
def varR (h : FVec F S100000x64 .f32) (ddof : IVec S_ 32) : FVec F S100000x1 .f32 :=
  let cst : FVec F S_ .f32 := constant S_ .f32 0x00000000#32
  let v0 : FVec F S100000 .f32 := Host.reduceAdd h cst reducesTo_S100000x64_S100000_d1 h_S_
  let v1 : FVec F S100000x1 .f32 := broadcastInDim S100000x1 ![0] bcast_S100000_S100000x1_0 v0
  let cst_0 : FVec F S_ .f32 := constant S_ .f32 0x42800000#32
  let v2 : FVec F S100000x1 .f32 := broadcastInDim S100000x1 ![] bcast_S_S100000x1 cst_0
  let v3 : FVec F S100000x1 .f32 := Host.divf v1 v2
  let v4 : FVec F S100000x64 .f32 := broadcastInDim S100000x64 ![0, 1] bcast_S100000x1_S100000x64_0_1 v3
  let v5 : FVec F S100000x64 .f32 := subf h v4
  let v6 : FVec F S100000x64 .f32 := mulf v5 v5
  let v7 : FVec F S_ .f32 := sitofp .f32 ddof
  let cst_1 : FVec F S_ .f32 := constant S_ .f32 0x42800000#32
  let v8 : FVec F S_ .f32 := subf cst_1 v7
  let cst_2 : FVec F S_ .f32 := constant S_ .f32 0x00000000#32
  let v9 : FVec F S100000 .f32 := Host.reduceAdd v6 cst_2 reducesTo_S100000x64_S100000_d1 h_S_
  let v10 : FVec F S100000x1 .f32 := broadcastInDim S100000x1 ![0] bcast_S100000_S100000x1_0 v9
  let v11 : FVec F S100000x1 .f32 := broadcastInDim S100000x1 ![] bcast_S_S100000x1 v8
  let v12 : FVec F S100000x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  where0R v13 v12 cst_4

/-- One layer's normalisation, %17 … %34 of the first layer: the row mean, the variance function, and
    `(h - mean) · rsqrt (var + ε) · g + b`; `g` and `b` are the layer's rows of the stacked parameters. -/
def lnR (h : FVec F S100000x64 .f32) (g b : FVec F S64 .f32) : FVec F S100000x64 .f32 :=
  let cst_1 : FVec F S_ .f32 := constant S_ .f32 0x00000000#32
  let v17 : FVec F S100000 .f32 := Host.reduceAdd h cst_1 reducesTo_S100000x64_S100000_d1 h_S_
  let v18 : FVec F S100000x1 .f32 := broadcastInDim S100000x1 ![0] bcast_S100000_S100000x1_0 v17
  let cst_2 : FVec F S_ .f32 := constant S_ .f32 0x42800000#32
  let v19 : FVec F S100000x1 .f32 := broadcastInDim S100000x1 ![] bcast_S_S100000x1 cst_2
  let v20 : FVec F S100000x1 .f32 := Host.divf v18 v19
  let c : IVec S_ 32 := constantI S_ 32 0#32
  let v21 : FVec F S100000x1 .f32 := varR h c
  let v22 : FVec F S100000x64 .f32 := broadcastInDim S100000x64 ![0, 1] bcast_S100000x1_S100000x64_0_1 v20
  let v23 : FVec F S100000x64 .f32 := subf h v22
  let cst_3 : FVec F S_ .f32 := constant S_ .f32 0x3727C5AC#32
  let v24 : FVec F S100000x1 .f32 := broadcastInDim S100000x1 ![] bcast_S_S100000x1 cst_3
  let v25 : FVec F S100000x1 .f32 := addf v21 v24
  let v26 : FVec F S100000x1 .f32 := Host.rsqrt v25
  let v27 : FVec F S100000x64 .f32 := broadcastInDim S100000x64 ![0, 1] bcast_S100000x1_S100000x64_0_1 v26
  let v28 : FVec F S100000x64 .f32 := mulf v23 v27
  let v29 : FVec F S1x64 .f32 := broadcastInDim S1x64 ![1] bcast_S64_S1x64_1 g
  let v30 : FVec F S100000x64 .f32 := broadcastInDim S100000x64 ![0, 1] bcast_S1x64_S100000x64_0_1 v29
  let v31 : FVec F S100000x64 .f32 := mulf v28 v30
  let v32 : FVec F S1x64 .f32 := broadcastInDim S1x64 ![1] bcast_S64_S1x64_1 b
  let v33 : FVec F S100000x64 .f32 := broadcastInDim S100000x64 ![0, 1] bcast_S1x64_S100000x64_0_1 v32
  addf v31 v33

/-- One layer's message aggregation, %35 … %47: a negative source index is shifted by the node count, the
    source rows are gathered, weighted by the edge weight, and scatter-added at the destination rows. -/
def msgR (hn : FVec F S100000x64 .f32) (src dst : IVec S1200000 32) (w : FVec F S1200000 .f32) :
    FVec F S100000x64 .f32 :=
  let v35 : FVec F S1200000x1 .f32 := broadcastInDim S1200000x1 ![0] bcast_S1200000_S1200000x1_0 w
  let c_4 : IVec S_ 32 := constantI S_ 32 0#32
  let v36 : IVec S1200000 32 := broadcastInDim S1200000 ![] bcast_S_S1200000 c_4
  let v37 : IVec S1200000 1 := cmpi .slt src v36
  let c_5 : IVec S_ 32 := constantI S_ 32 100000#32
  let v38 : IVec S1200000 32 := broadcastInDim S1200000 ![] bcast_S_S1200000 c_5
  let v39 : IVec S1200000 32 := addi src v38
  let v40 : IVec S1200000 32 := select v37 v39 src
  let v41 : IVec S1200000x1 32 := broadcastInDim S1200000x1 ![0] bcast_S1200000_S1200000x1_0 v40
  let v42 : FVec F S1200000x64 .f32 := Host.gather gather_S100000x64_S1200000x1_S1200000x64_1_0_n_n_0_1_164 hn v41
  let v43 : FVec F S1200000x64 .f32 := broadcastInDim S1200000x64 ![0, 1] bcast_S1200000x1_S1200000x64_0_1 v35
  let v44 : FVec F S1200000x64 .f32 := mulf v43 v42
  let cst_6 : FVec F S_ .f32 := constant S_ .f32 0x00000000#32
  let v45 : FVec F S100000x64 .f32 := broadcastInDim S100000x64 ![] bcast_S_S100000x64 cst_6
  let v46 : IVec S1200000x1 32 := broadcastInDim S1200000x1 ![0] bcast_S1200000_S1200000x1_0 dst
  Host.scatterAdd scatter_S100000x64_S1200000x1_S1200000x64_1_0_0_1 v45 v46 v44

/-- One layer's update, %50 … %78 without the parameter slices: `(hn · nw + nb) + (msg · ew + eb)`, the leaky
    rectifier, `· mw + mb`, plus `hn`. -/
def combR (hn msg : FVec F S100000x64 .f32) (nw : FVec F S64x32 .f32) (nb : FVec F S32 .f32)
    (ew : FVec F S64x32 .f32) (eb : FVec F S32 .f32) (mw : FVec F S32x64 .f32) (mb : FVec F S64 .f32) :
    FVec F S100000x64 .f32 :=
  let v50 : FVec F S100000x32 .f32 := Host.dotGeneral dot_S100000x64_S64x32_S100000x32_1_0_0_1_n_n none hn nw
  let v53 : FVec F S1x32 .f32 := broadcastInDim S1x32 ![1] bcast_S32_S1x32_1 nb
  let v54 : FVec F S100000x32 .f32 := broadcastInDim S100000x32 ![0, 1] bcast_S1x32_S100000x32_0_1 v53
  let v55 : FVec F S100000x32 .f32 := addf v50 v54
  let v58 : FVec F S100000x32 .f32 := Host.dotGeneral dot_S100000x64_S64x32_S100000x32_1_0_0_1_n_n none msg ew
  let v61 : FVec F S1x32 .f32 := broadcastInDim S1x32 ![1] bcast_S32_S1x32_1 eb
  let v62 : FVec F S100000x32 .f32 := broadcastInDim S100000x32 ![0, 1] bcast_S1x32_S100000x32_0_1 v61
  let v63 : FVec F S100000x32 .f32 := addf v58 v62
  let v64 : FVec F S100000x32 .f32 := addf v55 v63
  let cst_7 : FVec F S_ .f32 := constant S_ .f32 0x00000000#32
  let v65 : FVec F S100000x32 .f32 := broadcastInDim S100000x32 ![] bcast_S_S100000x32 cst_7
  let v66 : IVec S100000x32 1 := cmpf .oge v64 v65
  let cst_8 : FVec F S_ .f32 := constant S_ .f32 0x3C23D70A#32
  let v67 : FVec F S100000x32 .f32 := broadcastInDim S100000x32 ![] bcast_S_S100000x32 cst_8
  let v68 : FVec F S100000x32 .f32 := mulf v67 v64
  let v69 : FVec F S100000x32 .f32 := select v66 v64 v68
  let v72 : FVec F S100000x64 .f32 := Host.dotGeneral dot_S100000x32_S32x64_S100000x64_1_0_0_1_n_n none v69 mw
  let v75 : FVec F S1x64 .f32 := broadcastInDim S1x64 ![1] bcast_S64_S1x64_1 mb
  let v76 : FVec F S100000x64 .f32 := broadcastInDim S100000x64 ![0, 1] bcast_S1x64_S100000x64_0_1 v75
  let v77 : FVec F S100000x64 .f32 := addf v72 v76
  addf v77 hn

/-- The decoder, %277 … %289: `h · W1 + b1`, the leaky rectifier, `· W2 + b2`. -/
def decR (h : FVec F S100000x64 .f32) (W1 : FVec F S64x24 .f32) (b1 : FVec F S24 .f32)
    (W2 : FVec F S24x3 .f32) (b2 : FVec F S3 .f32) : FVec F S100000x3 .f32 :=
  let v277 : FVec F S100000x24 .f32 := Host.dotGeneral dot_S100000x64_S64x24_S100000x24_1_0_0_1_n_n none h W1
  let v278 : FVec F S1x24 .f32 := broadcastInDim S1x24 ![1] bcast_S24_S1x24_1 b1
  let v279 : FVec F S100000x24 .f32 := broadcastInDim S100000x24 ![0, 1] bcast_S1x24_S100000x24_0_1 v278
  let v280 : FVec F S100000x24 .f32 := addf v277 v279
  let cst_36 : FVec F S_ .f32 := constant S_ .f32 0x00000000#32
  let v281 : FVec F S100000x24 .f32 := broadcastInDim S100000x24 ![] bcast_S_S100000x24 cst_36
  let v282 : IVec S100000x24 1 := cmpf .oge v280 v281
  let cst_37 : FVec F S_ .f32 := constant S_ .f32 0x3C23D70A#32
  let v283 : FVec F S100000x24 .f32 := broadcastInDim S100000x24 ![] bcast_S_S100000x24 cst_37
  let v284 : FVec F S100000x24 .f32 := mulf v283 v280
  let v285 : FVec F S100000x24 .f32 := select v282 v280 v284
  let v286 : FVec F S100000x3 .f32 := Host.dotGeneral dot_S100000x24_S24x3_S100000x3_1_0_0_1_n_n none v285 W2
  let v287 : FVec F S1x3 .f32 := broadcastInDim S1x3 ![1] bcast_S3_S1x3_1 b2
  let v288 : FVec F S100000x3 .f32 := broadcastInDim S100000x3 ![0, 1] bcast_S1x3_S100000x3_0_1 v287
  addf v286 v288

end Cert.ReferenceIdeal.Stages

end
-- ==== Proof.RefOut.lean ====
/-
  What the reference computes, as one function of its arguments' contents.

  @main's operations fall into consecutive stretches: the encoder; four times a normalisation, a message aggregation
  and an update; the decoder.  Each stretch reads a few buffers and leaves one result, and that result is the stage
  function of Proof/RefStages.lean at what the stretch read (each `*_out`: the fold unrolled, every operation's
  result at its own buffer rewritten to its function's value, the two sides then the same term).  A stretch leaves
  alone every reference no operation of @main writes (`*_frame`), and the aggregation leaves the normalised features
  (`msgK_keep`).  Put end to end (`after_append`) the stretches give the result buffer as `refOut` of the arguments'
  launch contents, and the arguments unchanged.
-/
import proofs.«179626_j43602507989842_1_alg».proof.Proof.RefSegs
import proofs.«179626_j43602507989842_1_alg».proof.Proof.RefStages

noncomputable section

namespace Cert.ReferenceIdeal.RefRun

open Cert.ReferenceIdeal Cert.ReferenceIdeal.Gen Cert.ReferenceIdeal.Stages Idealize.ShloMosaic Idealize.ShloMosaic.TcCoe
  Idealize.SL.Sem Idealize.ShloMosaic.StableHlo

variable {F : FTy → Type} [FloatOps F]

/-! ## The function -/

/-- A row block of a stacked `[4, 64]` parameter as a vector: the printed slice, then the printed reshape. -/
abbrev row64 (a : FVec F S4x64 .f32) (o : Fin S4x64.rank → Nat) (h : S4x64.Slices o S1x64) : FVec F S64 .f32 :=
  shapeCast S64 (extractStridedSlice S1x64 o a h) shapeCasts_S1x64_S64
/-- A row block of a stacked `[4, 32]` parameter as a vector. -/
abbrev row32 (a : FVec F S4x32 .f32) (o : Fin S4x32.rank → Nat) (h : S4x32.Slices o S1x32) : FVec F S32 .f32 :=
  shapeCast S32 (extractStridedSlice S1x32 o a h) shapeCasts_S1x32_S32
/-- A slab of a stacked `[4, 64, 32]` parameter as a matrix. -/
abbrev mat6432 (a : FVec F S4x64x32 .f32) (o : Fin S4x64x32.rank → Nat) (h : S4x64x32.Slices o S1x64x32) : FVec F S64x32 .f32 :=
  shapeCast S64x32 (extractStridedSlice S1x64x32 o a h) shapeCasts_S1x64x32_S64x32
/-- A slab of a stacked `[4, 32, 64]` parameter as a matrix. -/
abbrev mat3264 (a : FVec F S4x32x64 .f32) (o : Fin S4x32x64.rank → Nat) (h : S4x32x64.Slices o S1x32x64) : FVec F S32x64 .f32 :=
  shapeCast S32x64 (extractStridedSlice S1x32x64 o a h) shapeCasts_S1x32x64_S32x64

/-- One message-passing layer on its own parameters: normalise, aggregate the weighted neighbours, update. -/
def layerR (h : FVec F S100000x64 .f32) (src dst : IVec S1200000 32) (w : FVec F S1200000 .f32) (g b : FVec F S64 .f32)
    (nw : FVec F S64x32 .f32) (nb : FVec F S32 .f32) (ew : FVec F S64x32 .f32) (eb : FVec F S32 .f32)
    (mw : FVec F S32x64 .f32) (mb : FVec F S64 .f32) : FVec F S100000x64 .f32 :=
  combR (lnR h g b) (msgR (lnR h g b) src dst w) nw nb ew eb mw mb

/-- Layer 0: `layerR` on row / slab 0 of the stacked parameters. -/
def layer0 (h : FVec F S100000x64 .f32) (a2 a3 : IVec S1200000 32) (a4 : FVec F S1200000 .f32)
    (a13 a14 : FVec F S4x64 .f32) (a15 : FVec F S4x64x32 .f32) (a16 : FVec F S4x32 .f32) (a17 : FVec F S4x64x32 .f32)
    (a18 : FVec F S4x32 .f32) (a19 : FVec F S4x32x64 .f32) (a20 : FVec F S4x64 .f32) : FVec F S100000x64 .f32 :=
  layerR h a2 a3 a4 (row64 a13 ![0, 0] slices_S4x64_S1x64_0_0) (row64 a14 ![0, 0] slices_S4x64_S1x64_0_0)
        (mat6432 a15 ![0, 0, 0] slices_S4x64x32_S1x64x32_0_0_0) (row32 a16 ![0, 0] slices_S4x32_S1x32_0_0) (mat6432 a17 ![0, 0, 0] slices_S4x64x32_S1x64x32_0_0_0) (row32 a18 ![0, 0] slices_S4x32_S1x32_0_0)
        (mat3264 a19 ![0, 0, 0] slices_S4x32x64_S1x32x64_0_0_0) (row64 a20 ![0, 0] slices_S4x64_S1x64_0_0)

/-- Layer 1: `layerR` on row / slab 1 of the stacked parameters. -/
def layer1 (h : FVec F S100000x64 .f32) (a2 a3 : IVec S1200000 32) (a4 : FVec F S1200000 .f32)
    (a13 a14 : FVec F S4x64 .f32) (a15 : FVec F S4x64x32 .f32) (a16 : FVec F S4x32 .f32) (a17 : FVec F S4x64x32 .f32)
    (a18 : FVec F S4x32 .f32) (a19 : FVec F S4x32x64 .f32) (a20 : FVec F S4x64 .f32) : FVec F S100000x64 .f32 :=
  layerR h a2 a3 a4 (row64 a13 ![1, 0] slices_S4x64_S1x64_1_0) (row64 a14 ![1, 0] slices_S4x64_S1x64_1_0)
        (mat6432 a15 ![1, 0, 0] slices_S4x64x32_S1x64x32_1_0_0) (row32 a16 ![1, 0] slices_S4x32_S1x32_1_0) (mat6432 a17 ![1, 0, 0] slices_S4x64x32_S1x64x32_1_0_0) (row32 a18 ![1, 0] slices_S4x32_S1x32_1_0)
        (mat3264 a19 ![1, 0, 0] slices_S4x32x64_S1x32x64_1_0_0) (row64 a20 ![1, 0] slices_S4x64_S1x64_1_0)

/-- Layer 2: `layerR` on row / slab 2 of the stacked parameters. -/
def layer2 (h : FVec F S100000x64 .f32) (a2 a3 : IVec S1200000 32) (a4 : FVec F S1200000 .f32)
    (a13 a14 : FVec F S4x64 .f32) (a15 : FVec F S4x64x32 .f32) (a16 : FVec F S4x32 .f32) (a17 : FVec F S4x64x32 .f32)
    (a18 : FVec F S4x32 .f32) (a19 : FVec F S4x32x64 .f32) (a20 : FVec F S4x64 .f32) : FVec F S100000x64 .f32 :=
  layerR h a2 a3 a4 (row64 a13 ![2, 0] slices_S4x64_S1x64_2_0) (row64 a14 ![2, 0] slices_S4x64_S1x64_2_0)
        (mat6432 a15 ![2, 0, 0] slices_S4x64x32_S1x64x32_2_0_0) (row32 a16 ![2, 0] slices_S4x32_S1x32_2_0) (mat6432 a17 ![2, 0, 0] slices_S4x64x32_S1x64x32_2_0_0) (row32 a18 ![2, 0] slices_S4x32_S1x32_2_0)
        (mat3264 a19 ![2, 0, 0] slices_S4x32x64_S1x32x64_2_0_0) (row64 a20 ![2, 0] slices_S4x64_S1x64_2_0)

/-- Layer 3: `layerR` on row / slab 3 of the stacked parameters. -/
def layer3 (h : FVec F S100000x64 .f32) (a2 a3 : IVec S1200000 32) (a4 : FVec F S1200000 .f32)
    (a13 a14 : FVec F S4x64 .f32) (a15 : FVec F S4x64x32 .f32) (a16 : FVec F S4x32 .f32) (a17 : FVec F S4x64x32 .f32)
    (a18 : FVec F S4x32 .f32) (a19 : FVec F S4x32x64 .f32) (a20 : FVec F S4x64 .f32) : FVec F S100000x64 .f32 :=
  layerR h a2 a3 a4 (row64 a13 ![3, 0] slices_S4x64_S1x64_3_0) (row64 a14 ![3, 0] slices_S4x64_S1x64_3_0)
        (mat6432 a15 ![3, 0, 0] slices_S4x64x32_S1x64x32_3_0_0) (row32 a16 ![3, 0] slices_S4x32_S1x32_3_0) (mat6432 a17 ![3, 0, 0] slices_S4x64x32_S1x64x32_3_0_0) (row32 a18 ![3, 0] slices_S4x32_S1x32_3_0)
        (mat3264 a19 ![3, 0, 0] slices_S4x32x64_S1x32x64_3_0_0) (row64 a20 ![3, 0] slices_S4x64_S1x64_3_0)

/-- The whole network: the encoder, the four layers, the decoder (the node positions, argument 1, are not read). -/
def refOut (a0 : FVec F S100000x16 .f32) (a2 a3 : IVec S1200000 32) (a4 : FVec F S1200000 .f32)
    (a5 : FVec F S16x128 .f32) (a6 : FVec F S128 .f32) (a7 : FVec F S128x64 .f32) (a8 : FVec F S64 .f32)
    (a9 : FVec F S64x24 .f32) (a10 : FVec F S24 .f32) (a11 : FVec F S24x3 .f32) (a12 : FVec F S3 .f32)
    (a13 a14 : FVec F S4x64 .f32) (a15 : FVec F S4x64x32 .f32) (a16 : FVec F S4x32 .f32) (a17 : FVec F S4x64x32 .f32)
    (a18 : FVec F S4x32 .f32) (a19 : FVec F S4x32x64 .f32) (a20 : FVec F S4x64 .f32) : FVec F S100000x3 .f32 :=
  decR
    (layer3 (layer2 (layer1 (layer0 (encR a0 a5 a6 a7 a8)
      a2 a3 a4 a13 a14 a15 a16 a17 a18 a19 a20)
      a2 a3 a4 a13 a14 a15 a16 a17 a18 a19 a20)
      a2 a3 a4 a13 a14 a15 a16 a17 a18 a19 a20)
      a2 a3 a4 a13 a14 a15 a16 a17 a18 a19 a20)
    a9 a10 a11 a12

/-! ## Each stretch's result -/

attribute [local irreducible] Host.gather Host.scatterAdd Host.reduceAdd

theorem enc_out (W : Valuation τ sig (Elt F)) :
    after encOps W (main_v12 : DevRef τ sig)
      = encR (W (main_arg0 : DevRef τ sig)) (W (main_arg5 : DevRef τ sig)) (W (main_arg6 : DevRef τ sig)) (W (main_arg7 : DevRef τ sig)) (W (main_arg8 : DevRef τ sig)) := by
  after_results_simp
  rfl

theorem dec_out (W : Valuation τ sig (Elt F)) :
    after decOps W (main_v289 : DevRef τ sig)
      = decR (W (main_v276 : DevRef τ sig)) (W (main_arg9 : DevRef τ sig)) (W (main_arg10 : DevRef τ sig)) (W (main_arg11 : DevRef τ sig)) (W (main_arg12 : DevRef τ sig)) := by
  after_results_simp
  rfl

set_option maxRecDepth 8192 in
theorem ln0_out (W : Valuation τ sig (Elt F)) :
    after lnOps0 W (main_v34 : DevRef τ sig)
      = lnR (W (main_v12 : DevRef τ sig)) (row64 (W (main_arg13 : DevRef τ sig)) ![0, 0] slices_S4x64_S1x64_0_0) (row64 (W (main_arg14 : DevRef τ sig)) ![0, 0] slices_S4x64_S1x64_0_0) := by
  after_results_simp
  rfl

theorem msg0_out (W : Valuation τ sig (Elt F)) :
    after msgOps0 W (main_v47 : DevRef τ sig)
      = msgR (W (main_v34 : DevRef τ sig)) (W (main_arg2 : DevRef τ sig)) (W (main_arg3 : DevRef τ sig)) (W (main_arg4 : DevRef τ sig)) := by
  after_results_simp
  rfl

/-- The aggregation leaves the normalised features where they are. -/
theorem msg0_keep (W : Valuation τ sig (Elt F)) :
    after msgOps0 W (main_v34 : DevRef τ sig) = W (main_v34 : DevRef τ sig) := by
  after_results_simp

set_option maxRecDepth 8192 in
theorem comb0_out (W : Valuation τ sig (Elt F)) :
    after combOps0 W (main_v78 : DevRef τ sig)
      = combR (W (main_v34 : DevRef τ sig)) (W (main_v47 : DevRef τ sig))
        (mat6432 (W (main_arg15 : DevRef τ sig)) ![0, 0, 0] slices_S4x64x32_S1x64x32_0_0_0) (row32 (W (main_arg16 : DevRef τ sig)) ![0, 0] slices_S4x32_S1x32_0_0) (mat6432 (W (main_arg17 : DevRef τ sig)) ![0, 0, 0] slices_S4x64x32_S1x64x32_0_0_0) (row32 (W (main_arg18 : DevRef τ sig)) ![0, 0] slices_S4x32_S1x32_0_0)
        (mat3264 (W (main_arg19 : DevRef τ sig)) ![0, 0, 0] slices_S4x32x64_S1x32x64_0_0_0) (row64 (W (main_arg20 : DevRef τ sig)) ![0, 0] slices_S4x64_S1x64_0_0) := by
  after_results_simp
  rfl

set_option maxRecDepth 8192 in
theorem ln1_out (W : Valuation τ sig (Elt F)) :
    after lnOps1 W (main_v100 : DevRef τ sig)
      = lnR (W (main_v78 : DevRef τ sig)) (row64 (W (main_arg13 : DevRef τ sig)) ![1, 0] slices_S4x64_S1x64_1_0) (row64 (W (main_arg14 : DevRef τ sig)) ![1, 0] slices_S4x64_S1x64_1_0) := by
  after_results_simp
  rfl

theorem msg1_out (W : Valuation τ sig (Elt F)) :
    after msgOps1 W (main_v113 : DevRef τ sig)
      = msgR (W (main_v100 : DevRef τ sig)) (W (main_arg2 : DevRef τ sig)) (W (main_arg3 : DevRef τ sig)) (W (main_arg4 : DevRef τ sig)) := by
  after_results_simp
  rfl

/-- The aggregation leaves the normalised features where they are. -/
theorem msg1_keep (W : Valuation τ sig (Elt F)) :
    after msgOps1 W (main_v100 : DevRef τ sig) = W (main_v100 : DevRef τ sig) := by
  after_results_simp

set_option maxRecDepth 8192 in
theorem comb1_out (W : Valuation τ sig (Elt F)) :
    after combOps1 W (main_v144 : DevRef τ sig)
      = combR (W (main_v100 : DevRef τ sig)) (W (main_v113 : DevRef τ sig))
        (mat6432 (W (main_arg15 : DevRef τ sig)) ![1, 0, 0] slices_S4x64x32_S1x64x32_1_0_0) (row32 (W (main_arg16 : DevRef τ sig)) ![1, 0] slices_S4x32_S1x32_1_0) (mat6432 (W (main_arg17 : DevRef τ sig)) ![1, 0, 0] slices_S4x64x32_S1x64x32_1_0_0) (row32 (W (main_arg18 : DevRef τ sig)) ![1, 0] slices_S4x32_S1x32_1_0)
        (mat3264 (W (main_arg19 : DevRef τ sig)) ![1, 0, 0] slices_S4x32x64_S1x32x64_1_0_0) (row64 (W (main_arg20 : DevRef τ sig)) ![1, 0] slices_S4x64_S1x64_1_0) := by
  after_results_simp
  rfl

set_option maxRecDepth 8192 in
theorem ln2_out (W : Valuation τ sig (Elt F)) :
    after lnOps2 W (main_v166 : DevRef τ sig)
      = lnR (W (main_v144 : DevRef τ sig)) (row64 (W (main_arg13 : DevRef τ sig)) ![2, 0] slices_S4x64_S1x64_2_0) (row64 (W (main_arg14 : DevRef τ sig)) ![2, 0] slices_S4x64_S1x64_2_0) := by
  after_results_simp
  rfl

theorem msg2_out (W : Valuation τ sig (Elt F)) :
    after msgOps2 W (main_v179 : DevRef τ sig)
      = msgR (W (main_v166 : DevRef τ sig)) (W (main_arg2 : DevRef τ sig)) (W (main_arg3 : DevRef τ sig)) (W (main_arg4 : DevRef τ sig)) := by
  after_results_simp
  rfl

/-- The aggregation leaves the normalised features where they are. -/
theorem msg2_keep (W : Valuation τ sig (Elt F)) :
    after msgOps2 W (main_v166 : DevRef τ sig) = W (main_v166 : DevRef τ sig) := by
  after_results_simp

set_option maxRecDepth 8192 in
theorem comb2_out (W : Valuation τ sig (Elt F)) :
    after combOps2 W (main_v210 : DevRef τ sig)
      = combR (W (main_v166 : DevRef τ sig)) (W (main_v179 : DevRef τ sig))
        (mat6432 (W (main_arg15 : DevRef τ sig)) ![2, 0, 0] slices_S4x64x32_S1x64x32_2_0_0) (row32 (W (main_arg16 : DevRef τ sig)) ![2, 0] slices_S4x32_S1x32_2_0) (mat6432 (W (main_arg17 : DevRef τ sig)) ![2, 0, 0] slices_S4x64x32_S1x64x32_2_0_0) (row32 (W (main_arg18 : DevRef τ sig)) ![2, 0] slices_S4x32_S1x32_2_0)
        (mat3264 (W (main_arg19 : DevRef τ sig)) ![2, 0, 0] slices_S4x32x64_S1x32x64_2_0_0) (row64 (W (main_arg20 : DevRef τ sig)) ![2, 0] slices_S4x64_S1x64_2_0) := by
  after_results_simp
  rfl

set_option maxRecDepth 8192 in
theorem ln3_out (W : Valuation τ sig (Elt F)) :
    after lnOps3 W (main_v232 : DevRef τ sig)
      = lnR (W (main_v210 : DevRef τ sig)) (row64 (W (main_arg13 : DevRef τ sig)) ![3, 0] slices_S4x64_S1x64_3_0) (row64 (W (main_arg14 : DevRef τ sig)) ![3, 0] slices_S4x64_S1x64_3_0) := by
  after_results_simp
  rfl

theorem msg3_out (W : Valuation τ sig (Elt F)) :
    after msgOps3 W (main_v245 : DevRef τ sig)
      = msgR (W (main_v232 : DevRef τ sig)) (W (main_arg2 : DevRef τ sig)) (W (main_arg3 : DevRef τ sig)) (W (main_arg4 : DevRef τ sig)) := by
  after_results_simp
  rfl

/-- The aggregation leaves the normalised features where they are. -/
theorem msg3_keep (W : Valuation τ sig (Elt F)) :
    after msgOps3 W (main_v232 : DevRef τ sig) = W (main_v232 : DevRef τ sig) := by
  after_results_simp

set_option maxRecDepth 8192 in
theorem comb3_out (W : Valuation τ sig (Elt F)) :
    after combOps3 W (main_v276 : DevRef τ sig)
      = combR (W (main_v232 : DevRef τ sig)) (W (main_v245 : DevRef τ sig))
        (mat6432 (W (main_arg15 : DevRef τ sig)) ![3, 0, 0] slices_S4x64x32_S1x64x32_3_0_0) (row32 (W (main_arg16 : DevRef τ sig)) ![3, 0] slices_S4x32_S1x32_3_0) (mat6432 (W (main_arg17 : DevRef τ sig)) ![3, 0, 0] slices_S4x64x32_S1x64x32_3_0_0) (row32 (W (main_arg18 : DevRef τ sig)) ![3, 0] slices_S4x32_S1x32_3_0)
        (mat3264 (W (main_arg19 : DevRef τ sig)) ![3, 0, 0] slices_S4x32x64_S1x32x64_3_0_0) (row64 (W (main_arg20 : DevRef τ sig)) ![3, 0] slices_S4x64_S1x64_3_0) := by
  after_results_simp
  rfl

/-! ## What a stretch leaves alone -/

theorem enc_frame (W : Valuation τ sig (Elt F)) (r : Ref sig .tc) (hr : r ∉ written) :
    after encOps W (no_index (Proc.devRef .tc r)) = W (Proc.devRef .tc r) :=
  after_of_writes_sub encOps W encOps_writes hr

theorem ln0_frame (W : Valuation τ sig (Elt F)) (r : Ref sig .tc) (hr : r ∉ written) :
    after lnOps0 W (no_index (Proc.devRef .tc r)) = W (Proc.devRef .tc r) :=
  after_of_writes_sub lnOps0 W lnOps0_writes hr

theorem msg0_frame (W : Valuation τ sig (Elt F)) (r : Ref sig .tc) (hr : r ∉ written) :
    after msgOps0 W (no_index (Proc.devRef .tc r)) = W (Proc.devRef .tc r) :=
  after_of_writes_sub msgOps0 W msgOps0_writes hr

theorem comb0_frame (W : Valuation τ sig (Elt F)) (r : Ref sig .tc) (hr : r ∉ written) :
    after combOps0 W (no_index (Proc.devRef .tc r)) = W (Proc.devRef .tc r) :=
  after_of_writes_sub combOps0 W combOps0_writes hr

theorem ln1_frame (W : Valuation τ sig (Elt F)) (r : Ref sig .tc) (hr : r ∉ written) :
    after lnOps1 W (no_index (Proc.devRef .tc r)) = W (Proc.devRef .tc r) :=
  after_of_writes_sub lnOps1 W lnOps1_writes hr

theorem msg1_frame (W : Valuation τ sig (Elt F)) (r : Ref sig .tc) (hr : r ∉ written) :
    after msgOps1 W (no_index (Proc.devRef .tc r)) = W (Proc.devRef .tc r) :=
  after_of_writes_sub msgOps1 W msgOps1_writes hr

theorem comb1_frame (W : Valuation τ sig (Elt F)) (r : Ref sig .tc) (hr : r ∉ written) :
    after combOps1 W (no_index (Proc.devRef .tc r)) = W (Proc.devRef .tc r) :=
  after_of_writes_sub combOps1 W combOps1_writes hr

theorem ln2_frame (W : Valuation τ sig (Elt F)) (r : Ref sig .tc) (hr : r ∉ written) :
    after lnOps2 W (no_index (Proc.devRef .tc r)) = W (Proc.devRef .tc r) :=
  after_of_writes_sub lnOps2 W lnOps2_writes hr

theorem msg2_frame (W : Valuation τ sig (Elt F)) (r : Ref sig .tc) (hr : r ∉ written) :
    after msgOps2 W (no_index (Proc.devRef .tc r)) = W (Proc.devRef .tc r) :=
  after_of_writes_sub msgOps2 W msgOps2_writes hr

theorem comb2_frame (W : Valuation τ sig (Elt F)) (r : Ref sig .tc) (hr : r ∉ written) :
    after combOps2 W (no_index (Proc.devRef .tc r)) = W (Proc.devRef .tc r) :=
  after_of_writes_sub combOps2 W combOps2_writes hr

theorem ln3_frame (W : Valuation τ sig (Elt F)) (r : Ref sig .tc) (hr : r ∉ written) :
    after lnOps3 W (no_index (Proc.devRef .tc r)) = W (Proc.devRef .tc r) :=
  after_of_writes_sub lnOps3 W lnOps3_writes hr

theorem msg3_frame (W : Valuation τ sig (Elt F)) (r : Ref sig .tc) (hr : r ∉ written) :
    after msgOps3 W (no_index (Proc.devRef .tc r)) = W (Proc.devRef .tc r) :=
  after_of_writes_sub msgOps3 W msgOps3_writes hr

theorem comb3_frame (W : Valuation τ sig (Elt F)) (r : Ref sig .tc) (hr : r ∉ written) :
    after combOps3 W (no_index (Proc.devRef .tc r)) = W (Proc.devRef .tc r) :=
  after_of_writes_sub combOps3 W combOps3_writes hr

theorem dec_frame (W : Valuation τ sig (Elt F)) (r : Ref sig .tc) (hr : r ∉ written) :
    after decOps W (no_index (Proc.devRef .tc r)) = W (Proc.devRef .tc r) :=
  after_of_writes_sub decOps W decOps_writes hr

/-! ## A layer: its three stretches end to end -/

theorem layer0_out (W : Valuation τ sig (Elt F)) :
    after combOps0 (after msgOps0 (after lnOps0 W)) (main_v78 : DevRef τ sig)
      = layer0 (W (main_v12 : DevRef τ sig)) (W (main_arg2 : DevRef τ sig)) (W (main_arg3 : DevRef τ sig)) (W (main_arg4 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) (W (main_arg20 : DevRef τ sig)) := by
  rw [comb0_out, msg0_out, msg0_keep, ln0_out]
  simp (disch := decide) only [msg0_frame, ln0_frame]
  rfl

theorem layer0_frame (W : Valuation τ sig (Elt F)) (r : Ref sig .tc) (hr : r ∉ written) :
    after combOps0 (after msgOps0 (after lnOps0 W)) (no_index (Proc.devRef .tc r)) = W (Proc.devRef .tc r) := by
  rw [comb0_frame _ r hr, msg0_frame _ r hr, ln0_frame _ r hr]

theorem layer1_out (W : Valuation τ sig (Elt F)) :
    after combOps1 (after msgOps1 (after lnOps1 W)) (main_v144 : DevRef τ sig)
      = layer1 (W (main_v78 : DevRef τ sig)) (W (main_arg2 : DevRef τ sig)) (W (main_arg3 : DevRef τ sig)) (W (main_arg4 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) (W (main_arg20 : DevRef τ sig)) := by
  rw [comb1_out, msg1_out, msg1_keep, ln1_out]
  simp (disch := decide) only [msg1_frame, ln1_frame]
  rfl

theorem layer1_frame (W : Valuation τ sig (Elt F)) (r : Ref sig .tc) (hr : r ∉ written) :
    after combOps1 (after msgOps1 (after lnOps1 W)) (no_index (Proc.devRef .tc r)) = W (Proc.devRef .tc r) := by
  rw [comb1_frame _ r hr, msg1_frame _ r hr, ln1_frame _ r hr]

theorem layer2_out (W : Valuation τ sig (Elt F)) :
    after combOps2 (after msgOps2 (after lnOps2 W)) (main_v210 : DevRef τ sig)
      = layer2 (W (main_v144 : DevRef τ sig)) (W (main_arg2 : DevRef τ sig)) (W (main_arg3 : DevRef τ sig)) (W (main_arg4 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) (W (main_arg20 : DevRef τ sig)) := by
  rw [comb2_out, msg2_out, msg2_keep, ln2_out]
  simp (disch := decide) only [msg2_frame, ln2_frame]
  rfl

theorem layer2_frame (W : Valuation τ sig (Elt F)) (r : Ref sig .tc) (hr : r ∉ written) :
    after combOps2 (after msgOps2 (after lnOps2 W)) (no_index (Proc.devRef .tc r)) = W (Proc.devRef .tc r) := by
  rw [comb2_frame _ r hr, msg2_frame _ r hr, ln2_frame _ r hr]

theorem layer3_out (W : Valuation τ sig (Elt F)) :
    after combOps3 (after msgOps3 (after lnOps3 W)) (main_v276 : DevRef τ sig)
      = layer3 (W (main_v210 : DevRef τ sig)) (W (main_arg2 : DevRef τ sig)) (W (main_arg3 : DevRef τ sig)) (W (main_arg4 : DevRef τ sig)) (W (main_arg13 : DevRef τ sig)) (W (main_arg14 : DevRef τ sig)) (W (main_arg15 : DevRef τ sig)) (W (main_arg16 : DevRef τ sig)) (W (main_arg17 : DevRef τ sig)) (W (main_arg18 : DevRef τ sig)) (W (main_arg19 : DevRef τ sig)) (W (main_arg20 : DevRef τ sig)) := by
  rw [comb3_out, msg3_out, msg3_keep, ln3_out]
  simp (disch := decide) only [msg3_frame, ln3_frame]
  rfl

theorem layer3_frame (W : Valuation τ sig (Elt F)) (r : Ref sig .tc) (hr : r ∉ written) :
    after combOps3 (after msgOps3 (after lnOps3 W)) (no_index (Proc.devRef .tc r)) = W (Proc.devRef .tc r) := by
  rw [comb3_frame _ r hr, msg3_frame _ r hr, ln3_frame _ r hr]

/-! ## The whole line -/

/-- The operations' fold, stretch by stretch. -/
theorem after_ops (V : Valuation τ sig (Elt F)) :
    after ops V = after decOps
      (after combOps3 (after msgOps3 (after lnOps3
      (after combOps2 (after msgOps2 (after lnOps2
      (after combOps1 (after msgOps1 (after lnOps1
      (after combOps0 (after msgOps0 (after lnOps0
      (after encOps V))))))))))))) := by
  rw [ops_eq_stages]
  simp only [after_append]

/-- The result buffer after @main's operations is `refOut` of the arguments' contents. -/
theorem out_eq (V : Valuation τ sig (Elt F)) :
    after ops V (main_v289 : DevRef τ sig)
      = refOut (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) := by
  rw [after_ops, dec_out, layer3_out, layer2_out, layer1_out, layer0_out, enc_out]
  simp (disch := decide) only [layer3_frame, layer2_frame, layer1_frame, layer0_frame, enc_frame]
  rfl

/-- A reference no operation writes holds after @main's operations what it held before. -/
theorem arg_eq (V : Valuation τ sig (Elt F)) (r : Ref sig .tc) (hr : r ∉ written) :
    after ops V (Proc.devRef .tc r) = V (Proc.devRef .tc r) := by
  rw [after_ops, dec_frame _ r hr, layer3_frame _ r hr, layer2_frame _ r hr, layer1_frame _ r hr, layer0_frame _ r hr,
    enc_frame _ r hr]

theorem arg0_eq (V : Valuation τ sig (Elt F)) : after ops V (main_arg0 : DevRef τ sig) = V (main_arg0 : DevRef τ sig) :=
  arg_eq V main_arg0 (by decide)
theorem arg1_eq (V : Valuation τ sig (Elt F)) : after ops V (main_arg1 : DevRef τ sig) = V (main_arg1 : DevRef τ sig) :=
  arg_eq V main_arg1 (by decide)
theorem arg2_eq (V : Valuation τ sig (Elt F)) : after ops V (main_arg2 : DevRef τ sig) = V (main_arg2 : DevRef τ sig) :=
  arg_eq V main_arg2 (by decide)
theorem arg3_eq (V : Valuation τ sig (Elt F)) : after ops V (main_arg3 : DevRef τ sig) = V (main_arg3 : DevRef τ sig) :=
  arg_eq V main_arg3 (by decide)
theorem arg4_eq (V : Valuation τ sig (Elt F)) : after ops V (main_arg4 : DevRef τ sig) = V (main_arg4 : DevRef τ sig) :=
  arg_eq V main_arg4 (by decide)
theorem arg5_eq (V : Valuation τ sig (Elt F)) : after ops V (main_arg5 : DevRef τ sig) = V (main_arg5 : DevRef τ sig) :=
  arg_eq V main_arg5 (by decide)
theorem arg6_eq (V : Valuation τ sig (Elt F)) : after ops V (main_arg6 : DevRef τ sig) = V (main_arg6 : DevRef τ sig) :=
  arg_eq V main_arg6 (by decide)
theorem arg7_eq (V : Valuation τ sig (Elt F)) : after ops V (main_arg7 : DevRef τ sig) = V (main_arg7 : DevRef τ sig) :=
  arg_eq V main_arg7 (by decide)
theorem arg8_eq (V : Valuation τ sig (Elt F)) : after ops V (main_arg8 : DevRef τ sig) = V (main_arg8 : DevRef τ sig) :=
  arg_eq V main_arg8 (by decide)
theorem arg9_eq (V : Valuation τ sig (Elt F)) : after ops V (main_arg9 : DevRef τ sig) = V (main_arg9 : DevRef τ sig) :=
  arg_eq V main_arg9 (by decide)
theorem arg10_eq (V : Valuation τ sig (Elt F)) : after ops V (main_arg10 : DevRef τ sig) = V (main_arg10 : DevRef τ sig) :=
  arg_eq V main_arg10 (by decide)
theorem arg11_eq (V : Valuation τ sig (Elt F)) : after ops V (main_arg11 : DevRef τ sig) = V (main_arg11 : DevRef τ sig) :=
  arg_eq V main_arg11 (by decide)
theorem arg12_eq (V : Valuation τ sig (Elt F)) : after ops V (main_arg12 : DevRef τ sig) = V (main_arg12 : DevRef τ sig) :=
  arg_eq V main_arg12 (by decide)
theorem arg13_eq (V : Valuation τ sig (Elt F)) : after ops V (main_arg13 : DevRef τ sig) = V (main_arg13 : DevRef τ sig) :=
  arg_eq V main_arg13 (by decide)
theorem arg14_eq (V : Valuation τ sig (Elt F)) : after ops V (main_arg14 : DevRef τ sig) = V (main_arg14 : DevRef τ sig) :=
  arg_eq V main_arg14 (by decide)
theorem arg15_eq (V : Valuation τ sig (Elt F)) : after ops V (main_arg15 : DevRef τ sig) = V (main_arg15 : DevRef τ sig) :=
  arg_eq V main_arg15 (by decide)
theorem arg16_eq (V : Valuation τ sig (Elt F)) : after ops V (main_arg16 : DevRef τ sig) = V (main_arg16 : DevRef τ sig) :=
  arg_eq V main_arg16 (by decide)
theorem arg17_eq (V : Valuation τ sig (Elt F)) : after ops V (main_arg17 : DevRef τ sig) = V (main_arg17 : DevRef τ sig) :=
  arg_eq V main_arg17 (by decide)
theorem arg18_eq (V : Valuation τ sig (Elt F)) : after ops V (main_arg18 : DevRef τ sig) = V (main_arg18 : DevRef τ sig) :=
  arg_eq V main_arg18 (by decide)
theorem arg19_eq (V : Valuation τ sig (Elt F)) : after ops V (main_arg19 : DevRef τ sig) = V (main_arg19 : DevRef τ sig) :=
  arg_eq V main_arg19 (by decide)
theorem arg20_eq (V : Valuation τ sig (Elt F)) : after ops V (main_arg20 : DevRef τ sig) = V (main_arg20 : DevRef τ sig) :=
  arg_eq V main_arg20 (by decide)

/-! ## The run -/

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289)
        = refOut (m ((c.tc : Thread nD τ).loc main_arg0))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v289).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _)⟩)
    (run_main m ρ)

end Cert.ReferenceIdeal.RefRun

end
-- ==== Proof.RTerms.lean ====
/-
  The reference's cuts of the stacked parameter arrays, as functions: row / slab `l` of each, in the spelling of the
  reference's own operations; `PR l` bundles layer `l`'s eight cuts.
-/
import proofs.«179626_j43602507989842_1_alg».proof.Proof.Gen.ReferenceIdeal
import proofs.«179626_j43602507989842_1_alg».proof.Proof.SpecNet

noncomputable section

namespace Cert.ReferenceIdeal.RTerms

open Cert.ReferenceIdeal Cert.ReferenceIdeal.Gen Idealize.ShloMosaic

/-- Row 0 of a [4, 64] parameter array. -/
def row64_0 (a : FVec Ideal S4x64 .f32) : FVec Ideal S64 .f32 :=
  shapeCast S64 (extractStridedSlice S1x64 ![0, 0] a slices_S4x64_S1x64_0_0) shapeCasts_S1x64_S64
/-- Row 0 of a [4, 32] parameter array. -/
def row32_0 (a : FVec Ideal S4x32 .f32) : FVec Ideal S32 .f32 :=
  shapeCast S32 (extractStridedSlice S1x32 ![0, 0] a slices_S4x32_S1x32_0_0) shapeCasts_S1x32_S32
/-- Slab 0 of a [4, 64, 32] parameter array. -/
def slabA_0 (a : FVec Ideal S4x64x32 .f32) : FVec Ideal S64x32 .f32 :=
  shapeCast S64x32 (extractStridedSlice S1x64x32 ![0, 0, 0] a slices_S4x64x32_S1x64x32_0_0_0) shapeCasts_S1x64x32_S64x32
/-- Slab 0 of a [4, 32, 64] parameter array. -/
def slabB_0 (a : FVec Ideal S4x32x64 .f32) : FVec Ideal S32x64 .f32 :=
  shapeCast S32x64 (extractStridedSlice S1x32x64 ![0, 0, 0] a slices_S4x32x64_S1x32x64_0_0_0) shapeCasts_S1x32x64_S32x64
/-- Layer 0's parameters: row / slab 0 of each parameter array. -/
def PR0 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_0 a13, row64_0 a14, slabA_0 a15, row32_0 a16, slabA_0 a17, row32_0 a18, slabB_0 a19, row64_0 a20⟩

/-- Row 1 of a [4, 64] parameter array. -/
def row64_1 (a : FVec Ideal S4x64 .f32) : FVec Ideal S64 .f32 :=
  shapeCast S64 (extractStridedSlice S1x64 ![1, 0] a slices_S4x64_S1x64_1_0) shapeCasts_S1x64_S64
/-- Row 1 of a [4, 32] parameter array. -/
def row32_1 (a : FVec Ideal S4x32 .f32) : FVec Ideal S32 .f32 :=
  shapeCast S32 (extractStridedSlice S1x32 ![1, 0] a slices_S4x32_S1x32_1_0) shapeCasts_S1x32_S32
/-- Slab 1 of a [4, 64, 32] parameter array. -/
def slabA_1 (a : FVec Ideal S4x64x32 .f32) : FVec Ideal S64x32 .f32 :=
  shapeCast S64x32 (extractStridedSlice S1x64x32 ![1, 0, 0] a slices_S4x64x32_S1x64x32_1_0_0) shapeCasts_S1x64x32_S64x32
/-- Slab 1 of a [4, 32, 64] parameter array. -/
def slabB_1 (a : FVec Ideal S4x32x64 .f32) : FVec Ideal S32x64 .f32 :=
  shapeCast S32x64 (extractStridedSlice S1x32x64 ![1, 0, 0] a slices_S4x32x64_S1x32x64_1_0_0) shapeCasts_S1x32x64_S32x64
/-- Layer 1's parameters: row / slab 1 of each parameter array. -/
def PR1 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_1 a13, row64_1 a14, slabA_1 a15, row32_1 a16, slabA_1 a17, row32_1 a18, slabB_1 a19, row64_1 a20⟩

/-- Row 2 of a [4, 64] parameter array. -/
def row64_2 (a : FVec Ideal S4x64 .f32) : FVec Ideal S64 .f32 :=
  shapeCast S64 (extractStridedSlice S1x64 ![2, 0] a slices_S4x64_S1x64_2_0) shapeCasts_S1x64_S64
/-- Row 2 of a [4, 32] parameter array. -/
def row32_2 (a : FVec Ideal S4x32 .f32) : FVec Ideal S32 .f32 :=
  shapeCast S32 (extractStridedSlice S1x32 ![2, 0] a slices_S4x32_S1x32_2_0) shapeCasts_S1x32_S32
/-- Slab 2 of a [4, 64, 32] parameter array. -/
def slabA_2 (a : FVec Ideal S4x64x32 .f32) : FVec Ideal S64x32 .f32 :=
  shapeCast S64x32 (extractStridedSlice S1x64x32 ![2, 0, 0] a slices_S4x64x32_S1x64x32_2_0_0) shapeCasts_S1x64x32_S64x32
/-- Slab 2 of a [4, 32, 64] parameter array. -/
def slabB_2 (a : FVec Ideal S4x32x64 .f32) : FVec Ideal S32x64 .f32 :=
  shapeCast S32x64 (extractStridedSlice S1x32x64 ![2, 0, 0] a slices_S4x32x64_S1x32x64_2_0_0) shapeCasts_S1x32x64_S32x64
/-- Layer 2's parameters: row / slab 2 of each parameter array. -/
def PR2 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_2 a13, row64_2 a14, slabA_2 a15, row32_2 a16, slabA_2 a17, row32_2 a18, slabB_2 a19, row64_2 a20⟩

/-- Row 3 of a [4, 64] parameter array. -/
def row64_3 (a : FVec Ideal S4x64 .f32) : FVec Ideal S64 .f32 :=
  shapeCast S64 (extractStridedSlice S1x64 ![3, 0] a slices_S4x64_S1x64_3_0) shapeCasts_S1x64_S64
/-- Row 3 of a [4, 32] parameter array. -/
def row32_3 (a : FVec Ideal S4x32 .f32) : FVec Ideal S32 .f32 :=
  shapeCast S32 (extractStridedSlice S1x32 ![3, 0] a slices_S4x32_S1x32_3_0) shapeCasts_S1x32_S32
/-- Slab 3 of a [4, 64, 32] parameter array. -/
def slabA_3 (a : FVec Ideal S4x64x32 .f32) : FVec Ideal S64x32 .f32 :=
  shapeCast S64x32 (extractStridedSlice S1x64x32 ![3, 0, 0] a slices_S4x64x32_S1x64x32_3_0_0) shapeCasts_S1x64x32_S64x32
/-- Slab 3 of a [4, 32, 64] parameter array. -/
def slabB_3 (a : FVec Ideal S4x32x64 .f32) : FVec Ideal S32x64 .f32 :=
  shapeCast S32x64 (extractStridedSlice S1x32x64 ![3, 0, 0] a slices_S4x32x64_S1x32x64_3_0_0) shapeCasts_S1x32x64_S32x64
/-- Layer 3's parameters: row / slab 3 of each parameter array. -/
def PR3 (a13 a14 : FVec Ideal S4x64 .f32) (a15 : FVec Ideal S4x64x32 .f32) (a16 : FVec Ideal S4x32 .f32) (a17 : FVec Ideal S4x64x32 .f32)
    (a18 : FVec Ideal S4x32 .f32) (a19 : FVec Ideal S4x32x64 .f32) (a20 : FVec Ideal S4x64 .f32) : Gnn.LayerP :=
  ⟨row64_3 a13, row64_3 a14, slabA_3 a15, row32_3 a16, slabA_3 a17, row32_3 a18, slabB_3 a19, row64_3 a20⟩

end Cert.ReferenceIdeal.RTerms

end
-- ==== Proof.Bridge.lean ====
/-
  The two programs' host terms are the same functions.

  Between its regions the kernel program applies, to whole arrays, the operations the reference applies: the message
  aggregation (the sources' indices wrapped into range, the gather, the weighting, the scatter-add into a zero array)
  and the cuts of row or slab `l` out of the stacked parameter arrays.  The two programs are printed over shape and
  dimension-number records of their own; the records of one have the values of the other's, so each pair of terms is
  one term.
-/
import proofs.«179626_j43602507989842_1_alg».proof.Proof.KTerms
import proofs.«179626_j43602507989842_1_alg».proof.Proof.RTerms
import proofs.«179626_j43602507989842_1_alg».proof.Proof.RefStages

noncomputable section

namespace Cert.Bridge

open Idealize.ShloMosaic

/-! ## The message aggregation -/

section Msg
attribute [local irreducible] Host.gather Host.scatterAdd

/-- The reference's message aggregation of a normalised node array is the kernel program's. -/
theorem msg_bridge (a2 a3 : IVec Cert.KernelIdeal.S1200000 32) (a4 : FVec Ideal Cert.KernelIdeal.S1200000 .f32)
    (hn : FVec Ideal Cert.KernelIdeal.S100000x64 .f32) :
    Cert.ReferenceIdeal.Stages.msgR (F := Ideal) hn a2 a3 a4 = Cert.KernelIdeal.Terms.msgK a2 a3 a4 hn := rfl

end Msg

/-! ## The cuts of the stacked parameters -/

theorem PR0_eq (a13 a14 : FVec Ideal Cert.KernelIdeal.S4x64 .f32) (a15 : FVec Ideal Cert.KernelIdeal.S4x64x32 .f32)
    (a16 : FVec Ideal Cert.KernelIdeal.S4x32 .f32) (a17 : FVec Ideal Cert.KernelIdeal.S4x64x32 .f32)
    (a18 : FVec Ideal Cert.KernelIdeal.S4x32 .f32) (a19 : FVec Ideal Cert.KernelIdeal.S4x32x64 .f32)
    (a20 : FVec Ideal Cert.KernelIdeal.S4x64 .f32) :
    Cert.ReferenceIdeal.RTerms.PR0 a13 a14 a15 a16 a17 a18 a19 a20
      = Cert.KernelIdeal.Terms.PK0 a13 a14 a15 a16 a17 a18 a19 a20 := rfl

theorem PR1_eq (a13 a14 : FVec Ideal Cert.KernelIdeal.S4x64 .f32) (a15 : FVec Ideal Cert.KernelIdeal.S4x64x32 .f32)
    (a16 : FVec Ideal Cert.KernelIdeal.S4x32 .f32) (a17 : FVec Ideal Cert.KernelIdeal.S4x64x32 .f32)
    (a18 : FVec Ideal Cert.KernelIdeal.S4x32 .f32) (a19 : FVec Ideal Cert.KernelIdeal.S4x32x64 .f32)
    (a20 : FVec Ideal Cert.KernelIdeal.S4x64 .f32) :
    Cert.ReferenceIdeal.RTerms.PR1 a13 a14 a15 a16 a17 a18 a19 a20
      = Cert.KernelIdeal.Terms.PK1 a13 a14 a15 a16 a17 a18 a19 a20 := rfl

theorem PR2_eq (a13 a14 : FVec Ideal Cert.KernelIdeal.S4x64 .f32) (a15 : FVec Ideal Cert.KernelIdeal.S4x64x32 .f32)
    (a16 : FVec Ideal Cert.KernelIdeal.S4x32 .f32) (a17 : FVec Ideal Cert.KernelIdeal.S4x64x32 .f32)
    (a18 : FVec Ideal Cert.KernelIdeal.S4x32 .f32) (a19 : FVec Ideal Cert.KernelIdeal.S4x32x64 .f32)
    (a20 : FVec Ideal Cert.KernelIdeal.S4x64 .f32) :
    Cert.ReferenceIdeal.RTerms.PR2 a13 a14 a15 a16 a17 a18 a19 a20
      = Cert.KernelIdeal.Terms.PK2 a13 a14 a15 a16 a17 a18 a19 a20 := rfl

theorem PR3_eq (a13 a14 : FVec Ideal Cert.KernelIdeal.S4x64 .f32) (a15 : FVec Ideal Cert.KernelIdeal.S4x64x32 .f32)
    (a16 : FVec Ideal Cert.KernelIdeal.S4x32 .f32) (a17 : FVec Ideal Cert.KernelIdeal.S4x64x32 .f32)
    (a18 : FVec Ideal Cert.KernelIdeal.S4x32 .f32) (a19 : FVec Ideal Cert.KernelIdeal.S4x32x64 .f32)
    (a20 : FVec Ideal Cert.KernelIdeal.S4x64 .f32) :
    Cert.ReferenceIdeal.RTerms.PR3 a13 a14 a15 a16 a17 a18 a19 a20
      = Cert.KernelIdeal.Terms.PK3 a13 a14 a15 a16 a17 a18 a19 a20 := rfl

end Cert.Bridge

end
-- ==== Proof.RefStageEq.lean ====
/-
  Each stage of the reference is the specification's stage, at the ideal values.

  First the reference's host operations read at an index:

  * the product of an A×K by a K×B matrix plus a bias vector broadcast down the rows is the affine map of the
    specification (`dense_read`);
  * the comparison with a broadcast zero, the product with a broadcast slope and the select are the leaky
    rectifier at each entry (`leak_read`);
  * a row sum from a zero initial value is the sum over the row's 64 entries (`rowsum_read`), and a column of row
    values broadcast along the rows reads the row's value (`col_read`);
  * the float word of 64 is the real 64, which is above zero and which an exact subtraction of the converted
    integer 0 leaves unchanged.
  Then the four stages: the encoder and the decoder are the two-layer perceptron (`encR_eq`, `decR_eq`), a layer's
  update is `comb` (`combR_eq`: the reference's sum of two affine maps is re-associated), and a layer's normalisation
  is `ln` (`lnR_eq`: the variance function's divisor `64 - 0` is 64 and its guard `64 - 0 > 0` holds).
-/
import proofs.«179626_j43602507989842_1_alg».proof.Proof.RefStages
import proofs.«179626_j43602507989842_1_alg».proof.Proof.Spec
import Idealize.ShloMosaic.Lib.StackMember
import Idealize.ShloMosaic.Lib.IdealHost
import Idealize.ShloMosaic.Lib.Pipeline.Value

noncomputable section

namespace Cert.ReferenceIdeal.Stages

open Idealize.ShloMosaic Idealize.ShloMosaic.ValueIdx Idealize.ShloMosaic.StackMember
open Cert.ReferenceIdeal Cert.ReferenceIdeal.Facts₀

/-- A bias vector made a one-row matrix and broadcast down the rows reads, at (p, q), the vector at q. -/
theorem bias_read {A B : Nat} (hb1 : (⟨1, ![B]⟩ : Shape).BroadcastsInDim ⟨2, ![1, B]⟩ ![1])
    (hb2 : (⟨2, ![1, B]⟩ : Shape).BroadcastsInDim ⟨2, ![A, B]⟩ ![0, 1]) (b : Gnn.Vc B) (p : Fin A) (q : Fin B) :
    broadcastInDim ⟨2, ![A, B]⟩ ![0, 1] hb2 (broadcastInDim ⟨2, ![1, B]⟩ ![1] hb1 b) (ix2 p q) = b (ix1 q) := by
  have hq := q.isLt
  rw [broadcastInDim_apply _ hb2 _ (ix2 p q) (ix2 (0 : Fin 1) q) (fun a => ?_),
    broadcastInDim_apply _ hb1 _ (ix2 (0 : Fin 1) q) (ix1 q) (fun a => ?_)]
  · match a with
    | ⟨0, _⟩ =>
      show q.val = if B = 1 then 0 else q.val
      split_ifs <;> omega
  · match a with
    | ⟨0, _⟩ => rfl
    | ⟨1, _⟩ =>
      show q.val = if B = 1 then 0 else q.val
      split_ifs <;> omega

/-- The product plus the broadcast bias is the specification's affine map. -/
theorem dense_read {A K B : Nat} (hb1 : (⟨1, ![B]⟩ : Shape).BroadcastsInDim ⟨2, ![1, B]⟩ ![1])
    (hb2 : (⟨2, ![1, B]⟩ : Shape).BroadcastsInDim ⟨2, ![A, B]⟩ ![0, 1])
    (X : Gnn.Mat A K) (W : Gnn.Mat K B) (b : Gnn.Vc B) :
    addf (Host.dotGeneral (DotDims.plain A K B) none X W)
      (broadcastInDim ⟨2, ![A, B]⟩ ![0, 1] hb2 (broadcastInDim ⟨2, ![1, B]⟩ ![1] hb1 b)) = Gnn.dense X W b := by
  funext j
  obtain ⟨p, q, rfl⟩ : ∃ (p : Fin A) (q : Fin B), j = ix2 p q := ⟨j 0, j 1, eq_ix2 j⟩
  rw [addf_apply, dotGeneral_plain_apply, bias_read]
  rfl

/-- The comparison with zero, the product with the slope and the select are the leaky rectifier at each entry. -/
theorem leak_read {A B : Nat} (h : (⟨0, ![]⟩ : Shape).BroadcastsInDim ⟨2, ![A, B]⟩ ![]) (y : Gnn.Mat A B) :
    select (cmpf .oge y (broadcastInDim ⟨2, ![A, B]⟩ ![] h (constant ⟨0, ![]⟩ .f32 0x00000000#32))) y
      (mulf (broadcastInDim ⟨2, ![A, B]⟩ ![] h (constant ⟨0, ![]⟩ .f32 0x3C23D70A#32)) y) = Gnn.act y := rfl

/-! ## The encoder, the decoder and a layer's update -/

variable [Facts₀]

theorem encR_eq (x : FVec Ideal S100000x16 .f32) (W1 : FVec Ideal S16x128 .f32) (b1 : FVec Ideal S128 .f32)
    (W2 : FVec Ideal S128x64 .f32) (b2 : FVec Ideal S64 .f32) :
    encR (F := Ideal) x W1 b1 W2 b2 = Gnn.mlp2 x W1 b1 W2 b2 := by
  have h1 := dense_read bcast_S128_S1x128_1 bcast_S1x128_S100000x128_0_1 x W1 b1
  have h2 := fun y => dense_read bcast_S64_S1x64_1 bcast_S1x64_S100000x64_0_1 y W2 b2
  unfold encR
  simp only []
  rw [show dot_S100000x16_S16x128_S100000x128_1_0_0_1_n_n = DotDims.plain 100000 16 128 from rfl,
    show dot_S100000x128_S128x64_S100000x64_1_0_0_1_n_n = DotDims.plain 100000 128 64 from rfl]
  rw [h1, leak_read bcast_S_S100000x128, h2]
  rfl

theorem decR_eq (h : FVec Ideal S100000x64 .f32) (W1 : FVec Ideal S64x24 .f32) (b1 : FVec Ideal S24 .f32)
    (W2 : FVec Ideal S24x3 .f32) (b2 : FVec Ideal S3 .f32) :
    decR (F := Ideal) h W1 b1 W2 b2 = Gnn.mlp2 h W1 b1 W2 b2 := by
  have h1 := dense_read bcast_S24_S1x24_1 bcast_S1x24_S100000x24_0_1 h W1 b1
  have h2 := fun y => dense_read bcast_S3_S1x3_1 bcast_S1x3_S100000x3_0_1 y W2 b2
  unfold decR
  simp only []
  rw [show dot_S100000x64_S64x24_S100000x24_1_0_0_1_n_n = DotDims.plain 100000 64 24 from rfl,
    show dot_S100000x24_S24x3_S100000x3_1_0_0_1_n_n = DotDims.plain 100000 24 3 from rfl]
  rw [h1, leak_read bcast_S_S100000x24, h2]
  rfl

/-- The reference adds the two affine maps, `(hn·Wn + bn) + (msg·We + be)`; the specification's pre-activation is
    `((hn·Wn + bn) + msg·We) + be`: the same extended real, by associativity of the sum. -/
theorem combR_eq (hn msg : FVec Ideal S100000x64 .f32) (nw : FVec Ideal S64x32 .f32) (nb : FVec Ideal S32 .f32)
    (ew : FVec Ideal S64x32 .f32) (eb : FVec Ideal S32 .f32) (mw : FVec Ideal S32x64 .f32) (mb : FVec Ideal S64 .f32) :
    combR (F := Ideal) hn msg nw nb ew eb mw mb = Gnn.comb hn msg nw nb ew eb mw mb := by
  have h1 := dense_read bcast_S32_S1x32_1 bcast_S1x32_S100000x32_0_1 hn nw nb
  have h2 := dense_read bcast_S32_S1x32_1 bcast_S1x32_S100000x32_0_1 msg ew eb
  have h3 := fun y => dense_read bcast_S64_S1x64_1 bcast_S1x64_S100000x64_0_1 y mw mb
  unfold combR
  simp only []
  rw [show dot_S100000x64_S64x32_S100000x32_1_0_0_1_n_n = DotDims.plain 100000 64 32 from rfl,
    show dot_S100000x32_S32x64_S100000x64_1_0_0_1_n_n = DotDims.plain 100000 32 64 from rfl]
  rw [h1, h2, leak_read bcast_S_S100000x32, h3]
  funext j
  obtain ⟨p, q, rfl⟩ : ∃ (p : Fin 100000) (q : Fin 64), j = ix2 p q := ⟨j 0, j 1, eq_ix2 j⟩
  have e : ∀ k : Fin 32, Gnn.act (addf (Gnn.dense hn nw nb) (Gnn.dense msg ew eb)) (ix2 p k)
      = Gnn.leaky (Gnn.preAt hn msg nw nb ew eb p k) := fun k => by
    show Gnn.leaky (Gnn.denseAt hn nw nb p k + Gnn.denseAt msg ew eb p k) = _
    unfold Gnn.denseAt Gnn.preAt
    rw [← add_assoc]
  rw [addf_apply]
  show (∑ k : Fin 32, Gnn.act (addf (Gnn.dense hn nw nb) (Gnn.dense msg ew eb)) (ix2 p k) * mw (ix2 k q)) + mb (ix1 q)
      + hn (ix2 p q) = Gnn.combAt hn msg nw nb ew eb mw mb p q
  simp only [e]
  rfl

/-! ## A layer's normalisation -/

/-- The float word `0x42800000` is the real 64. -/
theorem ofBits_64 : Ideal.ofBits .f32 0x42800000#32 = ((64 : ℝ) : EReal) := by
  simp [Ideal.ofBits, Ideal.ieee, -EReal.coe_mul]; norm_num

/-- The integer 0 converts to the real 0, and subtracting it exactly changes nothing. -/
theorem n64_sub_zero :
    (subf (constant S_ .f32 0x42800000#32) (sitofp .f32 (constantI S_ 32 0#32)) : FVec Ideal S_ .f32)
      = constant S_ .f32 0x42800000#32 := by
  funext j
  rw [subf_apply, sitofp_apply]
  show Ideal.ofBits .f32 0x42800000#32 - (((0#32 : BitVec 32).toInt : ℝ) : EReal) = Ideal.ofBits .f32 0x42800000#32
  simp

/-- 64 is above zero. -/
theorem n64_pos_cmp :
    FloatOps.cmpf (F := Ideal) (φ := .f32) .ogt (Ideal.ofBits .f32 0x42800000#32) (Ideal.ofBits .f32 0x00000000#32) = 1#1 := by
  have hpos : (0 : EReal) < ((64 : ℝ) : EReal) := by exact_mod_cast (by norm_num : (0 : ℝ) < 64)
  rw [Ideal.cmpf_def, ofBits_64, Ideal.ofBits_zero_f32]
  unfold Ideal.cmp
  simp [hpos]

/-- A row sum from the zero word is the sum over the row's 64 entries. -/
theorem rowsum_read (h' : S100000x64.ReducesTo [1] S100000) (hu : 0 < S_.numel) (x : FVec Ideal S100000x64 .f32)
    (p : Fin 100000) :
    Host.reduceAdd x (constant S_ .f32 0x00000000#32) h' hu (ix1 p) = ∑ k : Fin 64, x (ix2 p k) := by
  have hR : S100000x64.Reduces [1] S100000 := by decide
  rw [hostReduceAdd_apply, Ideal.hostReduceAdd_single h' hR, constant_apply, Ideal.ofBits_zero_f32, zero_add]
  show (∑ k : Fin 64, x (hR.lift (ix1 p) k)) = _
  refine Finset.sum_congr rfl fun k _ => congrArg x (funext fun c => Fin.ext ?_)
  match c with
  | ⟨0, _⟩ => rfl
  | ⟨1, _⟩ => rfl

/-- A vector of row values made a column reads the row's value. -/
theorem col_read {α : Type} (hA : S100000.BroadcastsInDim S100000x1 ![0]) (u : S100000.Idx → α) (p : Fin 100000) (z : Fin 1) :
    broadcastInDim S100000x1 ![0] hA u (ix2 p z) = u (ix1 p) :=
  broadcastInDim_apply _ hA _ _ _ (fun a => match a with | ⟨0, _⟩ => rfl)

/-- A column broadcast along the rows reads the row's value. -/
theorem row_read {α : Type} (hB : S100000x1.BroadcastsInDim S100000x64 ![0, 1]) (v : S100000x1.Idx → α) (p : Fin 100000)
    (q : Fin 64) : broadcastInDim S100000x64 ![0, 1] hB v (ix2 p q) = v (ix2 p (0 : Fin 1)) :=
  broadcastInDim_apply _ hB _ _ _ (fun a => match a with | ⟨0, _⟩ => rfl | ⟨1, _⟩ => rfl)

/-- The row mean as the reference computes it. -/
theorem mean_read (h : FVec Ideal S100000x64 .f32) (p : Fin 100000) (z : Fin 1) :
    Host.divf (broadcastInDim S100000x1 ![0] bcast_S100000_S100000x1_0
        (Host.reduceAdd h (constant S_ .f32 0x00000000#32) reducesTo_S100000x64_S100000_d1 h_S_))
      (broadcastInDim S100000x1 ![] bcast_S_S100000x1 (constant S_ .f32 0x42800000#32)) (ix2 p z) = Gnn.rowMean h p := by
  rw [hostDivf_apply, col_read, rowsum_read, broadcastInDim_scalar_apply, constant_apply]
  rfl

/-- The variance function at zero degrees of freedom removed is the specification's row variance: the divisor
    `64 - 0` is 64, it is above zero, and the select returns the quotient. -/
theorem varR_read (h : FVec Ideal S100000x64 .f32) (p : Fin 100000) (z : Fin 1) :
    varR (F := Ideal) h (constantI S_ 32 0#32) (ix2 p z) = Gnn.rowVar h p := by
  unfold varR where0R
  simp only []
  rw [n64_sub_zero]
  rw [select_apply, broadcastInDim_scalar_apply, cmpf_apply, constant_apply, constant_apply, n64_pos_cmp, select_one]
  rw [hostDivf_apply, col_read, rowsum_read, broadcastInDim_scalar_apply, constant_apply]
  unfold Gnn.rowVar
  refine congrArg (Ideal.div · Gnn.n64W) (Finset.sum_congr rfl fun k _ => ?_)
  rw [mulf_apply, subf_apply, row_read, mean_read]

theorem lnR_eq (h : FVec Ideal S100000x64 .f32) (g b : FVec Ideal S64 .f32) :
    lnR (F := Ideal) h g b = Gnn.ln h g b := by
  funext j
  obtain ⟨p, q, rfl⟩ : ∃ (p : Fin 100000) (q : Fin 64), j = ix2 p q := ⟨j 0, j 1, eq_ix2 j⟩
  unfold lnR
  simp only []
  rw [addf_apply, mulf_apply, mulf_apply, subf_apply, bias_read, bias_read, row_read, row_read, mean_read]
  show (h (ix2 p q) - Gnn.rowMean h p)
      * Ideal.rsqrt (varR (F := Ideal) h (constantI S_ 32 0#32) (ix2 p (0 : Fin 1)) + Gnn.epsW) * g (ix1 q) + b (ix1 q)
      = Gnn.lnAt h g b p q
  rw [varR_read]
  rfl

end Cert.ReferenceIdeal.Stages

end
-- ==== Proof.BridgeNet.lean ====
/-
  What the reference computes is the specification's network.

  The reference's result is a composition of its stage functions at the launch contents of its arguments.  Each stage
  function is the specification's stage (the encoder and decoder the two-layer perceptron, the normalisation, the
  update), the message aggregation and the cuts of the stacked parameters are the kernel program's own terms; so the
  composition is the specification's network at those terms.
-/
import proofs.«179626_j43602507989842_1_alg».proof.Proof.Bridge
import proofs.«179626_j43602507989842_1_alg».proof.Proof.RefStageEq
import proofs.«179626_j43602507989842_1_alg».proof.Proof.RefOut

noncomputable section

namespace Cert.Bridge

open Idealize.ShloMosaic

/-! ## The reference's function is the network -/

/-- The reference's result, as a function of its arguments, is the specification's network at the kernel program's
    message aggregation and at the kernel program's cuts of the stacked parameters: stage by stage the reference's
    encoder, normalisation, update and decoder are the specification's, and its aggregation and cuts are the kernel
    program's. -/
theorem refOut_eq_net (a0 : FVec Ideal Cert.ReferenceIdeal.S100000x16 .f32) (a2 a3 : IVec Cert.ReferenceIdeal.S1200000 32)
    (a4 : FVec Ideal Cert.ReferenceIdeal.S1200000 .f32)
    (a5 : FVec Ideal Cert.ReferenceIdeal.S16x128 .f32) (a6 : FVec Ideal Cert.ReferenceIdeal.S128 .f32)
    (a7 : FVec Ideal Cert.ReferenceIdeal.S128x64 .f32) (a8 : FVec Ideal Cert.ReferenceIdeal.S64 .f32)
    (a9 : FVec Ideal Cert.ReferenceIdeal.S64x24 .f32) (a10 : FVec Ideal Cert.ReferenceIdeal.S24 .f32)
    (a11 : FVec Ideal Cert.ReferenceIdeal.S24x3 .f32) (a12 : FVec Ideal Cert.ReferenceIdeal.S3 .f32)
    (a13 a14 : FVec Ideal Cert.ReferenceIdeal.S4x64 .f32) (a15 : FVec Ideal Cert.ReferenceIdeal.S4x64x32 .f32)
    (a16 : FVec Ideal Cert.ReferenceIdeal.S4x32 .f32) (a17 : FVec Ideal Cert.ReferenceIdeal.S4x64x32 .f32)
    (a18 : FVec Ideal Cert.ReferenceIdeal.S4x32 .f32) (a19 : FVec Ideal Cert.ReferenceIdeal.S4x32x64 .f32)
    (a20 : FVec Ideal Cert.ReferenceIdeal.S4x64 .f32) :
    Cert.ReferenceIdeal.RefRun.refOut (F := Ideal) a0 a2 a3 a4 a5 a6 a7 a8 a9 a10 a11 a12 a13 a14 a15 a16 a17 a18 a19 a20
      = Gnn.net (Cert.KernelIdeal.Terms.msgK a2 a3 a4) a0 a5 a6 a7 a8
          (Cert.KernelIdeal.Terms.PK0 a13 a14 a15 a16 a17 a18 a19 a20) (Cert.KernelIdeal.Terms.PK1 a13 a14 a15 a16 a17 a18 a19 a20)
          (Cert.KernelIdeal.Terms.PK2 a13 a14 a15 a16 a17 a18 a19 a20) (Cert.KernelIdeal.Terms.PK3 a13 a14 a15 a16 a17 a18 a19 a20)
          a9 a10 a11 a12 := by
  unfold Cert.ReferenceIdeal.RefRun.refOut Cert.ReferenceIdeal.RefRun.layer3 Cert.ReferenceIdeal.RefRun.layer2 Cert.ReferenceIdeal.RefRun.layer1 Cert.ReferenceIdeal.RefRun.layer0 Cert.ReferenceIdeal.RefRun.layerR
  simp only [Cert.ReferenceIdeal.Stages.encR_eq, Cert.ReferenceIdeal.Stages.lnR_eq, Cert.ReferenceIdeal.Stages.combR_eq,
    Cert.ReferenceIdeal.Stages.decR_eq, msg_bridge]
  rfl

end Cert.Bridge

end
-- ==== Proof.lean ====
/-
  The claim: the tiled kernel program and the plain reference compute the same graph network.

  Both programs are: an encoder perceptron on each node's 16 features; four message-passing layers, each a layer
  normalisation of the node rows, an aggregation of edge-weighted normalised rows from the edges' sources into their
  destinations, and an update `act (hn·Wn + bn + msg·We + be)·Wm + bm + hn`; and a decoder perceptron. The kernel program
  runs every dense stage as a region tiled over 5000 node rows and leaves the aggregation to the same array operations
  the reference uses. Read as extended reals, a region's tiles together are the stage on the whole array, because every
  stage acts on each row by itself; the reference's operations are the same stages (its separate mean and variance
  calls compute the same row statistics, and its update adds the four terms in another grouping, equal by
  associativity of addition). So both result arrays are the one function `Gnn.net` of the arguments, at the same
  aggregation and the same parameter cuts. No law used needs the inputs to be finite.

  The frames of the two kernel programs are the generated ones; the reference's frame is its run with the result
  dropped; the idealisation rewrote nothing, so `preserves` is trivial.
-/
import proofs.«179626_j43602507989842_1_alg».proof.Defs
import proofs.«179626_j43602507989842_1_alg».proof.Proof.Gen.Kernel
import proofs.«179626_j43602507989842_1_alg».proof.Proof.Gen.Kernel.Frame
import proofs.«179626_j43602507989842_1_alg».proof.Proof.Gen.KernelIdeal
import proofs.«179626_j43602507989842_1_alg».proof.Proof.Gen.KernelIdeal.Frame
import proofs.«179626_j43602507989842_1_alg».proof.Proof.Gen.ReferenceIdeal
import proofs.«179626_j43602507989842_1_alg».proof.Proof.Gen.Pre_finite_inputs
import proofs.«179626_j43602507989842_1_alg».proof.Proof.KValue
import proofs.«179626_j43602507989842_1_alg».proof.Proof.KPayLn
import proofs.«179626_j43602507989842_1_alg».proof.Proof.KPayMlp
import proofs.«179626_j43602507989842_1_alg».proof.Proof.KPayComb
import proofs.«179626_j43602507989842_1_alg».proof.Proof.RefOut
import proofs.«179626_j43602507989842_1_alg».proof.Proof.BridgeNet
import Idealize.ShloMosaic.Adequacy
import Idealize.ShloMosaic.Init

set_option maxRecDepth 16384

noncomputable section

namespace Cert.Proof

open Idealize.ShloMosaic Idealize.SL.Sem

/-- The ten tile bodies compute the specification's stages on their 5000 rows. -/
theorem pays : Cert.KernelIdeal.Chain.Pays where
  p0 := Cert.KernelIdeal.Pay.pay0
  p1 := Cert.KernelIdeal.Pay.pay1
  p3 := Cert.KernelIdeal.Pay.pay3
  p5 := Cert.KernelIdeal.Pay.pay5
  p7 := Cert.KernelIdeal.Pay.pay7
  p2 := Cert.KernelIdeal.Pay.pay2
  p4 := Cert.KernelIdeal.Pay.pay4
  p6 := Cert.KernelIdeal.Pay.pay6
  p8 := Cert.KernelIdeal.Pay.pay8
  p9 := Cert.KernelIdeal.Pay.pay9

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the result array at the network of the (agreeing) arguments. -/
theorem algebraic : Cert.algebraic_KernelIdeal_ReferenceIdeal := by
  intro m ρ m' ρ' _ hagree
  refine ⟨fun c => Cert.KernelIdeal.Chain.out m c, Cert.KernelIdeal.KValue.run_value m ρ pays, ?_⟩
  refine (θ_run Cert.ReferenceIdeal.defs _ _).mono (fun r h c => ⟨(h c).1.trans ?_, (h c).2⟩)
    (Cert.ReferenceIdeal.RefRun.run (F := Ideal) m' ρ')
  obtain ⟨g0, g1, g2, g3, g4, g5, g6, g7, g8, g9, g10, g11, g12, g13, g14, g15, g16, g17, g18, g19, g20⟩ := hagree c
  rw [g0, g2, g3, g4, g5, g6, g7, g8, g9, g10, g11, g12, g13, g14, g15, g16, g17, g18, g19, g20]
  exact (Cert.Bridge.refOut_eq_net _ _ _ _ _ _ _ _ _ _ _ _ _ _ _ _ _ _ _ _).trans (Cert.KernelIdeal.Chain.out_eq_net m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
